-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v95)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v95) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v136) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000x16 : Shape := ⟨2, ![1600000, 16]⟩
abbrev S100000 : Shape := ⟨1, ![100000]⟩
abbrev S128x128 : Shape := ⟨2, ![128, 128]⟩
abbrev S128 : Shape := ⟨1, ![128]⟩
abbrev S4x128x128 : Shape := ⟨3, ![4, 128, 128]⟩
abbrev S4x128 : Shape := ⟨2, ![4, 128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x16 : S_.BroadcastsInDim S1600000x16 (![] : Fin 0 → Fin S1600000x16.rank)
  reducesTo_S1600000x16_S_d0_1 : S1600000x16.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S4x128 .f32) (main_arg10 : FVec F S128x1 .f32) (main_arg11 : FVec F S1 .f32) (main_v33 : IVec S_ 1) : IVec S_ 1 :=
  let main_v34 : FVec F S4x128 .f32 := Host.absf main_arg9
  let main_cst_12 : FVec F S_ .f32 := constant S_ .f32 0x7F800000#32
  let main_v35 : FVec F S4x128 .f32 := broadcastInDim S4x128 ![] bcast_S_S4x128 main_cst_12
  let main_v36 : IVec S4x128 1 := cmpf .olt main_v34 main_v35
  let main_c_13 : IVec S_ 1 := constantI S_ 1 1#1
  let main_v37 : IVec S_ 1 := (fun x v => Host.reduce IntOp.andi x v reducesTo_S4x128_S_d0_1 h_S_) main_v36 main_c_13
  let main_v38 : IVec S_ 1 := andi main_v33 main_v37
  let main_v39 : FVec F S128x1 .f32 := Host.absf main_arg10
  let main_cst_14 : FVec F S_ .f32 := constant S_ .f32 0x7F800000#32
  let main_v40 : FVec F S128x1 .f32 := broadcastInDim S128x1 ![] bcast_S_S128x1 main_cst_14
  let main_v41 : IVec S128x1 1 := cmpf .olt main_v39 main_v40
  let main_c_15 : IVec S_ 1 := constantI S_ 1 1#1
  let main_v42 : IVec S_ 1 := (fun x v => Host.reduce IntOp.andi x v reducesTo_S128x1_S_d0_1 h_S_) main_v41 main_c_15
  let main_v43 : IVec S_ 1 := andi main_v38 main_v42
  let main_v44 : FVec F S1 .f32 := Host.absf main_arg11
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg6 : FVec F S4x128x128 .f32) (main_arg7 : FVec F S4x128 .f32) (main_arg8 : FVec F S4x128x128 .f32) (main_arg9 : FVec F S4x128 .f32) (main_arg10 : FVec F S128x1 .f32) (main_arg11 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S4x128x128 .f32 := Host.absf main_arg6
  let main_cst_6 : FVec F S_ .f32 := constant S_ .f32 0x7F800000#32
  let main_v20 : FVec F S4x128x128 .f32 := broadcastInDim S4x128x128 ![] bcast_S_S4x128x128 main_cst_6
  let main_v21 : IVec S4x128x128 1 := cmpf .olt main_v19 main_v20
  let main_c_7 : IVec S_ 1 := constantI S_ 1 1#1
  let main_v22 : IVec S_ 1 := (fun x v => Host.reduce IntOp.andi x v reducesTo_S4x128x128_S_d0_1_2 h_S_) main_v21 main_c_7
  let main_v23 : IVec S_ 1 := andi main_v18 main_v22
  let main_v24 : FVec F S4x128 .f32 := Host.absf main_arg7
  let main_cst_8 : FVec F S_ .f32 := constant S_ .f32 0x7F800000#32
  let main_v25 : FVec F S4x128 .f32 := broadcastInDim S4x128 ![] bcast_S_S4x128 main_cst_8
  let main_v26 : IVec S4x128 1 := cmpf .olt main_v24 main_v25
  let main_c_9 : IVec S_ 1 := constantI S_ 1 1#1
  let main_v27 : IVec S_ 1 := (fun x v => Host.reduce IntOp.andi x v reducesTo_S4x128_S_d0_1 h_S_) main_v26 main_c_9
  let main_v28 : IVec S_ 1 := andi main_v23 main_v27
  let main_v29 : FVec F S4x128x128 .f32 := Host.absf main_arg8
  let main_cst_10 : FVec F S_ .f32 := constant S_ .f32 0x7F800000#32
  let main_v30 : FVec F S4x128x128 .f32 := broadcastInDim S4x128x128 ![] bcast_S_S4x128x128 main_cst_10
  let main_v31 : IVec S4x128x128 1 := cmpf .olt main_v29 main_v30
  let main_c_11 : IVec S_ 1 := constantI S_ 1 1#1
  let main_v32 : IVec S_ 1 := (fun x v => Host.reduce IntOp.andi x v reducesTo_S4x128x128_S_d0_1_2 h_S_) main_v31 main_c_11
  let main_v33 : IVec S_ 1 := andi main_v28 main_v32
  fn_part2 (F := F) main_arg9 main_arg10 main_arg11 main_v33

def fn {F : FTy → Type} [FloatOps F] (main_arg0 : FVec F S100000x128 .f32) (main_arg1 : IVec S2x1600000 32) (main_arg2 : FVec F S1600000x16 .f32) (main_arg3 : IVec S100000 32) (main_arg4 : FVec F S128x128 .f32) (main_arg5 : FVec F S128 .f32) (main_arg6 : FVec F S4x128x128 .f32) (main_arg7 : FVec F S4x128 .f32) (main_arg8 : FVec F S4x128x128 .f32) (main_arg9 : FVec F S4x128 .f32) (main_arg10 : FVec F S128x1 .f32) (main_arg11 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x16 .f32 := Host.absf main_arg2
  let main_cst_0 : FVec F S_ .f32 := constant S_ .f32 0x7F800000#32
  let main_v5 : FVec F S1600000x16 .f32 := broadcastInDim S1600000x16 ![] bcast_S_S1600000x16 main_cst_0
  let main_v6 : IVec S1600000x16 1 := cmpf .olt main_v4 main_v5
  let main_c_1 : IVec S_ 1 := constantI S_ 1 1#1
  let main_v7 : IVec S_ 1 := (fun x v => Host.reduce IntOp.andi x v reducesTo_S1600000x16_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S100000x128 : Shape := ⟨2, ![100000, 128]⟩
abbrev S2x1600000 : Shape := ⟨2, ![2, 1600000]⟩
abbrev S1600000x16 : Shape := ⟨2, ![1600000, 16]⟩
abbrev S100000 : Shape := ⟨1, ![100000]⟩
abbrev S128x128 : Shape := ⟨2, ![128, 128]⟩
abbrev S128 : Shape := ⟨1, ![128]⟩
abbrev S4x128x128 : Shape := ⟨3, ![4, 128, 128]⟩
abbrev S4x128 : Shape := ⟨2, ![4, 128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S1x128 : Shape := ⟨2, ![1, 128]⟩
abbrev S4000x128 : Shape := ⟨2, ![4000, 128]⟩
abbrev S_ : Shape := ⟨0, ![]⟩
abbrev S1600000x1 : Shape := ⟨2, ![1600000, 1]⟩
abbrev S1600000x128 : Shape := ⟨2, ![1600000, 128]⟩
abbrev S1x128x128 : Shape := ⟨3, ![1, 128, 128]⟩
abbrev S1000x128 : Shape := ⟨2, ![1000, 128]⟩
abbrev S100000x1 : Shape := ⟨2, ![100000, 1]⟩
abbrev S1x1 : Shape := ⟨2, ![1, 1]⟩
abbrev S1000x1 : Shape := ⟨2, ![1000, 1]⟩
abbrev S1000 : Shape := ⟨1, ![1000]⟩

abbrev nBuf : Space → Nat
  | .hbm => 121
  | .vmem => 58
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000x16, .f32⟩
  | .hbm, ⟨3, _⟩ => ⟨S100000, .i32⟩
  | .hbm, ⟨4, _⟩ => ⟨S128x128, .f32⟩
  | .hbm, ⟨5, _⟩ => ⟨S128, .f32⟩
  | .hbm, ⟨6, _⟩ => ⟨S4x128x128, .f32⟩
  | .hbm, ⟨7, _⟩ => ⟨S4x128, .f32⟩
  | .hbm, ⟨8, _⟩ => ⟨S4x128x128, .f32⟩
  | .hbm, ⟨9, _⟩ => ⟨S4x128, .f32⟩
  | .hbm, ⟨10, _⟩ => ⟨S128x1, .f32⟩
  | .hbm, ⟨11, _⟩ => ⟨S1, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S1x128, .f32⟩
  | .hbm, ⟨17, _⟩ => ⟨S100000x128, .f32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x128, .f32⟩
  | .hbm, ⟨27, _⟩ => ⟨S_, .f32⟩
  | .hbm, ⟨28, _⟩ => ⟨S100000x128, .f32⟩
  | .hbm, ⟨29, _⟩ => ⟨S1600000x1, .i32⟩
  | .hbm, ⟨30, _⟩ => ⟨S100000x128, .f32⟩
  | .hbm, ⟨31, _⟩ => ⟨S1x128x128, .f32⟩
  | .hbm, ⟨32, _⟩ => ⟨S128x128, .f32⟩
  | .hbm, ⟨33, _⟩ => ⟨S1x128, .f32⟩
  | .hbm, ⟨34, _⟩ => ⟨S128, .f32⟩
  | .hbm, ⟨35, _⟩ => ⟨S1x128x128, .f32⟩
  | .hbm, ⟨36, _⟩ => ⟨S128x128, .f32⟩
  | .hbm, ⟨37, _⟩ => ⟨S1x128, .f32⟩
  | .hbm, ⟨38, _⟩ => ⟨S128, .f32⟩
  | .hbm, ⟨39, _⟩ => ⟨S1x128, .f32⟩
  | .hbm, ⟨40, _⟩ => ⟨S1x128, .f32⟩
  | .hbm, ⟨41, _⟩ => ⟨S100000x128, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x128, .f32⟩
  | .hbm, ⟨51, _⟩ => ⟨S_, .f32⟩
  | .hbm, ⟨52, _⟩ => ⟨S100000x128, .f32⟩
  | .hbm, ⟨53, _⟩ => ⟨S1600000x1, .i32⟩
  | .hbm, ⟨54, _⟩ => ⟨S100000x128, .f32⟩
  | .hbm, ⟨55, _⟩ => ⟨S1x128x128, .f32⟩
  | .hbm, ⟨56, _⟩ => ⟨S128x128, .f32⟩
  | .hbm, ⟨57, _⟩ => ⟨S1x128, .f32⟩
  | .hbm, ⟨58, _⟩ => ⟨S128, .f32⟩
  | .hbm, ⟨59, _⟩ => ⟨S1x128x128, .f32⟩
  | .hbm, ⟨60, _⟩ => ⟨S128x128, .f32⟩
  | .hbm, ⟨61, _⟩ => ⟨S1x128, .f32⟩
  | .hbm, ⟨62, _⟩ => ⟨S128, .f32⟩
  | .hbm, ⟨63, _⟩ => ⟨S1x128, .f32⟩
  | .hbm, ⟨64, _⟩ => ⟨S1x128, .f32⟩
  | .hbm, ⟨65, _⟩ => ⟨S100000x128, .f32⟩
  | .hbm, ⟨66, _⟩ => ⟨S_, .i32⟩
  | .hbm, ⟨67, _⟩ => ⟨S1600000, .i32⟩
  | .hbm, ⟨68, _⟩ => ⟨S1600000, .i1⟩
  | .hbm, ⟨69, _⟩ => ⟨S_, .i32⟩
  | .hbm, ⟨70, _⟩ => ⟨S1600000, .i32⟩
  | .hbm, ⟨71, _⟩ => ⟨S1600000, .i32⟩
  | .hbm, ⟨72, _⟩ => ⟨S1600000, .i32⟩
  | .hbm, ⟨73, _⟩ => ⟨S1600000x1, .i32⟩
  | .hbm, ⟨74, _⟩ => ⟨S1600000x128, .f32⟩
  | .hbm, ⟨75, _⟩ => ⟨S_, .f32⟩
  | .hbm, ⟨76, _⟩ => ⟨S100000x128, .f32⟩
  | .hbm, ⟨77, _⟩ => ⟨S1600000x1, .i32⟩
  | .hbm, ⟨78, _⟩ => ⟨S100000x128, .f32⟩
  | .hbm, ⟨79, _⟩ => ⟨S1x128x128, .f32⟩
  | .hbm, ⟨80, _⟩ => ⟨S128x128, .f32⟩
  | .hbm, ⟨81, _⟩ => ⟨S1x128, .f32⟩
  | .hbm, ⟨82, _⟩ => ⟨S128, .f32⟩
  | .hbm, ⟨83, _⟩ => ⟨S1x128x128, .f32⟩
  | .hbm, ⟨84, _⟩ => ⟨S128x128, .f32⟩
  | .hbm, ⟨85, _⟩ => ⟨S1x128, .f32⟩
  | .hbm, ⟨86, _⟩ => ⟨S128, .f32⟩
  | .hbm, ⟨87, _⟩ => ⟨S1x128, .f32⟩
  | .hbm, ⟨88, _⟩ => ⟨S1x128, .f32⟩
  | .hbm, ⟨89, _⟩ => ⟨S100000x128, .f32⟩
  | .hbm, ⟨90, _⟩ => ⟨S_, .i32⟩
  | .hbm, ⟨91, _⟩ => ⟨S1600000, .i32⟩
  | .hbm, ⟨92, _⟩ => ⟨S1600000, .i1⟩
  | .hbm, ⟨93, _⟩ => ⟨S_, .i32⟩
  | .hbm, ⟨94, _⟩ => ⟨S1600000, .i32⟩
  | .hbm, ⟨95, _⟩ => ⟨S1600000, .i32⟩
  | .hbm, ⟨96, _⟩ => ⟨S1600000, .i32⟩
  | .hbm, ⟨97, _⟩ => ⟨S1600000x1, .i32⟩
  | .hbm, ⟨98, _⟩ => ⟨S1600000x128, .f32⟩
  | .hbm, ⟨99, _⟩ => ⟨S_, .f32⟩
  | .hbm, ⟨100, _⟩ => ⟨S100000x128, .f32⟩
  | .hbm, ⟨101, _⟩ => ⟨S1600000x1, .i32⟩
  | .hbm, ⟨102, _⟩ => ⟨S100000x128, .f32⟩
  | .hbm, ⟨103, _⟩ => ⟨S1x128x128, .f32⟩
  | .hbm, ⟨104, _⟩ => ⟨S128x128, .f32⟩
  | .hbm, ⟨105, _⟩ => ⟨S1x128, .f32⟩
  | .hbm, ⟨106, _⟩ => ⟨S128, .f32⟩
  | .hbm, ⟨107, _⟩ => ⟨S1x128x128, .f32⟩
  | .hbm, ⟨108, _⟩ => ⟨S128x128, .f32⟩
  | .hbm, ⟨109, _⟩ => ⟨S1x128, .f32⟩
  | .hbm, ⟨110, _⟩ => ⟨S128, .f32⟩
  | .hbm, ⟨111, _⟩ => ⟨S1x128, .f32⟩
  | .hbm, ⟨112, _⟩ => ⟨S1x128, .f32⟩
  | .hbm, ⟨113, _⟩ => ⟨S100000x128, .f32⟩
  | .hbm, ⟨114, _⟩ => ⟨S_, .f32⟩
  | .hbm, ⟨115, _⟩ => ⟨S1000x128, .f32⟩
  | .hbm, ⟨116, _⟩ => ⟨S100000x1, .i32⟩
  | .hbm, ⟨117, _⟩ => ⟨S1000x128, .f32⟩
  | .hbm, ⟨118, _⟩ => ⟨S1x1, .f32⟩
  | .hbm, ⟨119, _⟩ => ⟨S1000x1, .f32⟩
  | .hbm, ⟨120, _⟩ => ⟨S1000, .f32⟩
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S1x128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S128x128, .f32⟩
  | .local _ .vmem, ⟨13, _⟩ => ⟨S1x128, .f32⟩
  | .local _ .vmem, ⟨14, _⟩ => ⟨S128x128, .f32⟩
  | .local _ .vmem, ⟨15, _⟩ => ⟨S1x128, .f32⟩
  | .local _ .vmem, ⟨16, _⟩ => ⟨S4000x128, .f32⟩
  | .local _ .vmem, ⟨17, _⟩ => ⟨S4000x128, .f32⟩
  | .local _ .vmem, ⟨18, _⟩ => ⟨S4000x128, .f32⟩
  | .local _ .vmem, ⟨19, _⟩ => ⟨S4000x128, .f32⟩
  | .local _ .vmem, ⟨20, _⟩ => ⟨S4000x128, .f32⟩
  | .local _ .vmem, ⟨21, _⟩ => ⟨S4000x128, .f32⟩
  | .local _ .vmem, ⟨22, _⟩ => ⟨S4000x128, .f32⟩
  | .local _ .vmem, ⟨23, _⟩ => ⟨S4000x128, .f32⟩
  | .local _ .vmem, ⟨24, _⟩ => ⟨S128x128, .f32⟩
  | .local _ .vmem, ⟨25, _⟩ => ⟨S1x128, .f32⟩
  | .local _ .vmem, ⟨26, _⟩ => ⟨S128x128, .f32⟩
  | .local _ .vmem, ⟨27, _⟩ => ⟨S1x128, .f32⟩
  | .local _ .vmem, ⟨28, _⟩ => ⟨S4000x128, .f32⟩
  | .local _ .vmem, ⟨29, _⟩ => ⟨S4000x128, .f32⟩
  | .local _ .vmem, ⟨30, _⟩ => ⟨S4000x128, .f32⟩
  | .local _ .vmem, ⟨31, _⟩ => ⟨S4000x128, .f32⟩
  | .local _ .vmem, ⟨32, _⟩ => ⟨S4000x128, .f32⟩
  | .local _ .vmem, ⟨33, _⟩ => ⟨S4000x128, .f32⟩
  | .local _ .vmem, ⟨34, _⟩ => ⟨S4000x128, .f32⟩
  | .local _ .vmem, ⟨35, _⟩ => ⟨S4000x128, .f32⟩
  | .local _ .vmem, ⟨36, _⟩ => ⟨S128x128, .f32⟩
  | .local _ .vmem, ⟨37, _⟩ => ⟨S1x128, .f32⟩
  | .local _ .vmem, ⟨38, _⟩ => ⟨S128x128, .f32⟩
  | .local _ .vmem, ⟨39, _⟩ => ⟨S1x128, .f32⟩
  | .local _ .vmem, ⟨40, _⟩ => ⟨S4000x128, .f32⟩
  | .local _ .vmem, ⟨41, _⟩ => ⟨S4000x128, .f32⟩
  | .local _ .vmem, ⟨42, _⟩ => ⟨S4000x128, .f32⟩
  | .local _ .vmem, ⟨43, _⟩ => ⟨S4000x128, .f32⟩
  | .local _ .vmem, ⟨44, _⟩ => ⟨S4000x128, .f32⟩
  | .local _ .vmem, ⟨45, _⟩ => ⟨S4000x128, .f32⟩
  | .local _ .vmem, ⟨46, _⟩ => ⟨S4000x128, .f32⟩
  | .local _ .vmem, ⟨47, _⟩ => ⟨S4000x128, .f32⟩
  | .local _ .vmem, ⟨48, _⟩ => ⟨S128x128, .f32⟩
  | .local _ .vmem, ⟨49, _⟩ => ⟨S1x128, .f32⟩
  | .local _ .vmem, ⟨50, _⟩ => ⟨S128x128, .f32⟩
  | .local _ .vmem, ⟨51, _⟩ => ⟨S1x128, .f32⟩
  | .local _ .vmem, ⟨52, _⟩ => ⟨S4000x128, .f32⟩
  | .local _ .vmem, ⟨53, _⟩ => ⟨S4000x128, .f32⟩
  | .local _ .vmem, ⟨54, _⟩ => ⟨S1000x128, .f32⟩
  | .local _ .vmem, ⟨55, _⟩ => ⟨S128x1, .f32⟩
  | .local _ .vmem, ⟨56, _⟩ => ⟨S1x1, .f32⟩
  | .local _ .vmem, ⟨57, _⟩ => ⟨S1000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 0 → Bool
  | ⟨_, h⟩ => absurd h (Nat.not_lt_zero _)

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTc nBuf bufTy 0 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_c : Ref sig .tc := ⟨.hbm, 18, rfl⟩
abbrev main_v6 : Ref sig .tc := ⟨.hbm, 19, rfl⟩
abbrev main_v7 : Ref sig .tc := ⟨.hbm, 20, rfl⟩
abbrev main_c_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_1 : Ref sig .tc := ⟨.hbm, 42, rfl⟩
abbrev main_v27 : Ref sig .tc := ⟨.hbm, 43, rfl⟩
abbrev main_v28 : Ref sig .tc := ⟨.hbm, 44, rfl⟩
abbrev main_c_2 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_3 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_c_4 : Ref sig .tc := ⟨.hbm, 66, rfl⟩
abbrev main_v48 : Ref sig .tc := ⟨.hbm, 67, rfl⟩
abbrev main_v49 : Ref sig .tc := ⟨.hbm, 68, rfl⟩
abbrev main_c_5 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_6 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_c_7 : Ref sig .tc := ⟨.hbm, 90, rfl⟩
abbrev main_v69 : Ref sig .tc := ⟨.hbm, 91, rfl⟩
abbrev main_v70 : Ref sig .tc := ⟨.hbm, 92, rfl⟩
abbrev main_c_8 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_9 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_cst_10 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg7_0 : Ref sig .tc := ⟨.vmem, 28, rfl⟩
abbrev cc2_stg7_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg2_1 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg6_0 : Ref sig .tc := ⟨.vmem, 39, rfl⟩
abbrev cc3_stg7_0 : Ref sig .tc := ⟨.vmem, 40, rfl⟩
abbrev cc3_stg7_1 : Ref sig .tc := ⟨.vmem, 41, rfl⟩
abbrev cc4_stg0_0 : Ref sig .tc := ⟨.vmem, 42, rfl⟩
abbrev cc4_stg0_1 : Ref sig .tc := ⟨.vmem, 43, rfl⟩
abbrev cc4_stg1_0 : Ref sig .tc := ⟨.vmem, 44, rfl⟩
abbrev cc4_stg1_1 : Ref sig .tc := ⟨.vmem, 45, rfl⟩
abbrev cc4_stg2_0 : Ref sig .tc := ⟨.vmem, 46, rfl⟩
abbrev cc4_stg2_1 : Ref sig .tc := ⟨.vmem, 47, rfl⟩
abbrev cc4_stg3_0 : Ref sig .tc := ⟨.vmem, 48, rfl⟩
abbrev cc4_stg4_0 : Ref sig .tc := ⟨.vmem, 49, rfl⟩
abbrev cc4_stg5_0 : Ref sig .tc := ⟨.vmem, 50, rfl⟩
abbrev cc4_stg6_0 : Ref sig .tc := ⟨.vmem, 51, rfl⟩
abbrev cc4_stg7_0 : Ref sig .tc := ⟨.vmem, 52, rfl⟩
abbrev cc4_stg7_1 : Ref sig .tc := ⟨.vmem, 53, rfl⟩
abbrev cc5_stg0_0 : Ref sig .tc := ⟨.vmem, 54, rfl⟩
abbrev cc5_stg1_0 : Ref sig .tc := ⟨.vmem, 55, rfl⟩
abbrev cc5_stg2_0 : Ref sig .tc := ⟨.vmem, 56, rfl⟩
abbrev cc5_stg3_0 : Ref sig .tc := ⟨.vmem, 57, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem7_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem4_0 : DmaSem sig := 25
abbrev cc2_sem5_0 : DmaSem sig := 26
abbrev cc2_sem6_0 : DmaSem sig := 27
abbrev cc2_sem7_0 : DmaSem sig := 28
abbrev cc2_sem7_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35
abbrev cc3_sem3_0 : DmaSem sig := 36
abbrev cc3_sem4_0 : DmaSem sig := 37
abbrev cc3_sem5_0 : DmaSem sig := 38
abbrev cc3_sem6_0 : DmaSem sig := 39
abbrev cc3_sem7_0 : DmaSem sig := 40
abbrev cc3_sem7_1 : DmaSem sig := 41
abbrev cc4_sem0_0 : DmaSem sig := 42
abbrev cc4_sem0_1 : DmaSem sig := 43
abbrev cc4_sem1_0 : DmaSem sig := 44
abbrev cc4_sem1_1 : DmaSem sig := 45
abbrev cc4_sem2_0 : DmaSem sig := 46
abbrev cc4_sem2_1 : DmaSem sig := 47
abbrev cc4_sem3_0 : DmaSem sig := 48
abbrev cc4_sem4_0 : DmaSem sig := 49
abbrev cc4_sem5_0 : DmaSem sig := 50
abbrev cc4_sem6_0 : DmaSem sig := 51
abbrev cc4_sem7_0 : DmaSem sig := 52
abbrev cc4_sem7_1 : DmaSem sig := 53
abbrev cc5_sem0_0 : DmaSem sig := 54
abbrev cc5_sem1_0 : DmaSem sig := 55
abbrev cc5_sem2_0 : DmaSem sig := 56
abbrev cc5_sem3_0 : DmaSem sig := 57

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S4000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S4000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S4000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S4000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S4000x128 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 1 → Memref sig .tc .vmem S1000x128 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 1 → Memref sig .tc .vmem S128x1 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x1 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1000x1 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  shapeCasts_S4000x128_S4000x128 : S4000x128.ShapeCasts S4000x128
  shapeCasts_S128x128_S128x128 : S128x128.ShapeCasts S128x128
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  bcast_S_S1000x128 : S_.BroadcastsInDim S1000x128 (![] : Fin 0 → Fin S1000x128.rank)
  bcast_S100000_S100000x1_0 : S100000.BroadcastsInDim S100000x1 (![0] : Fin 1 → Fin S100000x1.rank)
  shapeCasts_S1_S1x1 : S1.ShapeCasts S1x1
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1000x1 : S1x1.Broadcasts S1000x1
  inb_S1000x1_S1000x1_0_0 : ∀ a, (![0, 0] : Fin 2 → Nat) a + S1000x1.size a ≤ S1000x1.size a
  h_S1000x1 : 0 < S1000x1.numel
  shapeCasts_S1000x1_S1000 : S1000x1.ShapeCasts S1000
  dot_S4000x128_S128x128_S4000x128_1_0_0_1_n_n_wf : DotDims.WF S4000x128 S128x128 S4000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S1000x128_S100000x1_S100000x128_1_0_0_1_wf : ScatterDims.WF S1000x128 S100000x1 S100000x128 [1] [0] [0] 1
  dot_S1000x128_S128x1_S1000x1_1_0_0_1_n_n_wf : DotDims.WF S1000x128 S128x1 S1000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S100000x128.size a
  hwx0_3 : ∀ i : grid0.Coords, EltTy.bits .f32 = 32 ∨ (Rect.block (s := S100000x128) S4000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S100000x128.size a
  hwx1_2 : ∀ i : grid1.Coords, EltTy.bits .f32 = 32 ∨ (Rect.block (s := S100000x128) S4000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S4000x128.size a ≤ S100000x128.size a
  hwx1_7 : ∀ i : grid1.Coords, EltTy.bits .f32 = 32 ∨ (Rect.block (s := S100000x128) S4000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S100000x128.size a
  hwx2_1 : ∀ i : grid2.Coords, EltTy.bits .f32 = 32 ∨ (Rect.block (s := S100000x128) S4000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x128.size a ≤ S100000x128.size a
  hwx2_2 : ∀ i : grid2.Coords, EltTy.bits .f32 = 32 ∨ (Rect.block (s := S100000x128) S4000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S4000x128.size a ≤ S100000x128.size a
  hwx2_7 : ∀ i : grid2.Coords, EltTy.bits .f32 = 32 ∨ (Rect.block (s := S100000x128) S4000x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .f32 = 32 ∨ (Rect.block (s := S100000x128) S4000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x128.size a ≤ S100000x128.size a
  hwx3_1 : ∀ i : grid3.Coords, EltTy.bits .f32 = 32 ∨ (Rect.block (s := S100000x128) S4000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x128.size a ≤ S100000x128.size a
  hwx3_2 : ∀ i : grid3.Coords, EltTy.bits .f32 = 32 ∨ (Rect.block (s := S100000x128) S4000x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S4000x128.size a ≤ S100000x128.size a
  hwx3_7 : ∀ i : grid3.Coords, EltTy.bits .f32 = 32 ∨ (Rect.block (s := S100000x128) S4000x128.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x128.size a ≤ S100000x128.size a
  hwx4_0 : ∀ i : grid4.Coords, EltTy.bits .f32 = 32 ∨ (Rect.block (s := S100000x128) S4000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4000x128.size a ≤ S100000x128.size a
  hwx4_1 : ∀ i : grid4.Coords, EltTy.bits .f32 = 32 ∨ (Rect.block (s := S100000x128) S4000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4000x128.size a ≤ S100000x128.size a
  hwx4_2 : ∀ i : grid4.Coords, EltTy.bits .f32 = 32 ∨ (Rect.block (s := S100000x128) S4000x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x128.size a ≤ S128x128.size a
  hwx4_5 : ∀ i : grid4.Coords, EltTy.bits .f32 = 32 ∨ (Rect.block (s := S128x128) S128x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S4000x128.size a ≤ S100000x128.size a
  hwx4_7 : ∀ i : grid4.Coords, EltTy.bits .f32 = 32 ∨ (Rect.block (s := S100000x128) S4000x128.size (cc4_transform_7 i) (hinb4_7 i)).WholeWords (EltTy.packing .f32)
  hrank5 : 0 < grid5.rank
  hstage5_0 : ∀ j, (stage5_0 j).IsWhole
  nbuf5_0 : grid5.bufCount reads5_0 true = 1
  hreads5_0 : ∀ i i' : grid5.Coords, (∀ a, reads5_0 a = true → i a = i' a) → cc5_transform_0 i = cc5_transform_0 i'
  hinb5_0 : ∀ (i : grid5.Coords) a, (cc5_transform_0 i a + 1) * S1000x128.size a ≤ S1000x128.size a
  hwx5_0 : ∀ i : grid5.Coords, EltTy.bits .f32 = 32 ∨ (Rect.block (s := S1000x128) S1000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x1.size a ≤ S128x1.size a
  hwx5_1 : ∀ i : grid5.Coords, EltTy.bits .f32 = 32 ∨ (Rect.block (s := S128x1) S128x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x1.size a ≤ S1x1.size a
  hwx5_2 : ∀ i : grid5.Coords, EltTy.bits .f32 = 32 ∨ (Rect.block (s := S1x1) S1x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1000x1.size a ≤ S1000x1.size a
  hwx5_3 : ∀ i : grid5.Coords, EltTy.bits .f32 = 32 ∨ (Rect.block (s := S1000x1) S1000x1.size (cc5_transform_3 i) (hinb5_3 i)).WholeWords (EltTy.packing .f32)

variable [Facts₀]

def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S1000x128_S100000x1_S100000x128_1_0_0_1 : ScatterDims S1000x128 S100000x1 S100000x128 where
  updateWindowDims := [1]
  insertedWindowDims := [0]
  scatterDimsToOperandDims := [0]
  indexVectorDim := 1
  wf := scatter_S1000x128_S100000x1_S100000x128_1_0_0_1_wf
def dot_S1000x128_S128x1_S1000x1_1_0_0_1_n_n : DotDims S1000x128 S128x1 S1000x1 where
  lhsContracting := [1]
  rhsContracting := [0]
  lhsNonContracting := [0]
  rhsNonContracting := [1]
  lhsBatch := []
  rhsBatch := []
  wf := dot_S1000x128_S128x1_S1000x1_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S4000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v17) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v24) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v21) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v25) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v26) S4000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v26) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v36) S4000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v38) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v45) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v42) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v46) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v47) S4000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v47) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v5) S4000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v57) S4000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v59) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v66) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v63) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v67) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v68) S4000x128.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v68) S4000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v5) S4000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v78) S4000x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v80) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v87) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v84) S128x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v88) S1x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v89) S4000x128.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v92) S1000x128.size cc5_transform_0 reads5_0 false true 1 stage5_0 sem5_0
    hrank5 hreads5_0 hinb5_0 nbuf5_0 (Memref.isWhole_whole _) hwx5_0 hstage5_0

abbrev win5_1 : Pipeline.Window sig grid5 :=
  Pipeline.Window.ofSpec (Memref.whole main_arg10) S128x1.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v93) S1x1.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v94) S1000x1.size cc5_transform_3 reads5_3 true true 1 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000x16 : Shape := ⟨2, ![1600000, 16]⟩
abbrev S100000 : Shape := ⟨1, ![100000]⟩
abbrev S128x128 : Shape := ⟨2, ![128, 128]⟩
abbrev S128 : Shape := ⟨1, ![128]⟩
abbrev S4x128x128 : Shape := ⟨3, ![4, 128, 128]⟩
abbrev S4x128 : Shape := ⟨2, ![4, 128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S1x128 : Shape := ⟨2, ![1, 128]⟩
abbrev S_ : Shape := ⟨0, ![]⟩
abbrev S1600000x1 : Shape := ⟨2, ![1600000, 1]⟩
abbrev S1600000x128 : Shape := ⟨2, ![1600000, 128]⟩
abbrev S1x128x128 : Shape := ⟨3, ![1, 128, 128]⟩
abbrev S1000x128 : Shape := ⟨2, ![1000, 128]⟩
abbrev S100000x1 : Shape := ⟨2, ![100000, 1]⟩
abbrev S1000x1 : Shape := ⟨2, ![1000, 1]⟩
abbrev S1x1 : Shape := ⟨2, ![1, 1]⟩
abbrev S1000 : Shape := ⟨1, ![1000]⟩

abbrev nBuf : Space → Nat
  | .hbm => 180
  | .vmem => 0
  | .smem => 0
  | _ => 0

abbrev hbmTy0_0 (i : Nat) : BufTy := match i % 128 with
  | 0 => ⟨S100000x128, .f32⟩
  | 1 => ⟨S2x1600000, .i32⟩
  | 2 => ⟨S1600000x16, .f32⟩
  | 3 => ⟨S100000, .i32⟩
  | 4 => ⟨S128x128, .f32⟩
  | 5 => ⟨S128, .f32⟩
  | 6 => ⟨S4x128x128, .f32⟩
  | 7 => ⟨S4x128, .f32⟩
  | 8 => ⟨S4x128x128, .f32⟩
  | 9 => ⟨S4x128, .f32⟩
  | 10 => ⟨S128x1, .f32⟩
  | 11 => ⟨S1, .f32⟩
  | 12 => ⟨S1x1600000, .i32⟩
  | 13 => ⟨S1600000, .i32⟩
  | 14 => ⟨S1x1600000, .i32⟩
  | 15 => ⟨S1600000, .i32⟩
  | 16 => ⟨S100000x128, .f32⟩
  | 17 => ⟨S1x128, .f32⟩
  | 18 => ⟨S100000x128, .f32⟩
  | 19 => ⟨S100000x128, .f32⟩
  | 20 => ⟨S_, .f32⟩
  | 21 => ⟨S100000x128, .f32⟩
  | 22 => ⟨S100000x128, .f32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S1600000x128, .f32⟩
  | 32 => ⟨S_, .f32⟩
  | 33 => ⟨S100000x128, .f32⟩
  | 34 => ⟨S1600000x1, .i32⟩
  | 35 => ⟨S100000x128, .f32⟩
  | 36 => ⟨S100000x128, .f32⟩
  | 37 => ⟨S1x128x128, .f32⟩
  | 38 => ⟨S128x128, .f32⟩
  | 39 => ⟨S100000x128, .f32⟩
  | 40 => ⟨S1x128, .f32⟩
  | 41 => ⟨S128, .f32⟩
  | 42 => ⟨S1x128, .f32⟩
  | 43 => ⟨S100000x128, .f32⟩
  | 44 => ⟨S100000x128, .f32⟩
  | 45 => ⟨S_, .f32⟩
  | 46 => ⟨S100000x128, .f32⟩
  | 47 => ⟨S100000x128, .f32⟩
  | 48 => ⟨S1x128x128, .f32⟩
  | 49 => ⟨S128x128, .f32⟩
  | 50 => ⟨S100000x128, .f32⟩
  | 51 => ⟨S1x128, .f32⟩
  | 52 => ⟨S128, .f32⟩
  | 53 => ⟨S1x128, .f32⟩
  | 54 => ⟨S100000x128, .f32⟩
  | 55 => ⟨S100000x128, .f32⟩
  | 56 => ⟨S100000x128, .f32⟩
  | 57 => ⟨S_, .f32⟩
  | 58 => ⟨S100000x128, .f32⟩
  | 59 => ⟨S100000x128, .f32⟩
  | 60 => ⟨S_, .i32⟩
  | 61 => ⟨S1600000, .i32⟩
  | 62 => ⟨S1600000, .i1⟩
  | 63 => ⟨S_, .i32⟩
  | 64 => ⟨S1600000, .i32⟩
  | 65 => ⟨S1600000, .i32⟩
  | 66 => ⟨S1600000, .i32⟩
  | 67 => ⟨S1600000x1, .i32⟩
  | 68 => ⟨S1600000x128, .f32⟩
  | 69 => ⟨S_, .f32⟩
  | 70 => ⟨S100000x128, .f32⟩
  | 71 => ⟨S1600000x1, .i32⟩
  | 72 => ⟨S100000x128, .f32⟩
  | 73 => ⟨S100000x128, .f32⟩
  | 74 => ⟨S1x128x128, .f32⟩
  | 75 => ⟨S128x128, .f32⟩
  | 76 => ⟨S100000x128, .f32⟩
  | 77 => ⟨S1x128, .f32⟩
  | 78 => ⟨S128, .f32⟩
  | 79 => ⟨S1x128, .f32⟩
  | 80 => ⟨S100000x128, .f32⟩
  | 81 => ⟨S100000x128, .f32⟩
  | 82 => ⟨S_, .f32⟩
  | 83 => ⟨S100000x128, .f32⟩
  | 84 => ⟨S100000x128, .f32⟩
  | 85 => ⟨S1x128x128, .f32⟩
  | 86 => ⟨S128x128, .f32⟩
  | 87 => ⟨S100000x128, .f32⟩
  | 88 => ⟨S1x128, .f32⟩
  | 89 => ⟨S128, .f32⟩
  | 90 => ⟨S1x128, .f32⟩
  | 91 => ⟨S100000x128, .f32⟩
  | 92 => ⟨S100000x128, .f32⟩
  | 93 => ⟨S100000x128, .f32⟩
  | 94 => ⟨S_, .f32⟩
  | 95 => ⟨S100000x128, .f32⟩
  | 96 => ⟨S100000x128, .f32⟩
  | 97 => ⟨S_, .i32⟩
  | 98 => ⟨S1600000, .i32⟩
  | 99 => ⟨S1600000, .i1⟩
  | 100 => ⟨S_, .i32⟩
  | 101 => ⟨S1600000, .i32⟩
  | 102 => ⟨S1600000, .i32⟩
  | 103 => ⟨S1600000, .i32⟩
  | 104 => ⟨S1600000x1, .i32⟩
  | 105 => ⟨S1600000x128, .f32⟩
  | 106 => ⟨S_, .f32⟩
  | 107 => ⟨S100000x128, .f32⟩
  | 108 => ⟨S1600000x1, .i32⟩
  | 109 => ⟨S100000x128, .f32⟩
  | 110 => ⟨S100000x128, .f32⟩
  | 111 => ⟨S1x128x128, .f32⟩
  | 112 => ⟨S128x128, .f32⟩
  | 113 => ⟨S100000x128, .f32⟩
  | 114 => ⟨S1x128, .f32⟩
  | 115 => ⟨S128, .f32⟩
  | 116 => ⟨S1x128, .f32⟩
  | 117 => ⟨S100000x128, .f32⟩
  | 118 => ⟨S100000x128, .f32⟩
  | 119 => ⟨S_, .f32⟩
  | 120 => ⟨S100000x128, .f32⟩
  | 121 => ⟨S100000x128, .f32⟩
  | 122 => ⟨S1x128x128, .f32⟩
  | 123 => ⟨S128x128, .f32⟩
  | 124 => ⟨S100000x128, .f32⟩
  | 125 => ⟨S1x128, .f32⟩
  | 126 => ⟨S128, .f32⟩
  | 127 => ⟨S1x128, .f32⟩
  | _ => ⟨S100000x128, .f32⟩

abbrev hbmTy0_1 (i : Nat) : BufTy := match i % 128 with
  | 0 => ⟨S100000x128, .f32⟩
  | 1 => ⟨S100000x128, .f32⟩
  | 2 => ⟨S100000x128, .f32⟩
  | 3 => ⟨S_, .f32⟩
  | 4 => ⟨S100000x128, .f32⟩
  | 5 => ⟨S100000x128, .f32⟩
  | 6 => ⟨S_, .i32⟩
  | 7 => ⟨S1600000, .i32⟩
  | 8 => ⟨S1600000, .i1⟩
  | 9 => ⟨S_, .i32⟩
  | 10 => ⟨S1600000, .i32⟩
  | 11 => ⟨S1600000, .i32⟩
  | 12 => ⟨S1600000, .i32⟩
  | 13 => ⟨S1600000x1, .i32⟩
  | 14 => ⟨S1600000x128, .f32⟩
  | 15 => ⟨S_, .f32⟩
  | 16 => ⟨S100000x128, .f32⟩
  | 17 => ⟨S1600000x1, .i32⟩
  | 18 => ⟨S100000x128, .f32⟩
  | 19 => ⟨S100000x128, .f32⟩
  | 20 => ⟨S1x128x128, .f32⟩
  | 21 => ⟨S128x128, .f32⟩
  | 22 => ⟨S100000x128, .f32⟩
  | 23 => ⟨S1x128, .f32⟩
  | 24 => ⟨S128, .f32⟩
  | 25 => ⟨S1x128, .f32⟩
  | 26 => ⟨S100000x128, .f32⟩
  | 27 => ⟨S100000x128, .f32⟩
  | 28 => ⟨S_, .f32⟩
  | 29 => ⟨S100000x128, .f32⟩
  | 30 => ⟨S100000x128, .f32⟩
  | 31 => ⟨S1x128x128, .f32⟩
  | 32 => ⟨S128x128, .f32⟩
  | 33 => ⟨S100000x128, .f32⟩
  | 34 => ⟨S1x128, .f32⟩
  | 35 => ⟨S128, .f32⟩
  | 36 => ⟨S1x128, .f32⟩
  | 37 => ⟨S100000x128, .f32⟩
  | 38 => ⟨S100000x128, .f32⟩
  | 39 => ⟨S100000x128, .f32⟩
  | 40 => ⟨S_, .f32⟩
  | 41 => ⟨S100000x128, .f32⟩
  | 42 => ⟨S100000x128, .f32⟩
  | 43 => ⟨S_, .f32⟩
  | 44 => ⟨S1000x128, .f32⟩
  | 45 => ⟨S100000x1, .i32⟩
  | 46 => ⟨S1000x128, .f32⟩
  | 47 => ⟨S1000x1, .f32⟩
  | 48 => ⟨S1x1, .f32⟩
  | 49 => ⟨S1000x1, .f32⟩
  | 50 => ⟨S1000x1, .f32⟩
  | 51 => ⟨S1000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_call0_cst : Ref sig .tc := ⟨.hbm, 20, rfl⟩
abbrev main_call0_v0 : Ref sig .tc := ⟨.hbm, 21, rfl⟩
abbrev main_v8 : Ref sig .tc := ⟨.hbm, 22, rfl⟩
abbrev main_c : Ref sig .tc := ⟨.hbm, 23, rfl⟩
abbrev main_v9 : Ref sig .tc := ⟨.hbm, 24, rfl⟩
abbrev main_v10 : Ref sig .tc := ⟨.hbm, 25, rfl⟩
abbrev main_c_0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_call1_cst : Ref sig .tc := ⟨.hbm, 45, rfl⟩
abbrev main_call1_v0 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_call2_cst : Ref sig .tc := ⟨.hbm, 57, rfl⟩
abbrev main_call2_v0 : Ref sig .tc := ⟨.hbm, 58, rfl⟩
abbrev main_v38 : Ref sig .tc := ⟨.hbm, 59, rfl⟩
abbrev main_c_1 : Ref sig .tc := ⟨.hbm, 60, rfl⟩
abbrev main_v39 : Ref sig .tc := ⟨.hbm, 61, rfl⟩
abbrev main_v40 : Ref sig .tc := ⟨.hbm, 62, rfl⟩
abbrev main_c_2 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_3 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_call3_cst : Ref sig .tc := ⟨.hbm, 82, rfl⟩
abbrev main_call3_v0 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_call4_cst : Ref sig .tc := ⟨.hbm, 94, rfl⟩
abbrev main_call4_v0 : Ref sig .tc := ⟨.hbm, 95, rfl⟩
abbrev main_v68 : Ref sig .tc := ⟨.hbm, 96, rfl⟩
abbrev main_c_4 : Ref sig .tc := ⟨.hbm, 97, rfl⟩
abbrev main_v69 : Ref sig .tc := ⟨.hbm, 98, rfl⟩
abbrev main_v70 : Ref sig .tc := ⟨.hbm, 99, rfl⟩
abbrev main_c_5 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_6 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_call5_cst : Ref sig .tc := ⟨.hbm, 119, rfl⟩
abbrev main_call5_v0 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_call6_cst : Ref sig .tc := ⟨.hbm, 131, rfl⟩
abbrev main_call6_v0 : Ref sig .tc := ⟨.hbm, 132, rfl⟩
abbrev main_v98 : Ref sig .tc := ⟨.hbm, 133, rfl⟩
abbrev main_c_7 : Ref sig .tc := ⟨.hbm, 134, rfl⟩
abbrev main_v99 : Ref sig .tc := ⟨.hbm, 135, rfl⟩
abbrev main_v100 : Ref sig .tc := ⟨.hbm, 136, rfl⟩
abbrev main_c_8 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_cst_9 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_call7_cst : Ref sig .tc := ⟨.hbm, 156, rfl⟩
abbrev main_call7_v0 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_call8_cst : Ref sig .tc := ⟨.hbm, 168, rfl⟩
abbrev main_call8_v0 : Ref sig .tc := ⟨.hbm, 169, rfl⟩
abbrev main_v128 : Ref sig .tc := ⟨.hbm, 170, rfl⟩
abbrev main_cst_10 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  bcast_S_S1000x128 : S_.BroadcastsInDim S1000x128 (![] : Fin 0 → Fin S1000x128.rank)
  bcast_S100000_S100000x1_0 : S100000.BroadcastsInDim S100000x1 (![0] : Fin 1 → Fin S100000x1.rank)
  bcast_S1_S1x1_1 : S1.BroadcastsInDim S1x1 (![1] : Fin 1 → Fin S1x1.rank)
  bcast_S1x1_S1000x1_0_1 : S1x1.BroadcastsInDim S1000x1 (![0, 1] : Fin 2 → Fin S1000x1.rank)
  shapeCasts_S1000x1_S1000 : S1000x1.ShapeCasts S1000
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S1000x128_S100000x1_S100000x128_1_0_0_1_wf : ScatterDims.WF S1000x128 S100000x1 S100000x128 [1] [0] [0] 1
  dot_S1000x128_S128x1_S1000x1_1_0_0_1_n_n_wf : DotDims.WF S1000x128 S128x1 S1000x1 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S1000x128_S100000x1_S100000x128_1_0_0_1 : ScatterDims S1000x128 S100000x1 S100000x128 where
  updateWindowDims := [1]
  insertedWindowDims := [0]
  scatterDimsToOperandDims := [0]
  indexVectorDim := 1
  wf := scatter_S1000x128_S100000x1_S100000x128_1_0_0_1_wf
def dot_S1000x128_S128x1_S1000x1_1_0_0_1_n_n : DotDims S1000x128 S128x1 S1000x1 where
  lhsContracting := [1]
  rhsContracting := [0]
  lhsNonContracting := [0]
  rhsNonContracting := [1]
  lhsBatch := []
  rhsBatch := []
  wf := dot_S1000x128_S128x1_S1000x1_1_0_0_1_n_n_wf

class Facts : Prop extends Facts₀ where

variable [Facts]
-- ==== Proof.Kernel.Reg0.lean ====
/- Region 0 of @main (`cc0__linear_relu_kernel`), at a PARAMETER `V` — the TensorCore's buffer contents when the region is
   entered: each window's block at a grid point, what the body leaves in the output window's staging buffer as a
   function of the input blocks, the body's separation-logic triple, the pipeline's proof data over the class-A
   invariant, and the body obligation at every point. -/
import proofs.«121001_j68573447848158_1_alg».proof.Proof.Gen.Kernel.Launch
import proofs.«121001_j68573447848158_1_alg».proof.Proof.Gen.Kernel.Skeleton
import proofs.«121001_j68573447848158_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents: the elaborator's structural look recurses once per coordinate of the
-- long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

section Region
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): where the window is not
    fetched its block index has not moved, so the block kept from the point before is this point's; the window is
    uncut and never idle. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): where the window is not
    fetched its block index has not moved, so the block kept from the point before is this point's; the window is
    uncut and never idle. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): where the window is not
    fetched its block index has not moved, so the block kept from the point before is this point's; the window is
    uncut and never idle. -/
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S4000x128 := Rect.unit (s := S4000x128) ![0, 0] S4000x128.size inb_S4000x128_S4000x128_0_0
abbrev r0_1 : Rect S128x128 := Rect.unit (s := S128x128) ![0, 0] S128x128.size inb_S128x128_S128x128_0_0
abbrev r0_2 : Rect S1x128 := Rect.unit (s := S1x128) ![0, 0] S1x128.size inb_S1x128_S1x128_0_0

/-! ## What the body leaves in the output window's buffer -/

/-- Window 3's staging buffer after the body, from the input windows' blocks: its one store, of the whole block,
    as a piece over the payload of the three whole-block loads. -/
def out0_3 (x0 : Vec F S4000x128 .f32) (x1 : Vec F S128x128 .f32) (x2 : Vec F S1x128 .f32) : Vec F S4000x128 .f32 :=
  View.canon [⟨r0_0, k0_pay1 (View.ld x0 r0_0) (View.ld x1 r0_1) (View.ld x2 r0_2)⟩]

/-- The store tiles the buffer (checked by evaluation), so it covers it. -/
theorem cover0_3 (p0 : Vec F S4000x128 .f32) (y : S4000x128.Idx) :
    ∃ pc ∈ ([⟨r0_0, p0⟩] : List (View.Piece (Elt F) S4000x128 .f32)), y ∈ pc.1.set :=
  View.cover_of_tiled [⟨r0_0, p0⟩] S4000x128.size (by rfl) y

/-! ## The pipeline's proof data -/

/-- The proof data of pipeline 0 on core `c`: the arrays as the region finds them (`V`); after the body at
    point `t` each input's buffer at its block and the output's at `out0_3` of the input blocks; the class-A
    invariant (the scoped rest and the generator register, untouched); nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body's triple -/

set_option maxHeartbeats 1000000 in
/-- The kernel body on whole staging memrefs, the inputs' at read contents `xW` and the output's at anything, runs to
    the continuation holding the inputs' as they were and the output's at `out0_3` of the inputs'. The body reads
    the output's buffer once before its store; that value is not used, so whatever the buffer held does not matter. -/
theorem sound_kernel0 (c : Dev nD) (E : Set ℕ) (i : grid0.Coords) (arg1 : Memref sig .tc .vmem S4000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S4000x128 .f32) (harg4 : arg4.IsWhole)
    (x0 : Vec F S4000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__linear_relu_kernel i arg1 harg1 arg2 harg2 arg3 harg3 arg4 harg4) K := by
  simp only [cc0__linear_relu_kernel_eq_skeleton]; unfold cc0__linear_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The body obligation, at a generic point -/

/-- What the body is called with at point `t` (the body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region

end Cert.Kernel.Hand

end
-- ==== Proof.Kernel.Reg1.lean ====
import proofs.«121001_j68573447848158_1_alg».proof.Proof.Gen.Kernel.Launch
import proofs.«121001_j68573447848158_1_alg».proof.Proof.Gen.Kernel.Skeleton
import proofs.«121001_j68573447848158_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 1 of @main (one GIN layer: `relu(relu((h + agg)·W1 + b1)·W2 + b2 + h0)` on a 4000-row tile), at
    arbitrary entry contents `V`

Eight windows on a grid of 25 points: the three row-tiled inputs `h`, `h0`, `agg` (windows 0, 1, 2: block `t` of
4000 rows at point `t`), the two weight matrices and two bias rows (windows 3..6: one block, fetched once and kept),
and the row-tiled output (window 7). The body reads every input buffer whole, reads the output buffer once (the value
is not used) and then overwrites the output buffer whole with the layer's value of the inputs. So after the body every
input buffer is as it was and the output buffer is a function of the seven input blocks alone. -/

-- membership in a rectangle of 4000 x 128 extents: the structural recursion goes once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region1
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether or not the window is fetched
    there (an unfetched point has the block index of the point before): the window is uncut and never idle. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, whether or not the window is fetched
    there (an unfetched point has the block index of the point before): the window is uncut and never idle. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, whether or not the window is fetched
    there (an unfetched point has the block index of the point before): the window is uncut and never idle. -/
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, whether or not the window is fetched
    there (an unfetched point has the block index of the point before): the window is uncut and never idle. -/
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, whether or not the window is fetched
    there (an unfetched point has the block index of the point before): the window is uncut and never idle. -/
theorem before1_4_of {c : Dev nD} (dat : Dat τ (Elt F) Unit ℕ (Pipeline.UD sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, whether or not the window is fetched
    there (an unfetched point has the block index of the point before): the window is uncut and never idle. -/
theorem before1_5_of {c : Dev nD} (dat : Dat τ (Elt F) Unit ℕ (Pipeline.UD sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, whether or not the window is fetched
    there (an unfetched point has the block index of the point before): the window is uncut and never idle. -/
theorem before1_6_of {c : Dev nD} (dat : Dat τ (Elt F) Unit ℕ (Pipeline.UD sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer read or written whole -/

abbrev r1_0 : Rect S4000x128 := Rect.unit (s := S4000x128) ![0, 0] S4000x128.size inb_S4000x128_S4000x128_0_0
abbrev r1_1 : Rect S128x128 := Rect.unit (s := S128x128) ![0, 0] S128x128.size inb_S128x128_S128x128_0_0
abbrev r1_2 : Rect S1x128 := Rect.unit (s := S1x128) ![0, 0] S1x128.size inb_S1x128_S1x128_0_0

/-! ## What the body leaves in the output window's buffer -/

/-- Window 7's staging buffer after the body, from the input windows' blocks (in window order: `h`, `h0`, `agg`,
    `W1`, `b1`, `W2`, `b2`): its one store, of the layer's value. The payload takes the values in the order the
    body loads them: `h`, `agg`, `W1`, `b1`, `W2`, `b2`, and the residual `h0` last. -/
def out1_7 (x0 : Vec F S4000x128 .f32) (x1 : Vec F S4000x128 .f32) (x2 : Vec F S4000x128 .f32) (x3 : Vec F S128x128 .f32) (x4 : Vec F S1x128 .f32) (x5 : Vec F S128x128 .f32) (x6 : Vec F S1x128 .f32) : Vec F S4000x128 .f32 :=
  View.canon [⟨r1_0, k1_pay1 (View.ld x0 r1_0) (View.ld x2 r1_0) (View.ld x3 r1_1) (View.ld x4 r1_2) (View.ld x5 r1_1) (View.ld x6 r1_2) (View.ld x1 r1_0)⟩]

/-- The one store is of the whole buffer, so it covers it. -/
theorem cover1_7 (p0 : Vec F S4000x128 .f32) (y : S4000x128.Idx) :
    ∃ pc ∈ ([⟨r1_0, p0⟩] : List (View.Piece (Elt F) S4000x128 .f32)), y ∈ pc.1.set :=
  View.cover_of_tiled [⟨r1_0, p0⟩] S4000x128.size (by rfl) y

/-! ## The body's triple -/

set_option maxHeartbeats 4000000 in
/-- The kernel body on whole staging memrefs, the inputs' at contents `x0 … x6` and the output's at anything, runs to
    the continuation holding the inputs' as they were and the output's at `out1_7` of the inputs': seven whole loads,
    one more load (of the output buffer, unused), one whole store. -/
theorem sound_kernel1 (c : Dev nD) (E : Set ℕ) (i : grid1.Coords) (arg1 : Memref sig .tc .vmem S4000x128 .f32) (harg1 : arg1.IsWhole) (arg2 : Memref sig .tc .vmem S4000x128 .f32) (harg2 : arg2.IsWhole) (arg3 : Memref sig .tc .vmem S4000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S4000x128 .f32) (harg8 : arg8.IsWhole)
    (x0 : Vec F S4000x128 .f32) (x1 : Vec F S4000x128 .f32) (x2 : Vec F S4000x128 .f32) (x3 : Vec F S128x128 .f32) (x4 : Vec F S1x128 .f32) (x5 : Vec F S128x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out1_7 x0 x1 x2 x3 x4 x5 x6)) -∗ K ⟨⟩))
      ⊢ wp frame (wpE (defs₀ (F := F)) Variants.none c none) E (cc1__gin_layer_kernel i arg1 harg1 arg2 harg2 arg3 harg3 arg4 harg4 arg5 harg5 arg6 harg6 arg7 harg7 arg8 harg8) K := by
  simp only [cc1__gin_layer_kernel_eq_skeleton]; unfold cc1__gin_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-! ## The pipeline's proof data -/

/-- The proof data of pipeline 1 on core `c`: the arrays as the region finds them (`V`); after the body at point
    `t` each input's buffer at its block and the output's at `out1_7` of the input blocks; the invariant is the
    scoped rest and the generator register, untouched; nothing owed. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' memrefs hold their blocks, so `sound_kernel1` applies; the invariant and the
    core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ (grid1.coords t) _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.Kernel.Reg2.lean ====
import proofs.«121001_j68573447848158_1_alg».proof.Proof.Gen.Kernel.Launch
import proofs.«121001_j68573447848158_1_alg».proof.Proof.Gen.Kernel.Skeleton
import proofs.«121001_j68573447848158_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 2 of @main (one GIN layer: `relu(relu((h + agg)·W1 + b1)·W2 + b2 + h0)` on a 4000-row tile), at
    arbitrary entry contents `V`

Eight windows on a grid of 25 points: the three row-tiled inputs `h`, `h0`, `agg` (windows 0, 1, 2: block `t` of
4000 rows at point `t`), the two weight matrices and two bias rows (windows 3..6: one block, fetched once and kept),
and the row-tiled output (window 7). The body reads every input buffer whole, reads the output buffer once (the value
is not used) and then overwrites the output buffer whole with the layer's value of the inputs. So after the body every
input buffer is as it was and the output buffer is a function of the seven input blocks alone. -/

-- membership in a rectangle of 4000 x 128 extents: the structural recursion goes once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region2
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, whether or not the window is fetched
    there (an unfetched point has the block index of the point before): the window is uncut and never idle. -/
theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, whether or not the window is fetched
    there (an unfetched point has the block index of the point before): the window is uncut and never idle. -/
theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, whether or not the window is fetched
    there (an unfetched point has the block index of the point before): the window is uncut and never idle. -/
theorem before2_2_of {c : Dev nD} (dat : Dat τ (Elt F) Unit ℕ (Pipeline.UD sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, whether or not the window is fetched
    there (an unfetched point has the block index of the point before): the window is uncut and never idle. -/
theorem before2_3_of {c : Dev nD} (dat : Dat τ (Elt F) Unit ℕ (Pipeline.UD sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, whether or not the window is fetched
    there (an unfetched point has the block index of the point before): the window is uncut and never idle. -/
theorem before2_4_of {c : Dev nD} (dat : Dat τ (Elt F) Unit ℕ (Pipeline.UD sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's current staging buffer holds its block at every point, whether or not the window is fetched
    there (an unfetched point has the block index of the point before): the window is uncut and never idle. -/
theorem before2_5_of {c : Dev nD} (dat : Dat τ (Elt F) Unit ℕ (Pipeline.UD sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
/-- Input window 6's current staging buffer holds its block at every point, whether or not the window is fetched
    there (an unfetched point has the block index of the point before): the window is uncut and never idle. -/
theorem before2_6_of {c : Dev nD} (dat : Dat τ (Elt F) Unit ℕ (Pipeline.UD sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer read or written whole -/

abbrev r2_0 : Rect S4000x128 := Rect.unit (s := S4000x128) ![0, 0] S4000x128.size inb_S4000x128_S4000x128_0_0
abbrev r2_1 : Rect S128x128 := Rect.unit (s := S128x128) ![0, 0] S128x128.size inb_S128x128_S128x128_0_0
abbrev r2_2 : Rect S1x128 := Rect.unit (s := S1x128) ![0, 0] S1x128.size inb_S1x128_S1x128_0_0

/-! ## What the body leaves in the output window's buffer -/

/-- Window 7's staging buffer after the body, from the input windows' blocks (in window order: `h`, `h0`, `agg`,
    `W1`, `b1`, `W2`, `b2`): its one store, of the layer's value. The payload takes the values in the order the
    body loads them: `h`, `agg`, `W1`, `b1`, `W2`, `b2`, and the residual `h0` last. -/
def out2_7 (x0 : Vec F S4000x128 .f32) (x1 : Vec F S4000x128 .f32) (x2 : Vec F S4000x128 .f32) (x3 : Vec F S128x128 .f32) (x4 : Vec F S1x128 .f32) (x5 : Vec F S128x128 .f32) (x6 : Vec F S1x128 .f32) : Vec F S4000x128 .f32 :=
  View.canon [⟨r2_0, k2_pay1 (View.ld x0 r2_0) (View.ld x2 r2_0) (View.ld x3 r2_1) (View.ld x4 r2_2) (View.ld x5 r2_1) (View.ld x6 r2_2) (View.ld x1 r2_0)⟩]

/-- The one store is of the whole buffer, so it covers it. -/
theorem cover2_7 (p0 : Vec F S4000x128 .f32) (y : S4000x128.Idx) :
    ∃ pc ∈ ([⟨r2_0, p0⟩] : List (View.Piece (Elt F) S4000x128 .f32)), y ∈ pc.1.set :=
  View.cover_of_tiled [⟨r2_0, p0⟩] S4000x128.size (by rfl) y

/-! ## The body's triple -/

set_option maxHeartbeats 4000000 in
/-- The kernel body on whole staging memrefs, the inputs' at contents `x0 … x6` and the output's at anything, runs to
    the continuation holding the inputs' as they were and the output's at `out2_7` of the inputs': seven whole loads,
    one more load (of the output buffer, unused), one whole store. -/
theorem sound_kernel2 (c : Dev nD) (E : Set ℕ) (i : grid2.Coords) (arg1 : Memref sig .tc .vmem S4000x128 .f32) (harg1 : arg1.IsWhole) (arg2 : Memref sig .tc .vmem S4000x128 .f32) (harg2 : arg2.IsWhole) (arg3 : Memref sig .tc .vmem S4000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S4000x128 .f32) (harg8 : arg8.IsWhole)
    (x0 : Vec F S4000x128 .f32) (x1 : Vec F S4000x128 .f32) (x2 : Vec F S4000x128 .f32) (x3 : Vec F S128x128 .f32) (x4 : Vec F S1x128 .f32) (x5 : Vec F S128x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out2_7 x0 x1 x2 x3 x4 x5 x6)) -∗ K ⟨⟩))
      ⊢ wp frame (wpE (defs₀ (F := F)) Variants.none c none) E (cc2__gin_layer_kernel i arg1 harg1 arg2 harg2 arg3 harg3 arg4 harg4 arg5 harg5 arg6 harg6 arg7 harg7 arg8 harg8) K := by
  simp only [cc2__gin_layer_kernel_eq_skeleton]; unfold cc2__gin_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover2_7 _)

/-! ## The pipeline's proof data -/

/-- The proof data of pipeline 2 on core `c`: the arrays as the region finds them (`V`); after the body at point
    `t` each input's buffer at its block and the output's at `out2_7` of the input blocks; the invariant is the
    scoped rest and the generator register, untouched; nothing owed. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) (iblk2 V c 6 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point: the inputs' memrefs hold their blocks, so `sound_kernel2` applies; the invariant and the
    core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ (grid2.coords t) _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.Kernel.Hand

end
-- ==== Proof.Kernel.Reg3.lean ====
import proofs.«121001_j68573447848158_1_alg».proof.Proof.Gen.Kernel.Launch
import proofs.«121001_j68573447848158_1_alg».proof.Proof.Gen.Kernel.Skeleton
import proofs.«121001_j68573447848158_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 3 of @main (one GIN layer: `relu(relu((h + agg)·W1 + b1)·W2 + b2 + h0)` on a 4000-row tile), at
    arbitrary entry contents `V`

Eight windows on a grid of 25 points: the three row-tiled inputs `h`, `h0`, `agg` (windows 0, 1, 2: block `t` of
4000 rows at point `t`), the two weight matrices and two bias rows (windows 3..6: one block, fetched once and kept),
and the row-tiled output (window 7). The body reads every input buffer whole, reads the output buffer once (the value
is not used) and then overwrites the output buffer whole with the layer's value of the inputs. So after the body every
input buffer is as it was and the output buffer is a function of the seven input blocks alone. -/

-- membership in a rectangle of 4000 x 128 extents: the structural recursion goes once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region3
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, whether or not the window is fetched
    there (an unfetched point has the block index of the point before): the window is uncut and never idle. -/
theorem before3_0_of {c : Dev nD} (dat : Dat τ (Elt F) Unit ℕ (Pipeline.UD sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, whether or not the window is fetched
    there (an unfetched point has the block index of the point before): the window is uncut and never idle. -/
theorem before3_1_of {c : Dev nD} (dat : Dat τ (Elt F) Unit ℕ (Pipeline.UD sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, whether or not the window is fetched
    there (an unfetched point has the block index of the point before): the window is uncut and never idle. -/
theorem before3_2_of {c : Dev nD} (dat : Dat τ (Elt F) Unit ℕ (Pipeline.UD sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, whether or not the window is fetched
    there (an unfetched point has the block index of the point before): the window is uncut and never idle. -/
theorem before3_3_of {c : Dev nD} (dat : Dat τ (Elt F) Unit ℕ (Pipeline.UD sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's current staging buffer holds its block at every point, whether or not the window is fetched
    there (an unfetched point has the block index of the point before): the window is uncut and never idle. -/
theorem before3_4_of {c : Dev nD} (dat : Dat τ (Elt F) Unit ℕ (Pipeline.UD sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
/-- Input window 5's current staging buffer holds its block at every point, whether or not the window is fetched
    there (an unfetched point has the block index of the point before): the window is uncut and never idle. -/
theorem before3_5_of {c : Dev nD} (dat : Dat τ (Elt F) Unit ℕ (Pipeline.UD sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
/-- Input window 6's current staging buffer holds its block at every point, whether or not the window is fetched
    there (an unfetched point has the block index of the point before): the window is uncut and never idle. -/
theorem before3_6_of {c : Dev nD} (dat : Dat τ (Elt F) Unit ℕ (Pipeline.UD sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer read or written whole -/

abbrev r3_0 : Rect S4000x128 := Rect.unit (s := S4000x128) ![0, 0] S4000x128.size inb_S4000x128_S4000x128_0_0
abbrev r3_1 : Rect S128x128 := Rect.unit (s := S128x128) ![0, 0] S128x128.size inb_S128x128_S128x128_0_0
abbrev r3_2 : Rect S1x128 := Rect.unit (s := S1x128) ![0, 0] S1x128.size inb_S1x128_S1x128_0_0

/-! ## What the body leaves in the output window's buffer -/

/-- Window 7's staging buffer after the body, from the input windows' blocks (in window order: `h`, `h0`, `agg`,
    `W1`, `b1`, `W2`, `b2`): its one store, of the layer's value. The payload takes the values in the order the
    body loads them: `h`, `agg`, `W1`, `b1`, `W2`, `b2`, and the residual `h0` last. -/
def out3_7 (x0 : Vec F S4000x128 .f32) (x1 : Vec F S4000x128 .f32) (x2 : Vec F S4000x128 .f32) (x3 : Vec F S128x128 .f32) (x4 : Vec F S1x128 .f32) (x5 : Vec F S128x128 .f32) (x6 : Vec F S1x128 .f32) : Vec F S4000x128 .f32 :=
  View.canon [⟨r3_0, k3_pay1 (View.ld x0 r3_0) (View.ld x2 r3_0) (View.ld x3 r3_1) (View.ld x4 r3_2) (View.ld x5 r3_1) (View.ld x6 r3_2) (View.ld x1 r3_0)⟩]

/-- The one store is of the whole buffer, so it covers it. -/
theorem cover3_7 (p0 : Vec F S4000x128 .f32) (y : S4000x128.Idx) :
    ∃ pc ∈ ([⟨r3_0, p0⟩] : List (View.Piece (Elt F) S4000x128 .f32)), y ∈ pc.1.set :=
  View.cover_of_tiled [⟨r3_0, p0⟩] S4000x128.size (by rfl) y

/-! ## The body's triple -/

set_option maxHeartbeats 4000000 in
/-- The kernel body on whole staging memrefs, the inputs' at contents `x0 … x6` and the output's at anything, runs to
    the continuation holding the inputs' as they were and the output's at `out3_7` of the inputs': seven whole loads,
    one more load (of the output buffer, unused), one whole store. -/
theorem sound_kernel3 (c : Dev nD) (E : Set ℕ) (i : grid3.Coords) (arg1 : Memref sig .tc .vmem S4000x128 .f32) (harg1 : arg1.IsWhole) (arg2 : Memref sig .tc .vmem S4000x128 .f32) (harg2 : arg2.IsWhole) (arg3 : Memref sig .tc .vmem S4000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S4000x128 .f32) (harg8 : arg8.IsWhole)
    (x0 : Vec F S4000x128 .f32) (x1 : Vec F S4000x128 .f32) (x2 : Vec F S4000x128 .f32) (x3 : Vec F S128x128 .f32) (x4 : Vec F S1x128 .f32) (x5 : Vec F S128x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out3_7 x0 x1 x2 x3 x4 x5 x6)) -∗ K ⟨⟩))
      ⊢ wp frame (wpE (defs₀ (F := F)) Variants.none c none) E (cc3__gin_layer_kernel i arg1 harg1 arg2 harg2 arg3 harg3 arg4 harg4 arg5 harg5 arg6 harg6 arg7 harg7 arg8 harg8) K := by
  simp only [cc3__gin_layer_kernel_eq_skeleton]; unfold cc3__gin_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover3_7 _)

/-! ## The pipeline's proof data -/

/-- The proof data of pipeline 3 on core `c`: the arrays as the region finds them (`V`); after the body at point
    `t` each input's buffer at its block and the output's at `out3_7` of the input blocks; the invariant is the
    scoped rest and the generator register, untouched; nothing owed. -/
def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 (iblk3 V c 0 t) (iblk3 V c 1 t) (iblk3 V c 2 t) (iblk3 V c 3 t) (iblk3 V c 4 t) (iblk3 V c 5 t) (iblk3 V c 6 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = out3_7 (iblk3 V c 0 t) (iblk3 V c 1 t) (iblk3 V c 2 t) (iblk3 V c 3 t) (iblk3 V c 4 t) (iblk3 V c 5 t) (iblk3 V c 6 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))

/-- The body at any point: the inputs' memrefs hold their blocks, so `sound_kernel3` applies; the invariant and the
    core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel3 c Set.univ (grid3.coords t) _ _ _ _ _ _ _ _ _ _ _ _ _ _ _ _ (iblk3 V c 0 t) (iblk3 V c 1 t) (iblk3 V c 2 t) (iblk3 V c 3 t) (iblk3 V c 4 t) (iblk3 V c 5 t) (iblk3 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation3 (c : Dev nD) : BodyObligation (dat3 (F := F) V c) (defs₀ (F := F)) Variants.none () Set.univ := fun t => by
  rw [bigSep_W3, bigSep_W3]
  exact sound_body3 V c t

end Region3

end Cert.Kernel.Hand

end
-- ==== Proof.Kernel.Reg4.lean ====
import proofs.«121001_j68573447848158_1_alg».proof.Proof.Gen.Kernel.Launch
import proofs.«121001_j68573447848158_1_alg».proof.Proof.Gen.Kernel.Skeleton
import proofs.«121001_j68573447848158_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 4 of @main (one GIN layer: `relu(relu((h + agg)·W1 + b1)·W2 + b2 + h0)` on a 4000-row tile), at
    arbitrary entry contents `V`

Eight windows on a grid of 25 points: the three row-tiled inputs `h`, `h0`, `agg` (windows 0, 1, 2: block `t` of
4000 rows at point `t`), the two weight matrices and two bias rows (windows 3..6: one block, fetched once and kept),
and the row-tiled output (window 7). The body reads every input buffer whole, reads the output buffer once (the value
is not used) and then overwrites the output buffer whole with the layer's value of the inputs. So after the body every
input buffer is as it was and the output buffer is a function of the seven input blocks alone. -/

-- membership in a rectangle of 4000 x 128 extents: the structural recursion goes once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region4
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, whether or not the window is fetched
    there (an unfetched point has the block index of the point before): the window is uncut and never idle. -/
theorem before4_0_of {c : Dev nD} (dat : Dat τ (Elt F) Unit ℕ (Pipeline.UD sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Input window 1's current staging buffer holds its block at every point, whether or not the window is fetched
    there (an unfetched point has the block index of the point before): the window is uncut and never idle. -/
theorem before4_1_of {c : Dev nD} (dat : Dat τ (Elt F) Unit ℕ (Pipeline.UD sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- Input window 2's current staging buffer holds its block at every point, whether or not the window is fetched
    there (an unfetched point has the block index of the point before): the window is uncut and never idle. -/
theorem before4_2_of {c : Dev nD} (dat : Dat τ (Elt F) Unit ℕ (Pipeline.UD sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
/-- Input window 3's current staging buffer holds its block at every point, whether or not the window is fetched
    there (an unfetched point has the block index of the point before): the window is uncut and never idle. -/
theorem before4_3_of {c : Dev nD} (dat : Dat τ (Elt F) Unit ℕ (Pipeline.UD sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
/-- Input window 4's current staging buffer holds its block at every point, whether or not the window is fetched
    there (an unfetched point has the block index of the point before): the window is uncut and never idle. -/
theorem before4_4_of {c : Dev nD} (dat : Dat τ (Elt F) Unit ℕ (Pipeline.UD sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)
/-- Input window 5's current staging buffer holds its block at every point, whether or not the window is fetched
    there (an unfetched point has the block index of the point before): the window is uncut and never idle. -/
theorem before4_5_of {c : Dev nD} (dat : Dat τ (Elt F) Unit ℕ (Pipeline.UD sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)
/-- Input window 6's current staging buffer holds its block at every point, whether or not the window is fetched
    there (an unfetched point has the block index of the point before): the window is uncut and never idle. -/
theorem before4_6_of {c : Dev nD} (dat : Dat τ (Elt F) Unit ℕ (Pipeline.UD sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each buffer read or written whole -/

abbrev r4_0 : Rect S4000x128 := Rect.unit (s := S4000x128) ![0, 0] S4000x128.size inb_S4000x128_S4000x128_0_0
abbrev r4_1 : Rect S128x128 := Rect.unit (s := S128x128) ![0, 0] S128x128.size inb_S128x128_S128x128_0_0
abbrev r4_2 : Rect S1x128 := Rect.unit (s := S1x128) ![0, 0] S1x128.size inb_S1x128_S1x128_0_0

/-! ## What the body leaves in the output window's buffer -/

/-- Window 7's staging buffer after the body, from the input windows' blocks (in window order: `h`, `h0`, `agg`,
    `W1`, `b1`, `W2`, `b2`): its one store, of the layer's value. The payload takes the values in the order the
    body loads them: `h`, `agg`, `W1`, `b1`, `W2`, `b2`, and the residual `h0` last. -/
def out4_7 (x0 : Vec F S4000x128 .f32) (x1 : Vec F S4000x128 .f32) (x2 : Vec F S4000x128 .f32) (x3 : Vec F S128x128 .f32) (x4 : Vec F S1x128 .f32) (x5 : Vec F S128x128 .f32) (x6 : Vec F S1x128 .f32) : Vec F S4000x128 .f32 :=
  View.canon [⟨r4_0, k4_pay1 (View.ld x0 r4_0) (View.ld x2 r4_0) (View.ld x3 r4_1) (View.ld x4 r4_2) (View.ld x5 r4_1) (View.ld x6 r4_2) (View.ld x1 r4_0)⟩]

/-- The one store is of the whole buffer, so it covers it. -/
theorem cover4_7 (p0 : Vec F S4000x128 .f32) (y : S4000x128.Idx) :
    ∃ pc ∈ ([⟨r4_0, p0⟩] : List (View.Piece (Elt F) S4000x128 .f32)), y ∈ pc.1.set :=
  View.cover_of_tiled [⟨r4_0, p0⟩] S4000x128.size (by rfl) y

/-! ## The body's triple -/

set_option maxHeartbeats 4000000 in
/-- The kernel body on whole staging memrefs, the inputs' at contents `x0 … x6` and the output's at anything, runs to
    the continuation holding the inputs' as they were and the output's at `out4_7` of the inputs': seven whole loads,
    one more load (of the output buffer, unused), one whole store. -/
theorem sound_kernel4 (c : Dev nD) (E : Set ℕ) (i : grid4.Coords) (arg1 : Memref sig .tc .vmem S4000x128 .f32) (harg1 : arg1.IsWhole) (arg2 : Memref sig .tc .vmem S4000x128 .f32) (harg2 : arg2.IsWhole) (arg3 : Memref sig .tc .vmem S4000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S4000x128 .f32) (harg8 : arg8.IsWhole)
    (x0 : Vec F S4000x128 .f32) (x1 : Vec F S4000x128 .f32) (x2 : Vec F S4000x128 .f32) (x3 : Vec F S128x128 .f32) (x4 : Vec F S1x128 .f32) (x5 : Vec F S128x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out4_7 x0 x1 x2 x3 x4 x5 x6)) -∗ K ⟨⟩))
      ⊢ wp frame (wpE (defs₀ (F := F)) Variants.none c none) E (cc4__gin_layer_kernel i arg1 harg1 arg2 harg2 arg3 harg3 arg4 harg4 arg5 harg5 arg6 harg6 arg7 harg7 arg8 harg8) K := by
  simp only [cc4__gin_layer_kernel_eq_skeleton]; unfold cc4__gin_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover4_7 _)

/-! ## The pipeline's proof data -/

/-- The proof data of pipeline 4 on core `c`: the arrays as the region finds them (`V`); after the body at point
    `t` each input's buffer at its block and the output's at `out4_7` of the input blocks; the invariant is the
    scoped rest and the generator register, untouched; nothing owed. -/
def dat4 (c : Dev nD) : Dat τ (Elt F) Unit ℕ (Pipeline.UD sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => out4_7 (iblk4 V c 0 t) (iblk4 V c 1 t) (iblk4 V c 2 t) (iblk4 V c 3 t) (iblk4 V c 4 t) (iblk4 V c 5 t) (iblk4 V c 6 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = out4_7 (iblk4 V c 0 t) (iblk4 V c 1 t) (iblk4 V c 2 t) (iblk4 V c 3 t) (iblk4 V c 4 t) (iblk4 V c 5 t) (iblk4 V c 6 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t))

/-- The body at any point: the inputs' memrefs hold their blocks, so `sound_kernel4` applies; the invariant and the
    core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel4 c Set.univ (grid4.coords t) _ _ _ _ _ _ _ _ _ _ _ _ _ _ _ _ (iblk4 V c 0 t) (iblk4 V c 1 t) (iblk4 V c 2 t) (iblk4 V c 3 t) (iblk4 V c 4 t) (iblk4 V c 5 t) (iblk4 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation4 (c : Dev nD) : BodyObligation (dat4 (F := F) V c) (defs₀ (F := F)) Variants.none () Set.univ := fun t => by
  rw [bigSep_W4, bigSep_W4]
  exact sound_body4 V c t

end Region4

end Cert.Kernel.Hand

end
-- ==== Proof.Kernel.Reg5.lean ====
/- Region 5 of @main (`cc5__final_linear_kernel`), at a PARAMETER `V` — the TensorCore's buffer contents when the region is
   entered: each window's block at a grid point, what the body leaves in the output window's staging buffer as a
   function of the input blocks, the body's separation-logic triple, the pipeline's proof data over the class-A
   invariant, and the body obligation at every point. -/
import proofs.«121001_j68573447848158_1_alg».proof.Proof.Gen.Kernel.Launch
import proofs.«121001_j68573447848158_1_alg».proof.Proof.Gen.Kernel.Skeleton
import proofs.«121001_j68573447848158_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents: the elaborator's structural look recurses once per coordinate of the
-- long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

section Region
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for ANY proof
    data whose array is `V`'s (`hA`) and whose body leaves the block in place (`hafter`): where the window is not
    fetched its block index has not moved, so the block kept from the point before is this point's; the window is
    uncut and never idle. -/
theorem before5_0_of {c : Dev nD} (dat : Dat τ (Elt F) Unit ℕ (Pipeline.UD sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- Input window 1's current staging buffer holds its block at every point, fetched there or not, for ANY proof
    data whose array is `V`'s (`hA`) and whose body leaves the block in place (`hafter`): where the window is not
    fetched its block index has not moved, so the block kept from the point before is this point's; the window is
    uncut and never idle. -/
theorem before5_1_of {c : Dev nD} (dat : Dat τ (Elt F) Unit ℕ (Pipeline.UD sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- Input window 2's current staging buffer holds its block at every point, fetched there or not, for ANY proof
    data whose array is `V`'s (`hA`) and whose body leaves the block in place (`hafter`): where the window is not
    fetched its block index has not moved, so the block kept from the point before is this point's; the window is
    uncut and never idle. -/
theorem before5_2_of {c : Dev nD} (dat : Dat τ (Elt F) Unit ℕ (Pipeline.UD sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

abbrev r5_0 : Rect S1000x128 := Rect.unit (s := S1000x128) ![0, 0] S1000x128.size inb_S1000x128_S1000x128_0_0
abbrev r5_1 : Rect S128x1 := Rect.unit (s := S128x1) ![0, 0] S128x1.size inb_S128x1_S128x1_0_0
abbrev r5_2 : Rect S1x1 := Rect.unit (s := S1x1) ![0, 0] S1x1.size inb_S1x1_S1x1_0_0
abbrev r5_3 : Rect S1000x1 := Rect.unit (s := S1000x1) ![0, 0] S1000x1.size inb_S1000x1_S1000x1_0_0

/-! ## What the body leaves in the output window's buffer -/

/-- Window 3's staging buffer after the body, from the input windows' blocks: its one store, of the whole block,
    as a piece over the payload of the three whole-block loads. -/
def out5_3 (x0 : Vec F S1000x128 .f32) (x1 : Vec F S128x1 .f32) (x2 : Vec F S1x1 .f32) : Vec F S1000x1 .f32 :=
  View.canon [⟨r5_3, k5_pay1 (View.ld x0 r5_0) (View.ld x1 r5_1) (View.ld x2 r5_2)⟩]

/-- The store tiles the buffer (checked by evaluation), so it covers it. -/
theorem cover5_3 (p0 : Vec F S1000x1 .f32) (y : S1000x1.Idx) :
    ∃ pc ∈ ([⟨r5_3, p0⟩] : List (View.Piece (Elt F) S1000x1 .f32)), y ∈ pc.1.set :=
  View.cover_of_tiled [⟨r5_3, p0⟩] S1000x1.size (by rfl) y

/-! ## The pipeline's proof data -/

/-- The proof data of pipeline 5 on core `c`: the arrays as the region finds them (`V`); after the body at
    point `t` each input's buffer at its block and the output's at `out5_3` of the input blocks; the class-A
    invariant (the scoped rest and the generator register, untouched); nothing owed; full shares. -/
def dat5 (c : Dev nD) : Dat τ (Elt F) Unit ℕ (Pipeline.UD sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

/-- The proof data's arrays are the region-entry contents (the definition projected). -/
theorem A_eq5 (c : Dev nD) (w : Fin cfg5.W) : (dat5 V c).A w = V c (Pipeline.arrRef spec5 w) := by
  dsimp only [dat5]

/-- What the body leaves, window by window (the proof data's `match` reduced). -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5_3 (iblk5 V c 0 t) (iblk5 V c 1 t) (iblk5 V c 2 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body's triple -/

set_option maxHeartbeats 1000000 in
/-- The kernel body on whole staging memrefs, the inputs' at read contents `xW` and the output's at anything, runs to
    the continuation holding the inputs' as they were and the output's at `out5_3` of the inputs'. The body reads
    the output's buffer once before its store; that value is not used, so whatever the buffer held does not matter. -/
theorem sound_kernel5 (c : Dev nD) (E : Set ℕ) (i : grid5.Coords) (arg1 : Memref sig .tc .vmem S1000x128 .f32) (harg1 : arg1.IsWhole) (arg2 : Memref sig .tc .vmem S128x1 .f32) (harg2 : arg2.IsWhole) (arg3 : Memref sig .tc .vmem S1x1 .f32) (harg3 : arg3.IsWhole) (arg4 : Memref sig .tc .vmem S1000x1 .f32) (harg4 : arg4.IsWhole)
    (x0 : Vec F S1000x128 .f32) (x1 : Vec F S128x1 .f32) (x2 : Vec F S1x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out5_3 x0 x1 x2)) -∗ K ⟨⟩))
      ⊢ wp frame (wpE (defs₀ (F := F)) Variants.none c none) E (cc5__final_linear_kernel i arg1 harg1 arg2 harg2 arg3 harg3 arg4 harg4) K := by
  simp only [cc5__final_linear_kernel_eq_skeleton]; unfold cc5__final_linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-! ## The body obligation, at a generic point -/

/-- What the body is called with at point `t` (the body obligation's precondition, the windows one by one), -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the inputs' memrefs hold their blocks (`before5_W`), so `sound_kernel5` applies; the
    invariant and the core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ (grid5.coords t) _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation5 (c : Dev nD) : BodyObligation (dat5 (F := F) V c) (defs₀ (F := F)) Variants.none () Set.univ := fun t => by
  rw [bigSep_W5, bigSep_W5]
  exact sound_body5 V c t

end Region

end Cert.Kernel.Hand

end
-- ==== Proof.Kernel.Shared1.lean ====
import proofs.«121001_j68573447848158_1_alg».proof.Proof.Gen.Kernel.Launch
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (Pipeline.UD sig nD τ) ℕ

/-! # Region 1: one array behind two input windows

Windows 0 and 1 of region 1 both read the array `main_v5`, so the eight windows sit on seven distinct buffers.
The core's unscoped buffers are those seven, each whole at the full share, and the rest; the full share of
`main_v5` is dealt to windows 0 and 1 as its left and right halves, and joined back when the region is left. -/

/-- Windows 0 and 1 read one array. -/
theorem arrRef1_1 : Pipeline.arrRef spec1 1 = Pipeline.arrRef spec1 0 := by decide

/-- The seven distinct buffers behind the eight windows, listed by a window on each (window 1's is window 0's). -/
theorem arrImage1 : Finset.univ.image (Pipeline.arrRef spec1)
    = ([Pipeline.arrRef spec1 0, Pipeline.arrRef spec1 2, Pipeline.arrRef spec1 3, Pipeline.arrRef spec1 4, Pipeline.arrRef spec1 5, Pipeline.arrRef spec1 6, Pipeline.arrRef spec1 7] : List (Ref sig .tc)).toFinset := by decide

/-- Those buffers, each whole at the full share at contents `V`, one by one. -/
theorem arrBufs1_eq (c : Dev nD) (V : (b : Ref sig .tc) → Buf (Elt F) ((c : Thread nD τ).loc b)) :
    (Pipeline.arrBufs (Ix := Unit) (Name := ℕ) (U := Pipeline.UD sig nD τ) (Lvl := ℕ) spec1 c V : sProp 𝕄)
      = iprop((((c : Thread nD τ).loc (Pipeline.arrRef spec1 0)) ↦{fullShare} V (Pipeline.arrRef spec1 0))
          ∗ (((c : Thread nD τ).loc (Pipeline.arrRef spec1 2)) ↦{fullShare} V (Pipeline.arrRef spec1 2))
          ∗ (((c : Thread nD τ).loc (Pipeline.arrRef spec1 3)) ↦{fullShare} V (Pipeline.arrRef spec1 3))
          ∗ (((c : Thread nD τ).loc (Pipeline.arrRef spec1 4)) ↦{fullShare} V (Pipeline.arrRef spec1 4))
          ∗ (((c : Thread nD τ).loc (Pipeline.arrRef spec1 5)) ↦{fullShare} V (Pipeline.arrRef spec1 5))
          ∗ (((c : Thread nD τ).loc (Pipeline.arrRef spec1 6)) ↦{fullShare} V (Pipeline.arrRef spec1 6))
          ∗ (((c : Thread nD τ).loc (Pipeline.arrRef spec1 7)) ↦{fullShare} V (Pipeline.arrRef spec1 7))) := by
  unfold Pipeline.arrBufs
  rw [BI.bigSep_eq_bigSepL_of_eq [Pipeline.arrRef spec1 0, Pipeline.arrRef spec1 2, Pipeline.arrRef spec1 3, Pipeline.arrRef spec1 4, Pipeline.arrRef spec1 5, Pipeline.arrRef spec1 6, Pipeline.arrRef spec1 7] arrImage1 (by decide)]; rfl

/-- The share the core holds each window's array at, window by window: the left and right halves of the full share
    for the two windows on `main_v5`, the full share for every other. -/
theorem share1 (c : Dev nD) (dat : Dat τ (Elt F) Unit ℕ (Pipeline.UD sig nD τ) ℕ cfg1 c)
    (hq0 : dat.q 0 = fullShare.left) (hq1 : dat.q 1 = fullShare.right) (hq : ∀ w : Fin cfg1.W, 2 ≤ w.val → dat.q w = fullShare) :
    dat.share 0 = fullShare.left ∧ dat.share 1 = fullShare.right ∧ dat.share 2 = fullShare ∧ dat.share 3 = fullShare
      ∧ dat.share 4 = fullShare ∧ dat.share 5 = fullShare ∧ dat.share 6 = fullShare ∧ dat.share 7 = fullShare := by
  refine ⟨?_, ?_, ?_, ?_, ?_, ?_, ?_, ?_⟩
  · exact (if_neg (by decide)).trans hq0
  · exact (if_neg (by decide)).trans hq1
  · exact (if_neg (by decide)).trans (hq 2 (by decide))
  · exact (if_neg (by decide)).trans (hq 3 (by decide))
  · exact (if_neg (by decide)).trans (hq 4 (by decide))
  · exact (if_neg (by decide)).trans (hq 5 (by decide))
  · exact (if_neg (by decide)).trans (hq 6 (by decide))
  · exact if_pos (by decide)

/-- One window's conjunct of the pipeline's arrays: its array is a whole buffer, so the points-to on the array's
    element set is the points-to on the whole buffer behind it, at the window's share. -/
theorem arr_pt1 (c : Dev nD) (dat : Dat τ (Elt F) Unit ℕ (Pipeline.UD sig nD τ) ℕ cfg1 c)
    (G : (w : Fin cfg1.W) → Buf (Elt F) ((cfg1.win w).arr.view.loc (c : Thread nD τ))) (w : Fin cfg1.W) (q : PosShare TreeShare)
    (h : dat.share w = q) :
    ((cfg1.win w).arr.view.loc (c : Thread nD τ) ↦[(cfg1.win w).arr.view.set]{dat.share w} G w : sProp 𝕄)
      = (((c : Thread nD τ).loc (Pipeline.arrRef spec1 w)) ↦{q} G w) := by
  rw [(arr_whole1 w).set_eq_univ, h]

set_option maxHeartbeats 1000000 in
/-- The pipeline's arrays at contents `G`, window by window: each a whole buffer, held at its window's share. -/
theorem arrays1_eq (c : Dev nD) (dat : Dat τ (Elt F) Unit ℕ (Pipeline.UD sig nD τ) ℕ cfg1 c)
    (hq0 : dat.q 0 = fullShare.left) (hq1 : dat.q 1 = fullShare.right) (hq : ∀ w : Fin cfg1.W, 2 ≤ w.val → dat.q w = fullShare)
    (G : (w : Fin cfg1.W) → Buf (Elt F) ((cfg1.win w).arr.view.loc (c : Thread nD τ))) :
    (dat.arrays G : sProp 𝕄)
      = iprop((((c : Thread nD τ).loc (Pipeline.arrRef spec1 0)) ↦{fullShare.left} G 0) ∗ (((c : Thread nD τ).loc (Pipeline.arrRef spec1 1)) ↦{fullShare.right} G 1)
          ∗ (((c : Thread nD τ).loc (Pipeline.arrRef spec1 2)) ↦{fullShare} G 2)
          ∗ (((c : Thread nD τ).loc (Pipeline.arrRef spec1 3)) ↦{fullShare} G 3)
          ∗ (((c : Thread nD τ).loc (Pipeline.arrRef spec1 4)) ↦{fullShare} G 4)
          ∗ (((c : Thread nD τ).loc (Pipeline.arrRef spec1 5)) ↦{fullShare} G 5)
          ∗ (((c : Thread nD τ).loc (Pipeline.arrRef spec1 6)) ↦{fullShare} G 6)
          ∗ (((c : Thread nD τ).loc (Pipeline.arrRef spec1 7)) ↦{fullShare} G 7)) := by
  obtain ⟨h0, h1, h2, h3, h4, h5, h6, h7⟩ := share1 c dat hq0 hq1 hq
  unfold Dat.arrays
  refine (bigSep_W1 _).trans ?_
  exact congrArg₂ _ (arr_pt1 c dat G 0 _ h0) (congrArg₂ _ (arr_pt1 c dat G 1 _ h1) (congrArg₂ _ (arr_pt1 c dat G 2 _ h2)
    (congrArg₂ _ (arr_pt1 c dat G 3 _ h3) (congrArg₂ _ (arr_pt1 c dat G 4 _ h4) (congrArg₂ _ (arr_pt1 c dat G 5 _ h5)
    (congrArg₂ _ (arr_pt1 c dat G 6 _ h6) (arr_pt1 c dat G 7 _ h7)))))))

/-- The two halves of a buffer's full share, held at the contents a valuation gives two references that are one. -/
theorem halves1 (c : Dev nD) (V : (b : Ref sig .tc) → Buf (Elt F) ((c : Thread nD τ).loc b)) {b b' : Ref sig .tc} (e : b' = b) :
    ((((c : Thread nD τ).loc b) ↦{fullShare} V b : sProp 𝕄))
      ⊣⊢ iprop((((c : Thread nD τ).loc b) ↦{fullShare.left} V b) ∗ (((c : Thread nD τ).loc b') ↦{fullShare.right} V b')) := by
  subst e; exact pointsTo_share (PosShare.mem_left_op_right fullShare)

set_option maxHeartbeats 1000000 in
/-- ENTRY, the arrays' part: the core's unscoped buffers at contents `V` are region 1's arrays at the proof data's entry
    contents — read off `V` (`hA`) — and the unscoped rest. The full share of `main_v5` is split into its halves, one for
    each of the two windows that read it; the six other arrays go to their windows whole. -/
theorem entry1 (c : Dev nD) (dat : Dat τ (Elt F) Unit ℕ (Pipeline.UD sig nD τ) ℕ cfg1 c)
    (hq0 : dat.q 0 = fullShare.left) (hq1 : dat.q 1 = fullShare.right) (hq : ∀ w : Fin cfg1.W, 2 ≤ w.val → dat.q w = fullShare)
    (V : (b : Ref sig .tc) → Buf (Elt F) ((c : Thread nD τ).loc b)) (hA : ∀ w, dat.A w = V (Pipeline.arrRef spec1 w)) :
    (unscopedBufs c V : sProp 𝕄) ⊢ iprop(dat.arrays (dat.arrAt · 0) ∗ Pipeline.unscopedRest spec1 c V) := by
  have hG : (fun w => dat.arrAt w 0) = fun w => V (Pipeline.arrRef spec1 w) := funext hA
  have hs : (unscopedBufs c V : sProp 𝕄) = iprop(Pipeline.arrBufs spec1 c V ∗ Pipeline.unscopedRest spec1 c V) :=
    Pipeline.unscopedBufs_split₀ cfgs 1 winFacts₀1.arr_unscoped c V
  rw [hG, hs, arrBufs1_eq, arrays1_eq c dat hq0 hq1 hq]
  iintro ⟨⟨H0, H2, H3, H4, H5, H6, H7⟩, Hrest⟩
  ihave H0' := (halves1 c V arrRef1_1).1 $$ H0
  icases H0' with ⟨H0l, H0r⟩
  isplitr [Hrest]
  · isplitl [H0l]; · iexact H0l
    isplitl [H0r]; · iexact H0r
    isplitl [H2]; · iexact H2
    isplitl [H3]; · iexact H3
    isplitl [H4]; · iexact H4
    isplitl [H5]; · iexact H5
    isplitl [H6]; · iexact H6
    iexact H7
  iexact Hrest

set_option maxHeartbeats 1000000 in
/-- EXIT, the arrays' part: region 1's arrays at contents `G` and the unscoped rest at `V` are the core's unscoped
    buffers at any valuation `V'` that has each window's array at `G` (`hF`: for the two windows on `main_v5`, the same
    contents) and agrees with `V` off the arrays. The two halves of `main_v5`'s share are joined back into the full share. -/
theorem exit1 (c : Dev nD) (dat : Dat τ (Elt F) Unit ℕ (Pipeline.UD sig nD τ) ℕ cfg1 c)
    (hq0 : dat.q 0 = fullShare.left) (hq1 : dat.q 1 = fullShare.right) (hq : ∀ w : Fin cfg1.W, 2 ≤ w.val → dat.q w = fullShare)
    (V V' : (b : Ref sig .tc) → Buf (Elt F) ((c : Thread nD τ).loc b))
    (G : (w : Fin cfg1.W) → Buf (Elt F) ((cfg1.win w).arr.view.loc (c : Thread nD τ)))
    (hF : ∀ w, G w = V' (Pipeline.arrRef spec1 w))
    (hrest : ∀ b, b ∉ Finset.univ.image (Pipeline.arrRef spec1) → V' b = V b) :
    iprop(dat.arrays G ∗ Pipeline.unscopedRest spec1 c V) ⊢ (unscopedBufs c V' : sProp 𝕄) := by
  obtain rfl : G = fun w => V' (Pipeline.arrRef spec1 w) := funext hF
  have hs : (unscopedBufs c V' : sProp 𝕄) = iprop(Pipeline.arrBufs spec1 c V' ∗ Pipeline.unscopedRest spec1 c V') :=
    Pipeline.unscopedBufs_split₀ cfgs 1 winFacts₀1.arr_unscoped c V'
  have hr : (Pipeline.unscopedRest (Ix := Unit) (Name := ℕ) (U := Pipeline.UD sig nD τ) (Lvl := ℕ) spec1 c V : sProp 𝕄)
      = Pipeline.unscopedRest spec1 c V' := by
    unfold Pipeline.unscopedRest
    exact bigSep_congr fun b hb => by rw [hrest b (Finset.mem_sdiff.mp hb).2]
  rw [hs, hr, arrBufs1_eq, arrays1_eq c dat hq0 hq1 hq]
  iintro ⟨⟨H0l, H0r, H2, H3, H4, H5, H6, H7⟩, Hrest⟩
  isplitr [Hrest]
  · isplitl [H0l H0r]
    · iapply (halves1 c V' arrRef1_1).2
      isplitl [H0l]; · iexact H0l
      iexact H0r
    isplitl [H2]; · iexact H2
    isplitl [H3]; · iexact H3
    isplitl [H4]; · iexact H4
    isplitl [H5]; · iexact H5
    isplitl [H6]; · iexact H6
    iexact H7
  iexact Hrest

end Cert.Kernel.Hand
-- ==== Proof.Kernel.Run.lean ====
/- THE RUN of @main: the frame of the program over the generated conditional frame (`Gen.frame_cond`).
   The contents of the unscoped buffers at every boundary between @main's items are a fold from the launch memory
   (`W0` … `W13`): a host stretch takes them to `StableHlo.after` of its operations, a region leaves every buffer as it
   found it except its output array, which ends at what the pipeline's write-backs leave (`Dat.arrAt … N`). Choosing the
   conditional frame's unknowns `outs` as the fold's values makes its boundary valuations the fold (`V_eq_J`). Each
   region is then a segment record over the thread state "every unscoped buffer at the boundary's contents, the
   generator register at some state, nothing owed": the region's arrays are split out of the unscoped buffers at the
   entry and put back at the exit contents; region 1, whose first two windows read ONE array, takes each half of that
   array's buffer and joins the halves again. The launch element is the pipeline library's beside the unit; no level is
   assigned; no core owes anything. -/
import proofs.«121001_j68573447848158_1_alg».proof.Proof.Gen.Kernel.Launch
import proofs.«121001_j68573447848158_1_alg».proof.Proof.Gen.Kernel.Skeleton
import proofs.«121001_j68573447848158_1_alg».proof.Proof.Gen.Kernel.Points
import proofs.«121001_j68573447848158_1_alg».proof.Proof.Gen.Kernel.Regions
import proofs.«121001_j68573447848158_1_alg».proof.Proof.Kernel.Reg0
import proofs.«121001_j68573447848158_1_alg».proof.Proof.Kernel.Reg1
import proofs.«121001_j68573447848158_1_alg».proof.Proof.Kernel.Reg2
import proofs.«121001_j68573447848158_1_alg».proof.Proof.Kernel.Reg3
import proofs.«121001_j68573447848158_1_alg».proof.Proof.Kernel.Reg4
import proofs.«121001_j68573447848158_1_alg».proof.Proof.Kernel.Reg5
import proofs.«121001_j68573447848158_1_alg».proof.Proof.Kernel.Shared1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- decided facts over the windows of a region recurse past the default depth
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ)

/-! # The run: the contents of the unscoped buffers at every boundary of @main, as a fold from the launch memory

A host stretch takes the contents to `StableHlo.after` of its operations; a region leaves every buffer as it found it
except its output array, which ends at what the pipeline's write-backs leave (`Dat.arrAt … N`). -/

/-- Core `c`'s unscoped buffers at launch. -/
abbrev W0 (c : Dev nD) : Valuation τ sig (Elt F) := fun b => m (c, b)
/-- After the host stretch `hostOps0`: region 0's entry contents. -/
def W1 (c : Dev nD) : Valuation τ sig (Elt F) := StableHlo.after hostOps0 (W0 m c)
/-- After region 0: its output array `main_v5` at what the write-backs leave, every other buffer as entered. -/
def W2 (c : Dev nD) : Valuation τ sig (Elt F) :=
  Function.update (W1 m c) (Proc.devRef .tc main_v5) ((dat0 (fun c b => W1 m c b) c).arrAt 3 cfg0.N)
theorem W_out_0 (c : Dev nD) : W2 m c (Proc.devRef .tc main_v5) = (dat0 (fun c b => W1 m c b) c).arrAt 3 cfg0.N := by
  unfold W2; exact Function.update_self _ _ _
theorem W_keep_0 (c : Dev nD) (b : Ref sig .tc) (hb : b ≠ main_v5) : W2 m c (Proc.devRef .tc b) = W1 m c (Proc.devRef .tc b) := by
  unfold W2; exact Function.update_of_ne (StableHlo.devRef_ne_of_ne hb) _ _
/-- After the host stretch `hostOps1`: region 1's entry contents. -/
def W3 (c : Dev nD) : Valuation τ sig (Elt F) := StableHlo.after hostOps1 (W2 m c)
/-- After region 1: its output array `main_v26` at what the write-backs leave, every other buffer as entered. -/
def W4 (c : Dev nD) : Valuation τ sig (Elt F) :=
  Function.update (W3 m c) (Proc.devRef .tc main_v26) ((dat1 (fun c b => W3 m c b) c).arrAt 7 cfg1.N)
theorem W_out_1 (c : Dev nD) : W4 m c (Proc.devRef .tc main_v26) = (dat1 (fun c b => W3 m c b) c).arrAt 7 cfg1.N := by
  unfold W4; exact Function.update_self _ _ _
theorem W_keep_1 (c : Dev nD) (b : Ref sig .tc) (hb : b ≠ main_v26) : W4 m c (Proc.devRef .tc b) = W3 m c (Proc.devRef .tc b) := by
  unfold W4; exact Function.update_of_ne (StableHlo.devRef_ne_of_ne hb) _ _
/-- After the host stretch `hostOps2`: region 2's entry contents. -/
def W5 (c : Dev nD) : Valuation τ sig (Elt F) := StableHlo.after hostOps2 (W4 m c)
/-- After region 2: its output array `main_v47` at what the write-backs leave, every other buffer as entered. -/
def W6 (c : Dev nD) : Valuation τ sig (Elt F) :=
  Function.update (W5 m c) (Proc.devRef .tc main_v47) ((dat2 (fun c b => W5 m c b) c).arrAt 7 cfg2.N)
theorem W_out_2 (c : Dev nD) : W6 m c (Proc.devRef .tc main_v47) = (dat2 (fun c b => W5 m c b) c).arrAt 7 cfg2.N := by
  unfold W6; exact Function.update_self _ _ _
theorem W_keep_2 (c : Dev nD) (b : Ref sig .tc) (hb : b ≠ main_v47) : W6 m c (Proc.devRef .tc b) = W5 m c (Proc.devRef .tc b) := by
  unfold W6; exact Function.update_of_ne (StableHlo.devRef_ne_of_ne hb) _ _
/-- After the host stretch `hostOps3`: region 3's entry contents. -/
def W7 (c : Dev nD) : Valuation τ sig (Elt F) := StableHlo.after hostOps3 (W6 m c)
/-- After region 3: its output array `main_v68` at what the write-backs leave, every other buffer as entered. -/
def W8 (c : Dev nD) : Valuation τ sig (Elt F) :=
  Function.update (W7 m c) (Proc.devRef .tc main_v68) ((dat3 (fun c b => W7 m c b) c).arrAt 7 cfg3.N)
theorem W_out_3 (c : Dev nD) : W8 m c (Proc.devRef .tc main_v68) = (dat3 (fun c b => W7 m c b) c).arrAt 7 cfg3.N := by
  unfold W8; exact Function.update_self _ _ _
theorem W_keep_3 (c : Dev nD) (b : Ref sig .tc) (hb : b ≠ main_v68) : W8 m c (Proc.devRef .tc b) = W7 m c (Proc.devRef .tc b) := by
  unfold W8; exact Function.update_of_ne (StableHlo.devRef_ne_of_ne hb) _ _
/-- After the host stretch `hostOps4`: region 4's entry contents. -/
def W9 (c : Dev nD) : Valuation τ sig (Elt F) := StableHlo.after hostOps4 (W8 m c)
/-- After region 4: its output array `main_v89` at what the write-backs leave, every other buffer as entered. -/
def W10 (c : Dev nD) : Valuation τ sig (Elt F) :=
  Function.update (W9 m c) (Proc.devRef .tc main_v89) ((dat4 (fun c b => W9 m c b) c).arrAt 7 cfg4.N)
theorem W_out_4 (c : Dev nD) : W10 m c (Proc.devRef .tc main_v89) = (dat4 (fun c b => W9 m c b) c).arrAt 7 cfg4.N := by
  unfold W10; exact Function.update_self _ _ _
theorem W_keep_4 (c : Dev nD) (b : Ref sig .tc) (hb : b ≠ main_v89) : W10 m c (Proc.devRef .tc b) = W9 m c (Proc.devRef .tc b) := by
  unfold W10; exact Function.update_of_ne (StableHlo.devRef_ne_of_ne hb) _ _
/-- After the host stretch `hostOps5`: region 5's entry contents. -/
def W11 (c : Dev nD) : Valuation τ sig (Elt F) := StableHlo.after hostOps5 (W10 m c)
/-- After region 5: its output array `main_v94` at what the write-backs leave, every other buffer as entered. -/
def W12 (c : Dev nD) : Valuation τ sig (Elt F) :=
  Function.update (W11 m c) (Proc.devRef .tc main_v94) ((dat5 (fun c b => W11 m c b) c).arrAt 3 cfg5.N)
theorem W_out_5 (c : Dev nD) : W12 m c (Proc.devRef .tc main_v94) = (dat5 (fun c b => W11 m c b) c).arrAt 3 cfg5.N := by
  unfold W12; exact Function.update_self _ _ _
theorem W_keep_5 (c : Dev nD) (b : Ref sig .tc) (hb : b ≠ main_v94) : W12 m c (Proc.devRef .tc b) = W11 m c (Proc.devRef .tc b) := by
  unfold W12; exact Function.update_of_ne (StableHlo.devRef_ne_of_ne hb) _ _
/-- After the last host stretch `hostOps6`: the contents at the return. -/
def W13 (c : Dev nD) : Valuation τ sig (Elt F) := StableHlo.after hostOps6 (W12 m c)

/-- What each region leaves in the buffer it may change, read off the fold: the unknowns of the generated conditional frame. -/
def outs : Gen.Outs (F := F) := fun J r c =>
  match J with
  | 2 => W2 m c (Proc.devRef .tc r)
  | 4 => W4 m c (Proc.devRef .tc r)
  | 6 => W6 m c (Proc.devRef .tc r)
  | 8 => W8 m c (Proc.devRef .tc r)
  | 10 => W10 m c (Proc.devRef .tc r)
  | 12 => W12 m c (Proc.devRef .tc r)
  | _ => W0 m c (Proc.devRef .tc r)

/-! ## The generated boundary valuations at these unknowns are the fold -/

theorem V_eq_1 (c : Dev nD) : Gen.V1 m c = W1 m c := rfl
theorem V_eq_2 (c : Dev nD) : Gen.V2 m (outs m) c = W2 m c := by
  show Function.update (Gen.V1 m c) (Proc.devRef .tc main_v5) (outs m 2 main_v5 c) = _
  rw [V_eq_1, show outs m 2 main_v5 c = W2 m c (Proc.devRef .tc main_v5) from rfl, W_out_0]; rfl
theorem V_eq_3 (c : Dev nD) : Gen.V3 m (outs m) c = W3 m c := by
  show StableHlo.after hostOps1 (Gen.V2 m (outs m) c) = _
  rw [V_eq_2]; rfl
theorem V_eq_4 (c : Dev nD) : Gen.V4 m (outs m) c = W4 m c := by
  show Function.update (Gen.V3 m (outs m) c) (Proc.devRef .tc main_v26) (outs m 4 main_v26 c) = _
  rw [V_eq_3, show outs m 4 main_v26 c = W4 m c (Proc.devRef .tc main_v26) from rfl, W_out_1]; rfl
theorem V_eq_5 (c : Dev nD) : Gen.V5 m (outs m) c = W5 m c := by
  show StableHlo.after hostOps2 (Gen.V4 m (outs m) c) = _
  rw [V_eq_4]; rfl
theorem V_eq_6 (c : Dev nD) : Gen.V6 m (outs m) c = W6 m c := by
  show Function.update (Gen.V5 m (outs m) c) (Proc.devRef .tc main_v47) (outs m 6 main_v47 c) = _
  rw [V_eq_5, show outs m 6 main_v47 c = W6 m c (Proc.devRef .tc main_v47) from rfl, W_out_2]; rfl
theorem V_eq_7 (c : Dev nD) : Gen.V7 m (outs m) c = W7 m c := by
  show StableHlo.after hostOps3 (Gen.V6 m (outs m) c) = _
  rw [V_eq_6]; rfl
theorem V_eq_8 (c : Dev nD) : Gen.V8 m (outs m) c = W8 m c := by
  show Function.update (Gen.V7 m (outs m) c) (Proc.devRef .tc main_v68) (outs m 8 main_v68 c) = _
  rw [V_eq_7, show outs m 8 main_v68 c = W8 m c (Proc.devRef .tc main_v68) from rfl, W_out_3]; rfl
theorem V_eq_9 (c : Dev nD) : Gen.V9 m (outs m) c = W9 m c := by
  show StableHlo.after hostOps4 (Gen.V8 m (outs m) c) = _
  rw [V_eq_8]; rfl
theorem V_eq_10 (c : Dev nD) : Gen.V10 m (outs m) c = W10 m c := by
  show Function.update (Gen.V9 m (outs m) c) (Proc.devRef .tc main_v89) (outs m 10 main_v89 c) = _
  rw [V_eq_9, show outs m 10 main_v89 c = W10 m c (Proc.devRef .tc main_v89) from rfl, W_out_4]; rfl
theorem V_eq_11 (c : Dev nD) : Gen.V11 m (outs m) c = W11 m c := by
  show StableHlo.after hostOps5 (Gen.V10 m (outs m) c) = _
  rw [V_eq_10]; rfl
theorem V_eq_12 (c : Dev nD) : Gen.V12 m (outs m) c = W12 m c := by
  show Function.update (Gen.V11 m (outs m) c) (Proc.devRef .tc main_v94) (outs m 12 main_v94 c) = _
  rw [V_eq_11, show outs m 12 main_v94 c = W12 m c (Proc.devRef .tc main_v94) from rfl, W_out_5]; rfl
theorem V_eq_13 (c : Dev nD) : Gen.V13 m (outs m) c = W13 m c := by
  show StableHlo.after hostOps6 (Gen.V12 m (outs m) c) = _
  rw [V_eq_12]; rfl

/-! ## At a region's exit each of its arrays holds what the pipeline leaves, every other buffer what it held at entry -/

theorem hF0 (c : Dev nD) (w : Fin cfg0.W) : (dat0 (fun c b => W1 m c b) c).arrAt w cfg0.N = W2 m c (Proc.devRef .tc (Pipeline.arrRef spec0 w)) := by
  by_cases h : w = 3
  · subst h; exact (W_out_0 m c).symm
  · -- an input window: its array is never written, and is not the output's
    have hin : (cfg0.win w).isOut = false := by revert w; decide
    have hne : Pipeline.arrRef spec0 w ≠ main_v5 := by revert w; decide
    exact ((dat0 (fun c b => W1 m c b) c).arrAt_in w hin _).trans ((A_eq0 (fun c b => W1 m c b) c w).trans (W_keep_0 m c _ hne).symm)
theorem hrest0 (c : Dev nD) : ∀ b, b ∉ Finset.univ.image (Pipeline.arrRef spec0) → W2 m c (Proc.devRef .tc b) = W1 m c (Proc.devRef .tc b) :=
  fun b hb => W_keep_0 m c b fun e => hb (by subst e; exact Finset.mem_image.mpr ⟨3, Finset.mem_univ _, rfl⟩)

theorem hF1 (c : Dev nD) (w : Fin cfg1.W) : (dat1 (fun c b => W3 m c b) c).arrAt w cfg1.N = W4 m c (Proc.devRef .tc (Pipeline.arrRef spec1 w)) := by
  by_cases h : w = 7
  · subst h; exact (W_out_1 m c).symm
  · -- an input window: its array is never written, and is not the output's
    have hin : (cfg1.win w).isOut = false := by revert w; decide
    have hne : Pipeline.arrRef spec1 w ≠ main_v26 := by revert w; decide
    exact ((dat1 (fun c b => W3 m c b) c).arrAt_in w hin _).trans ((A_eq1 (fun c b => W3 m c b) c w).trans (W_keep_1 m c _ hne).symm)
theorem hrest1 (c : Dev nD) : ∀ b, b ∉ Finset.univ.image (Pipeline.arrRef spec1) → W4 m c (Proc.devRef .tc b) = W3 m c (Proc.devRef .tc b) :=
  fun b hb => W_keep_1 m c b fun e => hb (by subst e; exact Finset.mem_image.mpr ⟨7, Finset.mem_univ _, rfl⟩)

theorem hF2 (c : Dev nD) (w : Fin cfg2.W) : (dat2 (fun c b => W5 m c b) c).arrAt w cfg2.N = W6 m c (Proc.devRef .tc (Pipeline.arrRef spec2 w)) := by
  by_cases h : w = 7
  · subst h; exact (W_out_2 m c).symm
  · -- an input window: its array is never written, and is not the output's
    have hin : (cfg2.win w).isOut = false := by revert w; decide
    have hne : Pipeline.arrRef spec2 w ≠ main_v47 := by revert w; decide
    exact ((dat2 (fun c b => W5 m c b) c).arrAt_in w hin _).trans ((A_eq2 (fun c b => W5 m c b) c w).trans (W_keep_2 m c _ hne).symm)
theorem hrest2 (c : Dev nD) : ∀ b, b ∉ Finset.univ.image (Pipeline.arrRef spec2) → W6 m c (Proc.devRef .tc b) = W5 m c (Proc.devRef .tc b) :=
  fun b hb => W_keep_2 m c b fun e => hb (by subst e; exact Finset.mem_image.mpr ⟨7, Finset.mem_univ _, rfl⟩)

theorem hF3 (c : Dev nD) (w : Fin cfg3.W) : (dat3 (fun c b => W7 m c b) c).arrAt w cfg3.N = W8 m c (Proc.devRef .tc (Pipeline.arrRef spec3 w)) := by
  by_cases h : w = 7
  · subst h; exact (W_out_3 m c).symm
  · -- an input window: its array is never written, and is not the output's
    have hin : (cfg3.win w).isOut = false := by revert w; decide
    have hne : Pipeline.arrRef spec3 w ≠ main_v68 := by revert w; decide
    exact ((dat3 (fun c b => W7 m c b) c).arrAt_in w hin _).trans ((A_eq3 (fun c b => W7 m c b) c w).trans (W_keep_3 m c _ hne).symm)
theorem hrest3 (c : Dev nD) : ∀ b, b ∉ Finset.univ.image (Pipeline.arrRef spec3) → W8 m c (Proc.devRef .tc b) = W7 m c (Proc.devRef .tc b) :=
  fun b hb => W_keep_3 m c b fun e => hb (by subst e; exact Finset.mem_image.mpr ⟨7, Finset.mem_univ _, rfl⟩)

theorem hF4 (c : Dev nD) (w : Fin cfg4.W) : (dat4 (fun c b => W9 m c b) c).arrAt w cfg4.N = W10 m c (Proc.devRef .tc (Pipeline.arrRef spec4 w)) := by
  by_cases h : w = 7
  · subst h; exact (W_out_4 m c).symm
  · -- an input window: its array is never written, and is not the output's
    have hin : (cfg4.win w).isOut = false := by revert w; decide
    have hne : Pipeline.arrRef spec4 w ≠ main_v89 := by revert w; decide
    exact ((dat4 (fun c b => W9 m c b) c).arrAt_in w hin _).trans ((A_eq4 (fun c b => W9 m c b) c w).trans (W_keep_4 m c _ hne).symm)
theorem hrest4 (c : Dev nD) : ∀ b, b ∉ Finset.univ.image (Pipeline.arrRef spec4) → W10 m c (Proc.devRef .tc b) = W9 m c (Proc.devRef .tc b) :=
  fun b hb => W_keep_4 m c b fun e => hb (by subst e; exact Finset.mem_image.mpr ⟨7, Finset.mem_univ _, rfl⟩)

theorem hF5 (c : Dev nD) (w : Fin cfg5.W) : (dat5 (fun c b => W11 m c b) c).arrAt w cfg5.N = W12 m c (Proc.devRef .tc (Pipeline.arrRef spec5 w)) := by
  by_cases h : w = 3
  · subst h; exact (W_out_5 m c).symm
  · -- an input window: its array is never written, and is not the output's
    have hin : (cfg5.win w).isOut = false := by revert w; decide
    have hne : Pipeline.arrRef spec5 w ≠ main_v94 := by revert w; decide
    exact ((dat5 (fun c b => W11 m c b) c).arrAt_in w hin _).trans ((A_eq5 (fun c b => W11 m c b) c w).trans (W_keep_5 m c _ hne).symm)
theorem hrest5 (c : Dev nD) : ∀ b, b ∉ Finset.univ.image (Pipeline.arrRef spec5) → W12 m c (Proc.devRef .tc b) = W11 m c (Proc.devRef .tc b) :=
  fun b hb => W_keep_5 m c b fun e => hb (by subst e; exact Finset.mem_image.mpr ⟨3, Finset.mem_univ _, rfl⟩)

/-! ## The proof data family and the thread state -/

/-- Every pipeline's proof data, each at its region's entry contents — a literal `match`, so that the data of a
    pipeline named by a numeral reduces to the printed configuration's. -/
def pdats : (p : Fin 6) → (c : Dev nD) → Dat τ (Elt F) Unit ℕ (Pipeline.UD sig nD τ) ℕ (Pipeline.pin (pcfgs (F := F)) Gen.adm p) c
  | ⟨0, _⟩ => fun c => dat0 (fun c b => W1 m c b) c
  | ⟨1, _⟩ => fun c => dat1 (fun c b => W3 m c b) c
  | ⟨2, _⟩ => fun c => dat2 (fun c b => W5 m c b) c
  | ⟨3, _⟩ => fun c => dat3 (fun c b => W7 m c b) c
  | ⟨4, _⟩ => fun c => dat4 (fun c b => W9 m c b) c
  | ⟨5, _⟩ => fun c => dat5 (fun c b => W11 m c b) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the region
    invariant takes it in and gives it back) and the core owing nothing. -/
abbrev R (c : Dev nD) : sProp 𝕄 := iprop((∃ r, prngReg c r) ∗ ∃ W, owes (c : Thread nD τ) (0 : CellTallies nD τ sig Unit) W)

-- a library lemma stated over the pinned configuration unifies with the printed one only when unification may unfold
-- plain definitions in a metavariable's type
set_option backward.isDefEq.respectTransparency.types false in
/-- REGION 0 over the thread state: entered from every unscoped buffer at `W1`, left at `W2`. Its arrays are split
    out of the unscoped buffers and put back at the exit contents; the generator register goes into the region
    invariant and comes back; nothing is owed; the kernel has no semaphore of its own. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (fun c b => W1 m c b) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (fun b => W1 m c b)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (fun b => W1 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := Pipeline.UD sig nD τ) (Lvl := ℕ)
      launch0.win launch0.arr_whole c (pdats m) ((pdats m 0 c).share_full fun _ => rfl)
      (fun b => W1 m c b) (fun b => W2 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 1 over the thread state: entered from every unscoped buffer at `W3`, left at `W4`. Its first two windows
    read one array, `main_v5`, each holding half of it: the array's buffer is split in two halves at the entry and joined
    again at the exit; otherwise as the other regions. -/
def reg1 : Pipeline.RegionSeg (pcfgs (F := F)) Gen.adm (pdats m) () defs₀ 𝒱₀ L lv 1 where
  win := winFacts₀1
  block_pos := block_pos1
  stage_whole := stage_whole1
  K := PEmpty
  osem k := k.elim
  ho := Pipeline.OwnSemFacts.none _
  hbody c := (body_obligation1 (fun c b => W3 m c b) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := Pipeline.UD sig nD τ) (Lvl := ℕ) spec1 c (fun b => W3 m c b)
  hentry c := by
    rw [Pipeline.ownSems0_none]
    have hsplit := entry1 c (pdats m 1 c) rfl rfl (fun w hw => by
        match w, hw with
        | ⟨0, _⟩, hw => exact absurd hw (Nat.not_succ_le_zero 1)
        | ⟨1, _⟩, hw => exact absurd hw (Nat.not_succ_le_self 1)
        | ⟨2, _⟩, _ => rfl
        | ⟨3, _⟩, _ => rfl
        | ⟨4, _⟩, _ => rfl
        | ⟨5, _⟩, _ => rfl
        | ⟨6, _⟩, _ => rfl
        | ⟨7, _⟩, _ => rfl
        | ⟨_ + 8, h⟩, _ => exact absurd h (Nat.not_lt.2 (Nat.le_add_left _ _)))
      (fun b => W3 m c b) fun w => A_eq1 (fun c b => W3 m c b) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 c (pdats m 1 c) rfl rfl (fun w hw => by
        match w, hw with
        | ⟨0, _⟩, hw => exact absurd hw (Nat.not_succ_le_zero 1)
        | ⟨1, _⟩, hw => exact absurd hw (Nat.not_succ_le_self 1)
        | ⟨2, _⟩, _ => rfl
        | ⟨3, _⟩, _ => rfl
        | ⟨4, _⟩, _ => rfl
        | ⟨5, _⟩, _ => rfl
        | ⟨6, _⟩, _ => rfl
        | ⟨7, _⟩, _ => rfl
        | ⟨_ + 8, h⟩, _ => exact absurd h (Nat.not_lt.2 (Nat.le_add_left _ _)))
      (fun b => W3 m c b) (fun b => W4 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 2 over the thread state: entered from every unscoped buffer at `W5`, left at `W6`. Its arrays are split
    out of the unscoped buffers and put back at the exit contents; the generator register goes into the region
    invariant and comes back; nothing is owed; the kernel has no semaphore of its own. -/
def reg2 : Pipeline.RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (fun c b => W5 m c b) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := Pipeline.UD sig nD τ) (Lvl := ℕ) spec2 c (fun b => W5 m c b)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (fun b => W5 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := Pipeline.UD sig nD τ) (Lvl := ℕ)
      launch2.win launch2.arr_whole c (pdats m) ((pdats m 2 c).share_full fun _ => rfl)
      (fun b => W5 m c b) (fun b => W6 m c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 3 over the thread state: entered from every unscoped buffer at `W7`, left at `W8`. Its arrays are split
    out of the unscoped buffers and put back at the exit contents; the generator register goes into the region
    invariant and comes back; nothing is owed; the kernel has no semaphore of its own. -/
def reg3 : Pipeline.RegionSeg (pcfgs (F := F)) Gen.adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (fun c b => W7 m c b) c).loose
  hwaits := Pipeline.hwaits_of_owed_zero _ _ _ _ L lv 3 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := Pipeline.UD sig nD τ) (Lvl := ℕ) spec3 c (fun b => W7 m c b)
  hentry c := by
    rw [Pipeline.ownSems0_none]
    have hsplit := Pipeline.arrays_of_unscopedBufs (p := 3) (pcfgs (F := F)) Gen.adm (pdats m) launch3.win launch3.arr_whole c
      ((pdats m 3 c).share_full fun _ => rfl) (fun b => W7 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) Gen.adm (Ix := Unit) (Name := ℕ) (U := Pipeline.UD sig nD τ) (Lvl := ℕ)
      launch3.win launch3.arr_whole c (pdats m) ((pdats m 3 c).share_full fun _ => rfl)
      (fun b => W7 m c b) (fun b => W8 m c b) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 4 over the thread state: entered from every unscoped buffer at `W9`, left at `W10`. Its arrays are split
    out of the unscoped buffers and put back at the exit contents; the generator register goes into the region
    invariant and comes back; nothing is owed; the kernel has no semaphore of its own. -/
def reg4 : Pipeline.RegionSeg (pcfgs (F := F)) Gen.adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (fun c b => W9 m c b) c).loose
  hwaits := Pipeline.hwaits_of_owed_zero _ _ _ _ L lv 4 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := Pipeline.UD sig nD τ) (Lvl := ℕ) spec4 c (fun b => W9 m c b)
  hentry c := by
    rw [Pipeline.ownSems0_none]
    have hsplit := Pipeline.arrays_of_unscopedBufs (p := 4) (pcfgs (F := F)) Gen.adm (pdats m) launch4.win launch4.arr_whole c
      ((pdats m 4 c).share_full fun _ => rfl) (fun b => W9 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) Gen.adm (Ix := Unit) (Name := ℕ) (U := Pipeline.UD sig nD τ) (Lvl := ℕ)
      launch4.win launch4.arr_whole c (pdats m) ((pdats m 4 c).share_full fun _ => rfl)
      (fun b => W9 m c b) (fun b => W10 m c b) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 5 over the thread state: entered from every unscoped buffer at `W11`, left at `W12`. Its arrays are split
    out of the unscoped buffers and put back at the exit contents; the generator register goes into the region
    invariant and comes back; nothing is owed; the kernel has no semaphore of its own. -/
def reg5 : Pipeline.RegionSeg (pcfgs (F := F)) Gen.adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (fun c b => W11 m c b) c).loose
  hwaits := Pipeline.hwaits_of_owed_zero _ _ _ _ L lv 5 fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := Pipeline.UD sig nD τ) (Lvl := ℕ) spec5 c (fun b => W11 m c b)
  hentry c := by
    rw [Pipeline.ownSems0_none]
    have hsplit := Pipeline.arrays_of_unscopedBufs (p := 5) (pcfgs (F := F)) Gen.adm (pdats m) launch5.win launch5.arr_whole c
      ((pdats m 5 c).share_full fun _ => rfl) (fun b => W11 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) Gen.adm (Ix := Unit) (Name := ℕ) (U := Pipeline.UD sig nD τ) (Lvl := ℕ)
      launch5.win launch5.arr_whole c (pdats m) ((pdats m 5 c).share_full fun _ => rfl)
      (fun b => W11 m c b) (fun b => W12 m c b) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The regions' thread states are the generated boundary states at the fold -/

theorem hpre0 (c : Dev nD) : iprop(StableHlo.held (c : Thread nD τ) (Pipeline.ucRefs τ sig) (Gen.V1 m c) ∗ R c) ⊢ (reg0 m).pre c := by
  rw [V_eq_1]; exact .rfl
theorem hpost0 (c : Dev nD) : (reg0 m).post c ⊢ iprop(StableHlo.held (c : Thread nD τ) (Pipeline.ucRefs τ sig) (Gen.V2 m (outs m) c) ∗ R c) := by
  rw [V_eq_2]; exact .rfl

theorem hpre1 (c : Dev nD) : iprop(StableHlo.held (c : Thread nD τ) (Pipeline.ucRefs τ sig) (Gen.V3 m (outs m) c) ∗ R c) ⊢ (reg1 m).pre c := by
  rw [V_eq_3]; exact .rfl
theorem hpost1 (c : Dev nD) : (reg1 m).post c ⊢ iprop(StableHlo.held (c : Thread nD τ) (Pipeline.ucRefs τ sig) (Gen.V4 m (outs m) c) ∗ R c) := by
  rw [V_eq_4]; exact .rfl

theorem hpre2 (c : Dev nD) : iprop(StableHlo.held (c : Thread nD τ) (Pipeline.ucRefs τ sig) (Gen.V5 m (outs m) c) ∗ R c) ⊢ (reg2 m).pre c := by
  rw [V_eq_5]; exact .rfl
theorem hpost2 (c : Dev nD) : (reg2 m).post c ⊢ iprop(StableHlo.held (c : Thread nD τ) (Pipeline.ucRefs τ sig) (Gen.V6 m (outs m) c) ∗ R c) := by
  rw [V_eq_6]; exact .rfl

theorem hpre3 (c : Dev nD) : iprop(StableHlo.held (c : Thread nD τ) (Pipeline.ucRefs τ sig) (Gen.V7 m (outs m) c) ∗ R c) ⊢ (reg3 m).pre c := by
  rw [V_eq_7]; exact .rfl
theorem hpost3 (c : Dev nD) : (reg3 m).post c ⊢ iprop(StableHlo.held (c : Thread nD τ) (Pipeline.ucRefs τ sig) (Gen.V8 m (outs m) c) ∗ R c) := by
  rw [V_eq_8]; exact .rfl

theorem hpre4 (c : Dev nD) : iprop(StableHlo.held (c : Thread nD τ) (Pipeline.ucRefs τ sig) (Gen.V9 m (outs m) c) ∗ R c) ⊢ (reg4 m).pre c := by
  rw [V_eq_9]; exact .rfl
theorem hpost4 (c : Dev nD) : (reg4 m).post c ⊢ iprop(StableHlo.held (c : Thread nD τ) (Pipeline.ucRefs τ sig) (Gen.V10 m (outs m) c) ∗ R c) := by
  rw [V_eq_10]; exact .rfl

theorem hpre5 (c : Dev nD) : iprop(StableHlo.held (c : Thread nD τ) (Pipeline.ucRefs τ sig) (Gen.V11 m (outs m) c) ∗ R c) ⊢ (reg5 m).pre c := by
  rw [V_eq_11]; exact .rfl
theorem hpost5 (c : Dev nD) : (reg5 m).post c ⊢ iprop(StableHlo.held (c : Thread nD τ) (Pipeline.ucRefs τ sig) (Gen.V12 m (outs m) c) ∗ R c) := by
  rw [V_eq_12]; exact .rfl

/-! ## The frame -/

/-- THE FRAME, at any `F`: from any memory with zero counters every weakly fair execution of @main terminates and
    every final memory holds each argument array as launched — the generated conditional frame at the fold's contents
    and the six regions' records; the launch element is the pipeline library's beside the unit, no level is assigned,
    and beside the buffers every core keeps its generator register at some state and owes nothing. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Gen.frame_cond (F := F) m (EP := embL) (ι := ()) (𝒱₀ := 𝒱₀) (L := L) (lv := lv) (hL := fun _ _ => rfl) (ρ := ρ) (outs := outs m) (pdats := pdats m)
    (O₀ := 0) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE6 := fun c => by iintro ⟨-, HO⟩; iexact HO)
    (R0 := reg0 m) (hpre0 := hpre0 m) (hpost0 := hpost0 m) (R1 := reg1 m) (hpre1 := hpre1 m) (hpost1 := hpost1 m)
    (R2 := reg2 m) (hpre2 := hpre2 m) (hpost2 := hpost2 m) (R3 := reg3 m) (hpre3 := hpre3 m) (hpost3 := hpost3 m)
    (R4 := reg4 m) (hpre4 := hpre4 m) (hpost4 := hpost4 m) (R5 := reg5 m) (hpre5 := hpre5 m) (hpost5 := hpost5 m)

end Cert.Kernel.Hand

end
-- ==== Proof.KernelIdeal.Reg0.lean ====
/- Region 0 of @main (`cc0__linear_relu_kernel`), at a PARAMETER `V` — the TensorCore's buffer contents when the region is
   entered: each window's block at a grid point, what the body leaves in the output window's staging buffer as a
   function of the input blocks, the body's separation-logic triple, the pipeline's proof data over the class-A
   invariant, and the body obligation at every point. -/
import proofs.«121001_j68573447848158_1_alg».proof.Proof.Gen.KernelIdeal.Launch
import proofs.«121001_j68573447848158_1_alg».proof.Proof.Gen.KernelIdeal.Skeleton
import proofs.«121001_j68573447848158_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents: the elaborator's structural look recurses once per coordinate of the
-- long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

section Region
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): where the window is not
    fetched its block index has not moved, so the block kept from the point before is this point's; the window is
    uncut and never idle. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): where the window is not
    fetched its block index has not moved, so the block kept from the point before is this point's; the window is
    uncut and never idle. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): where the window is not
    fetched its block index has not moved, so the block kept from the point before is this point's; the window is
    uncut and never idle. -/
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S4000x128 := Rect.unit (s := S4000x128) ![0, 0] S4000x128.size inb_S4000x128_S4000x128_0_0
abbrev r0_1 : Rect S128x128 := Rect.unit (s := S128x128) ![0, 0] S128x128.size inb_S128x128_S128x128_0_0
abbrev r0_2 : Rect S1x128 := Rect.unit (s := S1x128) ![0, 0] S1x128.size inb_S1x128_S1x128_0_0

/-! ## What the body leaves in the output window's buffer -/

/-- Window 3's staging buffer after the body, from the input windows' blocks: its one store, of the whole block,
    as a piece over the payload of the three whole-block loads. -/
def out0_3 (x0 : Vec F S4000x128 .f32) (x1 : Vec F S128x128 .f32) (x2 : Vec F S1x128 .f32) : Vec F S4000x128 .f32 :=
  View.canon [⟨r0_0, k0_pay1 (View.ld x0 r0_0) (View.ld x1 r0_1) (View.ld x2 r0_2)⟩]

/-- The store tiles the buffer (checked by evaluation), so it covers it. -/
theorem cover0_3 (p0 : Vec F S4000x128 .f32) (y : S4000x128.Idx) :
    ∃ pc ∈ ([⟨r0_0, p0⟩] : List (View.Piece (Elt F) S4000x128 .f32)), y ∈ pc.1.set :=
  View.cover_of_tiled [⟨r0_0, p0⟩] S4000x128.size (by rfl) y

/-! ## The pipeline's proof data -/

/-- The proof data of pipeline 0 on core `c`: the arrays as the region finds them (`V`); after the body at
    point `t` each input's buffer at its block and the output's at `out0_3` of the input blocks; the class-A
    invariant (the scoped rest and the generator register, untouched); nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body's triple -/

set_option maxHeartbeats 1000000 in
/-- The kernel body on whole staging memrefs, the inputs' at read contents `xW` and the output's at anything, runs to
    the continuation holding the inputs' as they were and the output's at `out0_3` of the inputs'. The body reads
    the output's buffer once before its store; that value is not used, so whatever the buffer held does not matter. -/
theorem sound_kernel0 (c : Dev nD) (E : Set ℕ) (i : grid0.Coords) (arg1 : Memref sig .tc .vmem S4000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S4000x128 .f32) (harg4 : arg4.IsWhole)
    (x0 : Vec F S4000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__linear_relu_kernel i arg1 harg1 arg2 harg2 arg3 harg3 arg4 harg4) K := by
  simp only [cc0__linear_relu_kernel_eq_skeleton]; unfold cc0__linear_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The body obligation, at a generic point -/

/-- What the body is called with at point `t` (the body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region

end Cert.KernelIdeal.Hand

end
-- ==== Proof.KernelIdeal.Reg1.lean ====
import proofs.«121001_j68573447848158_1_alg».proof.Proof.Gen.KernelIdeal.Launch
import proofs.«121001_j68573447848158_1_alg».proof.Proof.Gen.KernelIdeal.Skeleton
import proofs.«121001_j68573447848158_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 1 of @main (one GIN layer: `relu(relu((h + agg)·W1 + b1)·W2 + b2 + h0)` on a 4000-row tile), at
    arbitrary entry contents `V`

Eight windows on a grid of 25 points: the three row-tiled inputs `h`, `h0`, `agg` (windows 0, 1, 2: block `t` of
4000 rows at point `t`), the two weight matrices and two bias rows (windows 3..6: one block, fetched once and kept),
and the row-tiled output (window 7). The body reads every input buffer whole, reads the output buffer once (the value
is not used) and then overwrites the output buffer whole with the layer's value of the inputs. So after the body every
input buffer is as it was and the output buffer is a function of the seven input blocks alone. -/

-- membership in a rectangle of 4000 x 128 extents: the structural recursion goes once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region1
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether or not the window is fetched
    there (an unfetched point has the block index of the point before): the window is uncut and never idle. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, whether or not the window is fetched
    there (an unfetched point has the block index of the point before): the window is uncut and never idle. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, whether or not the window is fetched
    there (an unfetched point has the block index of the point before): the window is uncut and never idle. -/
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, whether or not the window is fetched
    there (an unfetched point has the block index of the point before): the window is uncut and never idle. -/
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, whether or not the window is fetched
    there (an unfetched point has the block index of the point before): the window is uncut and never idle. -/
theorem before1_4_of {c : Dev nD} (dat : Dat τ (Elt F) Unit ℕ (Pipeline.UD sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, whether or not the window is fetched
    there (an unfetched point has the block index of the point before): the window is uncut and never idle. -/
theorem before1_5_of {c : Dev nD} (dat : Dat τ (Elt F) Unit ℕ (Pipeline.UD sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, whether or not the window is fetched
    there (an unfetched point has the block index of the point before): the window is uncut and never idle. -/
theorem before1_6_of {c : Dev nD} (dat : Dat τ (Elt F) Unit ℕ (Pipeline.UD sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer read or written whole -/

abbrev r1_0 : Rect S4000x128 := Rect.unit (s := S4000x128) ![0, 0] S4000x128.size inb_S4000x128_S4000x128_0_0
abbrev r1_1 : Rect S128x128 := Rect.unit (s := S128x128) ![0, 0] S128x128.size inb_S128x128_S128x128_0_0
abbrev r1_2 : Rect S1x128 := Rect.unit (s := S1x128) ![0, 0] S1x128.size inb_S1x128_S1x128_0_0

/-! ## What the body leaves in the output window's buffer -/

/-- Window 7's staging buffer after the body, from the input windows' blocks (in window order: `h`, `h0`, `agg`,
    `W1`, `b1`, `W2`, `b2`): its one store, of the layer's value. The payload takes the values in the order the
    body loads them: `h`, `agg`, `W1`, `b1`, `W2`, `b2`, and the residual `h0` last. -/
def out1_7 (x0 : Vec F S4000x128 .f32) (x1 : Vec F S4000x128 .f32) (x2 : Vec F S4000x128 .f32) (x3 : Vec F S128x128 .f32) (x4 : Vec F S1x128 .f32) (x5 : Vec F S128x128 .f32) (x6 : Vec F S1x128 .f32) : Vec F S4000x128 .f32 :=
  View.canon [⟨r1_0, k1_pay1 (View.ld x0 r1_0) (View.ld x2 r1_0) (View.ld x3 r1_1) (View.ld x4 r1_2) (View.ld x5 r1_1) (View.ld x6 r1_2) (View.ld x1 r1_0)⟩]

/-- The one store is of the whole buffer, so it covers it. -/
theorem cover1_7 (p0 : Vec F S4000x128 .f32) (y : S4000x128.Idx) :
    ∃ pc ∈ ([⟨r1_0, p0⟩] : List (View.Piece (Elt F) S4000x128 .f32)), y ∈ pc.1.set :=
  View.cover_of_tiled [⟨r1_0, p0⟩] S4000x128.size (by rfl) y

/-! ## The body's triple -/

set_option maxHeartbeats 4000000 in
/-- The kernel body on whole staging memrefs, the inputs' at contents `x0 … x6` and the output's at anything, runs to
    the continuation holding the inputs' as they were and the output's at `out1_7` of the inputs': seven whole loads,
    one more load (of the output buffer, unused), one whole store. -/
theorem sound_kernel1 (c : Dev nD) (E : Set ℕ) (i : grid1.Coords) (arg1 : Memref sig .tc .vmem S4000x128 .f32) (harg1 : arg1.IsWhole) (arg2 : Memref sig .tc .vmem S4000x128 .f32) (harg2 : arg2.IsWhole) (arg3 : Memref sig .tc .vmem S4000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S4000x128 .f32) (harg8 : arg8.IsWhole)
    (x0 : Vec F S4000x128 .f32) (x1 : Vec F S4000x128 .f32) (x2 : Vec F S4000x128 .f32) (x3 : Vec F S128x128 .f32) (x4 : Vec F S1x128 .f32) (x5 : Vec F S128x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out1_7 x0 x1 x2 x3 x4 x5 x6)) -∗ K ⟨⟩))
      ⊢ wp frame (wpE (defs₀ (F := F)) Variants.none c none) E (cc1__gin_layer_kernel i arg1 harg1 arg2 harg2 arg3 harg3 arg4 harg4 arg5 harg5 arg6 harg6 arg7 harg7 arg8 harg8) K := by
  simp only [cc1__gin_layer_kernel_eq_skeleton]; unfold cc1__gin_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-! ## The pipeline's proof data -/

/-- The proof data of pipeline 1 on core `c`: the arrays as the region finds them (`V`); after the body at point
    `t` each input's buffer at its block and the output's at `out1_7` of the input blocks; the invariant is the
    scoped rest and the generator register, untouched; nothing owed. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' memrefs hold their blocks, so `sound_kernel1` applies; the invariant and the
    core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ (grid1.coords t) _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KernelIdeal.Reg2.lean ====
import proofs.«121001_j68573447848158_1_alg».proof.Proof.Gen.KernelIdeal.Launch
import proofs.«121001_j68573447848158_1_alg».proof.Proof.Gen.KernelIdeal.Skeleton
import proofs.«121001_j68573447848158_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 2 of @main (one GIN layer: `relu(relu((h + agg)·W1 + b1)·W2 + b2 + h0)` on a 4000-row tile), at
    arbitrary entry contents `V`

Eight windows on a grid of 25 points: the three row-tiled inputs `h`, `h0`, `agg` (windows 0, 1, 2: block `t` of
4000 rows at point `t`), the two weight matrices and two bias rows (windows 3..6: one block, fetched once and kept),
and the row-tiled output (window 7). The body reads every input buffer whole, reads the output buffer once (the value
is not used) and then overwrites the output buffer whole with the layer's value of the inputs. So after the body every
input buffer is as it was and the output buffer is a function of the seven input blocks alone. -/

-- membership in a rectangle of 4000 x 128 extents: the structural recursion goes once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region2
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, whether or not the window is fetched
    there (an unfetched point has the block index of the point before): the window is uncut and never idle. -/
theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, whether or not the window is fetched
    there (an unfetched point has the block index of the point before): the window is uncut and never idle. -/
theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, whether or not the window is fetched
    there (an unfetched point has the block index of the point before): the window is uncut and never idle. -/
theorem before2_2_of {c : Dev nD} (dat : Dat τ (Elt F) Unit ℕ (Pipeline.UD sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, whether or not the window is fetched
    there (an unfetched point has the block index of the point before): the window is uncut and never idle. -/
theorem before2_3_of {c : Dev nD} (dat : Dat τ (Elt F) Unit ℕ (Pipeline.UD sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, whether or not the window is fetched
    there (an unfetched point has the block index of the point before): the window is uncut and never idle. -/
theorem before2_4_of {c : Dev nD} (dat : Dat τ (Elt F) Unit ℕ (Pipeline.UD sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's current staging buffer holds its block at every point, whether or not the window is fetched
    there (an unfetched point has the block index of the point before): the window is uncut and never idle. -/
theorem before2_5_of {c : Dev nD} (dat : Dat τ (Elt F) Unit ℕ (Pipeline.UD sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
/-- Input window 6's current staging buffer holds its block at every point, whether or not the window is fetched
    there (an unfetched point has the block index of the point before): the window is uncut and never idle. -/
theorem before2_6_of {c : Dev nD} (dat : Dat τ (Elt F) Unit ℕ (Pipeline.UD sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer read or written whole -/

abbrev r2_0 : Rect S4000x128 := Rect.unit (s := S4000x128) ![0, 0] S4000x128.size inb_S4000x128_S4000x128_0_0
abbrev r2_1 : Rect S128x128 := Rect.unit (s := S128x128) ![0, 0] S128x128.size inb_S128x128_S128x128_0_0
abbrev r2_2 : Rect S1x128 := Rect.unit (s := S1x128) ![0, 0] S1x128.size inb_S1x128_S1x128_0_0

/-! ## What the body leaves in the output window's buffer -/

/-- Window 7's staging buffer after the body, from the input windows' blocks (in window order: `h`, `h0`, `agg`,
    `W1`, `b1`, `W2`, `b2`): its one store, of the layer's value. The payload takes the values in the order the
    body loads them: `h`, `agg`, `W1`, `b1`, `W2`, `b2`, and the residual `h0` last. -/
def out2_7 (x0 : Vec F S4000x128 .f32) (x1 : Vec F S4000x128 .f32) (x2 : Vec F S4000x128 .f32) (x3 : Vec F S128x128 .f32) (x4 : Vec F S1x128 .f32) (x5 : Vec F S128x128 .f32) (x6 : Vec F S1x128 .f32) : Vec F S4000x128 .f32 :=
  View.canon [⟨r2_0, k2_pay1 (View.ld x0 r2_0) (View.ld x2 r2_0) (View.ld x3 r2_1) (View.ld x4 r2_2) (View.ld x5 r2_1) (View.ld x6 r2_2) (View.ld x1 r2_0)⟩]

/-- The one store is of the whole buffer, so it covers it. -/
theorem cover2_7 (p0 : Vec F S4000x128 .f32) (y : S4000x128.Idx) :
    ∃ pc ∈ ([⟨r2_0, p0⟩] : List (View.Piece (Elt F) S4000x128 .f32)), y ∈ pc.1.set :=
  View.cover_of_tiled [⟨r2_0, p0⟩] S4000x128.size (by rfl) y

/-! ## The body's triple -/

set_option maxHeartbeats 4000000 in
/-- The kernel body on whole staging memrefs, the inputs' at contents `x0 … x6` and the output's at anything, runs to
    the continuation holding the inputs' as they were and the output's at `out2_7` of the inputs': seven whole loads,
    one more load (of the output buffer, unused), one whole store. -/
theorem sound_kernel2 (c : Dev nD) (E : Set ℕ) (i : grid2.Coords) (arg1 : Memref sig .tc .vmem S4000x128 .f32) (harg1 : arg1.IsWhole) (arg2 : Memref sig .tc .vmem S4000x128 .f32) (harg2 : arg2.IsWhole) (arg3 : Memref sig .tc .vmem S4000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S4000x128 .f32) (harg8 : arg8.IsWhole)
    (x0 : Vec F S4000x128 .f32) (x1 : Vec F S4000x128 .f32) (x2 : Vec F S4000x128 .f32) (x3 : Vec F S128x128 .f32) (x4 : Vec F S1x128 .f32) (x5 : Vec F S128x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out2_7 x0 x1 x2 x3 x4 x5 x6)) -∗ K ⟨⟩))
      ⊢ wp frame (wpE (defs₀ (F := F)) Variants.none c none) E (cc2__gin_layer_kernel i arg1 harg1 arg2 harg2 arg3 harg3 arg4 harg4 arg5 harg5 arg6 harg6 arg7 harg7 arg8 harg8) K := by
  simp only [cc2__gin_layer_kernel_eq_skeleton]; unfold cc2__gin_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover2_7 _)

/-! ## The pipeline's proof data -/

/-- The proof data of pipeline 2 on core `c`: the arrays as the region finds them (`V`); after the body at point
    `t` each input's buffer at its block and the output's at `out2_7` of the input blocks; the invariant is the
    scoped rest and the generator register, untouched; nothing owed. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) (iblk2 V c 6 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point: the inputs' memrefs hold their blocks, so `sound_kernel2` applies; the invariant and the
    core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ (grid2.coords t) _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.KernelIdeal.Hand

end
-- ==== Proof.KernelIdeal.Reg3.lean ====
import proofs.«121001_j68573447848158_1_alg».proof.Proof.Gen.KernelIdeal.Launch
import proofs.«121001_j68573447848158_1_alg».proof.Proof.Gen.KernelIdeal.Skeleton
import proofs.«121001_j68573447848158_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 3 of @main (one GIN layer: `relu(relu((h + agg)·W1 + b1)·W2 + b2 + h0)` on a 4000-row tile), at
    arbitrary entry contents `V`

Eight windows on a grid of 25 points: the three row-tiled inputs `h`, `h0`, `agg` (windows 0, 1, 2: block `t` of
4000 rows at point `t`), the two weight matrices and two bias rows (windows 3..6: one block, fetched once and kept),
and the row-tiled output (window 7). The body reads every input buffer whole, reads the output buffer once (the value
is not used) and then overwrites the output buffer whole with the layer's value of the inputs. So after the body every
input buffer is as it was and the output buffer is a function of the seven input blocks alone. -/

-- membership in a rectangle of 4000 x 128 extents: the structural recursion goes once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region3
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, whether or not the window is fetched
    there (an unfetched point has the block index of the point before): the window is uncut and never idle. -/
theorem before3_0_of {c : Dev nD} (dat : Dat τ (Elt F) Unit ℕ (Pipeline.UD sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, whether or not the window is fetched
    there (an unfetched point has the block index of the point before): the window is uncut and never idle. -/
theorem before3_1_of {c : Dev nD} (dat : Dat τ (Elt F) Unit ℕ (Pipeline.UD sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, whether or not the window is fetched
    there (an unfetched point has the block index of the point before): the window is uncut and never idle. -/
theorem before3_2_of {c : Dev nD} (dat : Dat τ (Elt F) Unit ℕ (Pipeline.UD sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, whether or not the window is fetched
    there (an unfetched point has the block index of the point before): the window is uncut and never idle. -/
theorem before3_3_of {c : Dev nD} (dat : Dat τ (Elt F) Unit ℕ (Pipeline.UD sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's current staging buffer holds its block at every point, whether or not the window is fetched
    there (an unfetched point has the block index of the point before): the window is uncut and never idle. -/
theorem before3_4_of {c : Dev nD} (dat : Dat τ (Elt F) Unit ℕ (Pipeline.UD sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
/-- Input window 5's current staging buffer holds its block at every point, whether or not the window is fetched
    there (an unfetched point has the block index of the point before): the window is uncut and never idle. -/
theorem before3_5_of {c : Dev nD} (dat : Dat τ (Elt F) Unit ℕ (Pipeline.UD sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
/-- Input window 6's current staging buffer holds its block at every point, whether or not the window is fetched
    there (an unfetched point has the block index of the point before): the window is uncut and never idle. -/
theorem before3_6_of {c : Dev nD} (dat : Dat τ (Elt F) Unit ℕ (Pipeline.UD sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer read or written whole -/

abbrev r3_0 : Rect S4000x128 := Rect.unit (s := S4000x128) ![0, 0] S4000x128.size inb_S4000x128_S4000x128_0_0
abbrev r3_1 : Rect S128x128 := Rect.unit (s := S128x128) ![0, 0] S128x128.size inb_S128x128_S128x128_0_0
abbrev r3_2 : Rect S1x128 := Rect.unit (s := S1x128) ![0, 0] S1x128.size inb_S1x128_S1x128_0_0

/-! ## What the body leaves in the output window's buffer -/

/-- Window 7's staging buffer after the body, from the input windows' blocks (in window order: `h`, `h0`, `agg`,
    `W1`, `b1`, `W2`, `b2`): its one store, of the layer's value. The payload takes the values in the order the
    body loads them: `h`, `agg`, `W1`, `b1`, `W2`, `b2`, and the residual `h0` last. -/
def out3_7 (x0 : Vec F S4000x128 .f32) (x1 : Vec F S4000x128 .f32) (x2 : Vec F S4000x128 .f32) (x3 : Vec F S128x128 .f32) (x4 : Vec F S1x128 .f32) (x5 : Vec F S128x128 .f32) (x6 : Vec F S1x128 .f32) : Vec F S4000x128 .f32 :=
  View.canon [⟨r3_0, k3_pay1 (View.ld x0 r3_0) (View.ld x2 r3_0) (View.ld x3 r3_1) (View.ld x4 r3_2) (View.ld x5 r3_1) (View.ld x6 r3_2) (View.ld x1 r3_0)⟩]

/-- The one store is of the whole buffer, so it covers it. -/
theorem cover3_7 (p0 : Vec F S4000x128 .f32) (y : S4000x128.Idx) :
    ∃ pc ∈ ([⟨r3_0, p0⟩] : List (View.Piece (Elt F) S4000x128 .f32)), y ∈ pc.1.set :=
  View.cover_of_tiled [⟨r3_0, p0⟩] S4000x128.size (by rfl) y

/-! ## The body's triple -/

set_option maxHeartbeats 4000000 in
/-- The kernel body on whole staging memrefs, the inputs' at contents `x0 … x6` and the output's at anything, runs to
    the continuation holding the inputs' as they were and the output's at `out3_7` of the inputs': seven whole loads,
    one more load (of the output buffer, unused), one whole store. -/
theorem sound_kernel3 (c : Dev nD) (E : Set ℕ) (i : grid3.Coords) (arg1 : Memref sig .tc .vmem S4000x128 .f32) (harg1 : arg1.IsWhole) (arg2 : Memref sig .tc .vmem S4000x128 .f32) (harg2 : arg2.IsWhole) (arg3 : Memref sig .tc .vmem S4000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S4000x128 .f32) (harg8 : arg8.IsWhole)
    (x0 : Vec F S4000x128 .f32) (x1 : Vec F S4000x128 .f32) (x2 : Vec F S4000x128 .f32) (x3 : Vec F S128x128 .f32) (x4 : Vec F S1x128 .f32) (x5 : Vec F S128x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out3_7 x0 x1 x2 x3 x4 x5 x6)) -∗ K ⟨⟩))
      ⊢ wp frame (wpE (defs₀ (F := F)) Variants.none c none) E (cc3__gin_layer_kernel i arg1 harg1 arg2 harg2 arg3 harg3 arg4 harg4 arg5 harg5 arg6 harg6 arg7 harg7 arg8 harg8) K := by
  simp only [cc3__gin_layer_kernel_eq_skeleton]; unfold cc3__gin_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover3_7 _)

/-! ## The pipeline's proof data -/

/-- The proof data of pipeline 3 on core `c`: the arrays as the region finds them (`V`); after the body at point
    `t` each input's buffer at its block and the output's at `out3_7` of the input blocks; the invariant is the
    scoped rest and the generator register, untouched; nothing owed. -/
def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 (iblk3 V c 0 t) (iblk3 V c 1 t) (iblk3 V c 2 t) (iblk3 V c 3 t) (iblk3 V c 4 t) (iblk3 V c 5 t) (iblk3 V c 6 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = out3_7 (iblk3 V c 0 t) (iblk3 V c 1 t) (iblk3 V c 2 t) (iblk3 V c 3 t) (iblk3 V c 4 t) (iblk3 V c 5 t) (iblk3 V c 6 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))

/-- The body at any point: the inputs' memrefs hold their blocks, so `sound_kernel3` applies; the invariant and the
    core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel3 c Set.univ (grid3.coords t) _ _ _ _ _ _ _ _ _ _ _ _ _ _ _ _ (iblk3 V c 0 t) (iblk3 V c 1 t) (iblk3 V c 2 t) (iblk3 V c 3 t) (iblk3 V c 4 t) (iblk3 V c 5 t) (iblk3 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation3 (c : Dev nD) : BodyObligation (dat3 (F := F) V c) (defs₀ (F := F)) Variants.none () Set.univ := fun t => by
  rw [bigSep_W3, bigSep_W3]
  exact sound_body3 V c t

end Region3

end Cert.KernelIdeal.Hand

end
-- ==== Proof.KernelIdeal.Reg4.lean ====
import proofs.«121001_j68573447848158_1_alg».proof.Proof.Gen.KernelIdeal.Launch
import proofs.«121001_j68573447848158_1_alg».proof.Proof.Gen.KernelIdeal.Skeleton
import proofs.«121001_j68573447848158_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 4 of @main (one GIN layer: `relu(relu((h + agg)·W1 + b1)·W2 + b2 + h0)` on a 4000-row tile), at
    arbitrary entry contents `V`

Eight windows on a grid of 25 points: the three row-tiled inputs `h`, `h0`, `agg` (windows 0, 1, 2: block `t` of
4000 rows at point `t`), the two weight matrices and two bias rows (windows 3..6: one block, fetched once and kept),
and the row-tiled output (window 7). The body reads every input buffer whole, reads the output buffer once (the value
is not used) and then overwrites the output buffer whole with the layer's value of the inputs. So after the body every
input buffer is as it was and the output buffer is a function of the seven input blocks alone. -/

-- membership in a rectangle of 4000 x 128 extents: the structural recursion goes once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region4
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, whether or not the window is fetched
    there (an unfetched point has the block index of the point before): the window is uncut and never idle. -/
theorem before4_0_of {c : Dev nD} (dat : Dat τ (Elt F) Unit ℕ (Pipeline.UD sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Input window 1's current staging buffer holds its block at every point, whether or not the window is fetched
    there (an unfetched point has the block index of the point before): the window is uncut and never idle. -/
theorem before4_1_of {c : Dev nD} (dat : Dat τ (Elt F) Unit ℕ (Pipeline.UD sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- Input window 2's current staging buffer holds its block at every point, whether or not the window is fetched
    there (an unfetched point has the block index of the point before): the window is uncut and never idle. -/
theorem before4_2_of {c : Dev nD} (dat : Dat τ (Elt F) Unit ℕ (Pipeline.UD sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
/-- Input window 3's current staging buffer holds its block at every point, whether or not the window is fetched
    there (an unfetched point has the block index of the point before): the window is uncut and never idle. -/
theorem before4_3_of {c : Dev nD} (dat : Dat τ (Elt F) Unit ℕ (Pipeline.UD sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
/-- Input window 4's current staging buffer holds its block at every point, whether or not the window is fetched
    there (an unfetched point has the block index of the point before): the window is uncut and never idle. -/
theorem before4_4_of {c : Dev nD} (dat : Dat τ (Elt F) Unit ℕ (Pipeline.UD sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)
/-- Input window 5's current staging buffer holds its block at every point, whether or not the window is fetched
    there (an unfetched point has the block index of the point before): the window is uncut and never idle. -/
theorem before4_5_of {c : Dev nD} (dat : Dat τ (Elt F) Unit ℕ (Pipeline.UD sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)
/-- Input window 6's current staging buffer holds its block at every point, whether or not the window is fetched
    there (an unfetched point has the block index of the point before): the window is uncut and never idle. -/
theorem before4_6_of {c : Dev nD} (dat : Dat τ (Elt F) Unit ℕ (Pipeline.UD sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each buffer read or written whole -/

abbrev r4_0 : Rect S4000x128 := Rect.unit (s := S4000x128) ![0, 0] S4000x128.size inb_S4000x128_S4000x128_0_0
abbrev r4_1 : Rect S128x128 := Rect.unit (s := S128x128) ![0, 0] S128x128.size inb_S128x128_S128x128_0_0
abbrev r4_2 : Rect S1x128 := Rect.unit (s := S1x128) ![0, 0] S1x128.size inb_S1x128_S1x128_0_0

/-! ## What the body leaves in the output window's buffer -/

/-- Window 7's staging buffer after the body, from the input windows' blocks (in window order: `h`, `h0`, `agg`,
    `W1`, `b1`, `W2`, `b2`): its one store, of the layer's value. The payload takes the values in the order the
    body loads them: `h`, `agg`, `W1`, `b1`, `W2`, `b2`, and the residual `h0` last. -/
def out4_7 (x0 : Vec F S4000x128 .f32) (x1 : Vec F S4000x128 .f32) (x2 : Vec F S4000x128 .f32) (x3 : Vec F S128x128 .f32) (x4 : Vec F S1x128 .f32) (x5 : Vec F S128x128 .f32) (x6 : Vec F S1x128 .f32) : Vec F S4000x128 .f32 :=
  View.canon [⟨r4_0, k4_pay1 (View.ld x0 r4_0) (View.ld x2 r4_0) (View.ld x3 r4_1) (View.ld x4 r4_2) (View.ld x5 r4_1) (View.ld x6 r4_2) (View.ld x1 r4_0)⟩]

/-- The one store is of the whole buffer, so it covers it. -/
theorem cover4_7 (p0 : Vec F S4000x128 .f32) (y : S4000x128.Idx) :
    ∃ pc ∈ ([⟨r4_0, p0⟩] : List (View.Piece (Elt F) S4000x128 .f32)), y ∈ pc.1.set :=
  View.cover_of_tiled [⟨r4_0, p0⟩] S4000x128.size (by rfl) y

/-! ## The body's triple -/

set_option maxHeartbeats 4000000 in
/-- The kernel body on whole staging memrefs, the inputs' at contents `x0 … x6` and the output's at anything, runs to
    the continuation holding the inputs' as they were and the output's at `out4_7` of the inputs': seven whole loads,
    one more load (of the output buffer, unused), one whole store. -/
theorem sound_kernel4 (c : Dev nD) (E : Set ℕ) (i : grid4.Coords) (arg1 : Memref sig .tc .vmem S4000x128 .f32) (harg1 : arg1.IsWhole) (arg2 : Memref sig .tc .vmem S4000x128 .f32) (harg2 : arg2.IsWhole) (arg3 : Memref sig .tc .vmem S4000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S4000x128 .f32) (harg8 : arg8.IsWhole)
    (x0 : Vec F S4000x128 .f32) (x1 : Vec F S4000x128 .f32) (x2 : Vec F S4000x128 .f32) (x3 : Vec F S128x128 .f32) (x4 : Vec F S1x128 .f32) (x5 : Vec F S128x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out4_7 x0 x1 x2 x3 x4 x5 x6)) -∗ K ⟨⟩))
      ⊢ wp frame (wpE (defs₀ (F := F)) Variants.none c none) E (cc4__gin_layer_kernel i arg1 harg1 arg2 harg2 arg3 harg3 arg4 harg4 arg5 harg5 arg6 harg6 arg7 harg7 arg8 harg8) K := by
  simp only [cc4__gin_layer_kernel_eq_skeleton]; unfold cc4__gin_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover4_7 _)

/-! ## The pipeline's proof data -/

/-- The proof data of pipeline 4 on core `c`: the arrays as the region finds them (`V`); after the body at point
    `t` each input's buffer at its block and the output's at `out4_7` of the input blocks; the invariant is the
    scoped rest and the generator register, untouched; nothing owed. -/
def dat4 (c : Dev nD) : Dat τ (Elt F) Unit ℕ (Pipeline.UD sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => out4_7 (iblk4 V c 0 t) (iblk4 V c 1 t) (iblk4 V c 2 t) (iblk4 V c 3 t) (iblk4 V c 4 t) (iblk4 V c 5 t) (iblk4 V c 6 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = out4_7 (iblk4 V c 0 t) (iblk4 V c 1 t) (iblk4 V c 2 t) (iblk4 V c 3 t) (iblk4 V c 4 t) (iblk4 V c 5 t) (iblk4 V c 6 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t))

/-- The body at any point: the inputs' memrefs hold their blocks, so `sound_kernel4` applies; the invariant and the
    core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel4 c Set.univ (grid4.coords t) _ _ _ _ _ _ _ _ _ _ _ _ _ _ _ _ (iblk4 V c 0 t) (iblk4 V c 1 t) (iblk4 V c 2 t) (iblk4 V c 3 t) (iblk4 V c 4 t) (iblk4 V c 5 t) (iblk4 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation4 (c : Dev nD) : BodyObligation (dat4 (F := F) V c) (defs₀ (F := F)) Variants.none () Set.univ := fun t => by
  rw [bigSep_W4, bigSep_W4]
  exact sound_body4 V c t

end Region4

end Cert.KernelIdeal.Hand

end
-- ==== Proof.KernelIdeal.Reg5.lean ====
/- Region 5 of @main (`cc5__final_linear_kernel`), at a PARAMETER `V` — the TensorCore's buffer contents when the region is
   entered: each window's block at a grid point, what the body leaves in the output window's staging buffer as a
   function of the input blocks, the body's separation-logic triple, the pipeline's proof data over the class-A
   invariant, and the body obligation at every point. -/
import proofs.«121001_j68573447848158_1_alg».proof.Proof.Gen.KernelIdeal.Launch
import proofs.«121001_j68573447848158_1_alg».proof.Proof.Gen.KernelIdeal.Skeleton
import proofs.«121001_j68573447848158_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents: the elaborator's structural look recurses once per coordinate of the
-- long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

section Region
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for ANY proof
    data whose array is `V`'s (`hA`) and whose body leaves the block in place (`hafter`): where the window is not
    fetched its block index has not moved, so the block kept from the point before is this point's; the window is
    uncut and never idle. -/
theorem before5_0_of {c : Dev nD} (dat : Dat τ (Elt F) Unit ℕ (Pipeline.UD sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- Input window 1's current staging buffer holds its block at every point, fetched there or not, for ANY proof
    data whose array is `V`'s (`hA`) and whose body leaves the block in place (`hafter`): where the window is not
    fetched its block index has not moved, so the block kept from the point before is this point's; the window is
    uncut and never idle. -/
theorem before5_1_of {c : Dev nD} (dat : Dat τ (Elt F) Unit ℕ (Pipeline.UD sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- Input window 2's current staging buffer holds its block at every point, fetched there or not, for ANY proof
    data whose array is `V`'s (`hA`) and whose body leaves the block in place (`hafter`): where the window is not
    fetched its block index has not moved, so the block kept from the point before is this point's; the window is
    uncut and never idle. -/
theorem before5_2_of {c : Dev nD} (dat : Dat τ (Elt F) Unit ℕ (Pipeline.UD sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

abbrev r5_0 : Rect S1000x128 := Rect.unit (s := S1000x128) ![0, 0] S1000x128.size inb_S1000x128_S1000x128_0_0
abbrev r5_1 : Rect S128x1 := Rect.unit (s := S128x1) ![0, 0] S128x1.size inb_S128x1_S128x1_0_0
abbrev r5_2 : Rect S1x1 := Rect.unit (s := S1x1) ![0, 0] S1x1.size inb_S1x1_S1x1_0_0
abbrev r5_3 : Rect S1000x1 := Rect.unit (s := S1000x1) ![0, 0] S1000x1.size inb_S1000x1_S1000x1_0_0

/-! ## What the body leaves in the output window's buffer -/

/-- Window 3's staging buffer after the body, from the input windows' blocks: its one store, of the whole block,
    as a piece over the payload of the three whole-block loads. -/
def out5_3 (x0 : Vec F S1000x128 .f32) (x1 : Vec F S128x1 .f32) (x2 : Vec F S1x1 .f32) : Vec F S1000x1 .f32 :=
  View.canon [⟨r5_3, k5_pay1 (View.ld x0 r5_0) (View.ld x1 r5_1) (View.ld x2 r5_2)⟩]

/-- The store tiles the buffer (checked by evaluation), so it covers it. -/
theorem cover5_3 (p0 : Vec F S1000x1 .f32) (y : S1000x1.Idx) :
    ∃ pc ∈ ([⟨r5_3, p0⟩] : List (View.Piece (Elt F) S1000x1 .f32)), y ∈ pc.1.set :=
  View.cover_of_tiled [⟨r5_3, p0⟩] S1000x1.size (by rfl) y

/-! ## The pipeline's proof data -/

/-- The proof data of pipeline 5 on core `c`: the arrays as the region finds them (`V`); after the body at
    point `t` each input's buffer at its block and the output's at `out5_3` of the input blocks; the class-A
    invariant (the scoped rest and the generator register, untouched); nothing owed; full shares. -/
def dat5 (c : Dev nD) : Dat τ (Elt F) Unit ℕ (Pipeline.UD sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

/-- The proof data's arrays are the region-entry contents (the definition projected). -/
theorem A_eq5 (c : Dev nD) (w : Fin cfg5.W) : (dat5 V c).A w = V c (Pipeline.arrRef spec5 w) := by
  dsimp only [dat5]

/-- What the body leaves, window by window (the proof data's `match` reduced). -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5_3 (iblk5 V c 0 t) (iblk5 V c 1 t) (iblk5 V c 2 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body's triple -/

set_option maxHeartbeats 1000000 in
/-- The kernel body on whole staging memrefs, the inputs' at read contents `xW` and the output's at anything, runs to
    the continuation holding the inputs' as they were and the output's at `out5_3` of the inputs'. The body reads
    the output's buffer once before its store; that value is not used, so whatever the buffer held does not matter. -/
theorem sound_kernel5 (c : Dev nD) (E : Set ℕ) (i : grid5.Coords) (arg1 : Memref sig .tc .vmem S1000x128 .f32) (harg1 : arg1.IsWhole) (arg2 : Memref sig .tc .vmem S128x1 .f32) (harg2 : arg2.IsWhole) (arg3 : Memref sig .tc .vmem S1x1 .f32) (harg3 : arg3.IsWhole) (arg4 : Memref sig .tc .vmem S1000x1 .f32) (harg4 : arg4.IsWhole)
    (x0 : Vec F S1000x128 .f32) (x1 : Vec F S128x1 .f32) (x2 : Vec F S1x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out5_3 x0 x1 x2)) -∗ K ⟨⟩))
      ⊢ wp frame (wpE (defs₀ (F := F)) Variants.none c none) E (cc5__final_linear_kernel i arg1 harg1 arg2 harg2 arg3 harg3 arg4 harg4) K := by
  simp only [cc5__final_linear_kernel_eq_skeleton]; unfold cc5__final_linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-! ## The body obligation, at a generic point -/

/-- What the body is called with at point `t` (the body obligation's precondition, the windows one by one), -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the inputs' memrefs hold their blocks (`before5_W`), so `sound_kernel5` applies; the
    invariant and the core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ (grid5.coords t) _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation5 (c : Dev nD) : BodyObligation (dat5 (F := F) V c) (defs₀ (F := F)) Variants.none () Set.univ := fun t => by
  rw [bigSep_W5, bigSep_W5]
  exact sound_body5 V c t

end Region

end Cert.KernelIdeal.Hand

end
-- ==== Proof.KernelIdeal.Shared1.lean ====
import proofs.«121001_j68573447848158_1_alg».proof.Proof.Gen.KernelIdeal.Launch
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

/-! # Region 1: one array behind two input windows

Windows 0 and 1 of region 1 both read the array `main_v5`, so the eight windows sit on seven distinct buffers.
The core's unscoped buffers are those seven, each whole at the full share, and the rest; the full share of
`main_v5` is dealt to windows 0 and 1 as its left and right halves, and joined back when the region is left. -/

/-- Windows 0 and 1 read one array. -/
theorem arrRef1_1 : Pipeline.arrRef spec1 1 = Pipeline.arrRef spec1 0 := by decide

/-- The seven distinct buffers behind the eight windows, listed by a window on each (window 1's is window 0's). -/
theorem arrImage1 : Finset.univ.image (Pipeline.arrRef spec1)
    = ([Pipeline.arrRef spec1 0, Pipeline.arrRef spec1 2, Pipeline.arrRef spec1 3, Pipeline.arrRef spec1 4, Pipeline.arrRef spec1 5, Pipeline.arrRef spec1 6, Pipeline.arrRef spec1 7] : List (Ref sig .tc)).toFinset := by decide

/-- Those buffers, each whole at the full share at contents `V`, one by one. -/
theorem arrBufs1_eq (c : Dev nD) (V : (b : Ref sig .tc) → Buf (Elt F) ((c : Thread nD τ).loc b)) :
    (Pipeline.arrBufs (Ix := Unit) (Name := ℕ) (U := Pipeline.UD sig nD τ) (Lvl := ℕ) spec1 c V : sProp 𝕄)
      = iprop((((c : Thread nD τ).loc (Pipeline.arrRef spec1 0)) ↦{fullShare} V (Pipeline.arrRef spec1 0))
          ∗ (((c : Thread nD τ).loc (Pipeline.arrRef spec1 2)) ↦{fullShare} V (Pipeline.arrRef spec1 2))
          ∗ (((c : Thread nD τ).loc (Pipeline.arrRef spec1 3)) ↦{fullShare} V (Pipeline.arrRef spec1 3))
          ∗ (((c : Thread nD τ).loc (Pipeline.arrRef spec1 4)) ↦{fullShare} V (Pipeline.arrRef spec1 4))
          ∗ (((c : Thread nD τ).loc (Pipeline.arrRef spec1 5)) ↦{fullShare} V (Pipeline.arrRef spec1 5))
          ∗ (((c : Thread nD τ).loc (Pipeline.arrRef spec1 6)) ↦{fullShare} V (Pipeline.arrRef spec1 6))
          ∗ (((c : Thread nD τ).loc (Pipeline.arrRef spec1 7)) ↦{fullShare} V (Pipeline.arrRef spec1 7))) := by
  unfold Pipeline.arrBufs
  rw [BI.bigSep_eq_bigSepL_of_eq [Pipeline.arrRef spec1 0, Pipeline.arrRef spec1 2, Pipeline.arrRef spec1 3, Pipeline.arrRef spec1 4, Pipeline.arrRef spec1 5, Pipeline.arrRef spec1 6, Pipeline.arrRef spec1 7] arrImage1 (by decide)]; rfl

/-- The share the core holds each window's array at, window by window: the left and right halves of the full share
    for the two windows on `main_v5`, the full share for every other. -/
theorem share1 (c : Dev nD) (dat : Dat τ (Elt F) Unit ℕ (Pipeline.UD sig nD τ) ℕ cfg1 c)
    (hq0 : dat.q 0 = fullShare.left) (hq1 : dat.q 1 = fullShare.right) (hq : ∀ w : Fin cfg1.W, 2 ≤ w.val → dat.q w = fullShare) :
    dat.share 0 = fullShare.left ∧ dat.share 1 = fullShare.right ∧ dat.share 2 = fullShare ∧ dat.share 3 = fullShare
      ∧ dat.share 4 = fullShare ∧ dat.share 5 = fullShare ∧ dat.share 6 = fullShare ∧ dat.share 7 = fullShare := by
  refine ⟨?_, ?_, ?_, ?_, ?_, ?_, ?_, ?_⟩
  · exact (if_neg (by decide)).trans hq0
  · exact (if_neg (by decide)).trans hq1
  · exact (if_neg (by decide)).trans (hq 2 (by decide))
  · exact (if_neg (by decide)).trans (hq 3 (by decide))
  · exact (if_neg (by decide)).trans (hq 4 (by decide))
  · exact (if_neg (by decide)).trans (hq 5 (by decide))
  · exact (if_neg (by decide)).trans (hq 6 (by decide))
  · exact if_pos (by decide)

/-- One window's conjunct of the pipeline's arrays: its array is a whole buffer, so the points-to on the array's
    element set is the points-to on the whole buffer behind it, at the window's share. -/
theorem arr_pt1 (c : Dev nD) (dat : Dat τ (Elt F) Unit ℕ (Pipeline.UD sig nD τ) ℕ cfg1 c)
    (G : (w : Fin cfg1.W) → Buf (Elt F) ((cfg1.win w).arr.view.loc (c : Thread nD τ))) (w : Fin cfg1.W) (q : PosShare TreeShare)
    (h : dat.share w = q) :
    ((cfg1.win w).arr.view.loc (c : Thread nD τ) ↦[(cfg1.win w).arr.view.set]{dat.share w} G w : sProp 𝕄)
      = (((c : Thread nD τ).loc (Pipeline.arrRef spec1 w)) ↦{q} G w) := by
  rw [(arr_whole1 w).set_eq_univ, h]

set_option maxHeartbeats 1000000 in
/-- The pipeline's arrays at contents `G`, window by window: each a whole buffer, held at its window's share. -/
theorem arrays1_eq (c : Dev nD) (dat : Dat τ (Elt F) Unit ℕ (Pipeline.UD sig nD τ) ℕ cfg1 c)
    (hq0 : dat.q 0 = fullShare.left) (hq1 : dat.q 1 = fullShare.right) (hq : ∀ w : Fin cfg1.W, 2 ≤ w.val → dat.q w = fullShare)
    (G : (w : Fin cfg1.W) → Buf (Elt F) ((cfg1.win w).arr.view.loc (c : Thread nD τ))) :
    (dat.arrays G : sProp 𝕄)
      = iprop((((c : Thread nD τ).loc (Pipeline.arrRef spec1 0)) ↦{fullShare.left} G 0) ∗ (((c : Thread nD τ).loc (Pipeline.arrRef spec1 1)) ↦{fullShare.right} G 1)
          ∗ (((c : Thread nD τ).loc (Pipeline.arrRef spec1 2)) ↦{fullShare} G 2)
          ∗ (((c : Thread nD τ).loc (Pipeline.arrRef spec1 3)) ↦{fullShare} G 3)
          ∗ (((c : Thread nD τ).loc (Pipeline.arrRef spec1 4)) ↦{fullShare} G 4)
          ∗ (((c : Thread nD τ).loc (Pipeline.arrRef spec1 5)) ↦{fullShare} G 5)
          ∗ (((c : Thread nD τ).loc (Pipeline.arrRef spec1 6)) ↦{fullShare} G 6)
          ∗ (((c : Thread nD τ).loc (Pipeline.arrRef spec1 7)) ↦{fullShare} G 7)) := by
  obtain ⟨h0, h1, h2, h3, h4, h5, h6, h7⟩ := share1 c dat hq0 hq1 hq
  unfold Dat.arrays
  refine (bigSep_W1 _).trans ?_
  exact congrArg₂ _ (arr_pt1 c dat G 0 _ h0) (congrArg₂ _ (arr_pt1 c dat G 1 _ h1) (congrArg₂ _ (arr_pt1 c dat G 2 _ h2)
    (congrArg₂ _ (arr_pt1 c dat G 3 _ h3) (congrArg₂ _ (arr_pt1 c dat G 4 _ h4) (congrArg₂ _ (arr_pt1 c dat G 5 _ h5)
    (congrArg₂ _ (arr_pt1 c dat G 6 _ h6) (arr_pt1 c dat G 7 _ h7)))))))

/-- The two halves of a buffer's full share, held at the contents a valuation gives two references that are one. -/
theorem halves1 (c : Dev nD) (V : (b : Ref sig .tc) → Buf (Elt F) ((c : Thread nD τ).loc b)) {b b' : Ref sig .tc} (e : b' = b) :
    ((((c : Thread nD τ).loc b) ↦{fullShare} V b : sProp 𝕄))
      ⊣⊢ iprop((((c : Thread nD τ).loc b) ↦{fullShare.left} V b) ∗ (((c : Thread nD τ).loc b') ↦{fullShare.right} V b')) := by
  subst e; exact pointsTo_share (PosShare.mem_left_op_right fullShare)

set_option maxHeartbeats 1000000 in
/-- ENTRY, the arrays' part: the core's unscoped buffers at contents `V` are region 1's arrays at the proof data's entry
    contents — read off `V` (`hA`) — and the unscoped rest. The full share of `main_v5` is split into its halves, one for
    each of the two windows that read it; the six other arrays go to their windows whole. -/
theorem entry1 (c : Dev nD) (dat : Dat τ (Elt F) Unit ℕ (Pipeline.UD sig nD τ) ℕ cfg1 c)
    (hq0 : dat.q 0 = fullShare.left) (hq1 : dat.q 1 = fullShare.right) (hq : ∀ w : Fin cfg1.W, 2 ≤ w.val → dat.q w = fullShare)
    (V : (b : Ref sig .tc) → Buf (Elt F) ((c : Thread nD τ).loc b)) (hA : ∀ w, dat.A w = V (Pipeline.arrRef spec1 w)) :
    (unscopedBufs c V : sProp 𝕄) ⊢ iprop(dat.arrays (dat.arrAt · 0) ∗ Pipeline.unscopedRest spec1 c V) := by
  have hG : (fun w => dat.arrAt w 0) = fun w => V (Pipeline.arrRef spec1 w) := funext hA
  have hs : (unscopedBufs c V : sProp 𝕄) = iprop(Pipeline.arrBufs spec1 c V ∗ Pipeline.unscopedRest spec1 c V) :=
    Pipeline.unscopedBufs_split₀ cfgs 1 winFacts₀1.arr_unscoped c V
  rw [hG, hs, arrBufs1_eq, arrays1_eq c dat hq0 hq1 hq]
  iintro ⟨⟨H0, H2, H3, H4, H5, H6, H7⟩, Hrest⟩
  ihave H0' := (halves1 c V arrRef1_1).1 $$ H0
  icases H0' with ⟨H0l, H0r⟩
  isplitr [Hrest]
  · isplitl [H0l]; · iexact H0l
    isplitl [H0r]; · iexact H0r
    isplitl [H2]; · iexact H2
    isplitl [H3]; · iexact H3
    isplitl [H4]; · iexact H4
    isplitl [H5]; · iexact H5
    isplitl [H6]; · iexact H6
    iexact H7
  iexact Hrest

set_option maxHeartbeats 1000000 in
/-- EXIT, the arrays' part: region 1's arrays at contents `G` and the unscoped rest at `V` are the core's unscoped
    buffers at any valuation `V'` that has each window's array at `G` (`hF`: for the two windows on `main_v5`, the same
    contents) and agrees with `V` off the arrays. The two halves of `main_v5`'s share are joined back into the full share. -/
theorem exit1 (c : Dev nD) (dat : Dat τ (Elt F) Unit ℕ (Pipeline.UD sig nD τ) ℕ cfg1 c)
    (hq0 : dat.q 0 = fullShare.left) (hq1 : dat.q 1 = fullShare.right) (hq : ∀ w : Fin cfg1.W, 2 ≤ w.val → dat.q w = fullShare)
    (V V' : (b : Ref sig .tc) → Buf (Elt F) ((c : Thread nD τ).loc b))
    (G : (w : Fin cfg1.W) → Buf (Elt F) ((cfg1.win w).arr.view.loc (c : Thread nD τ)))
    (hF : ∀ w, G w = V' (Pipeline.arrRef spec1 w))
    (hrest : ∀ b, b ∉ Finset.univ.image (Pipeline.arrRef spec1) → V' b = V b) :
    iprop(dat.arrays G ∗ Pipeline.unscopedRest spec1 c V) ⊢ (unscopedBufs c V' : sProp 𝕄) := by
  obtain rfl : G = fun w => V' (Pipeline.arrRef spec1 w) := funext hF
  have hs : (unscopedBufs c V' : sProp 𝕄) = iprop(Pipeline.arrBufs spec1 c V' ∗ Pipeline.unscopedRest spec1 c V') :=
    Pipeline.unscopedBufs_split₀ cfgs 1 winFacts₀1.arr_unscoped c V'
  have hr : (Pipeline.unscopedRest (Ix := Unit) (Name := ℕ) (U := Pipeline.UD sig nD τ) (Lvl := ℕ) spec1 c V : sProp 𝕄)
      = Pipeline.unscopedRest spec1 c V' := by
    unfold Pipeline.unscopedRest
    exact bigSep_congr fun b hb => by rw [hrest b (Finset.mem_sdiff.mp hb).2]
  rw [hs, hr, arrBufs1_eq, arrays1_eq c dat hq0 hq1 hq]
  iintro ⟨⟨H0l, H0r, H2, H3, H4, H5, H6, H7⟩, Hrest⟩
  isplitr [Hrest]
  · isplitl [H0l H0r]
    · iapply (halves1 c V' arrRef1_1).2
      isplitl [H0l]; · iexact H0l
      iexact H0r
    isplitl [H2]; · iexact H2
    isplitl [H3]; · iexact H3
    isplitl [H4]; · iexact H4
    isplitl [H5]; · iexact H5
    isplitl [H6]; · iexact H6
    iexact H7
  iexact Hrest

end Cert.KernelIdeal.Hand
-- ==== Proof.KernelIdeal.Run.lean ====
/- THE RUN of @main: the frame of the program over the generated conditional frame (`Gen.frame_cond`).
   The contents of the unscoped buffers at every boundary between @main's items are a fold from the launch memory
   (`W0` … `W13`): a host stretch takes them to `StableHlo.after` of its operations, a region leaves every buffer as it
   found it except its output array, which ends at what the pipeline's write-backs leave (`Dat.arrAt … N`). Choosing the
   conditional frame's unknowns `outs` as the fold's values makes its boundary valuations the fold (`V_eq_J`). Each
   region is then a segment record over the thread state "every unscoped buffer at the boundary's contents, the
   generator register at some state, nothing owed": the region's arrays are split out of the unscoped buffers at the
   entry and put back at the exit contents; region 1, whose first two windows read ONE array, takes each half of that
   array's buffer and joins the halves again. The launch element is the pipeline library's beside the unit; no level is
   assigned; no core owes anything. -/
import proofs.«121001_j68573447848158_1_alg».proof.Proof.Gen.KernelIdeal.Launch
import proofs.«121001_j68573447848158_1_alg».proof.Proof.Gen.KernelIdeal.Skeleton
import proofs.«121001_j68573447848158_1_alg».proof.Proof.Gen.KernelIdeal.Points
import proofs.«121001_j68573447848158_1_alg».proof.Proof.Gen.KernelIdeal.Regions
import proofs.«121001_j68573447848158_1_alg».proof.Proof.KernelIdeal.Reg0
import proofs.«121001_j68573447848158_1_alg».proof.Proof.KernelIdeal.Reg1
import proofs.«121001_j68573447848158_1_alg».proof.Proof.KernelIdeal.Reg2
import proofs.«121001_j68573447848158_1_alg».proof.Proof.KernelIdeal.Reg3
import proofs.«121001_j68573447848158_1_alg».proof.Proof.KernelIdeal.Reg4
import proofs.«121001_j68573447848158_1_alg».proof.Proof.KernelIdeal.Reg5
import proofs.«121001_j68573447848158_1_alg».proof.Proof.KernelIdeal.Shared1
import proofs.«121001_j68573447848158_1_alg».proof.Proof.KernelIdeal.FrameCondNamed
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- decided facts over the windows of a region recurse past the default depth
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ)

/-! # The run: the contents of the unscoped buffers at every boundary of @main, as a fold from the launch memory

A host stretch takes the contents to `StableHlo.after` of its operations; a region leaves every buffer as it found it
except its output array, which ends at what the pipeline's write-backs leave (`Dat.arrAt … N`). -/

/-- Core `c`'s unscoped buffers at launch. -/
abbrev W0 (c : Dev nD) : Valuation τ sig (Elt F) := fun b => m (c, b)
/-- After the host stretch `hostOps0`: region 0's entry contents. -/
def W1 (c : Dev nD) : Valuation τ sig (Elt F) := StableHlo.after hostOps0 (W0 m c)
/-- After region 0: its output array `main_v5` at what the write-backs leave, every other buffer as entered. -/
def W2 (c : Dev nD) : Valuation τ sig (Elt F) :=
  Function.update (W1 m c) (Proc.devRef .tc main_v5) ((dat0 (fun c b => W1 m c b) c).arrAt 3 cfg0.N)
theorem W_out_0 (c : Dev nD) : W2 m c (Proc.devRef .tc main_v5) = (dat0 (fun c b => W1 m c b) c).arrAt 3 cfg0.N := by
  unfold W2; exact Function.update_self _ _ _
theorem W_keep_0 (c : Dev nD) (b : Ref sig .tc) (hb : b ≠ main_v5) : W2 m c (Proc.devRef .tc b) = W1 m c (Proc.devRef .tc b) := by
  unfold W2; exact Function.update_of_ne (StableHlo.devRef_ne_of_ne hb) _ _
/-- After the host stretch `hostOps1`: region 1's entry contents. -/
def W3 (c : Dev nD) : Valuation τ sig (Elt F) := StableHlo.after hostOps1 (W2 m c)
/-- After region 1: its output array `main_v26` at what the write-backs leave, every other buffer as entered. -/
def W4 (c : Dev nD) : Valuation τ sig (Elt F) :=
  Function.update (W3 m c) (Proc.devRef .tc main_v26) ((dat1 (fun c b => W3 m c b) c).arrAt 7 cfg1.N)
theorem W_out_1 (c : Dev nD) : W4 m c (Proc.devRef .tc main_v26) = (dat1 (fun c b => W3 m c b) c).arrAt 7 cfg1.N := by
  unfold W4; exact Function.update_self _ _ _
theorem W_keep_1 (c : Dev nD) (b : Ref sig .tc) (hb : b ≠ main_v26) : W4 m c (Proc.devRef .tc b) = W3 m c (Proc.devRef .tc b) := by
  unfold W4; exact Function.update_of_ne (StableHlo.devRef_ne_of_ne hb) _ _
/-- After the host stretch `hostOps2`: region 2's entry contents. -/
def W5 (c : Dev nD) : Valuation τ sig (Elt F) := StableHlo.after hostOps2 (W4 m c)
/-- After region 2: its output array `main_v47` at what the write-backs leave, every other buffer as entered. -/
def W6 (c : Dev nD) : Valuation τ sig (Elt F) :=
  Function.update (W5 m c) (Proc.devRef .tc main_v47) ((dat2 (fun c b => W5 m c b) c).arrAt 7 cfg2.N)
theorem W_out_2 (c : Dev nD) : W6 m c (Proc.devRef .tc main_v47) = (dat2 (fun c b => W5 m c b) c).arrAt 7 cfg2.N := by
  unfold W6; exact Function.update_self _ _ _
theorem W_keep_2 (c : Dev nD) (b : Ref sig .tc) (hb : b ≠ main_v47) : W6 m c (Proc.devRef .tc b) = W5 m c (Proc.devRef .tc b) := by
  unfold W6; exact Function.update_of_ne (StableHlo.devRef_ne_of_ne hb) _ _
/-- After the host stretch `hostOps3`: region 3's entry contents. -/
def W7 (c : Dev nD) : Valuation τ sig (Elt F) := StableHlo.after hostOps3 (W6 m c)
/-- After region 3: its output array `main_v68` at what the write-backs leave, every other buffer as entered. -/
def W8 (c : Dev nD) : Valuation τ sig (Elt F) :=
  Function.update (W7 m c) (Proc.devRef .tc main_v68) ((dat3 (fun c b => W7 m c b) c).arrAt 7 cfg3.N)
theorem W_out_3 (c : Dev nD) : W8 m c (Proc.devRef .tc main_v68) = (dat3 (fun c b => W7 m c b) c).arrAt 7 cfg3.N := by
  unfold W8; exact Function.update_self _ _ _
theorem W_keep_3 (c : Dev nD) (b : Ref sig .tc) (hb : b ≠ main_v68) : W8 m c (Proc.devRef .tc b) = W7 m c (Proc.devRef .tc b) := by
  unfold W8; exact Function.update_of_ne (StableHlo.devRef_ne_of_ne hb) _ _
/-- After the host stretch `hostOps4`: region 4's entry contents. -/
def W9 (c : Dev nD) : Valuation τ sig (Elt F) := StableHlo.after hostOps4 (W8 m c)
/-- After region 4: its output array `main_v89` at what the write-backs leave, every other buffer as entered. -/
def W10 (c : Dev nD) : Valuation τ sig (Elt F) :=
  Function.update (W9 m c) (Proc.devRef .tc main_v89) ((dat4 (fun c b => W9 m c b) c).arrAt 7 cfg4.N)
theorem W_out_4 (c : Dev nD) : W10 m c (Proc.devRef .tc main_v89) = (dat4 (fun c b => W9 m c b) c).arrAt 7 cfg4.N := by
  unfold W10; exact Function.update_self _ _ _
theorem W_keep_4 (c : Dev nD) (b : Ref sig .tc) (hb : b ≠ main_v89) : W10 m c (Proc.devRef .tc b) = W9 m c (Proc.devRef .tc b) := by
  unfold W10; exact Function.update_of_ne (StableHlo.devRef_ne_of_ne hb) _ _
/-- After the host stretch `hostOps5`: region 5's entry contents. -/
def W11 (c : Dev nD) : Valuation τ sig (Elt F) := StableHlo.after hostOps5 (W10 m c)
/-- After region 5: its output array `main_v94` at what the write-backs leave, every other buffer as entered. -/
def W12 (c : Dev nD) : Valuation τ sig (Elt F) :=
  Function.update (W11 m c) (Proc.devRef .tc main_v94) ((dat5 (fun c b => W11 m c b) c).arrAt 3 cfg5.N)
theorem W_out_5 (c : Dev nD) : W12 m c (Proc.devRef .tc main_v94) = (dat5 (fun c b => W11 m c b) c).arrAt 3 cfg5.N := by
  unfold W12; exact Function.update_self _ _ _
theorem W_keep_5 (c : Dev nD) (b : Ref sig .tc) (hb : b ≠ main_v94) : W12 m c (Proc.devRef .tc b) = W11 m c (Proc.devRef .tc b) := by
  unfold W12; exact Function.update_of_ne (StableHlo.devRef_ne_of_ne hb) _ _
/-- After the last host stretch `hostOps6`: the contents at the return. -/
def W13 (c : Dev nD) : Valuation τ sig (Elt F) := StableHlo.after hostOps6 (W12 m c)

/-- What each region leaves in the buffer it may change, read off the fold: the unknowns of the generated conditional frame. -/
def outs : Gen.Outs (F := F) := fun J r c =>
  match J with
  | 2 => W2 m c (Proc.devRef .tc r)
  | 4 => W4 m c (Proc.devRef .tc r)
  | 6 => W6 m c (Proc.devRef .tc r)
  | 8 => W8 m c (Proc.devRef .tc r)
  | 10 => W10 m c (Proc.devRef .tc r)
  | 12 => W12 m c (Proc.devRef .tc r)
  | _ => W0 m c (Proc.devRef .tc r)

/-! ## The generated boundary valuations at these unknowns are the fold -/

theorem V_eq_1 (c : Dev nD) : Gen.V1 m c = W1 m c := rfl
theorem V_eq_2 (c : Dev nD) : Gen.V2 m (outs m) c = W2 m c := by
  show Function.update (Gen.V1 m c) (Proc.devRef .tc main_v5) (outs m 2 main_v5 c) = _
  rw [V_eq_1, show outs m 2 main_v5 c = W2 m c (Proc.devRef .tc main_v5) from rfl, W_out_0]; rfl
theorem V_eq_3 (c : Dev nD) : Gen.V3 m (outs m) c = W3 m c := by
  show StableHlo.after hostOps1 (Gen.V2 m (outs m) c) = _
  rw [V_eq_2]; rfl
theorem V_eq_4 (c : Dev nD) : Gen.V4 m (outs m) c = W4 m c := by
  show Function.update (Gen.V3 m (outs m) c) (Proc.devRef .tc main_v26) (outs m 4 main_v26 c) = _
  rw [V_eq_3, show outs m 4 main_v26 c = W4 m c (Proc.devRef .tc main_v26) from rfl, W_out_1]; rfl
theorem V_eq_5 (c : Dev nD) : Gen.V5 m (outs m) c = W5 m c := by
  show StableHlo.after hostOps2 (Gen.V4 m (outs m) c) = _
  rw [V_eq_4]; rfl
theorem V_eq_6 (c : Dev nD) : Gen.V6 m (outs m) c = W6 m c := by
  show Function.update (Gen.V5 m (outs m) c) (Proc.devRef .tc main_v47) (outs m 6 main_v47 c) = _
  rw [V_eq_5, show outs m 6 main_v47 c = W6 m c (Proc.devRef .tc main_v47) from rfl, W_out_2]; rfl
theorem V_eq_7 (c : Dev nD) : Gen.V7 m (outs m) c = W7 m c := by
  show StableHlo.after hostOps3 (Gen.V6 m (outs m) c) = _
  rw [V_eq_6]; rfl
theorem V_eq_8 (c : Dev nD) : Gen.V8 m (outs m) c = W8 m c := by
  show Function.update (Gen.V7 m (outs m) c) (Proc.devRef .tc main_v68) (outs m 8 main_v68 c) = _
  rw [V_eq_7, show outs m 8 main_v68 c = W8 m c (Proc.devRef .tc main_v68) from rfl, W_out_3]; rfl
theorem V_eq_9 (c : Dev nD) : Gen.V9 m (outs m) c = W9 m c := by
  show StableHlo.after hostOps4 (Gen.V8 m (outs m) c) = _
  rw [V_eq_8]; rfl
theorem V_eq_10 (c : Dev nD) : Gen.V10 m (outs m) c = W10 m c := by
  show Function.update (Gen.V9 m (outs m) c) (Proc.devRef .tc main_v89) (outs m 10 main_v89 c) = _
  rw [V_eq_9, show outs m 10 main_v89 c = W10 m c (Proc.devRef .tc main_v89) from rfl, W_out_4]; rfl
theorem V_eq_11 (c : Dev nD) : Gen.V11 m (outs m) c = W11 m c := by
  show StableHlo.after hostOps5 (Gen.V10 m (outs m) c) = _
  rw [V_eq_10]; rfl
theorem V_eq_12 (c : Dev nD) : Gen.V12 m (outs m) c = W12 m c := by
  show Function.update (Gen.V11 m (outs m) c) (Proc.devRef .tc main_v94) (outs m 12 main_v94 c) = _
  rw [V_eq_11, show outs m 12 main_v94 c = W12 m c (Proc.devRef .tc main_v94) from rfl, W_out_5]; rfl
theorem V_eq_13 (c : Dev nD) : Gen.V13 m (outs m) c = W13 m c := by
  show StableHlo.after hostOps6 (Gen.V12 m (outs m) c) = _
  rw [V_eq_12]; rfl

/-! ## At a region's exit each of its arrays holds what the pipeline leaves, every other buffer what it held at entry -/

theorem hF0 (c : Dev nD) (w : Fin cfg0.W) : (dat0 (fun c b => W1 m c b) c).arrAt w cfg0.N = W2 m c (Proc.devRef .tc (Pipeline.arrRef spec0 w)) := by
  by_cases h : w = 3
  · subst h; exact (W_out_0 m c).symm
  · -- an input window: its array is never written, and is not the output's
    have hin : (cfg0.win w).isOut = false := by revert w; decide
    have hne : Pipeline.arrRef spec0 w ≠ main_v5 := by revert w; decide
    exact ((dat0 (fun c b => W1 m c b) c).arrAt_in w hin _).trans ((A_eq0 (fun c b => W1 m c b) c w).trans (W_keep_0 m c _ hne).symm)
theorem hrest0 (c : Dev nD) : ∀ b, b ∉ Finset.univ.image (Pipeline.arrRef spec0) → W2 m c (Proc.devRef .tc b) = W1 m c (Proc.devRef .tc b) :=
  fun b hb => W_keep_0 m c b fun e => hb (by subst e; exact Finset.mem_image.mpr ⟨3, Finset.mem_univ _, rfl⟩)

theorem hF1 (c : Dev nD) (w : Fin cfg1.W) : (dat1 (fun c b => W3 m c b) c).arrAt w cfg1.N = W4 m c (Proc.devRef .tc (Pipeline.arrRef spec1 w)) := by
  by_cases h : w = 7
  · subst h; exact (W_out_1 m c).symm
  · -- an input window: its array is never written, and is not the output's
    have hin : (cfg1.win w).isOut = false := by revert w; decide
    have hne : Pipeline.arrRef spec1 w ≠ main_v26 := by revert w; decide
    exact ((dat1 (fun c b => W3 m c b) c).arrAt_in w hin _).trans ((A_eq1 (fun c b => W3 m c b) c w).trans (W_keep_1 m c _ hne).symm)
theorem hrest1 (c : Dev nD) : ∀ b, b ∉ Finset.univ.image (Pipeline.arrRef spec1) → W4 m c (Proc.devRef .tc b) = W3 m c (Proc.devRef .tc b) :=
  fun b hb => W_keep_1 m c b fun e => hb (by subst e; exact Finset.mem_image.mpr ⟨7, Finset.mem_univ _, rfl⟩)

theorem hF2 (c : Dev nD) (w : Fin cfg2.W) : (dat2 (fun c b => W5 m c b) c).arrAt w cfg2.N = W6 m c (Proc.devRef .tc (Pipeline.arrRef spec2 w)) := by
  by_cases h : w = 7
  · subst h; exact (W_out_2 m c).symm
  · -- an input window: its array is never written, and is not the output's
    have hin : (cfg2.win w).isOut = false := by revert w; decide
    have hne : Pipeline.arrRef spec2 w ≠ main_v47 := by revert w; decide
    exact ((dat2 (fun c b => W5 m c b) c).arrAt_in w hin _).trans ((A_eq2 (fun c b => W5 m c b) c w).trans (W_keep_2 m c _ hne).symm)
theorem hrest2 (c : Dev nD) : ∀ b, b ∉ Finset.univ.image (Pipeline.arrRef spec2) → W6 m c (Proc.devRef .tc b) = W5 m c (Proc.devRef .tc b) :=
  fun b hb => W_keep_2 m c b fun e => hb (by subst e; exact Finset.mem_image.mpr ⟨7, Finset.mem_univ _, rfl⟩)

theorem hF3 (c : Dev nD) (w : Fin cfg3.W) : (dat3 (fun c b => W7 m c b) c).arrAt w cfg3.N = W8 m c (Proc.devRef .tc (Pipeline.arrRef spec3 w)) := by
  by_cases h : w = 7
  · subst h; exact (W_out_3 m c).symm
  · -- an input window: its array is never written, and is not the output's
    have hin : (cfg3.win w).isOut = false := by revert w; decide
    have hne : Pipeline.arrRef spec3 w ≠ main_v68 := by revert w; decide
    exact ((dat3 (fun c b => W7 m c b) c).arrAt_in w hin _).trans ((A_eq3 (fun c b => W7 m c b) c w).trans (W_keep_3 m c _ hne).symm)
theorem hrest3 (c : Dev nD) : ∀ b, b ∉ Finset.univ.image (Pipeline.arrRef spec3) → W8 m c (Proc.devRef .tc b) = W7 m c (Proc.devRef .tc b) :=
  fun b hb => W_keep_3 m c b fun e => hb (by subst e; exact Finset.mem_image.mpr ⟨7, Finset.mem_univ _, rfl⟩)

theorem hF4 (c : Dev nD) (w : Fin cfg4.W) : (dat4 (fun c b => W9 m c b) c).arrAt w cfg4.N = W10 m c (Proc.devRef .tc (Pipeline.arrRef spec4 w)) := by
  by_cases h : w = 7
  · subst h; exact (W_out_4 m c).symm
  · -- an input window: its array is never written, and is not the output's
    have hin : (cfg4.win w).isOut = false := by revert w; decide
    have hne : Pipeline.arrRef spec4 w ≠ main_v89 := by revert w; decide
    exact ((dat4 (fun c b => W9 m c b) c).arrAt_in w hin _).trans ((A_eq4 (fun c b => W9 m c b) c w).trans (W_keep_4 m c _ hne).symm)
theorem hrest4 (c : Dev nD) : ∀ b, b ∉ Finset.univ.image (Pipeline.arrRef spec4) → W10 m c (Proc.devRef .tc b) = W9 m c (Proc.devRef .tc b) :=
  fun b hb => W_keep_4 m c b fun e => hb (by subst e; exact Finset.mem_image.mpr ⟨7, Finset.mem_univ _, rfl⟩)

theorem hF5 (c : Dev nD) (w : Fin cfg5.W) : (dat5 (fun c b => W11 m c b) c).arrAt w cfg5.N = W12 m c (Proc.devRef .tc (Pipeline.arrRef spec5 w)) := by
  by_cases h : w = 3
  · subst h; exact (W_out_5 m c).symm
  · -- an input window: its array is never written, and is not the output's
    have hin : (cfg5.win w).isOut = false := by revert w; decide
    have hne : Pipeline.arrRef spec5 w ≠ main_v94 := by revert w; decide
    exact ((dat5 (fun c b => W11 m c b) c).arrAt_in w hin _).trans ((A_eq5 (fun c b => W11 m c b) c w).trans (W_keep_5 m c _ hne).symm)
theorem hrest5 (c : Dev nD) : ∀ b, b ∉ Finset.univ.image (Pipeline.arrRef spec5) → W12 m c (Proc.devRef .tc b) = W11 m c (Proc.devRef .tc b) :=
  fun b hb => W_keep_5 m c b fun e => hb (by subst e; exact Finset.mem_image.mpr ⟨3, Finset.mem_univ _, rfl⟩)

/-! ## The proof data family and the thread state -/

/-- Every pipeline's proof data, each at its region's entry contents — a literal `match`, so that the data of a
    pipeline named by a numeral reduces to the printed configuration's. -/
def pdats : (p : Fin 6) → (c : Dev nD) → Dat τ (Elt F) Unit ℕ (Pipeline.UD sig nD τ) ℕ (Pipeline.pin (pcfgs (F := F)) Gen.adm p) c
  | ⟨0, _⟩ => fun c => dat0 (fun c b => W1 m c b) c
  | ⟨1, _⟩ => fun c => dat1 (fun c b => W3 m c b) c
  | ⟨2, _⟩ => fun c => dat2 (fun c b => W5 m c b) c
  | ⟨3, _⟩ => fun c => dat3 (fun c b => W7 m c b) c
  | ⟨4, _⟩ => fun c => dat4 (fun c b => W9 m c b) c
  | ⟨5, _⟩ => fun c => dat5 (fun c b => W11 m c b) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the region
    invariant takes it in and gives it back) and the core owing nothing. -/
abbrev R (c : Dev nD) : sProp 𝕄 := iprop((∃ r, prngReg c r) ∗ ∃ W, owes (c : Thread nD τ) (0 : CellTallies nD τ sig Unit) W)

-- a library lemma stated over the pinned configuration unifies with the printed one only when unification may unfold
-- plain definitions in a metavariable's type
set_option backward.isDefEq.respectTransparency.types false in
/-- REGION 0 over the thread state: entered from every unscoped buffer at `W1`, left at `W2`. Its arrays are split
    out of the unscoped buffers and put back at the exit contents; the generator register goes into the region
    invariant and comes back; nothing is owed; the kernel has no semaphore of its own. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (fun c b => W1 m c b) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (fun b => W1 m c b)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (fun b => W1 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := Pipeline.UD sig nD τ) (Lvl := ℕ)
      launch0.win launch0.arr_whole c (pdats m) ((pdats m 0 c).share_full fun _ => rfl)
      (fun b => W1 m c b) (fun b => W2 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 1 over the thread state: entered from every unscoped buffer at `W3`, left at `W4`. Its first two windows
    read one array, `main_v5`, each holding half of it: the array's buffer is split in two halves at the entry and joined
    again at the exit; otherwise as the other regions. -/
def reg1 : Pipeline.RegionSeg (pcfgs (F := F)) Gen.adm (pdats m) () defs₀ 𝒱₀ L lv 1 where
  win := winFacts₀1
  block_pos := block_pos1
  stage_whole := stage_whole1
  K := PEmpty
  osem k := k.elim
  ho := Pipeline.OwnSemFacts.none _
  hbody c := (body_obligation1 (fun c b => W3 m c b) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := Pipeline.UD sig nD τ) (Lvl := ℕ) spec1 c (fun b => W3 m c b)
  hentry c := by
    rw [Pipeline.ownSems0_none]
    have hsplit := entry1 c (pdats m 1 c) rfl rfl (fun w hw => by
        match w, hw with
        | ⟨0, _⟩, hw => exact absurd hw (Nat.not_succ_le_zero 1)
        | ⟨1, _⟩, hw => exact absurd hw (Nat.not_succ_le_self 1)
        | ⟨2, _⟩, _ => rfl
        | ⟨3, _⟩, _ => rfl
        | ⟨4, _⟩, _ => rfl
        | ⟨5, _⟩, _ => rfl
        | ⟨6, _⟩, _ => rfl
        | ⟨7, _⟩, _ => rfl
        | ⟨_ + 8, h⟩, _ => exact absurd h (Nat.not_lt.2 (Nat.le_add_left _ _)))
      (fun b => W3 m c b) fun w => A_eq1 (fun c b => W3 m c b) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 c (pdats m 1 c) rfl rfl (fun w hw => by
        match w, hw with
        | ⟨0, _⟩, hw => exact absurd hw (Nat.not_succ_le_zero 1)
        | ⟨1, _⟩, hw => exact absurd hw (Nat.not_succ_le_self 1)
        | ⟨2, _⟩, _ => rfl
        | ⟨3, _⟩, _ => rfl
        | ⟨4, _⟩, _ => rfl
        | ⟨5, _⟩, _ => rfl
        | ⟨6, _⟩, _ => rfl
        | ⟨7, _⟩, _ => rfl
        | ⟨_ + 8, h⟩, _ => exact absurd h (Nat.not_lt.2 (Nat.le_add_left _ _)))
      (fun b => W3 m c b) (fun b => W4 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 2 over the thread state: entered from every unscoped buffer at `W5`, left at `W6`. Its arrays are split
    out of the unscoped buffers and put back at the exit contents; the generator register goes into the region
    invariant and comes back; nothing is owed; the kernel has no semaphore of its own. -/
def reg2 : Pipeline.RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (fun c b => W5 m c b) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := Pipeline.UD sig nD τ) (Lvl := ℕ) spec2 c (fun b => W5 m c b)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (fun b => W5 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := Pipeline.UD sig nD τ) (Lvl := ℕ)
      launch2.win launch2.arr_whole c (pdats m) ((pdats m 2 c).share_full fun _ => rfl)
      (fun b => W5 m c b) (fun b => W6 m c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 3 over the thread state: entered from every unscoped buffer at `W7`, left at `W8`. Its arrays are split
    out of the unscoped buffers and put back at the exit contents; the generator register goes into the region
    invariant and comes back; nothing is owed; the kernel has no semaphore of its own. -/
def reg3 : Pipeline.RegionSeg (pcfgs (F := F)) Gen.adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (fun c b => W7 m c b) c).loose
  hwaits := Pipeline.hwaits_of_owed_zero _ _ _ _ L lv 3 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := Pipeline.UD sig nD τ) (Lvl := ℕ) spec3 c (fun b => W7 m c b)
  hentry c := by
    rw [Pipeline.ownSems0_none]
    have hsplit := Pipeline.arrays_of_unscopedBufs (p := 3) (pcfgs (F := F)) Gen.adm (pdats m) launch3.win launch3.arr_whole c
      ((pdats m 3 c).share_full fun _ => rfl) (fun b => W7 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) Gen.adm (Ix := Unit) (Name := ℕ) (U := Pipeline.UD sig nD τ) (Lvl := ℕ)
      launch3.win launch3.arr_whole c (pdats m) ((pdats m 3 c).share_full fun _ => rfl)
      (fun b => W7 m c b) (fun b => W8 m c b) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 4 over the thread state: entered from every unscoped buffer at `W9`, left at `W10`. Its arrays are split
    out of the unscoped buffers and put back at the exit contents; the generator register goes into the region
    invariant and comes back; nothing is owed; the kernel has no semaphore of its own. -/
def reg4 : Pipeline.RegionSeg (pcfgs (F := F)) Gen.adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (fun c b => W9 m c b) c).loose
  hwaits := Pipeline.hwaits_of_owed_zero _ _ _ _ L lv 4 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := Pipeline.UD sig nD τ) (Lvl := ℕ) spec4 c (fun b => W9 m c b)
  hentry c := by
    rw [Pipeline.ownSems0_none]
    have hsplit := Pipeline.arrays_of_unscopedBufs (p := 4) (pcfgs (F := F)) Gen.adm (pdats m) launch4.win launch4.arr_whole c
      ((pdats m 4 c).share_full fun _ => rfl) (fun b => W9 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) Gen.adm (Ix := Unit) (Name := ℕ) (U := Pipeline.UD sig nD τ) (Lvl := ℕ)
      launch4.win launch4.arr_whole c (pdats m) ((pdats m 4 c).share_full fun _ => rfl)
      (fun b => W9 m c b) (fun b => W10 m c b) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 5 over the thread state: entered from every unscoped buffer at `W11`, left at `W12`. Its arrays are split
    out of the unscoped buffers and put back at the exit contents; the generator register goes into the region
    invariant and comes back; nothing is owed; the kernel has no semaphore of its own. -/
def reg5 : Pipeline.RegionSeg (pcfgs (F := F)) Gen.adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (fun c b => W11 m c b) c).loose
  hwaits := Pipeline.hwaits_of_owed_zero _ _ _ _ L lv 5 fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := Pipeline.UD sig nD τ) (Lvl := ℕ) spec5 c (fun b => W11 m c b)
  hentry c := by
    rw [Pipeline.ownSems0_none]
    have hsplit := Pipeline.arrays_of_unscopedBufs (p := 5) (pcfgs (F := F)) Gen.adm (pdats m) launch5.win launch5.arr_whole c
      ((pdats m 5 c).share_full fun _ => rfl) (fun b => W11 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) Gen.adm (Ix := Unit) (Name := ℕ) (U := Pipeline.UD sig nD τ) (Lvl := ℕ)
      launch5.win launch5.arr_whole c (pdats m) ((pdats m 5 c).share_full fun _ => rfl)
      (fun b => W11 m c b) (fun b => W12 m c b) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The regions' thread states are the generated boundary states at the fold -/

theorem hpre0 (c : Dev nD) : iprop(StableHlo.held (c : Thread nD τ) (Pipeline.ucRefs τ sig) (Gen.V1 m c) ∗ R c) ⊢ (reg0 m).pre c := by
  rw [V_eq_1]; exact .rfl
theorem hpost0 (c : Dev nD) : (reg0 m).post c ⊢ iprop(StableHlo.held (c : Thread nD τ) (Pipeline.ucRefs τ sig) (Gen.V2 m (outs m) c) ∗ R c) := by
  rw [V_eq_2]; exact .rfl

theorem hpre1 (c : Dev nD) : iprop(StableHlo.held (c : Thread nD τ) (Pipeline.ucRefs τ sig) (Gen.V3 m (outs m) c) ∗ R c) ⊢ (reg1 m).pre c := by
  rw [V_eq_3]; exact .rfl
theorem hpost1 (c : Dev nD) : (reg1 m).post c ⊢ iprop(StableHlo.held (c : Thread nD τ) (Pipeline.ucRefs τ sig) (Gen.V4 m (outs m) c) ∗ R c) := by
  rw [V_eq_4]; exact .rfl

theorem hpre2 (c : Dev nD) : iprop(StableHlo.held (c : Thread nD τ) (Pipeline.ucRefs τ sig) (Gen.V5 m (outs m) c) ∗ R c) ⊢ (reg2 m).pre c := by
  rw [V_eq_5]; exact .rfl
theorem hpost2 (c : Dev nD) : (reg2 m).post c ⊢ iprop(StableHlo.held (c : Thread nD τ) (Pipeline.ucRefs τ sig) (Gen.V6 m (outs m) c) ∗ R c) := by
  rw [V_eq_6]; exact .rfl

theorem hpre3 (c : Dev nD) : iprop(StableHlo.held (c : Thread nD τ) (Pipeline.ucRefs τ sig) (Gen.V7 m (outs m) c) ∗ R c) ⊢ (reg3 m).pre c := by
  rw [V_eq_7]; exact .rfl
theorem hpost3 (c : Dev nD) : (reg3 m).post c ⊢ iprop(StableHlo.held (c : Thread nD τ) (Pipeline.ucRefs τ sig) (Gen.V8 m (outs m) c) ∗ R c) := by
  rw [V_eq_8]; exact .rfl

theorem hpre4 (c : Dev nD) : iprop(StableHlo.held (c : Thread nD τ) (Pipeline.ucRefs τ sig) (Gen.V9 m (outs m) c) ∗ R c) ⊢ (reg4 m).pre c := by
  rw [V_eq_9]; exact .rfl
theorem hpost4 (c : Dev nD) : (reg4 m).post c ⊢ iprop(StableHlo.held (c : Thread nD τ) (Pipeline.ucRefs τ sig) (Gen.V10 m (outs m) c) ∗ R c) := by
  rw [V_eq_10]; exact .rfl

theorem hpre5 (c : Dev nD) : iprop(StableHlo.held (c : Thread nD τ) (Pipeline.ucRefs τ sig) (Gen.V11 m (outs m) c) ∗ R c) ⊢ (reg5 m).pre c := by
  rw [V_eq_11]; exact .rfl
theorem hpost5 (c : Dev nD) : (reg5 m).post c ⊢ iprop(StableHlo.held (c : Thread nD τ) (Pipeline.ucRefs τ sig) (Gen.V12 m (outs m) c) ∗ R c) := by
  rw [V_eq_12]; exact .rfl

/-! ## The frame -/

/-- THE FRAME, at any `F`: from any memory with zero counters every weakly fair execution of @main terminates and
    every final memory holds each argument array as launched — the generated conditional frame at the fold's contents
    and the six regions' records; the launch element is the pipeline library's beside the unit, no level is assigned,
    and beside the buffers every core keeps its generator register at some state and owes nothing. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Gen.frame_cond (F := F) m (EP := embL) (ι := ()) (𝒱₀ := 𝒱₀) (L := L) (lv := lv) (hL := fun _ _ => rfl) (ρ := ρ) (outs := outs m) (pdats := pdats m)
    (O₀ := 0) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE6 := fun c => by iintro ⟨-, HO⟩; iexact HO)
    (R0 := reg0 m) (hpre0 := hpre0 m) (hpost0 := hpost0 m) (R1 := reg1 m) (hpre1 := hpre1 m) (hpost1 := hpost1 m)
    (R2 := reg2 m) (hpre2 := hpre2 m) (hpost2 := hpost2 m) (R3 := reg3 m) (hpre3 := hpre3 m) (hpost3 := hpost3 m)
    (R4 := reg4 m) (hpre4 := hpre4 m) (hpost4 := hpost4 m) (R5 := reg5 m) (hpre5 := hpre5 m) (hpost5 := hpost5 m)

/-- The frame, naming the result: every final memory moreover holds the result buffer `main_v95` at the fold's last
    contents (the generated conditional frame with the result named, its last valuation being the fold's). -/
theorem run_named (ρ : Dev nD → PrngReg) : θ_run defs (onTc (τ := τ) (main (F := F))) ⟨m, fun _ => 0, ρ⟩ (fun r => ∀ c : Dev nD,
      r.2.mem ((c.tc : Thread nD τ).loc main_v95) = W13 m c (Proc.devRef .tc main_v95)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) := by
  have h := GenP.frame_cond_named (F := F) m (EP := embL) (ι := ()) (𝒱₀ := 𝒱₀) (L := L) (lv := lv) (hL := fun _ _ => rfl) (ρ := ρ) (outs := outs m) (pdats := pdats m)
    (O₀ := 0) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE6 := fun c => by iintro ⟨-, HO⟩; iexact HO)
    (R0 := reg0 m) (hpre0 := hpre0 m) (hpost0 := hpost0 m) (R1 := reg1 m) (hpre1 := hpre1 m) (hpost1 := hpost1 m)
    (R2 := reg2 m) (hpre2 := hpre2 m) (hpost2 := hpost2 m) (R3 := reg3 m) (hpre3 := hpre3 m) (hpost3 := hpost3 m)
    (R4 := reg4 m) (hpre4 := hpre4 m) (hpost4 := hpost4 m) (R5 := reg5 m) (hpre5 := hpre5 m) (hpost5 := hpost5 m)
  -- the last generated valuation is the fold's last contents, on every core
  have hX : (fun c : Dev nD => Gen.V13 m (outs m) c) = fun c => W13 m c := funext (V_eq_13 m)
  exact (show ∀ X : Dev nD → Valuation τ sig (Elt F), X = (fun c => W13 m c) →
      θ_run defs (onTc (τ := τ) (main (F := F))) ⟨m, fun _ => 0, ρ⟩ (fun r => ∀ c : Dev nD,
        r.2.mem ((c.tc : Thread nD τ).loc main_v95) = X c (Proc.devRef .tc main_v95)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)) → _
    from fun X hX hh => by subst hX; exact hh) _ hX h

end Cert.KernelIdeal.Hand

end
-- ==== Proof.Spec.lean ====
/-
  The specification both programs are compared against, at the ideal instance (floats are extended reals,
  every operation exact): the three dense maps of a GIN network, each stated entry by entry over plain
  functions of coordinates, so that no layout (tiling, reshape, broadcast) of either program appears in it.

  * `linReluAt x w b r j = max (∑ k, x r k * w k j + b j) 0`: a linear map followed by the positive part;
  * `ginAt h h0 agg w1 b1 w2 b2 r j`: one GIN layer — the node feature plus its aggregated neighbours,
    through a two-layer perceptron (positive part between the layers), the residual `h0` added, positive part;
  * `finAt p wf bf g = ∑ k, p g k * wf k + bf`: the graph-level readout.

  The whole-array forms `linRelu`, `gin`, `fin` read an array at `(i 0, i 1)`; `net` composes them with two
  abstract maps, the neighbour aggregation `agg` (a scatter-add of gathered rows) and the graph pooling
  `pool` (a scatter-add by graph id), which both programs compute on the host by the same operations.
-/
import Idealize.ShloMosaic.PureOps.Ideal
import Idealize.ShloMosaic.Lib.ValueIdx

noncomputable section

namespace Cert.Spec

open Idealize.ShloMosaic Idealize.ShloMosaic.ValueIdx

/-- Node features, [N, 128]. -/
abbrev SNx128 (N : Nat) : Shape := ⟨2, ![N, 128]⟩

/-- `relu (x · w + b)` at row `r`, column `j`. -/
def linReluAt {N : Nat} (x : Fin N → Fin 128 → EReal) (w : Fin 128 → Fin 128 → EReal) (b : Fin 128 → EReal)
    (r : Fin N) (j : Fin 128) : EReal :=
  max ((∑ k : Fin 128, x r k * w k j) + b j) 0

/-- One GIN layer at row `r`, column `j`: `relu (relu ((h + agg) · w1 + b1) · w2 + b2 + h0)`. -/
def ginAt {N : Nat} (h h0 agg : Fin N → Fin 128 → EReal) (w1 : Fin 128 → Fin 128 → EReal) (b1 : Fin 128 → EReal)
    (w2 : Fin 128 → Fin 128 → EReal) (b2 : Fin 128 → EReal) (r : Fin N) (j : Fin 128) : EReal :=
  max (((∑ k' : Fin 128, max ((∑ k : Fin 128, (h r k + agg r k) * w1 k k') + b1 k') 0 * w2 k' j) + b2 j) + h0 r j) 0

/-- The readout at graph `g`: `p · wf + bf`. -/
def finAt {G : Nat} (p : Fin G → Fin 128 → EReal) (wf : Fin 128 → EReal) (bf : EReal) (g : Fin G) : EReal :=
  (∑ k : Fin 128, p g k * wf k) + bf

/-- The three maps on whole arrays. -/
def linRelu {N : Nat} (x : FVec Ideal (SNx128 N) .f32) (w : Fin 128 → Fin 128 → EReal) (b : Fin 128 → EReal) :
    FVec Ideal (SNx128 N) .f32 :=
  fun i => linReluAt (fun r k => x (ix2 r k)) w b (i 0) (i 1)

def gin {N : Nat} (h h0 agg : FVec Ideal (SNx128 N) .f32) (w1 : Fin 128 → Fin 128 → EReal) (b1 : Fin 128 → EReal)
    (w2 : Fin 128 → Fin 128 → EReal) (b2 : Fin 128 → EReal) : FVec Ideal (SNx128 N) .f32 :=
  fun i => ginAt (fun r k => h (ix2 r k)) (fun r k => h0 (ix2 r k)) (fun r k => agg (ix2 r k)) w1 b1 w2 b2 (i 0) (i 1)

def fin {G : Nat} (p : FVec Ideal (SNx128 G) .f32) (wf : Fin 128 → EReal) (bf : EReal) :
    FVec Ideal ⟨1, ![G]⟩ .f32 :=
  fun i => finAt (fun g k => p (ix2 g k)) wf bf (i 0)

/-- The network: the input projection, four GIN layers over one aggregation map, the pooling, the readout.
    `w1 l`, `b1 l`, `w2 l`, `b2 l` are layer `l`'s weights. -/
def net {N G : Nat} (agg : FVec Ideal (SNx128 N) .f32 → FVec Ideal (SNx128 N) .f32)
    (pool : FVec Ideal (SNx128 N) .f32 → FVec Ideal (SNx128 G) .f32)
    (x : FVec Ideal (SNx128 N) .f32) (w0 : Fin 128 → Fin 128 → EReal) (b0 : Fin 128 → EReal)
    (w1 : Fin 4 → Fin 128 → Fin 128 → EReal) (b1 : Fin 4 → Fin 128 → EReal)
    (w2 : Fin 4 → Fin 128 → Fin 128 → EReal) (b2 : Fin 4 → Fin 128 → EReal)
    (wf : Fin 128 → EReal) (bf : EReal) : FVec Ideal ⟨1, ![G]⟩ .f32 :=
  let h0 := linRelu x w0 b0
  let h1 := gin h0 h0 (agg h0) (w1 0) (b1 0) (w2 0) (b2 0)
  let h2 := gin h1 h0 (agg h1) (w1 1) (b1 1) (w2 1) (b2 1)
  let h3 := gin h2 h0 (agg h2) (w1 2) (b1 2) (w2 2) (b2 2)
  let h4 := gin h3 h0 (agg h3) (w1 3) (b1 3) (w2 3) (b2 3)
  fin (pool h4) wf bf

end Cert.Spec

end
-- ==== Proof.KernelIdeal.Pay.lean ====
/- The arithmetic of the three kernel bodies at the ideal instance (floats are extended reals, every operation exact,
   the format changes the identity), read entry by entry: each body's stored value at row `r`, column `j` of its block is
   the specification's dense map of the loaded blocks there — a matrix product into the zero accumulator is the plain sum
   over the contracted coordinate, a one-row bias broadcast down the rows reads its one row, the positive part is `max · 0`.
   Stated over variables for the loaded blocks, with explicit coordinates. -/
import proofs.«121001_j68573447848158_1_alg».proof.Proof.Gen.KernelIdeal.Skeleton
import proofs.«121001_j68573447848158_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Val

open Idealize.ShloMosaic Idealize.SL.Sem Idealize.ShloMosaic.ValueIdx
open Cert.KernelIdeal Cert.KernelIdeal.Gen

/-! ## The non-pointwise operations at an index -/

/-- A plain matrix product accumulated into the zero splat, at the ideal values, read at `(a, b)`: the sum over the
    contracted coordinate of the products of the entries. -/
theorem matmul_plain_zero_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims _ _ _) prec A B (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The zero word a body's positive part compares against is the extended real `0`. -/
theorem zero_f32 : (Scalar.ofBits .f32 0x00000000#32 : Ideal .f32) = 0 := Ideal.ofBits_zero_f32

/-- One dense layer of a node tile before its activation, at `(r, j)`: row `r` of the tile against column `j` of the
    weights, plus the bias's entry `j`. -/
theorem dense_apply (A : FVec Ideal S4000x128 .f32) (W : FVec Ideal S128x128 .f32) (B : FVec Ideal S1x128 .f32)
    (h1 h2 : FTy.bits .bf16 < FTy.bits .f32) (hb : S1x128.Broadcasts S4000x128) (r : Fin 4000) (j : Fin 128) :
    addf (matmul dot_S4000x128_S128x128_S4000x128_1_0_0_1_n_n none (truncf .bf16 A h1) (truncf .bf16 W h2)
          (constant S4000x128 .f32 0x00000000#32)) (broadcastTo S4000x128 B hb) (ix2 r j)
      = (∑ k : Fin 128, A (ix2 r k) * W (ix2 k j)) + B (ix2 0 j) := by
  rw [addf_apply]
  refine congrArg₂ (· + ·) ?_ ?_
  · exact matmul_plain_zero_apply dot_S4000x128_S128x128_S4000x128_1_0_0_1_n_n_wf none _ _ r j
  · exact broadcastTo_1b_ab_apply B hb r j

/-- The readout's product of the pooled tile with the one-column weights, plus the one bias, at row `g`. -/
theorem readout_apply (P : FVec Ideal S1000x128 .f32) (W : FVec Ideal S128x1 .f32) (B : FVec Ideal S1x1 .f32)
    (h1 h2 : FTy.bits .bf16 < FTy.bits .f32) (hb : S1x1.Broadcasts S1000x1) (g : Fin 1000) :
    addf (matmul dot_S1000x128_S128x1_S1000x1_1_0_0_1_n_n none (truncf .bf16 P h1) (truncf .bf16 W h2)
          (constant S1000x1 .f32 0x00000000#32)) (broadcastTo S1000x1 B hb) (ix2 g 0)
      = (∑ k : Fin 128, P (ix2 g k) * W (ix2 k 0)) + B (ix2 0 0) := by
  rw [addf_apply]
  refine congrArg₂ (· + ·) ?_ ?_
  · exact matmul_plain_zero_apply dot_S1000x128_S128x1_S1000x1_1_0_0_1_n_n_wf none _ _ g 0
  · exact broadcastTo_1b_ab_apply B hb g 0

/-! ## The payloads -/

/-- The input projection's body at `(r, j)`: `max (x r · w · j + b j) 0`. -/
theorem pay0_apply (x : Vec Ideal S4000x128 .f32) (w : Vec Ideal S128x128 .f32) (b : Vec Ideal S1x128 .f32)
    (r : Fin 4000) (j : Fin 128) :
    k0_pay1 (F := Ideal) x w b (ix2 r j)
      = Cert.Spec.linReluAt (fun r k => x (ix2 r k)) (fun k j => w (ix2 k j)) (fun j => b (ix2 0 j)) r j := by
  unfold k0_pay1 Cert.Spec.linReluAt
  simp only [shapeCast_self]
  rw [maximumf_apply, broadcast_apply, dense_apply, zero_f32]

/-- GIN layer body 1 at `(r, j)`: the two-layer perceptron of `h + agg`, the residual `h0` added, positive part. The
    payload's arguments come in the body's load order: `h`, `agg`, the two layers' weights and biases, then `h0`. -/
theorem pay1_apply (h agg : Vec Ideal S4000x128 .f32) (W1 : Vec Ideal S128x128 .f32) (B1 : Vec Ideal S1x128 .f32)
    (W2 : Vec Ideal S128x128 .f32) (B2 : Vec Ideal S1x128 .f32) (h0 : Vec Ideal S4000x128 .f32) (r : Fin 4000) (j : Fin 128) :
    k1_pay1 (F := Ideal) h agg W1 B1 W2 B2 h0 (ix2 r j)
      = Cert.Spec.ginAt (fun r k => h (ix2 r k)) (fun r k => h0 (ix2 r k)) (fun r k => agg (ix2 r k))
          (fun k j => W1 (ix2 k j)) (fun j => B1 (ix2 0 j)) (fun k j => W2 (ix2 k j)) (fun j => B2 (ix2 0 j)) r j := by
  unfold k1_pay1 Cert.Spec.ginAt
  simp only [shapeCast_self]
  rw [maximumf_apply, broadcast_apply, addf_apply, dense_apply, zero_f32]
  refine congrArg (fun z => max (z + B2 (ix2 0 j) + h0 (ix2 r j)) 0) (Finset.sum_congr rfl fun c _ => ?_)
  rw [maximumf_apply, broadcast_apply, dense_apply]
  simp only [addf_apply]

/-- GIN layer body 2 at `(r, j)`: the two-layer perceptron of `h + agg`, the residual `h0` added, positive part. The
    payload's arguments come in the body's load order: `h`, `agg`, the two layers' weights and biases, then `h0`. -/
theorem pay2_apply (h agg : Vec Ideal S4000x128 .f32) (W1 : Vec Ideal S128x128 .f32) (B1 : Vec Ideal S1x128 .f32)
    (W2 : Vec Ideal S128x128 .f32) (B2 : Vec Ideal S1x128 .f32) (h0 : Vec Ideal S4000x128 .f32) (r : Fin 4000) (j : Fin 128) :
    k2_pay1 (F := Ideal) h agg W1 B1 W2 B2 h0 (ix2 r j)
      = Cert.Spec.ginAt (fun r k => h (ix2 r k)) (fun r k => h0 (ix2 r k)) (fun r k => agg (ix2 r k))
          (fun k j => W1 (ix2 k j)) (fun j => B1 (ix2 0 j)) (fun k j => W2 (ix2 k j)) (fun j => B2 (ix2 0 j)) r j := by
  unfold k2_pay1 Cert.Spec.ginAt
  simp only [shapeCast_self]
  rw [maximumf_apply, broadcast_apply, addf_apply, dense_apply, zero_f32]
  refine congrArg (fun z => max (z + B2 (ix2 0 j) + h0 (ix2 r j)) 0) (Finset.sum_congr rfl fun c _ => ?_)
  rw [maximumf_apply, broadcast_apply, dense_apply]
  simp only [addf_apply]

/-- GIN layer body 3 at `(r, j)`: the two-layer perceptron of `h + agg`, the residual `h0` added, positive part. The
    payload's arguments come in the body's load order: `h`, `agg`, the two layers' weights and biases, then `h0`. -/
theorem pay3_apply (h agg : Vec Ideal S4000x128 .f32) (W1 : Vec Ideal S128x128 .f32) (B1 : Vec Ideal S1x128 .f32)
    (W2 : Vec Ideal S128x128 .f32) (B2 : Vec Ideal S1x128 .f32) (h0 : Vec Ideal S4000x128 .f32) (r : Fin 4000) (j : Fin 128) :
    k3_pay1 (F := Ideal) h agg W1 B1 W2 B2 h0 (ix2 r j)
      = Cert.Spec.ginAt (fun r k => h (ix2 r k)) (fun r k => h0 (ix2 r k)) (fun r k => agg (ix2 r k))
          (fun k j => W1 (ix2 k j)) (fun j => B1 (ix2 0 j)) (fun k j => W2 (ix2 k j)) (fun j => B2 (ix2 0 j)) r j := by
  unfold k3_pay1 Cert.Spec.ginAt
  simp only [shapeCast_self]
  rw [maximumf_apply, broadcast_apply, addf_apply, dense_apply, zero_f32]
  refine congrArg (fun z => max (z + B2 (ix2 0 j) + h0 (ix2 r j)) 0) (Finset.sum_congr rfl fun c _ => ?_)
  rw [maximumf_apply, broadcast_apply, dense_apply]
  simp only [addf_apply]

/-- GIN layer body 4 at `(r, j)`: the two-layer perceptron of `h + agg`, the residual `h0` added, positive part. The
    payload's arguments come in the body's load order: `h`, `agg`, the two layers' weights and biases, then `h0`. -/
theorem pay4_apply (h agg : Vec Ideal S4000x128 .f32) (W1 : Vec Ideal S128x128 .f32) (B1 : Vec Ideal S1x128 .f32)
    (W2 : Vec Ideal S128x128 .f32) (B2 : Vec Ideal S1x128 .f32) (h0 : Vec Ideal S4000x128 .f32) (r : Fin 4000) (j : Fin 128) :
    k4_pay1 (F := Ideal) h agg W1 B1 W2 B2 h0 (ix2 r j)
      = Cert.Spec.ginAt (fun r k => h (ix2 r k)) (fun r k => h0 (ix2 r k)) (fun r k => agg (ix2 r k))
          (fun k j => W1 (ix2 k j)) (fun j => B1 (ix2 0 j)) (fun k j => W2 (ix2 k j)) (fun j => B2 (ix2 0 j)) r j := by
  unfold k4_pay1 Cert.Spec.ginAt
  simp only [shapeCast_self]
  rw [maximumf_apply, broadcast_apply, addf_apply, dense_apply, zero_f32]
  refine congrArg (fun z => max (z + B2 (ix2 0 j) + h0 (ix2 r j)) 0) (Finset.sum_congr rfl fun c _ => ?_)
  rw [maximumf_apply, broadcast_apply, dense_apply]
  simp only [addf_apply]

/-- The readout's body at row `g`: `p g · wf + bf`. -/
theorem pay5_apply (p : Vec Ideal S1000x128 .f32) (wf : Vec Ideal S128x1 .f32) (bf : Vec Ideal S1x1 .f32) (g : Fin 1000) :
    k5_pay1 (F := Ideal) p wf bf (ix2 g 0)
      = Cert.Spec.finAt (fun g k => p (ix2 g k)) (fun k => wf (ix2 k 0)) (bf (ix2 0 0)) g := by
  unfold k5_pay1 Cert.Spec.finAt
  simp only [shapeCast_self]
  rw [readout_apply]

end Cert.KernelIdeal.Val

end
-- ==== Proof.KernelIdeal.Val0.lean ====
/- Region 0's output array at the ideal instance, as ONE function of the arrays the region finds: the input projection
   `max (x · W0 + b0) 0` of the node features, entry by entry. Each of the 25 grid points writes back rows
   `4000·t … 4000·t + 3999` of that function (its input tile is the same rows of `x`; the weights and the bias are whole
   arrays, fetched once), and the 25 row tiles cover the array. -/
import proofs.«121001_j68573447848158_1_alg».proof.Proof.KernelIdeal.Reg0
import proofs.«121001_j68573447848158_1_alg».proof.Proof.KernelIdeal.Pay
import Idealize.ShloMosaic.Lib.Pipeline.Value

set_option maxRecDepth 16384

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand

-- the TensorCore's buffer contents when the region is entered
variable (V : (c : Dev nD) → (b : Ref sig .tc) → Buf (Elt Ideal) ((c : Thread nD τ).loc b))

theorem hz0 : (![0, 0] : Fin 2 → Nat) = fun _ => 0 := funext fun a => by fin_cases a <;> rfl

/-! ## The body's value on a row tile, over variables -/

/-- The body's value at entry `y` of a tile whose rows are rows of a node array `X`: when row `y 0` of the tile `x` is
    row `i 0` of `X` and the columns agree, it is the input projection of `X` at `i`. -/
theorem lin_tile (X : S100000x128.Idx → EReal) (W : S128x128.Idx → EReal) (B : S1x128.Idx → EReal)
    (x : Vec Ideal S4000x128 .f32) (y : S4000x128.Idx) (i : S100000x128.Idx)
    (hx : ∀ k : Fin 128, x (ix2 (y 0) k) = X (ix2 (i 0) k)) (h1 : (i 1).val = (y 1).val) :
    k0_pay1 (F := Ideal) x W B y
      = Cert.Spec.linReluAt (N := 100000) (fun r k => X (ix2 r k)) (fun k j => W (ix2 k j)) (fun j => B (ix2 0 j)) (i 0) (i 1) := by
  obtain ⟨p, q, rfl⟩ : ∃ (p : Fin 4000) (q : Fin 128), y = ix2 p q := ⟨y 0, y 1, eq_ix2 y⟩
  obtain ⟨P, Q, rfl⟩ : ∃ (P : Fin 100000) (Q : Fin 128), i = ix2 P Q := ⟨i 0, i 1, eq_ix2 i⟩
  have hQ : Q = q := Fin.ext h1
  subst hQ
  rw [pay0_apply]
  unfold Cert.Spec.linReluAt
  exact congrArg (fun z => max (z + B (ix2 0 Q)) 0) (Finset.sum_congr rfl fun k _ => congrArg (· * W (ix2 k Q)) (hx k))

/-! ## The windows' blocks as rows of the arrays -/

/-- The printed index maps over the 25 points: the two row-tiled windows are at block `t` of the rows, the weight and
    bias windows at their one block. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The feature window's block at point `t` is rows `4000·t … 4000·t + 3999` of the feature array. -/
theorem tile0_apply (c : Dev nD) (t : Fin cfg0.N) (y : S4000x128.Idx) (i : S100000x128.Idx)
    (h0 : (i 0).val = 4000 * t.val + (y 0).val) (h1 : (i 1).val = (y 1).val) :
    (iblk0 V c 0 t : Vec Ideal S4000x128 .f32) y = (V c main_arg0 : S100000x128.Idx → EReal) i := by
  obtain ⟨e0, e1, -⟩ := idx_facts0 t
  unfold iblk0
  rw [View.read_apply]
  show (V c main_arg0 : S100000x128.Idx → EReal) _ = V c main_arg0 i
  refine congrArg (V c main_arg0 : S100000x128.Idx → EReal) (funext fun a => Fin.ext ?_)
  match a with
  | ⟨0, _⟩ => show win0_0.index t (0 : Fin 2) * 4000 + 1 * (y 0).val = (i 0).val; rw [e0, h0]; omega
  | ⟨1, _⟩ => show win0_0.index t (1 : Fin 2) * 128 + 1 * (y 1).val = (i 1).val; rw [e1, h1]; omega

/-- The weight window's one block is the weight array. -/
theorem whole0_1 (c : Dev nD) (t : Fin cfg0.N) :
    (iblk0 V c 1 t : Vec Ideal S128x128 .f32) = (V c main_arg4 : S128x128.Idx → EReal) := by
  obtain ⟨-, -, e0, e1, -⟩ := idx_facts0 t
  funext y
  unfold iblk0
  rw [View.read_apply]
  show (V c main_arg4 : S128x128.Idx → EReal) _ = V c main_arg4 y
  refine congrArg (V c main_arg4 : S128x128.Idx → EReal) (funext fun a => Fin.ext ?_)
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega

/-- The bias window's one block is the bias row. -/
theorem whole0_2 (c : Dev nD) (t : Fin cfg0.N) :
    (iblk0 V c 2 t : Vec Ideal S1x128 .f32) = (V c main_v4 : S1x128.Idx → EReal) := by
  obtain ⟨-, -, -, -, e0, e1, -⟩ := idx_facts0 t
  funext y
  unfold iblk0
  rw [View.read_apply]
  show (V c main_v4 : S1x128.Idx → EReal) _ = V c main_v4 y
  refine congrArg (V c main_v4 : S1x128.Idx → EReal) (funext fun a => Fin.ext ?_)
  match a with
  | ⟨0, _⟩ => show win0_2.index t (0 : Fin 2) * 1 + 1 * (y 0).val = (y 0).val; rw [e0]; omega
  | ⟨1, _⟩ => show win0_2.index t (1 : Fin 2) * 128 + 1 * (y 1).val = (y 1).val; rw [e1]; omega

/-! ## What a point writes back, the cover, the array after the run -/

/-- WHAT POINT `t` WRITES BACK is block `t` of the input projection of the arrays as the region finds them. -/
theorem flushed0_eq (c : Dev nD) (t : Fin cfg0.N) :
    (dat0 V c).flushed 3 t = ((cfg0.win 3).blk t).view.read (Elt Ideal)
      (fun i : S100000x128.Idx => Cert.Spec.linReluAt (N := 100000) (fun r k => (V c main_arg0 : S100000x128.Idx → EReal) (ix2 r k))
        (fun k j => (V c main_arg4 : S128x128.Idx → EReal) (ix2 k j)) (fun j => (V c main_v4 : S1x128.Idx → EReal) (ix2 0 j)) (i 0) (i 1)) := by
  show (cfg0.win 3).cut (grid0.coords t) ((dat0 V c).after 3 t) = _
  rw [after0_3]
  unfold out0_3
  rw [View.canon_unit_zero hz0]
  simp only [View.ld_unit_zero (S := S4000x128) hz0, View.ld_unit_zero (S := S128x128) hz0, View.ld_unit_zero (S := S1x128) hz0]
  rw [whole0_1 V c t, whole0_2 V c t]
  obtain ⟨-, -, -, -, -, -, e6, e7⟩ := idx_facts0 t
  funext y
  rw [View.read_apply]
  refine lin_tile (V c main_arg0) (V c main_arg4) (V c main_v4) (iblk0 V c 0 t) y _ (fun k => ?_) ?_
  · refine tile0_apply V c t _ _ ?_ rfl
    show win0_3.index t (0 : Fin 2) * 4000 + 1 * (y 0).val = 4000 * t.val + (y 0).val
    rw [e6]; omega
  · show win0_3.index t (1 : Fin 2) * 128 + 1 * (y 1).val = (y 1).val
    rw [e7]; omega

/-- An index of the array is in point `t`'s block iff each coordinate is in the block's range on its axis. -/
theorem mem_blk0 (t : Fin cfg0.N) (i : S100000x128.Idx) :
    i ∈ ((cfg0.win 3).blk t).view.set ↔ ∀ a : Fin 2, win0_3.index t a * S4000x128.size a ≤ (i a).val ∧ (i a).val < win0_3.index t a * S4000x128.size a + S4000x128.size a := by
  show i ∈ ((View.whole main_v5).slice (win0_3.rect t)).set ↔ _
  rw [View.set_slice_whole, Rect.mem_set_unit]
  exact Iff.rfl

/-- Row `r` of the array is in the block of point `r / 4000`: the 25 row tiles cover the array. -/
theorem cover0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 25 := N_0
  obtain ⟨t, ht⟩ : ∃ t : Fin cfg0.N, t.val = (i 0).val / 4000 := ⟨⟨(i 0).val / 4000, by omega⟩, rfl⟩
  obtain ⟨-, -, -, -, -, -, e6, e7⟩ := idx_facts0 t
  refine ⟨t, flush0_3 t, ?_⟩
  rw [mem_blk0]
  intro a
  match a with
  | ⟨0, _⟩ =>
    show win0_3.index t (0 : Fin 2) * 4000 ≤ (i 0).val ∧ (i 0).val < win0_3.index t (0 : Fin 2) * 4000 + 4000
    rw [e6, ht]; omega
  | ⟨1, _⟩ =>
    show win0_3.index t (1 : Fin 2) * 128 ≤ (i 1).val ∧ (i 1).val < win0_3.index t (1 : Fin 2) * 128 + 128
    rw [e7]; omega

/-- THE ARRAY after region 0's run: the input projection of the feature, weight and bias arrays the region finds. -/
theorem val0 (c : Dev nD) :
    (dat0 (F := Ideal) V c).arrAt 3 cfg0.N
      = fun i : S100000x128.Idx => Cert.Spec.linReluAt (N := 100000) (fun r k => (V c main_arg0 : S100000x128.Idx → EReal) (ix2 r k))
          (fun k j => (V c main_arg4 : S128x128.Idx → EReal) (ix2 k j)) (fun j => (V c main_v4 : S1x128.Idx → EReal) (ix2 0 j)) (i 0) (i 1) :=
  (dat0 V c).arrAt_eq_of_cover 3 _ (fun t _ => flushed0_eq V c t) cover0

end Cert.KernelIdeal.Val

end
-- ==== Proof.KernelIdeal.Val1.lean ====
/- Region 1's output array at the ideal instance, as ONE function of the arrays the region finds: one GIN layer
   `max (max ((h + agg) · W1 + b1) 0 · W2 + b2 + h0) 0`, entry by entry. Each of the 25 grid points writes back rows
   `4000·t … 4000·t + 3999` of that function (its three input tiles are the same rows of `h`, `h0`, `agg`; the weights
   and the biases are whole arrays, fetched once), and the 25 row tiles cover the array. -/
import proofs.«121001_j68573447848158_1_alg».proof.Proof.KernelIdeal.Reg1
import proofs.«121001_j68573447848158_1_alg».proof.Proof.KernelIdeal.Pay
import Idealize.ShloMosaic.Lib.Pipeline.Value

set_option maxRecDepth 16384

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand

-- the TensorCore's buffer contents when the region is entered
variable (V : (c : Dev nD) → (b : Ref sig .tc) → Buf (Elt Ideal) ((c : Thread nD τ).loc b))

theorem hz1 : (![0, 0] : Fin 2 → Nat) = fun _ => 0 := funext fun a => by fin_cases a <;> rfl

/-! ## The body's value on a row tile, over variables -/

/-- The body's value at entry `y` of tiles whose rows are rows of node arrays `H`, `H0`, `A`: when row `y 0` of each
    tile is row `i 0` of its array and the columns agree, it is the GIN layer of the arrays at `i`. -/
theorem gin_tile1 (H H0 A : S100000x128.Idx → EReal) (W1 : S128x128.Idx → EReal) (B1 : S1x128.Idx → EReal)
    (W2 : S128x128.Idx → EReal) (B2 : S1x128.Idx → EReal)
    (h h0 a : Vec Ideal S4000x128 .f32) (y : S4000x128.Idx) (i : S100000x128.Idx)
    (hh : ∀ k : Fin 128, h (ix2 (y 0) k) = H (ix2 (i 0) k)) (hh0 : ∀ k : Fin 128, h0 (ix2 (y 0) k) = H0 (ix2 (i 0) k))
    (ha : ∀ k : Fin 128, a (ix2 (y 0) k) = A (ix2 (i 0) k)) (h1 : (i 1).val = (y 1).val) :
    k1_pay1 (F := Ideal) h a W1 B1 W2 B2 h0 y
      = Cert.Spec.ginAt (N := 100000) (fun r k => H (ix2 r k)) (fun r k => H0 (ix2 r k)) (fun r k => A (ix2 r k))
          (fun k j => W1 (ix2 k j)) (fun j => B1 (ix2 0 j)) (fun k j => W2 (ix2 k j)) (fun j => B2 (ix2 0 j)) (i 0) (i 1) := by
  obtain ⟨p, q, rfl⟩ : ∃ (p : Fin 4000) (q : Fin 128), y = ix2 p q := ⟨y 0, y 1, eq_ix2 y⟩
  obtain ⟨P, Q, rfl⟩ : ∃ (P : Fin 100000) (Q : Fin 128), i = ix2 P Q := ⟨i 0, i 1, eq_ix2 i⟩
  have hQ : Q = q := Fin.ext h1
  subst hQ
  have hh' : ∀ k : Fin 128, h (ix2 p k) = H (ix2 P k) := hh
  have hh0' : ∀ k : Fin 128, h0 (ix2 p k) = H0 (ix2 P k) := hh0
  have ha' : ∀ k : Fin 128, a (ix2 p k) = A (ix2 P k) := ha
  rw [pay1_apply]
  show Cert.Spec.ginAt _ _ _ _ _ _ _ p Q = Cert.Spec.ginAt _ _ _ _ _ _ _ P Q
  unfold Cert.Spec.ginAt
  simp only [hh', hh0', ha']

/-! ## The windows' blocks as rows of the arrays -/

-- The printed index maps over the 25 points: the four row-tiled windows are at block `t` of the rows, the weight and
-- bias windows at their one block.
theorem idx1_0 : ∀ t : Fin cfg1.N, win1_0.index t (0 : Fin 2) = t.val ∧ win1_0.index t (1 : Fin 2) = 0 :=
  (by decide +kernel : ∀ t : Fin grid1.N, _)
theorem idx1_1 : ∀ t : Fin cfg1.N, win1_1.index t (0 : Fin 2) = t.val ∧ win1_1.index t (1 : Fin 2) = 0 :=
  (by decide +kernel : ∀ t : Fin grid1.N, _)
theorem idx1_2 : ∀ t : Fin cfg1.N, win1_2.index t (0 : Fin 2) = t.val ∧ win1_2.index t (1 : Fin 2) = 0 :=
  (by decide +kernel : ∀ t : Fin grid1.N, _)
theorem idx1_3 : ∀ t : Fin cfg1.N, win1_3.index t (0 : Fin 2) = 0 ∧ win1_3.index t (1 : Fin 2) = 0 :=
  (by decide +kernel : ∀ t : Fin grid1.N, _)
theorem idx1_4 : ∀ t : Fin cfg1.N, win1_4.index t (0 : Fin 2) = 0 ∧ win1_4.index t (1 : Fin 2) = 0 :=
  (by decide +kernel : ∀ t : Fin grid1.N, _)
theorem idx1_5 : ∀ t : Fin cfg1.N, win1_5.index t (0 : Fin 2) = 0 ∧ win1_5.index t (1 : Fin 2) = 0 :=
  (by decide +kernel : ∀ t : Fin grid1.N, _)
theorem idx1_6 : ∀ t : Fin cfg1.N, win1_6.index t (0 : Fin 2) = 0 ∧ win1_6.index t (1 : Fin 2) = 0 :=
  (by decide +kernel : ∀ t : Fin grid1.N, _)
theorem idx1_7 : ∀ t : Fin cfg1.N, win1_7.index t (0 : Fin 2) = t.val ∧ win1_7.index t (1 : Fin 2) = 0 :=
  (by decide +kernel : ∀ t : Fin grid1.N, _)

/-- The node-feature window's block at point `t` is rows `4000·t … 4000·t + 3999` of its array. -/
theorem tile1_0_apply (c : Dev nD) (t : Fin cfg1.N) (y : S4000x128.Idx) (i : S100000x128.Idx)
    (h0 : (i 0).val = 4000 * t.val + (y 0).val) (h1 : (i 1).val = (y 1).val) :
    (iblk1 V c 0 t : Vec Ideal S4000x128 .f32) y = (V c main_v5 : S100000x128.Idx → EReal) i := by
  obtain ⟨e0, e1⟩ := idx1_0 t
  unfold iblk1
  rw [View.read_apply]
  show (V c main_v5 : S100000x128.Idx → EReal) _ = V c main_v5 i
  refine congrArg (V c main_v5 : S100000x128.Idx → EReal) (funext fun a => Fin.ext ?_)
  match a with
  | ⟨0, _⟩ => show win1_0.index t (0 : Fin 2) * 4000 + 1 * (y 0).val = (i 0).val; rw [e0, h0]; omega
  | ⟨1, _⟩ => show win1_0.index t (1 : Fin 2) * 128 + 1 * (y 1).val = (i 1).val; rw [e1, h1]; omega

/-- The residual window's block at point `t` is rows `4000·t … 4000·t + 3999` of its array. -/
theorem tile1_1_apply (c : Dev nD) (t : Fin cfg1.N) (y : S4000x128.Idx) (i : S100000x128.Idx)
    (h0 : (i 0).val = 4000 * t.val + (y 0).val) (h1 : (i 1).val = (y 1).val) :
    (iblk1 V c 1 t : Vec Ideal S4000x128 .f32) y = (V c main_v5 : S100000x128.Idx → EReal) i := by
  obtain ⟨e0, e1⟩ := idx1_1 t
  unfold iblk1
  rw [View.read_apply]
  show (V c main_v5 : S100000x128.Idx → EReal) _ = V c main_v5 i
  refine congrArg (V c main_v5 : S100000x128.Idx → EReal) (funext fun a => Fin.ext ?_)
  match a with
  | ⟨0, _⟩ => show win1_1.index t (0 : Fin 2) * 4000 + 1 * (y 0).val = (i 0).val; rw [e0, h0]; omega
  | ⟨1, _⟩ => show win1_1.index t (1 : Fin 2) * 128 + 1 * (y 1).val = (i 1).val; rw [e1, h1]; omega

/-- The aggregate window's block at point `t` is rows `4000·t … 4000·t + 3999` of its array. -/
theorem tile1_2_apply (c : Dev nD) (t : Fin cfg1.N) (y : S4000x128.Idx) (i : S100000x128.Idx)
    (h0 : (i 0).val = 4000 * t.val + (y 0).val) (h1 : (i 1).val = (y 1).val) :
    (iblk1 V c 2 t : Vec Ideal S4000x128 .f32) y = (V c main_v15 : S100000x128.Idx → EReal) i := by
  obtain ⟨e0, e1⟩ := idx1_2 t
  unfold iblk1
  rw [View.read_apply]
  show (V c main_v15 : S100000x128.Idx → EReal) _ = V c main_v15 i
  refine congrArg (V c main_v15 : S100000x128.Idx → EReal) (funext fun a => Fin.ext ?_)
  match a with
  | ⟨0, _⟩ => show win1_2.index t (0 : Fin 2) * 4000 + 1 * (y 0).val = (i 0).val; rw [e0, h0]; omega
  | ⟨1, _⟩ => show win1_2.index t (1 : Fin 2) * 128 + 1 * (y 1).val = (i 1).val; rw [e1, h1]; omega

/-- The first weight window's one block is its array. -/
theorem whole1_3 (c : Dev nD) (t : Fin cfg1.N) :
    (iblk1 V c 3 t : Vec Ideal S128x128 .f32) = (V c main_v17 : S128x128.Idx → EReal) := by
  obtain ⟨e0, e1⟩ := idx1_3 t
  funext y
  unfold iblk1
  rw [View.read_apply]
  show (V c main_v17 : S128x128.Idx → EReal) _ = V c main_v17 y
  refine congrArg (V c main_v17 : S128x128.Idx → EReal) (funext fun a => Fin.ext ?_)
  match a with
  | ⟨0, _⟩ => show win1_3.index t (0 : Fin 2) * 128 + 1 * (y 0).val = (y 0).val; rw [e0]; omega
  | ⟨1, _⟩ => show win1_3.index t (1 : Fin 2) * 128 + 1 * (y 1).val = (y 1).val; rw [e1]; omega

/-- The first bias window's one block is its array. -/
theorem whole1_4 (c : Dev nD) (t : Fin cfg1.N) :
    (iblk1 V c 4 t : Vec Ideal S1x128 .f32) = (V c main_v24 : S1x128.Idx → EReal) := by
  obtain ⟨e0, e1⟩ := idx1_4 t
  funext y
  unfold iblk1
  rw [View.read_apply]
  show (V c main_v24 : S1x128.Idx → EReal) _ = V c main_v24 y
  refine congrArg (V c main_v24 : S1x128.Idx → EReal) (funext fun a => Fin.ext ?_)
  match a with
  | ⟨0, _⟩ => show win1_4.index t (0 : Fin 2) * 1 + 1 * (y 0).val = (y 0).val; rw [e0]; omega
  | ⟨1, _⟩ => show win1_4.index t (1 : Fin 2) * 128 + 1 * (y 1).val = (y 1).val; rw [e1]; omega

/-- The second weight window's one block is its array. -/
theorem whole1_5 (c : Dev nD) (t : Fin cfg1.N) :
    (iblk1 V c 5 t : Vec Ideal S128x128 .f32) = (V c main_v21 : S128x128.Idx → EReal) := by
  obtain ⟨e0, e1⟩ := idx1_5 t
  funext y
  unfold iblk1
  rw [View.read_apply]
  show (V c main_v21 : S128x128.Idx → EReal) _ = V c main_v21 y
  refine congrArg (V c main_v21 : S128x128.Idx → EReal) (funext fun a => Fin.ext ?_)
  match a with
  | ⟨0, _⟩ => show win1_5.index t (0 : Fin 2) * 128 + 1 * (y 0).val = (y 0).val; rw [e0]; omega
  | ⟨1, _⟩ => show win1_5.index t (1 : Fin 2) * 128 + 1 * (y 1).val = (y 1).val; rw [e1]; omega

/-- The second bias window's one block is its array. -/
theorem whole1_6 (c : Dev nD) (t : Fin cfg1.N) :
    (iblk1 V c 6 t : Vec Ideal S1x128 .f32) = (V c main_v25 : S1x128.Idx → EReal) := by
  obtain ⟨e0, e1⟩ := idx1_6 t
  funext y
  unfold iblk1
  rw [View.read_apply]
  show (V c main_v25 : S1x128.Idx → EReal) _ = V c main_v25 y
  refine congrArg (V c main_v25 : S1x128.Idx → EReal) (funext fun a => Fin.ext ?_)
  match a with
  | ⟨0, _⟩ => show win1_6.index t (0 : Fin 2) * 1 + 1 * (y 0).val = (y 0).val; rw [e0]; omega
  | ⟨1, _⟩ => show win1_6.index t (1 : Fin 2) * 128 + 1 * (y 1).val = (y 1).val; rw [e1]; omega

/-! ## What a point writes back, the cover, the array after the run -/

/-- WHAT POINT `t` WRITES BACK is block `t` of the GIN layer of the arrays as the region finds them. -/
theorem flushed1_eq (c : Dev nD) (t : Fin cfg1.N) :
    (dat1 V c).flushed 7 t = ((cfg1.win 7).blk t).view.read (Elt Ideal)
      (fun i : S100000x128.Idx => Cert.Spec.ginAt (N := 100000) (fun r k => (V c main_v5 : S100000x128.Idx → EReal) (ix2 r k))
        (fun r k => (V c main_v5 : S100000x128.Idx → EReal) (ix2 r k)) (fun r k => (V c main_v15 : S100000x128.Idx → EReal) (ix2 r k))
        (fun k j => (V c main_v17 : S128x128.Idx → EReal) (ix2 k j)) (fun j => (V c main_v24 : S1x128.Idx → EReal) (ix2 0 j))
        (fun k j => (V c main_v21 : S128x128.Idx → EReal) (ix2 k j)) (fun j => (V c main_v25 : S1x128.Idx → EReal) (ix2 0 j)) (i 0) (i 1)) := by
  show (cfg1.win 7).cut (grid1.coords t) ((dat1 V c).after 7 t) = _
  rw [after1_7]
  unfold out1_7
  rw [View.canon_unit_zero hz1]
  simp only [View.ld_unit_zero (S := S4000x128) hz1, View.ld_unit_zero (S := S128x128) hz1, View.ld_unit_zero (S := S1x128) hz1]
  rw [whole1_3 V c t, whole1_4 V c t, whole1_5 V c t, whole1_6 V c t]
  obtain ⟨e0, e1⟩ := idx1_7 t
  funext y
  rw [View.read_apply]
  have hr : (((cfg1.win 7).blk t).view.emb y (0 : Fin 2)).val = 4000 * t.val + (y 0).val := by
    show win1_7.index t (0 : Fin 2) * 4000 + 1 * (y 0).val = 4000 * t.val + (y 0).val
    rw [e0]; omega
  refine gin_tile1 (V c main_v5) (V c main_v5) (V c main_v15) (V c main_v17) (V c main_v24) (V c main_v21) (V c main_v25)
    (iblk1 V c 0 t) (iblk1 V c 1 t) (iblk1 V c 2 t) y _ (fun k => ?_) (fun k => ?_) (fun k => ?_) ?_
  · exact tile1_0_apply V c t _ _ hr rfl
  · exact tile1_1_apply V c t _ _ hr rfl
  · exact tile1_2_apply V c t _ _ hr rfl
  · show win1_7.index t (1 : Fin 2) * 128 + 1 * (y 1).val = (y 1).val
    rw [e1]; omega

/-- An index of the array is in point `t`'s block iff each coordinate is in the block's range on its axis. -/
theorem mem_blk1 (t : Fin cfg1.N) (i : S100000x128.Idx) :
    i ∈ ((cfg1.win 7).blk t).view.set ↔ ∀ a : Fin 2, win1_7.index t a * S4000x128.size a ≤ (i a).val ∧ (i a).val < win1_7.index t a * S4000x128.size a + S4000x128.size a := by
  show i ∈ ((View.whole main_v26).slice (win1_7.rect t)).set ↔ _
  rw [View.set_slice_whole, Rect.mem_set_unit]
  exact Iff.rfl

/-- Row `r` of the array is in the block of point `r / 4000`: the 25 row tiles cover the array. -/
theorem cover1 (i : S100000x128.Idx) :
    ∃ t : Fin cfg1.N, (cfg1.win 7).flush t = true ∧ i ∈ ((cfg1.win 7).blk t).view.set := by
  have hi0 : (i 0).val < 100000 := (i 0).isLt
  have hi1 : (i 1).val < 128 := (i 1).isLt
  have hN : cfg1.N = 25 := N_1
  obtain ⟨t, ht⟩ : ∃ t : Fin cfg1.N, t.val = (i 0).val / 4000 := ⟨⟨(i 0).val / 4000, by omega⟩, rfl⟩
  obtain ⟨e0, e1⟩ := idx1_7 t
  refine ⟨t, flush1_7 t, ?_⟩
  rw [mem_blk1]
  intro a
  match a with
  | ⟨0, _⟩ =>
    show win1_7.index t (0 : Fin 2) * 4000 ≤ (i 0).val ∧ (i 0).val < win1_7.index t (0 : Fin 2) * 4000 + 4000
    rw [e0, ht]; omega
  | ⟨1, _⟩ =>
    show win1_7.index t (1 : Fin 2) * 128 ≤ (i 1).val ∧ (i 1).val < win1_7.index t (1 : Fin 2) * 128 + 128
    rw [e1]; omega

/-- THE ARRAY after region 1's run: the GIN layer of the node, residual, aggregate, weight and bias arrays the region
    finds. -/
theorem val1 (c : Dev nD) :
    (dat1 (F := Ideal) V c).arrAt 7 cfg1.N
      = (fun i : S100000x128.Idx => Cert.Spec.ginAt (N := 100000) (fun r k => (V c main_v5 : S100000x128.Idx → EReal) (ix2 r k))
        (fun r k => (V c main_v5 : S100000x128.Idx → EReal) (ix2 r k)) (fun r k => (V c main_v15 : S100000x128.Idx → EReal) (ix2 r k))
        (fun k j => (V c main_v17 : S128x128.Idx → EReal) (ix2 k j)) (fun j => (V c main_v24 : S1x128.Idx → EReal) (ix2 0 j))
        (fun k j => (V c main_v21 : S128x128.Idx → EReal) (ix2 k j)) (fun j => (V c main_v25 : S1x128.Idx → EReal) (ix2 0 j)) (i 0) (i 1)) :=
  (dat1 V c).arrAt_eq_of_cover 7 _ (fun t _ => flushed1_eq V c t) cover1

end Cert.KernelIdeal.Val

end
-- ==== Proof.KernelIdeal.Val2.lean ====
/- Region 2's output array at the ideal instance, as ONE function of the arrays the region finds: one GIN layer
   `max (max ((h + agg) · W1 + b1) 0 · W2 + b2 + h0) 0`, entry by entry. Each of the 25 grid points writes back rows
   `4000·t … 4000·t + 3999` of that function (its three input tiles are the same rows of `h`, `h0`, `agg`; the weights
   and the biases are whole arrays, fetched once), and the 25 row tiles cover the array. -/
import proofs.«121001_j68573447848158_1_alg».proof.Proof.KernelIdeal.Reg2
import proofs.«121001_j68573447848158_1_alg».proof.Proof.KernelIdeal.Pay
import Idealize.ShloMosaic.Lib.Pipeline.Value

set_option maxRecDepth 16384

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand

-- the TensorCore's buffer contents when the region is entered
variable (V : (c : Dev nD) → (b : Ref sig .tc) → Buf (Elt Ideal) ((c : Thread nD τ).loc b))

theorem hz2 : (![0, 0] : Fin 2 → Nat) = fun _ => 0 := funext fun a => by fin_cases a <;> rfl

/-! ## The body's value on a row tile, over variables -/

/-- The body's value at entry `y` of tiles whose rows are rows of node arrays `H`, `H0`, `A`: when row `y 0` of each
    tile is row `i 0` of its array and the columns agree, it is the GIN layer of the arrays at `i`. -/
theorem gin_tile2 (H H0 A : S100000x128.Idx → EReal) (W1 : S128x128.Idx → EReal) (B1 : S1x128.Idx → EReal)
    (W2 : S128x128.Idx → EReal) (B2 : S1x128.Idx → EReal)
    (h h0 a : Vec Ideal S4000x128 .f32) (y : S4000x128.Idx) (i : S100000x128.Idx)
    (hh : ∀ k : Fin 128, h (ix2 (y 0) k) = H (ix2 (i 0) k)) (hh0 : ∀ k : Fin 128, h0 (ix2 (y 0) k) = H0 (ix2 (i 0) k))
    (ha : ∀ k : Fin 128, a (ix2 (y 0) k) = A (ix2 (i 0) k)) (h1 : (i 1).val = (y 1).val) :
    k2_pay1 (F := Ideal) h a W1 B1 W2 B2 h0 y
      = Cert.Spec.ginAt (N := 100000) (fun r k => H (ix2 r k)) (fun r k => H0 (ix2 r k)) (fun r k => A (ix2 r k))
          (fun k j => W1 (ix2 k j)) (fun j => B1 (ix2 0 j)) (fun k j => W2 (ix2 k j)) (fun j => B2 (ix2 0 j)) (i 0) (i 1) := by
  obtain ⟨p, q, rfl⟩ : ∃ (p : Fin 4000) (q : Fin 128), y = ix2 p q := ⟨y 0, y 1, eq_ix2 y⟩
  obtain ⟨P, Q, rfl⟩ : ∃ (P : Fin 100000) (Q : Fin 128), i = ix2 P Q := ⟨i 0, i 1, eq_ix2 i⟩
  have hQ : Q = q := Fin.ext h1
  subst hQ
  have hh' : ∀ k : Fin 128, h (ix2 p k) = H (ix2 P k) := hh
  have hh0' : ∀ k : Fin 128, h0 (ix2 p k) = H0 (ix2 P k) := hh0
  have ha' : ∀ k : Fin 128, a (ix2 p k) = A (ix2 P k) := ha
  rw [pay2_apply]
  show Cert.Spec.ginAt _ _ _ _ _ _ _ p Q = Cert.Spec.ginAt _ _ _ _ _ _ _ P Q
  unfold Cert.Spec.ginAt
  simp only [hh', hh0', ha']

/-! ## The windows' blocks as rows of the arrays -/

-- The printed index maps over the 25 points: the four row-tiled windows are at block `t` of the rows, the weight and
-- bias windows at their one block.
theorem idx2_0 : ∀ t : Fin cfg2.N, win2_0.index t (0 : Fin 2) = t.val ∧ win2_0.index t (1 : Fin 2) = 0 :=
  (by decide +kernel : ∀ t : Fin grid2.N, _)
theorem idx2_1 : ∀ t : Fin cfg2.N, win2_1.index t (0 : Fin 2) = t.val ∧ win2_1.index t (1 : Fin 2) = 0 :=
  (by decide +kernel : ∀ t : Fin grid2.N, _)
theorem idx2_2 : ∀ t : Fin cfg2.N, win2_2.index t (0 : Fin 2) = t.val ∧ win2_2.index t (1 : Fin 2) = 0 :=
  (by decide +kernel : ∀ t : Fin grid2.N, _)
theorem idx2_3 : ∀ t : Fin cfg2.N, win2_3.index t (0 : Fin 2) = 0 ∧ win2_3.index t (1 : Fin 2) = 0 :=
  (by decide +kernel : ∀ t : Fin grid2.N, _)
theorem idx2_4 : ∀ t : Fin cfg2.N, win2_4.index t (0 : Fin 2) = 0 ∧ win2_4.index t (1 : Fin 2) = 0 :=
  (by decide +kernel : ∀ t : Fin grid2.N, _)
theorem idx2_5 : ∀ t : Fin cfg2.N, win2_5.index t (0 : Fin 2) = 0 ∧ win2_5.index t (1 : Fin 2) = 0 :=
  (by decide +kernel : ∀ t : Fin grid2.N, _)
theorem idx2_6 : ∀ t : Fin cfg2.N, win2_6.index t (0 : Fin 2) = 0 ∧ win2_6.index t (1 : Fin 2) = 0 :=
  (by decide +kernel : ∀ t : Fin grid2.N, _)
theorem idx2_7 : ∀ t : Fin cfg2.N, win2_7.index t (0 : Fin 2) = t.val ∧ win2_7.index t (1 : Fin 2) = 0 :=
  (by decide +kernel : ∀ t : Fin grid2.N, _)

/-- The node-feature window's block at point `t` is rows `4000·t … 4000·t + 3999` of its array. -/
theorem tile2_0_apply (c : Dev nD) (t : Fin cfg2.N) (y : S4000x128.Idx) (i : S100000x128.Idx)
    (h0 : (i 0).val = 4000 * t.val + (y 0).val) (h1 : (i 1).val = (y 1).val) :
    (iblk2 V c 0 t : Vec Ideal S4000x128 .f32) y = (V c main_v26 : S100000x128.Idx → EReal) i := by
  obtain ⟨e0, e1⟩ := idx2_0 t
  unfold iblk2
  rw [View.read_apply]
  show (V c main_v26 : S100000x128.Idx → EReal) _ = V c main_v26 i
  refine congrArg (V c main_v26 : S100000x128.Idx → EReal) (funext fun a => Fin.ext ?_)
  match a with
  | ⟨0, _⟩ => show win2_0.index t (0 : Fin 2) * 4000 + 1 * (y 0).val = (i 0).val; rw [e0, h0]; omega
  | ⟨1, _⟩ => show win2_0.index t (1 : Fin 2) * 128 + 1 * (y 1).val = (i 1).val; rw [e1, h1]; omega

/-- The residual window's block at point `t` is rows `4000·t … 4000·t + 3999` of its array. -/
theorem tile2_1_apply (c : Dev nD) (t : Fin cfg2.N) (y : S4000x128.Idx) (i : S100000x128.Idx)
    (h0 : (i 0).val = 4000 * t.val + (y 0).val) (h1 : (i 1).val = (y 1).val) :
    (iblk2 V c 1 t : Vec Ideal S4000x128 .f32) y = (V c main_v5 : S100000x128.Idx → EReal) i := by
  obtain ⟨e0, e1⟩ := idx2_1 t
  unfold iblk2
  rw [View.read_apply]
  show (V c main_v5 : S100000x128.Idx → EReal) _ = V c main_v5 i
  refine congrArg (V c main_v5 : S100000x128.Idx → EReal) (funext fun a => Fin.ext ?_)
  match a with
  | ⟨0, _⟩ => show win2_1.index t (0 : Fin 2) * 4000 + 1 * (y 0).val = (i 0).val; rw [e0, h0]; omega
  | ⟨1, _⟩ => show win2_1.index t (1 : Fin 2) * 128 + 1 * (y 1).val = (i 1).val; rw [e1, h1]; omega

/-- The aggregate window's block at point `t` is rows `4000·t … 4000·t + 3999` of its array. -/
theorem tile2_2_apply (c : Dev nD) (t : Fin cfg2.N) (y : S4000x128.Idx) (i : S100000x128.Idx)
    (h0 : (i 0).val = 4000 * t.val + (y 0).val) (h1 : (i 1).val = (y 1).val) :
    (iblk2 V c 2 t : Vec Ideal S4000x128 .f32) y = (V c main_v36 : S100000x128.Idx → EReal) i := by
  obtain ⟨e0, e1⟩ := idx2_2 t
  unfold iblk2
  rw [View.read_apply]
  show (V c main_v36 : S100000x128.Idx → EReal) _ = V c main_v36 i
  refine congrArg (V c main_v36 : S100000x128.Idx → EReal) (funext fun a => Fin.ext ?_)
  match a with
  | ⟨0, _⟩ => show win2_2.index t (0 : Fin 2) * 4000 + 1 * (y 0).val = (i 0).val; rw [e0, h0]; omega
  | ⟨1, _⟩ => show win2_2.index t (1 : Fin 2) * 128 + 1 * (y 1).val = (i 1).val; rw [e1, h1]; omega

/-- The first weight window's one block is its array. -/
theorem whole2_3 (c : Dev nD) (t : Fin cfg2.N) :
    (iblk2 V c 3 t : Vec Ideal S128x128 .f32) = (V c main_v38 : S128x128.Idx → EReal) := by
  obtain ⟨e0, e1⟩ := idx2_3 t
  funext y
  unfold iblk2
  rw [View.read_apply]
  show (V c main_v38 : S128x128.Idx → EReal) _ = V c main_v38 y
  refine congrArg (V c main_v38 : S128x128.Idx → EReal) (funext fun a => Fin.ext ?_)
  match a with
  | ⟨0, _⟩ => show win2_3.index t (0 : Fin 2) * 128 + 1 * (y 0).val = (y 0).val; rw [e0]; omega
  | ⟨1, _⟩ => show win2_3.index t (1 : Fin 2) * 128 + 1 * (y 1).val = (y 1).val; rw [e1]; omega

/-- The first bias window's one block is its array. -/
theorem whole2_4 (c : Dev nD) (t : Fin cfg2.N) :
    (iblk2 V c 4 t : Vec Ideal S1x128 .f32) = (V c main_v45 : S1x128.Idx → EReal) := by
  obtain ⟨e0, e1⟩ := idx2_4 t
  funext y
  unfold iblk2
  rw [View.read_apply]
  show (V c main_v45 : S1x128.Idx → EReal) _ = V c main_v45 y
  refine congrArg (V c main_v45 : S1x128.Idx → EReal) (funext fun a => Fin.ext ?_)
  match a with
  | ⟨0, _⟩ => show win2_4.index t (0 : Fin 2) * 1 + 1 * (y 0).val = (y 0).val; rw [e0]; omega
  | ⟨1, _⟩ => show win2_4.index t (1 : Fin 2) * 128 + 1 * (y 1).val = (y 1).val; rw [e1]; omega

/-- The second weight window's one block is its array. -/
theorem whole2_5 (c : Dev nD) (t : Fin cfg2.N) :
    (iblk2 V c 5 t : Vec Ideal S128x128 .f32) = (V c main_v42 : S128x128.Idx → EReal) := by
  obtain ⟨e0, e1⟩ := idx2_5 t
  funext y
  unfold iblk2
  rw [View.read_apply]
  show (V c main_v42 : S128x128.Idx → EReal) _ = V c main_v42 y
  refine congrArg (V c main_v42 : S128x128.Idx → EReal) (funext fun a => Fin.ext ?_)
  match a with
  | ⟨0, _⟩ => show win2_5.index t (0 : Fin 2) * 128 + 1 * (y 0).val = (y 0).val; rw [e0]; omega
  | ⟨1, _⟩ => show win2_5.index t (1 : Fin 2) * 128 + 1 * (y 1).val = (y 1).val; rw [e1]; omega

/-- The second bias window's one block is its array. -/
theorem whole2_6 (c : Dev nD) (t : Fin cfg2.N) :
    (iblk2 V c 6 t : Vec Ideal S1x128 .f32) = (V c main_v46 : S1x128.Idx → EReal) := by
  obtain ⟨e0, e1⟩ := idx2_6 t
  funext y
  unfold iblk2
  rw [View.read_apply]
  show (V c main_v46 : S1x128.Idx → EReal) _ = V c main_v46 y
  refine congrArg (V c main_v46 : S1x128.Idx → EReal) (funext fun a => Fin.ext ?_)
  match a with
  | ⟨0, _⟩ => show win2_6.index t (0 : Fin 2) * 1 + 1 * (y 0).val = (y 0).val; rw [e0]; omega
  | ⟨1, _⟩ => show win2_6.index t (1 : Fin 2) * 128 + 1 * (y 1).val = (y 1).val; rw [e1]; omega

/-! ## What a point writes back, the cover, the array after the run -/

/-- WHAT POINT `t` WRITES BACK is block `t` of the GIN layer of the arrays as the region finds them. -/
theorem flushed2_eq (c : Dev nD) (t : Fin cfg2.N) :
    (dat2 V c).flushed 7 t = ((cfg2.win 7).blk t).view.read (Elt Ideal)
      (fun i : S100000x128.Idx => Cert.Spec.ginAt (N := 100000) (fun r k => (V c main_v26 : S100000x128.Idx → EReal) (ix2 r k))
        (fun r k => (V c main_v5 : S100000x128.Idx → EReal) (ix2 r k)) (fun r k => (V c main_v36 : S100000x128.Idx → EReal) (ix2 r k))
        (fun k j => (V c main_v38 : S128x128.Idx → EReal) (ix2 k j)) (fun j => (V c main_v45 : S1x128.Idx → EReal) (ix2 0 j))
        (fun k j => (V c main_v42 : S128x128.Idx → EReal) (ix2 k j)) (fun j => (V c main_v46 : S1x128.Idx → EReal) (ix2 0 j)) (i 0) (i 1)) := by
  show (cfg2.win 7).cut (grid2.coords t) ((dat2 V c).after 7 t) = _
  rw [after2_7]
  unfold out2_7
  rw [View.canon_unit_zero hz2]
  simp only [View.ld_unit_zero (S := S4000x128) hz2, View.ld_unit_zero (S := S128x128) hz2, View.ld_unit_zero (S := S1x128) hz2]
  rw [whole2_3 V c t, whole2_4 V c t, whole2_5 V c t, whole2_6 V c t]
  obtain ⟨e0, e1⟩ := idx2_7 t
  funext y
  rw [View.read_apply]
  have hr : (((cfg2.win 7).blk t).view.emb y (0 : Fin 2)).val = 4000 * t.val + (y 0).val := by
    show win2_7.index t (0 : Fin 2) * 4000 + 1 * (y 0).val = 4000 * t.val + (y 0).val
    rw [e0]; omega
  refine gin_tile2 (V c main_v26) (V c main_v5) (V c main_v36) (V c main_v38) (V c main_v45) (V c main_v42) (V c main_v46)
    (iblk2 V c 0 t) (iblk2 V c 1 t) (iblk2 V c 2 t) y _ (fun k => ?_) (fun k => ?_) (fun k => ?_) ?_
  · exact tile2_0_apply V c t _ _ hr rfl
  · exact tile2_1_apply V c t _ _ hr rfl
  · exact tile2_2_apply V c t _ _ hr rfl
  · show win2_7.index t (1 : Fin 2) * 128 + 1 * (y 1).val = (y 1).val
    rw [e1]; omega

/-- An index of the array is in point `t`'s block iff each coordinate is in the block's range on its axis. -/
theorem mem_blk2 (t : Fin cfg2.N) (i : S100000x128.Idx) :
    i ∈ ((cfg2.win 7).blk t).view.set ↔ ∀ a : Fin 2, win2_7.index t a * S4000x128.size a ≤ (i a).val ∧ (i a).val < win2_7.index t a * S4000x128.size a + S4000x128.size a := by
  show i ∈ ((View.whole main_v47).slice (win2_7.rect t)).set ↔ _
  rw [View.set_slice_whole, Rect.mem_set_unit]
  exact Iff.rfl

/-- Row `r` of the array is in the block of point `r / 4000`: the 25 row tiles cover the array. -/
theorem cover2 (i : S100000x128.Idx) :
    ∃ t : Fin cfg2.N, (cfg2.win 7).flush t = true ∧ i ∈ ((cfg2.win 7).blk t).view.set := by
  have hi0 : (i 0).val < 100000 := (i 0).isLt
  have hi1 : (i 1).val < 128 := (i 1).isLt
  have hN : cfg2.N = 25 := N_2
  obtain ⟨t, ht⟩ : ∃ t : Fin cfg2.N, t.val = (i 0).val / 4000 := ⟨⟨(i 0).val / 4000, by omega⟩, rfl⟩
  obtain ⟨e0, e1⟩ := idx2_7 t
  refine ⟨t, flush2_7 t, ?_⟩
  rw [mem_blk2]
  intro a
  match a with
  | ⟨0, _⟩ =>
    show win2_7.index t (0 : Fin 2) * 4000 ≤ (i 0).val ∧ (i 0).val < win2_7.index t (0 : Fin 2) * 4000 + 4000
    rw [e0, ht]; omega
  | ⟨1, _⟩ =>
    show win2_7.index t (1 : Fin 2) * 128 ≤ (i 1).val ∧ (i 1).val < win2_7.index t (1 : Fin 2) * 128 + 128
    rw [e1]; omega

/-- THE ARRAY after region 2's run: the GIN layer of the node, residual, aggregate, weight and bias arrays the region
    finds. -/
theorem val2 (c : Dev nD) :
    (dat2 (F := Ideal) V c).arrAt 7 cfg2.N
      = (fun i : S100000x128.Idx => Cert.Spec.ginAt (N := 100000) (fun r k => (V c main_v26 : S100000x128.Idx → EReal) (ix2 r k))
        (fun r k => (V c main_v5 : S100000x128.Idx → EReal) (ix2 r k)) (fun r k => (V c main_v36 : S100000x128.Idx → EReal) (ix2 r k))
        (fun k j => (V c main_v38 : S128x128.Idx → EReal) (ix2 k j)) (fun j => (V c main_v45 : S1x128.Idx → EReal) (ix2 0 j))
        (fun k j => (V c main_v42 : S128x128.Idx → EReal) (ix2 k j)) (fun j => (V c main_v46 : S1x128.Idx → EReal) (ix2 0 j)) (i 0) (i 1)) :=
  (dat2 V c).arrAt_eq_of_cover 7 _ (fun t _ => flushed2_eq V c t) cover2

end Cert.KernelIdeal.Val

end
-- ==== Proof.KernelIdeal.Val3.lean ====
/- Region 3's output array at the ideal instance, as ONE function of the arrays the region finds: one GIN layer
   `max (max ((h + agg) · W1 + b1) 0 · W2 + b2 + h0) 0`, entry by entry. Each of the 25 grid points writes back rows
   `4000·t … 4000·t + 3999` of that function (its three input tiles are the same rows of `h`, `h0`, `agg`; the weights
   and the biases are whole arrays, fetched once), and the 25 row tiles cover the array. -/
import proofs.«121001_j68573447848158_1_alg».proof.Proof.KernelIdeal.Reg3
import proofs.«121001_j68573447848158_1_alg».proof.Proof.KernelIdeal.Pay
import Idealize.ShloMosaic.Lib.Pipeline.Value

set_option maxRecDepth 16384

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand

-- the TensorCore's buffer contents when the region is entered
variable (V : (c : Dev nD) → (b : Ref sig .tc) → Buf (Elt Ideal) ((c : Thread nD τ).loc b))

theorem hz3 : (![0, 0] : Fin 2 → Nat) = fun _ => 0 := funext fun a => by fin_cases a <;> rfl

/-! ## The body's value on a row tile, over variables -/

/-- The body's value at entry `y` of tiles whose rows are rows of node arrays `H`, `H0`, `A`: when row `y 0` of each
    tile is row `i 0` of its array and the columns agree, it is the GIN layer of the arrays at `i`. -/
theorem gin_tile3 (H H0 A : S100000x128.Idx → EReal) (W1 : S128x128.Idx → EReal) (B1 : S1x128.Idx → EReal)
    (W2 : S128x128.Idx → EReal) (B2 : S1x128.Idx → EReal)
    (h h0 a : Vec Ideal S4000x128 .f32) (y : S4000x128.Idx) (i : S100000x128.Idx)
    (hh : ∀ k : Fin 128, h (ix2 (y 0) k) = H (ix2 (i 0) k)) (hh0 : ∀ k : Fin 128, h0 (ix2 (y 0) k) = H0 (ix2 (i 0) k))
    (ha : ∀ k : Fin 128, a (ix2 (y 0) k) = A (ix2 (i 0) k)) (h1 : (i 1).val = (y 1).val) :
    k3_pay1 (F := Ideal) h a W1 B1 W2 B2 h0 y
      = Cert.Spec.ginAt (N := 100000) (fun r k => H (ix2 r k)) (fun r k => H0 (ix2 r k)) (fun r k => A (ix2 r k))
          (fun k j => W1 (ix2 k j)) (fun j => B1 (ix2 0 j)) (fun k j => W2 (ix2 k j)) (fun j => B2 (ix2 0 j)) (i 0) (i 1) := by
  obtain ⟨p, q, rfl⟩ : ∃ (p : Fin 4000) (q : Fin 128), y = ix2 p q := ⟨y 0, y 1, eq_ix2 y⟩
  obtain ⟨P, Q, rfl⟩ : ∃ (P : Fin 100000) (Q : Fin 128), i = ix2 P Q := ⟨i 0, i 1, eq_ix2 i⟩
  have hQ : Q = q := Fin.ext h1
  subst hQ
  have hh' : ∀ k : Fin 128, h (ix2 p k) = H (ix2 P k) := hh
  have hh0' : ∀ k : Fin 128, h0 (ix2 p k) = H0 (ix2 P k) := hh0
  have ha' : ∀ k : Fin 128, a (ix2 p k) = A (ix2 P k) := ha
  rw [pay3_apply]
  show Cert.Spec.ginAt _ _ _ _ _ _ _ p Q = Cert.Spec.ginAt _ _ _ _ _ _ _ P Q
  unfold Cert.Spec.ginAt
  simp only [hh', hh0', ha']

/-! ## The windows' blocks as rows of the arrays -/

-- The printed index maps over the 25 points: the four row-tiled windows are at block `t` of the rows, the weight and
-- bias windows at their one block.
theorem idx3_0 : ∀ t : Fin cfg3.N, win3_0.index t (0 : Fin 2) = t.val ∧ win3_0.index t (1 : Fin 2) = 0 :=
  (by decide +kernel : ∀ t : Fin grid3.N, _)
theorem idx3_1 : ∀ t : Fin cfg3.N, win3_1.index t (0 : Fin 2) = t.val ∧ win3_1.index t (1 : Fin 2) = 0 :=
  (by decide +kernel : ∀ t : Fin grid3.N, _)
theorem idx3_2 : ∀ t : Fin cfg3.N, win3_2.index t (0 : Fin 2) = t.val ∧ win3_2.index t (1 : Fin 2) = 0 :=
  (by decide +kernel : ∀ t : Fin grid3.N, _)
theorem idx3_3 : ∀ t : Fin cfg3.N, win3_3.index t (0 : Fin 2) = 0 ∧ win3_3.index t (1 : Fin 2) = 0 :=
  (by decide +kernel : ∀ t : Fin grid3.N, _)
theorem idx3_4 : ∀ t : Fin cfg3.N, win3_4.index t (0 : Fin 2) = 0 ∧ win3_4.index t (1 : Fin 2) = 0 :=
  (by decide +kernel : ∀ t : Fin grid3.N, _)
theorem idx3_5 : ∀ t : Fin cfg3.N, win3_5.index t (0 : Fin 2) = 0 ∧ win3_5.index t (1 : Fin 2) = 0 :=
  (by decide +kernel : ∀ t : Fin grid3.N, _)
theorem idx3_6 : ∀ t : Fin cfg3.N, win3_6.index t (0 : Fin 2) = 0 ∧ win3_6.index t (1 : Fin 2) = 0 :=
  (by decide +kernel : ∀ t : Fin grid3.N, _)
theorem idx3_7 : ∀ t : Fin cfg3.N, win3_7.index t (0 : Fin 2) = t.val ∧ win3_7.index t (1 : Fin 2) = 0 :=
  (by decide +kernel : ∀ t : Fin grid3.N, _)

/-- The node-feature window's block at point `t` is rows `4000·t … 4000·t + 3999` of its array. -/
theorem tile3_0_apply (c : Dev nD) (t : Fin cfg3.N) (y : S4000x128.Idx) (i : S100000x128.Idx)
    (h0 : (i 0).val = 4000 * t.val + (y 0).val) (h1 : (i 1).val = (y 1).val) :
    (iblk3 V c 0 t : Vec Ideal S4000x128 .f32) y = (V c main_v47 : S100000x128.Idx → EReal) i := by
  obtain ⟨e0, e1⟩ := idx3_0 t
  unfold iblk3
  rw [View.read_apply]
  show (V c main_v47 : S100000x128.Idx → EReal) _ = V c main_v47 i
  refine congrArg (V c main_v47 : S100000x128.Idx → EReal) (funext fun a => Fin.ext ?_)
  match a with
  | ⟨0, _⟩ => show win3_0.index t (0 : Fin 2) * 4000 + 1 * (y 0).val = (i 0).val; rw [e0, h0]; omega
  | ⟨1, _⟩ => show win3_0.index t (1 : Fin 2) * 128 + 1 * (y 1).val = (i 1).val; rw [e1, h1]; omega

/-- The residual window's block at point `t` is rows `4000·t … 4000·t + 3999` of its array. -/
theorem tile3_1_apply (c : Dev nD) (t : Fin cfg3.N) (y : S4000x128.Idx) (i : S100000x128.Idx)
    (h0 : (i 0).val = 4000 * t.val + (y 0).val) (h1 : (i 1).val = (y 1).val) :
    (iblk3 V c 1 t : Vec Ideal S4000x128 .f32) y = (V c main_v5 : S100000x128.Idx → EReal) i := by
  obtain ⟨e0, e1⟩ := idx3_1 t
  unfold iblk3
  rw [View.read_apply]
  show (V c main_v5 : S100000x128.Idx → EReal) _ = V c main_v5 i
  refine congrArg (V c main_v5 : S100000x128.Idx → EReal) (funext fun a => Fin.ext ?_)
  match a with
  | ⟨0, _⟩ => show win3_1.index t (0 : Fin 2) * 4000 + 1 * (y 0).val = (i 0).val; rw [e0, h0]; omega
  | ⟨1, _⟩ => show win3_1.index t (1 : Fin 2) * 128 + 1 * (y 1).val = (i 1).val; rw [e1, h1]; omega

/-- The aggregate window's block at point `t` is rows `4000·t … 4000·t + 3999` of its array. -/
theorem tile3_2_apply (c : Dev nD) (t : Fin cfg3.N) (y : S4000x128.Idx) (i : S100000x128.Idx)
    (h0 : (i 0).val = 4000 * t.val + (y 0).val) (h1 : (i 1).val = (y 1).val) :
    (iblk3 V c 2 t : Vec Ideal S4000x128 .f32) y = (V c main_v57 : S100000x128.Idx → EReal) i := by
  obtain ⟨e0, e1⟩ := idx3_2 t
  unfold iblk3
  rw [View.read_apply]
  show (V c main_v57 : S100000x128.Idx → EReal) _ = V c main_v57 i
  refine congrArg (V c main_v57 : S100000x128.Idx → EReal) (funext fun a => Fin.ext ?_)
  match a with
  | ⟨0, _⟩ => show win3_2.index t (0 : Fin 2) * 4000 + 1 * (y 0).val = (i 0).val; rw [e0, h0]; omega
  | ⟨1, _⟩ => show win3_2.index t (1 : Fin 2) * 128 + 1 * (y 1).val = (i 1).val; rw [e1, h1]; omega

/-- The first weight window's one block is its array. -/
theorem whole3_3 (c : Dev nD) (t : Fin cfg3.N) :
    (iblk3 V c 3 t : Vec Ideal S128x128 .f32) = (V c main_v59 : S128x128.Idx → EReal) := by
  obtain ⟨e0, e1⟩ := idx3_3 t
  funext y
  unfold iblk3
  rw [View.read_apply]
  show (V c main_v59 : S128x128.Idx → EReal) _ = V c main_v59 y
  refine congrArg (V c main_v59 : S128x128.Idx → EReal) (funext fun a => Fin.ext ?_)
  match a with
  | ⟨0, _⟩ => show win3_3.index t (0 : Fin 2) * 128 + 1 * (y 0).val = (y 0).val; rw [e0]; omega
  | ⟨1, _⟩ => show win3_3.index t (1 : Fin 2) * 128 + 1 * (y 1).val = (y 1).val; rw [e1]; omega

/-- The first bias window's one block is its array. -/
theorem whole3_4 (c : Dev nD) (t : Fin cfg3.N) :
    (iblk3 V c 4 t : Vec Ideal S1x128 .f32) = (V c main_v66 : S1x128.Idx → EReal) := by
  obtain ⟨e0, e1⟩ := idx3_4 t
  funext y
  unfold iblk3
  rw [View.read_apply]
  show (V c main_v66 : S1x128.Idx → EReal) _ = V c main_v66 y
  refine congrArg (V c main_v66 : S1x128.Idx → EReal) (funext fun a => Fin.ext ?_)
  match a with
  | ⟨0, _⟩ => show win3_4.index t (0 : Fin 2) * 1 + 1 * (y 0).val = (y 0).val; rw [e0]; omega
  | ⟨1, _⟩ => show win3_4.index t (1 : Fin 2) * 128 + 1 * (y 1).val = (y 1).val; rw [e1]; omega

/-- The second weight window's one block is its array. -/
theorem whole3_5 (c : Dev nD) (t : Fin cfg3.N) :
    (iblk3 V c 5 t : Vec Ideal S128x128 .f32) = (V c main_v63 : S128x128.Idx → EReal) := by
  obtain ⟨e0, e1⟩ := idx3_5 t
  funext y
  unfold iblk3
  rw [View.read_apply]
  show (V c main_v63 : S128x128.Idx → EReal) _ = V c main_v63 y
  refine congrArg (V c main_v63 : S128x128.Idx → EReal) (funext fun a => Fin.ext ?_)
  match a with
  | ⟨0, _⟩ => show win3_5.index t (0 : Fin 2) * 128 + 1 * (y 0).val = (y 0).val; rw [e0]; omega
  | ⟨1, _⟩ => show win3_5.index t (1 : Fin 2) * 128 + 1 * (y 1).val = (y 1).val; rw [e1]; omega

/-- The second bias window's one block is its array. -/
theorem whole3_6 (c : Dev nD) (t : Fin cfg3.N) :
    (iblk3 V c 6 t : Vec Ideal S1x128 .f32) = (V c main_v67 : S1x128.Idx → EReal) := by
  obtain ⟨e0, e1⟩ := idx3_6 t
  funext y
  unfold iblk3
  rw [View.read_apply]
  show (V c main_v67 : S1x128.Idx → EReal) _ = V c main_v67 y
  refine congrArg (V c main_v67 : S1x128.Idx → EReal) (funext fun a => Fin.ext ?_)
  match a with
  | ⟨0, _⟩ => show win3_6.index t (0 : Fin 2) * 1 + 1 * (y 0).val = (y 0).val; rw [e0]; omega
  | ⟨1, _⟩ => show win3_6.index t (1 : Fin 2) * 128 + 1 * (y 1).val = (y 1).val; rw [e1]; omega

/-! ## What a point writes back, the cover, the array after the run -/

/-- WHAT POINT `t` WRITES BACK is block `t` of the GIN layer of the arrays as the region finds them. -/
theorem flushed3_eq (c : Dev nD) (t : Fin cfg3.N) :
    (dat3 V c).flushed 7 t = ((cfg3.win 7).blk t).view.read (Elt Ideal)
      (fun i : S100000x128.Idx => Cert.Spec.ginAt (N := 100000) (fun r k => (V c main_v47 : S100000x128.Idx → EReal) (ix2 r k))
        (fun r k => (V c main_v5 : S100000x128.Idx → EReal) (ix2 r k)) (fun r k => (V c main_v57 : S100000x128.Idx → EReal) (ix2 r k))
        (fun k j => (V c main_v59 : S128x128.Idx → EReal) (ix2 k j)) (fun j => (V c main_v66 : S1x128.Idx → EReal) (ix2 0 j))
        (fun k j => (V c main_v63 : S128x128.Idx → EReal) (ix2 k j)) (fun j => (V c main_v67 : S1x128.Idx → EReal) (ix2 0 j)) (i 0) (i 1)) := by
  show (cfg3.win 7).cut (grid3.coords t) ((dat3 V c).after 7 t) = _
  rw [after3_7]
  unfold out3_7
  rw [View.canon_unit_zero hz3]
  simp only [View.ld_unit_zero (S := S4000x128) hz3, View.ld_unit_zero (S := S128x128) hz3, View.ld_unit_zero (S := S1x128) hz3]
  rw [whole3_3 V c t, whole3_4 V c t, whole3_5 V c t, whole3_6 V c t]
  obtain ⟨e0, e1⟩ := idx3_7 t
  funext y
  rw [View.read_apply]
  have hr : (((cfg3.win 7).blk t).view.emb y (0 : Fin 2)).val = 4000 * t.val + (y 0).val := by
    show win3_7.index t (0 : Fin 2) * 4000 + 1 * (y 0).val = 4000 * t.val + (y 0).val
    rw [e0]; omega
  refine gin_tile3 (V c main_v47) (V c main_v5) (V c main_v57) (V c main_v59) (V c main_v66) (V c main_v63) (V c main_v67)
    (iblk3 V c 0 t) (iblk3 V c 1 t) (iblk3 V c 2 t) y _ (fun k => ?_) (fun k => ?_) (fun k => ?_) ?_
  · exact tile3_0_apply V c t _ _ hr rfl
  · exact tile3_1_apply V c t _ _ hr rfl
  · exact tile3_2_apply V c t _ _ hr rfl
  · show win3_7.index t (1 : Fin 2) * 128 + 1 * (y 1).val = (y 1).val
    rw [e1]; omega

/-- An index of the array is in point `t`'s block iff each coordinate is in the block's range on its axis. -/
theorem mem_blk3 (t : Fin cfg3.N) (i : S100000x128.Idx) :
    i ∈ ((cfg3.win 7).blk t).view.set ↔ ∀ a : Fin 2, win3_7.index t a * S4000x128.size a ≤ (i a).val ∧ (i a).val < win3_7.index t a * S4000x128.size a + S4000x128.size a := by
  show i ∈ ((View.whole main_v68).slice (win3_7.rect t)).set ↔ _
  rw [View.set_slice_whole, Rect.mem_set_unit]
  exact Iff.rfl

/-- Row `r` of the array is in the block of point `r / 4000`: the 25 row tiles cover the array. -/
theorem cover3 (i : S100000x128.Idx) :
    ∃ t : Fin cfg3.N, (cfg3.win 7).flush t = true ∧ i ∈ ((cfg3.win 7).blk t).view.set := by
  have hi0 : (i 0).val < 100000 := (i 0).isLt
  have hi1 : (i 1).val < 128 := (i 1).isLt
  have hN : cfg3.N = 25 := N_3
  obtain ⟨t, ht⟩ : ∃ t : Fin cfg3.N, t.val = (i 0).val / 4000 := ⟨⟨(i 0).val / 4000, by omega⟩, rfl⟩
  obtain ⟨e0, e1⟩ := idx3_7 t
  refine ⟨t, flush3_7 t, ?_⟩
  rw [mem_blk3]
  intro a
  match a with
  | ⟨0, _⟩ =>
    show win3_7.index t (0 : Fin 2) * 4000 ≤ (i 0).val ∧ (i 0).val < win3_7.index t (0 : Fin 2) * 4000 + 4000
    rw [e0, ht]; omega
  | ⟨1, _⟩ =>
    show win3_7.index t (1 : Fin 2) * 128 ≤ (i 1).val ∧ (i 1).val < win3_7.index t (1 : Fin 2) * 128 + 128
    rw [e1]; omega

/-- THE ARRAY after region 3's run: the GIN layer of the node, residual, aggregate, weight and bias arrays the region
    finds. -/
theorem val3 (c : Dev nD) :
    (dat3 (F := Ideal) V c).arrAt 7 cfg3.N
      = (fun i : S100000x128.Idx => Cert.Spec.ginAt (N := 100000) (fun r k => (V c main_v47 : S100000x128.Idx → EReal) (ix2 r k))
        (fun r k => (V c main_v5 : S100000x128.Idx → EReal) (ix2 r k)) (fun r k => (V c main_v57 : S100000x128.Idx → EReal) (ix2 r k))
        (fun k j => (V c main_v59 : S128x128.Idx → EReal) (ix2 k j)) (fun j => (V c main_v66 : S1x128.Idx → EReal) (ix2 0 j))
        (fun k j => (V c main_v63 : S128x128.Idx → EReal) (ix2 k j)) (fun j => (V c main_v67 : S1x128.Idx → EReal) (ix2 0 j)) (i 0) (i 1)) :=
  (dat3 V c).arrAt_eq_of_cover 7 _ (fun t _ => flushed3_eq V c t) cover3

end Cert.KernelIdeal.Val

end
-- ==== Proof.KernelIdeal.Val4.lean ====
/- Region 4's output array at the ideal instance, as ONE function of the arrays the region finds: one GIN layer
   `max (max ((h + agg) · W1 + b1) 0 · W2 + b2 + h0) 0`, entry by entry. Each of the 25 grid points writes back rows
   `4000·t … 4000·t + 3999` of that function (its three input tiles are the same rows of `h`, `h0`, `agg`; the weights
   and the biases are whole arrays, fetched once), and the 25 row tiles cover the array. -/
import proofs.«121001_j68573447848158_1_alg».proof.Proof.KernelIdeal.Reg4
import proofs.«121001_j68573447848158_1_alg».proof.Proof.KernelIdeal.Pay
import Idealize.ShloMosaic.Lib.Pipeline.Value

set_option maxRecDepth 16384

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand

-- the TensorCore's buffer contents when the region is entered
variable (V : (c : Dev nD) → (b : Ref sig .tc) → Buf (Elt Ideal) ((c : Thread nD τ).loc b))

theorem hz4 : (![0, 0] : Fin 2 → Nat) = fun _ => 0 := funext fun a => by fin_cases a <;> rfl

/-! ## The body's value on a row tile, over variables -/

/-- The body's value at entry `y` of tiles whose rows are rows of node arrays `H`, `H0`, `A`: when row `y 0` of each
    tile is row `i 0` of its array and the columns agree, it is the GIN layer of the arrays at `i`. -/
theorem gin_tile4 (H H0 A : S100000x128.Idx → EReal) (W1 : S128x128.Idx → EReal) (B1 : S1x128.Idx → EReal)
    (W2 : S128x128.Idx → EReal) (B2 : S1x128.Idx → EReal)
    (h h0 a : Vec Ideal S4000x128 .f32) (y : S4000x128.Idx) (i : S100000x128.Idx)
    (hh : ∀ k : Fin 128, h (ix2 (y 0) k) = H (ix2 (i 0) k)) (hh0 : ∀ k : Fin 128, h0 (ix2 (y 0) k) = H0 (ix2 (i 0) k))
    (ha : ∀ k : Fin 128, a (ix2 (y 0) k) = A (ix2 (i 0) k)) (h1 : (i 1).val = (y 1).val) :
    k4_pay1 (F := Ideal) h a W1 B1 W2 B2 h0 y
      = Cert.Spec.ginAt (N := 100000) (fun r k => H (ix2 r k)) (fun r k => H0 (ix2 r k)) (fun r k => A (ix2 r k))
          (fun k j => W1 (ix2 k j)) (fun j => B1 (ix2 0 j)) (fun k j => W2 (ix2 k j)) (fun j => B2 (ix2 0 j)) (i 0) (i 1) := by
  obtain ⟨p, q, rfl⟩ : ∃ (p : Fin 4000) (q : Fin 128), y = ix2 p q := ⟨y 0, y 1, eq_ix2 y⟩
  obtain ⟨P, Q, rfl⟩ : ∃ (P : Fin 100000) (Q : Fin 128), i = ix2 P Q := ⟨i 0, i 1, eq_ix2 i⟩
  have hQ : Q = q := Fin.ext h1
  subst hQ
  have hh' : ∀ k : Fin 128, h (ix2 p k) = H (ix2 P k) := hh
  have hh0' : ∀ k : Fin 128, h0 (ix2 p k) = H0 (ix2 P k) := hh0
  have ha' : ∀ k : Fin 128, a (ix2 p k) = A (ix2 P k) := ha
  rw [pay4_apply]
  show Cert.Spec.ginAt _ _ _ _ _ _ _ p Q = Cert.Spec.ginAt _ _ _ _ _ _ _ P Q
  unfold Cert.Spec.ginAt
  simp only [hh', hh0', ha']

/-! ## The windows' blocks as rows of the arrays -/

-- The printed index maps over the 25 points: the four row-tiled windows are at block `t` of the rows, the weight and
-- bias windows at their one block.
theorem idx4_0 : ∀ t : Fin cfg4.N, win4_0.index t (0 : Fin 2) = t.val ∧ win4_0.index t (1 : Fin 2) = 0 :=
  (by decide +kernel : ∀ t : Fin grid4.N, _)
theorem idx4_1 : ∀ t : Fin cfg4.N, win4_1.index t (0 : Fin 2) = t.val ∧ win4_1.index t (1 : Fin 2) = 0 :=
  (by decide +kernel : ∀ t : Fin grid4.N, _)
theorem idx4_2 : ∀ t : Fin cfg4.N, win4_2.index t (0 : Fin 2) = t.val ∧ win4_2.index t (1 : Fin 2) = 0 :=
  (by decide +kernel : ∀ t : Fin grid4.N, _)
theorem idx4_3 : ∀ t : Fin cfg4.N, win4_3.index t (0 : Fin 2) = 0 ∧ win4_3.index t (1 : Fin 2) = 0 :=
  (by decide +kernel : ∀ t : Fin grid4.N, _)
theorem idx4_4 : ∀ t : Fin cfg4.N, win4_4.index t (0 : Fin 2) = 0 ∧ win4_4.index t (1 : Fin 2) = 0 :=
  (by decide +kernel : ∀ t : Fin grid4.N, _)
theorem idx4_5 : ∀ t : Fin cfg4.N, win4_5.index t (0 : Fin 2) = 0 ∧ win4_5.index t (1 : Fin 2) = 0 :=
  (by decide +kernel : ∀ t : Fin grid4.N, _)
theorem idx4_6 : ∀ t : Fin cfg4.N, win4_6.index t (0 : Fin 2) = 0 ∧ win4_6.index t (1 : Fin 2) = 0 :=
  (by decide +kernel : ∀ t : Fin grid4.N, _)
theorem idx4_7 : ∀ t : Fin cfg4.N, win4_7.index t (0 : Fin 2) = t.val ∧ win4_7.index t (1 : Fin 2) = 0 :=
  (by decide +kernel : ∀ t : Fin grid4.N, _)

/-- The node-feature window's block at point `t` is rows `4000·t … 4000·t + 3999` of its array. -/
theorem tile4_0_apply (c : Dev nD) (t : Fin cfg4.N) (y : S4000x128.Idx) (i : S100000x128.Idx)
    (h0 : (i 0).val = 4000 * t.val + (y 0).val) (h1 : (i 1).val = (y 1).val) :
    (iblk4 V c 0 t : Vec Ideal S4000x128 .f32) y = (V c main_v68 : S100000x128.Idx → EReal) i := by
  obtain ⟨e0, e1⟩ := idx4_0 t
  unfold iblk4
  rw [View.read_apply]
  show (V c main_v68 : S100000x128.Idx → EReal) _ = V c main_v68 i
  refine congrArg (V c main_v68 : S100000x128.Idx → EReal) (funext fun a => Fin.ext ?_)
  match a with
  | ⟨0, _⟩ => show win4_0.index t (0 : Fin 2) * 4000 + 1 * (y 0).val = (i 0).val; rw [e0, h0]; omega
  | ⟨1, _⟩ => show win4_0.index t (1 : Fin 2) * 128 + 1 * (y 1).val = (i 1).val; rw [e1, h1]; omega

/-- The residual window's block at point `t` is rows `4000·t … 4000·t + 3999` of its array. -/
theorem tile4_1_apply (c : Dev nD) (t : Fin cfg4.N) (y : S4000x128.Idx) (i : S100000x128.Idx)
    (h0 : (i 0).val = 4000 * t.val + (y 0).val) (h1 : (i 1).val = (y 1).val) :
    (iblk4 V c 1 t : Vec Ideal S4000x128 .f32) y = (V c main_v5 : S100000x128.Idx → EReal) i := by
  obtain ⟨e0, e1⟩ := idx4_1 t
  unfold iblk4
  rw [View.read_apply]
  show (V c main_v5 : S100000x128.Idx → EReal) _ = V c main_v5 i
  refine congrArg (V c main_v5 : S100000x128.Idx → EReal) (funext fun a => Fin.ext ?_)
  match a with
  | ⟨0, _⟩ => show win4_1.index t (0 : Fin 2) * 4000 + 1 * (y 0).val = (i 0).val; rw [e0, h0]; omega
  | ⟨1, _⟩ => show win4_1.index t (1 : Fin 2) * 128 + 1 * (y 1).val = (i 1).val; rw [e1, h1]; omega

/-- The aggregate window's block at point `t` is rows `4000·t … 4000·t + 3999` of its array. -/
theorem tile4_2_apply (c : Dev nD) (t : Fin cfg4.N) (y : S4000x128.Idx) (i : S100000x128.Idx)
    (h0 : (i 0).val = 4000 * t.val + (y 0).val) (h1 : (i 1).val = (y 1).val) :
    (iblk4 V c 2 t : Vec Ideal S4000x128 .f32) y = (V c main_v78 : S100000x128.Idx → EReal) i := by
  obtain ⟨e0, e1⟩ := idx4_2 t
  unfold iblk4
  rw [View.read_apply]
  show (V c main_v78 : S100000x128.Idx → EReal) _ = V c main_v78 i
  refine congrArg (V c main_v78 : S100000x128.Idx → EReal) (funext fun a => Fin.ext ?_)
  match a with
  | ⟨0, _⟩ => show win4_2.index t (0 : Fin 2) * 4000 + 1 * (y 0).val = (i 0).val; rw [e0, h0]; omega
  | ⟨1, _⟩ => show win4_2.index t (1 : Fin 2) * 128 + 1 * (y 1).val = (i 1).val; rw [e1, h1]; omega

/-- The first weight window's one block is its array. -/
theorem whole4_3 (c : Dev nD) (t : Fin cfg4.N) :
    (iblk4 V c 3 t : Vec Ideal S128x128 .f32) = (V c main_v80 : S128x128.Idx → EReal) := by
  obtain ⟨e0, e1⟩ := idx4_3 t
  funext y
  unfold iblk4
  rw [View.read_apply]
  show (V c main_v80 : S128x128.Idx → EReal) _ = V c main_v80 y
  refine congrArg (V c main_v80 : S128x128.Idx → EReal) (funext fun a => Fin.ext ?_)
  match a with
  | ⟨0, _⟩ => show win4_3.index t (0 : Fin 2) * 128 + 1 * (y 0).val = (y 0).val; rw [e0]; omega
  | ⟨1, _⟩ => show win4_3.index t (1 : Fin 2) * 128 + 1 * (y 1).val = (y 1).val; rw [e1]; omega

/-- The first bias window's one block is its array. -/
theorem whole4_4 (c : Dev nD) (t : Fin cfg4.N) :
    (iblk4 V c 4 t : Vec Ideal S1x128 .f32) = (V c main_v87 : S1x128.Idx → EReal) := by
  obtain ⟨e0, e1⟩ := idx4_4 t
  funext y
  unfold iblk4
  rw [View.read_apply]
  show (V c main_v87 : S1x128.Idx → EReal) _ = V c main_v87 y
  refine congrArg (V c main_v87 : S1x128.Idx → EReal) (funext fun a => Fin.ext ?_)
  match a with
  | ⟨0, _⟩ => show win4_4.index t (0 : Fin 2) * 1 + 1 * (y 0).val = (y 0).val; rw [e0]; omega
  | ⟨1, _⟩ => show win4_4.index t (1 : Fin 2) * 128 + 1 * (y 1).val = (y 1).val; rw [e1]; omega

/-- The second weight window's one block is its array. -/
theorem whole4_5 (c : Dev nD) (t : Fin cfg4.N) :
    (iblk4 V c 5 t : Vec Ideal S128x128 .f32) = (V c main_v84 : S128x128.Idx → EReal) := by
  obtain ⟨e0, e1⟩ := idx4_5 t
  funext y
  unfold iblk4
  rw [View.read_apply]
  show (V c main_v84 : S128x128.Idx → EReal) _ = V c main_v84 y
  refine congrArg (V c main_v84 : S128x128.Idx → EReal) (funext fun a => Fin.ext ?_)
  match a with
  | ⟨0, _⟩ => show win4_5.index t (0 : Fin 2) * 128 + 1 * (y 0).val = (y 0).val; rw [e0]; omega
  | ⟨1, _⟩ => show win4_5.index t (1 : Fin 2) * 128 + 1 * (y 1).val = (y 1).val; rw [e1]; omega

/-- The second bias window's one block is its array. -/
theorem whole4_6 (c : Dev nD) (t : Fin cfg4.N) :
    (iblk4 V c 6 t : Vec Ideal S1x128 .f32) = (V c main_v88 : S1x128.Idx → EReal) := by
  obtain ⟨e0, e1⟩ := idx4_6 t
  funext y
  unfold iblk4
  rw [View.read_apply]
  show (V c main_v88 : S1x128.Idx → EReal) _ = V c main_v88 y
  refine congrArg (V c main_v88 : S1x128.Idx → EReal) (funext fun a => Fin.ext ?_)
  match a with
  | ⟨0, _⟩ => show win4_6.index t (0 : Fin 2) * 1 + 1 * (y 0).val = (y 0).val; rw [e0]; omega
  | ⟨1, _⟩ => show win4_6.index t (1 : Fin 2) * 128 + 1 * (y 1).val = (y 1).val; rw [e1]; omega

/-! ## What a point writes back, the cover, the array after the run -/

-- reading the three tiles through this region's window records takes more elaboration steps than the default budget
set_option maxHeartbeats 1000000 in
/-- WHAT POINT `t` WRITES BACK is block `t` of the GIN layer of the arrays as the region finds them. -/
theorem flushed4_eq (c : Dev nD) (t : Fin cfg4.N) :
    (dat4 V c).flushed 7 t = ((cfg4.win 7).blk t).view.read (Elt Ideal)
      (fun i : S100000x128.Idx => Cert.Spec.ginAt (N := 100000) (fun r k => (V c main_v68 : S100000x128.Idx → EReal) (ix2 r k))
        (fun r k => (V c main_v5 : S100000x128.Idx → EReal) (ix2 r k)) (fun r k => (V c main_v78 : S100000x128.Idx → EReal) (ix2 r k))
        (fun k j => (V c main_v80 : S128x128.Idx → EReal) (ix2 k j)) (fun j => (V c main_v87 : S1x128.Idx → EReal) (ix2 0 j))
        (fun k j => (V c main_v84 : S128x128.Idx → EReal) (ix2 k j)) (fun j => (V c main_v88 : S1x128.Idx → EReal) (ix2 0 j)) (i 0) (i 1)) := by
  show (cfg4.win 7).cut (grid4.coords t) ((dat4 V c).after 7 t) = _
  rw [after4_7]
  unfold out4_7
  rw [View.canon_unit_zero hz4]
  simp only [View.ld_unit_zero (S := S4000x128) hz4, View.ld_unit_zero (S := S128x128) hz4, View.ld_unit_zero (S := S1x128) hz4]
  rw [whole4_3 V c t, whole4_4 V c t, whole4_5 V c t, whole4_6 V c t]
  obtain ⟨e0, e1⟩ := idx4_7 t
  funext y
  rw [View.read_apply]
  have hr : (((cfg4.win 7).blk t).view.emb y (0 : Fin 2)).val = 4000 * t.val + (y 0).val := by
    show win4_7.index t (0 : Fin 2) * 4000 + 1 * (y 0).val = 4000 * t.val + (y 0).val
    rw [e0]; omega
  refine gin_tile4 (V c main_v68) (V c main_v5) (V c main_v78) (V c main_v80) (V c main_v87) (V c main_v84) (V c main_v88)
    (iblk4 V c 0 t) (iblk4 V c 1 t) (iblk4 V c 2 t) y _ (fun k => ?_) (fun k => ?_) (fun k => ?_) ?_
  · exact tile4_0_apply V c t _ _ hr rfl
  · exact tile4_1_apply V c t _ _ hr rfl
  · exact tile4_2_apply V c t _ _ hr rfl
  · show win4_7.index t (1 : Fin 2) * 128 + 1 * (y 1).val = (y 1).val
    rw [e1]; omega

/-- An index of the array is in point `t`'s block iff each coordinate is in the block's range on its axis. -/
theorem mem_blk4 (t : Fin cfg4.N) (i : S100000x128.Idx) :
    i ∈ ((cfg4.win 7).blk t).view.set ↔ ∀ a : Fin 2, win4_7.index t a * S4000x128.size a ≤ (i a).val ∧ (i a).val < win4_7.index t a * S4000x128.size a + S4000x128.size a := by
  show i ∈ ((View.whole main_v89).slice (win4_7.rect t)).set ↔ _
  rw [View.set_slice_whole, Rect.mem_set_unit]
  exact Iff.rfl

/-- Row `r` of the array is in the block of point `r / 4000`: the 25 row tiles cover the array. -/
theorem cover4 (i : S100000x128.Idx) :
    ∃ t : Fin cfg4.N, (cfg4.win 7).flush t = true ∧ i ∈ ((cfg4.win 7).blk t).view.set := by
  have hi0 : (i 0).val < 100000 := (i 0).isLt
  have hi1 : (i 1).val < 128 := (i 1).isLt
  have hN : cfg4.N = 25 := N_4
  obtain ⟨t, ht⟩ : ∃ t : Fin cfg4.N, t.val = (i 0).val / 4000 := ⟨⟨(i 0).val / 4000, by omega⟩, rfl⟩
  obtain ⟨e0, e1⟩ := idx4_7 t
  refine ⟨t, flush4_7 t, ?_⟩
  rw [mem_blk4]
  intro a
  match a with
  | ⟨0, _⟩ =>
    show win4_7.index t (0 : Fin 2) * 4000 ≤ (i 0).val ∧ (i 0).val < win4_7.index t (0 : Fin 2) * 4000 + 4000
    rw [e0, ht]; omega
  | ⟨1, _⟩ =>
    show win4_7.index t (1 : Fin 2) * 128 ≤ (i 1).val ∧ (i 1).val < win4_7.index t (1 : Fin 2) * 128 + 128
    rw [e1]; omega

/-- THE ARRAY after region 4's run: the GIN layer of the node, residual, aggregate, weight and bias arrays the region
    finds. -/
theorem val4 (c : Dev nD) :
    (dat4 (F := Ideal) V c).arrAt 7 cfg4.N
      = (fun i : S100000x128.Idx => Cert.Spec.ginAt (N := 100000) (fun r k => (V c main_v68 : S100000x128.Idx → EReal) (ix2 r k))
        (fun r k => (V c main_v5 : S100000x128.Idx → EReal) (ix2 r k)) (fun r k => (V c main_v78 : S100000x128.Idx → EReal) (ix2 r k))
        (fun k j => (V c main_v80 : S128x128.Idx → EReal) (ix2 k j)) (fun j => (V c main_v87 : S1x128.Idx → EReal) (ix2 0 j))
        (fun k j => (V c main_v84 : S128x128.Idx → EReal) (ix2 k j)) (fun j => (V c main_v88 : S1x128.Idx → EReal) (ix2 0 j)) (i 0) (i 1)) :=
  (dat4 V c).arrAt_eq_of_cover 7 _ (fun t _ => flushed4_eq V c t) cover4

end Cert.KernelIdeal.Val

end
-- ==== Proof.KernelIdeal.Val5.lean ====
/- Region 5's output array at the ideal instance, as ONE function of the arrays the region finds: the graph-level readout
   `pooled · wf + bf`, entry by entry. The grid has one point and every window is its whole array, so the one write-back
   is the whole output. -/
import proofs.«121001_j68573447848158_1_alg».proof.Proof.KernelIdeal.Reg5
import proofs.«121001_j68573447848158_1_alg».proof.Proof.KernelIdeal.Pay
import Idealize.ShloMosaic.Lib.Pipeline.Value

set_option maxRecDepth 16384

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand

-- the TensorCore's buffer contents when the region is entered
variable (V : (c : Dev nD) → (b : Ref sig .tc) → Buf (Elt Ideal) ((c : Thread nD τ).loc b))

theorem hz5 : (![0, 0] : Fin 2 → Nat) = fun _ => 0 := funext fun a => by fin_cases a <;> rfl

/-! ## The body's value, over variables -/

/-- The body's value at entry `y` of the one-column output is the readout of the pooled array at `y`'s row. -/
theorem fin_whole (P : S1000x128.Idx → EReal) (W : S128x1.Idx → EReal) (B : S1x1.Idx → EReal) (y i : S1000x1.Idx)
    (h0 : (i 0).val = (y 0).val) :
    k5_pay1 (F := Ideal) P W B y
      = Cert.Spec.finAt (G := 1000) (fun g k => P (ix2 g k)) (fun k => W (ix2 k 0)) (B (ix2 0 0)) (i 0) := by
  obtain ⟨p, q, rfl⟩ : ∃ (p : Fin 1000) (q : Fin 1), y = ix2 p q := ⟨y 0, y 1, eq_ix2 y⟩
  have hq : q = 0 := Subsingleton.elim _ _
  subst hq
  have hp : (i 0 : Fin 1000) = p := Fin.ext h0
  rw [pay5_apply, hp]

/-! ## The windows' blocks are the arrays -/

-- The printed index maps at the one point: every window is at its one block.
theorem idx5_0 : ∀ t : Fin cfg5.N, win5_0.index t (0 : Fin 2) = 0 ∧ win5_0.index t (1 : Fin 2) = 0 :=
  (by decide +kernel : ∀ t : Fin grid5.N, _)
theorem idx5_1 : ∀ t : Fin cfg5.N, win5_1.index t (0 : Fin 2) = 0 ∧ win5_1.index t (1 : Fin 2) = 0 :=
  (by decide +kernel : ∀ t : Fin grid5.N, _)
theorem idx5_2 : ∀ t : Fin cfg5.N, win5_2.index t (0 : Fin 2) = 0 ∧ win5_2.index t (1 : Fin 2) = 0 :=
  (by decide +kernel : ∀ t : Fin grid5.N, _)
theorem idx5_3 : ∀ t : Fin cfg5.N, win5_3.index t (0 : Fin 2) = 0 ∧ win5_3.index t (1 : Fin 2) = 0 :=
  (by decide +kernel : ∀ t : Fin grid5.N, _)

/-- The pooled window's one block is its array. -/
theorem whole5_0 (c : Dev nD) (t : Fin cfg5.N) :
    (iblk5 V c 0 t : Vec Ideal S1000x128 .f32) = (V c main_v92 : S1000x128.Idx → EReal) := by
  obtain ⟨e0, e1⟩ := idx5_0 t
  funext y
  unfold iblk5
  rw [View.read_apply]
  show (V c main_v92 : S1000x128.Idx → EReal) _ = V c main_v92 y
  refine congrArg (V c main_v92 : S1000x128.Idx → EReal) (funext fun a => Fin.ext ?_)
  match a with
  | ⟨0, _⟩ => show win5_0.index t (0 : Fin 2) * 1000 + 1 * (y 0).val = (y 0).val; rw [e0]; omega
  | ⟨1, _⟩ => show win5_0.index t (1 : Fin 2) * 128 + 1 * (y 1).val = (y 1).val; rw [e1]; omega

/-- The weight window's one block is its array. -/
theorem whole5_1 (c : Dev nD) (t : Fin cfg5.N) :
    (iblk5 V c 1 t : Vec Ideal S128x1 .f32) = (V c main_arg10 : S128x1.Idx → EReal) := by
  obtain ⟨e0, e1⟩ := idx5_1 t
  funext y
  unfold iblk5
  rw [View.read_apply]
  show (V c main_arg10 : S128x1.Idx → EReal) _ = V c main_arg10 y
  refine congrArg (V c main_arg10 : S128x1.Idx → EReal) (funext fun a => Fin.ext ?_)
  match a with
  | ⟨0, _⟩ => show win5_1.index t (0 : Fin 2) * 128 + 1 * (y 0).val = (y 0).val; rw [e0]; omega
  | ⟨1, _⟩ => show win5_1.index t (1 : Fin 2) * 1 + 1 * (y 1).val = (y 1).val; rw [e1]; omega

/-- The bias window's one block is its array. -/
theorem whole5_2 (c : Dev nD) (t : Fin cfg5.N) :
    (iblk5 V c 2 t : Vec Ideal S1x1 .f32) = (V c main_v93 : S1x1.Idx → EReal) := by
  obtain ⟨e0, e1⟩ := idx5_2 t
  funext y
  unfold iblk5
  rw [View.read_apply]
  show (V c main_v93 : S1x1.Idx → EReal) _ = V c main_v93 y
  refine congrArg (V c main_v93 : S1x1.Idx → EReal) (funext fun a => Fin.ext ?_)
  match a with
  | ⟨0, _⟩ => show win5_2.index t (0 : Fin 2) * 1 + 1 * (y 0).val = (y 0).val; rw [e0]; omega
  | ⟨1, _⟩ => show win5_2.index t (1 : Fin 2) * 1 + 1 * (y 1).val = (y 1).val; rw [e1]; omega

/-! ## What the point writes back, the cover, the array after the run -/

/-- WHAT THE POINT WRITES BACK is the one block of the readout of the arrays as the region finds them. -/
theorem flushed5_eq (c : Dev nD) (t : Fin cfg5.N) :
    (dat5 V c).flushed 3 t = ((cfg5.win 3).blk t).view.read (Elt Ideal)
      (fun i : S1000x1.Idx => Cert.Spec.finAt (G := 1000) (fun g k => (V c main_v92 : S1000x128.Idx → EReal) (ix2 g k))
        (fun k => (V c main_arg10 : S128x1.Idx → EReal) (ix2 k 0)) ((V c main_v93 : S1x1.Idx → EReal) (ix2 0 0)) (i 0)) := by
  show (cfg5.win 3).cut (grid5.coords t) ((dat5 V c).after 3 t) = _
  rw [after5_3]
  unfold out5_3
  rw [View.canon_unit_zero hz5]
  simp only [View.ld_unit_zero (S := S1000x128) hz5, View.ld_unit_zero (S := S128x1) hz5, View.ld_unit_zero (S := S1x1) hz5]
  rw [whole5_0 V c t, whole5_1 V c t, whole5_2 V c t]
  obtain ⟨e0, e1⟩ := idx5_3 t
  funext y
  rw [View.read_apply]
  refine fin_whole (V c main_v92) (V c main_arg10) (V c main_v93) y _ ?_
  show win5_3.index t (0 : Fin 2) * 1000 + 1 * (y 0).val = (y 0).val
  rw [e0]; omega

/-- An index of the array is in the point's block iff each coordinate is in the block's range on its axis. -/
theorem mem_blk5 (t : Fin cfg5.N) (i : S1000x1.Idx) :
    i ∈ ((cfg5.win 3).blk t).view.set ↔ ∀ a : Fin 2, win5_3.index t a * S1000x1.size a ≤ (i a).val ∧ (i a).val < win5_3.index t a * S1000x1.size a + S1000x1.size a := by
  show i ∈ ((View.whole main_v94).slice (win5_3.rect t)).set ↔ _
  rw [View.set_slice_whole, Rect.mem_set_unit]
  exact Iff.rfl

/-- The one point's block is the whole array. -/
theorem cover5 (i : S1000x1.Idx) :
    ∃ t : Fin cfg5.N, (cfg5.win 3).flush t = true ∧ i ∈ ((cfg5.win 3).blk t).view.set := by
  have hi0 : (i 0).val < 1000 := (i 0).isLt
  have hi1 : (i 1).val < 1 := (i 1).isLt
  obtain ⟨e0, e1⟩ := idx5_3 t5_0
  refine ⟨t5_0, flush5_3 t5_0, ?_⟩
  rw [mem_blk5]
  intro a
  match a with
  | ⟨0, _⟩ =>
    show win5_3.index t5_0 (0 : Fin 2) * 1000 ≤ (i 0).val ∧ (i 0).val < win5_3.index t5_0 (0 : Fin 2) * 1000 + 1000
    rw [e0]; omega
  | ⟨1, _⟩ =>
    show win5_3.index t5_0 (1 : Fin 2) * 1 ≤ (i 1).val ∧ (i 1).val < win5_3.index t5_0 (1 : Fin 2) * 1 + 1
    rw [e1]; omega

/-- THE ARRAY after region 5's run: the readout of the pooled, weight and bias arrays the region finds. -/
theorem val5 (c : Dev nD) :
    (dat5 (F := Ideal) V c).arrAt 3 cfg5.N
      = (fun i : S1000x1.Idx => Cert.Spec.finAt (G := 1000) (fun g k => (V c main_v92 : S1000x128.Idx → EReal) (ix2 g k))
        (fun k => (V c main_arg10 : S128x1.Idx → EReal) (ix2 k 0)) ((V c main_v93 : S1x1.Idx → EReal) (ix2 0 0)) (i 0)) :=
  (dat5 V c).arrAt_eq_of_cover 3 _ (fun t _ => flushed5_eq V c t) cover5

end Cert.KernelIdeal.Val

end
-- ==== Proof.KernelIdeal.Host0.lean ====
/- The host stretches of @main read at the ideal instance, part one: what the lines between the kernel regions
   leave in the buffers a later region's window (or the result) reads, as a function of the buffer contents `W`
   the stretch starts from. `W` is a variable throughout. The neighbour aggregation and the graph pooling are
   each named as ONE function of their operands and never opened; the small layout lines (a slice of one
   layer's weights, a reshape adding or dropping a unit axis) are read at an index. This part holds the shared
   definitions, the first stretch (edge endpoints, the first bias as a row), the pooling stretch, the last
   reshape, and the buffers each stretch leaves alone. -/
import proofs.«121001_j68573447848158_1_alg».proof.Proof.Gen.KernelIdeal.Regions
import Idealize.ShloMosaic.Lib.ValueLayout
import Idealize.ShloMosaic.Lib.Pipeline.Value
import Idealize.ShloMosaic.PureOps.Ideal

set_option maxRecDepth 4096

noncomputable section

namespace Cert.KernelIdeal.HostVal

open Idealize.ShloMosaic Idealize.ShloMosaic.TcCoe Idealize.ShloMosaic.ValueIdx
open Cert.KernelIdeal Cert.KernelIdeal.Gen

variable (W : Valuation τ sig (Elt Ideal))

/-! ## Slices of one leading coordinate, read at an index -/

section Slices
variable {α : Type}

/-- Row `l` of an `[m, a, b]` array, kept as a `[1, a, b]` array, reads at `(0, k, j)` the array at `(l, k, j)`. -/
theorem slice_lead3_at {m a b : ℕ} (off : ℕ) (l : Fin m) (hl : l.val = off)
    (x : (⟨3, ![m, a, b]⟩ : Shape).Idx → α) (h : (⟨3, ![m, a, b]⟩ : Shape).Slices ![off, 0, 0] ⟨3, ![1, a, b]⟩)
    (k : Fin a) (j : Fin b) :
    extractStridedSlice ⟨3, ![1, a, b]⟩ ![off, 0, 0] x h (ix3 (0 : Fin 1) k j) = x (ix3 l k j) :=
  extractStridedSlice_apply _ x h _ _ fun c => match c with
    | ⟨0, _⟩ => by show l.val = off + 0; omega
    | ⟨1, _⟩ => by show k.val = 0 + k.val; omega
    | ⟨2, _⟩ => by show j.val = 0 + j.val; omega

/-- Row `l` of an `[m, a]` array, kept as a `[1, a]` array, reads at `(0, j)` the array at `(l, j)`. -/
theorem slice_lead2_at {m a : ℕ} (off : ℕ) (l : Fin m) (hl : l.val = off)
    (x : (⟨2, ![m, a]⟩ : Shape).Idx → α) (h : (⟨2, ![m, a]⟩ : Shape).Slices ![off, 0] ⟨2, ![1, a]⟩)
    (j : Fin a) :
    extractStridedSlice ⟨2, ![1, a]⟩ ![off, 0] x h (ix2 (0 : Fin 1) j) = x (ix2 l j) :=
  extractStridedSlice_apply _ x h _ _ fun c => match c with
    | ⟨0, _⟩ => by show l.val = off + 0; omega
    | ⟨1, _⟩ => by show j.val = 0 + j.val; omega

/-- An `[a, 1]` array cast to `[a]` reads, at `g`, the operand at `(g, 0)`. -/
theorem shapeCast_a1_a_apply {a : ℕ} (x : (⟨2, ![a, 1]⟩ : Shape).Idx → α) (h : (⟨2, ![a, 1]⟩ : Shape).ShapeCasts ⟨1, ![a]⟩)
    (g : Fin a) : shapeCast ⟨1, ![a]⟩ x h (ix1 g) = x (ix2 g (0 : Fin 1)) :=
  shapeCast_apply x h _ _ (by
    rw [Shape.rowMajor_val_two, Shape.rowMajor_val_one]
    show g.val * 1 + 0 = g.val
    omega)

end Slices

/-! ## The shared host functions, each one term -/

/-- The edges' source endpoints: row 0 of the `[2, E]` edge list, as a vector. -/
def srcOf (e : IVec S2x1600000 32) : IVec S1600000 32 :=
  shapeCast S1600000 (extractStridedSlice S1x1600000 ![0, 0] e slices_S2x1600000_S1x1600000_0_0) shapeCasts_S1x1600000_S1600000

/-- The edges' destination endpoints: row 1 of the `[2, E]` edge list, as a vector. -/
def dstOf (e : IVec S2x1600000 32) : IVec S1600000 32 :=
  shapeCast S1600000 (extractStridedSlice S1x1600000 ![1, 0] e slices_S2x1600000_S1x1600000_1_0) shapeCasts_S1x1600000_S1600000

/-- The neighbour aggregation: negative source indices wrapped by the node count, the rows of `h` gathered at the
    sources, and added into a zero array at the destinations. -/
def aggK (h : FVec Ideal S100000x128 .f32) (src dst : IVec S1600000 32) : FVec Ideal S100000x128 .f32 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (Host.gather gather_S100000x128_S1600000x1_S1600000x128_1_0_n_n_0_1_1128 h
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32)))
          src)))

/-- The graph pooling: the rows of `h` added into a zero `[G, 128]` array at their graph ids. -/
def poolK (h : FVec Ideal S100000x128 .f32) (batch : IVec S100000 32) : FVec Ideal S1000x128 .f32 :=
  Host.scatterAdd scatter_S1000x128_S100000x1_S100000x128_1_0_0_1
    (broadcastInDim S1000x128 ![] bcast_S_S1000x128 (constant (F := Ideal) S_ .f32 0x00000000#32))
    (broadcastInDim S100000x1 ![0] bcast_S100000_S100000x1_0 batch)
    h

/-! ## The first stretch: the edge endpoints, the first bias as a row -/

theorem src0 :
    (StableHlo.after hostOps0 W (Proc.devRef .tc main_v1) : IVec S1600000 32) = srcOf (W (Proc.devRef .tc main_arg1)) := by
  after_results; rfl

theorem dst0 :
    (StableHlo.after hostOps0 W (Proc.devRef .tc main_v3) : IVec S1600000 32) = dstOf (W (Proc.devRef .tc main_arg1)) := by
  after_results; rfl

theorem v4_at (j : Fin 128) :
    (StableHlo.after hostOps0 W (Proc.devRef .tc main_v4) : S1x128.Idx → Ideal .f32) (ix2 (0 : Fin 1) j)
      = (W (Proc.devRef .tc main_arg5) : S128.Idx → Ideal .f32) (ix1 j) := by
  have e : (StableHlo.after hostOps0 W (Proc.devRef .tc main_v4) : S1x128.Idx → Ideal .f32)
      = shapeCast S1x128 (W (Proc.devRef .tc main_arg5) : S128.Idx → Ideal .f32) shapeCasts_S128_S1x128 := by
    after_results; rfl
  rw [e, shapeCast_a_1a_apply]

/-! ## The pooling stretch -/

theorem pool5 :
    (StableHlo.after hostOps5 W (Proc.devRef .tc main_v92) : FVec Ideal S1000x128 .f32)
      = poolK (W (Proc.devRef .tc main_v89)) (W (Proc.devRef .tc main_arg3)) := by
  after_results; rfl

theorem v93_at :
    (StableHlo.after hostOps5 W (Proc.devRef .tc main_v93) : S1x1.Idx → Ideal .f32) (ix2 (0 : Fin 1) (0 : Fin 1))
      = (W (Proc.devRef .tc main_arg11) : S1.Idx → Ideal .f32) (ix1 (0 : Fin 1)) := by
  have e : (StableHlo.after hostOps5 W (Proc.devRef .tc main_v93) : S1x1.Idx → Ideal .f32)
      = shapeCast S1x1 (W (Proc.devRef .tc main_arg11) : S1.Idx → Ideal .f32) shapeCasts_S1_S1x1 := by
    after_results; rfl
  rw [e, shapeCast_a_1a_apply]

/-! ## The last line: the `[G, 1]` readout as a vector -/

theorem v95_at (g : Fin 1000) :
    (StableHlo.after hostOps6 W (Proc.devRef .tc main_v95) : S1000.Idx → Ideal .f32) (ix1 g)
      = (W (Proc.devRef .tc main_v94) : S1000x1.Idx → Ideal .f32) (ix2 g (0 : Fin 1)) := by
  have e : (StableHlo.after hostOps6 W (Proc.devRef .tc main_v95) : S1000.Idx → Ideal .f32)
      = shapeCast S1000 (W (Proc.devRef .tc main_v94) : S1000x1.Idx → Ideal .f32) shapeCasts_S1000x1_S1000 := by
    after_results; rfl
  rw [e, shapeCast_a1_a_apply]

/-! ## What each stretch leaves alone

A buffer no line of a stretch writes holds after the stretch what it held before: the general form per stretch (the
buffer not among the stretch's written ones, a decided membership), then the instances the regions and the later
stretches read. -/

theorem keep0 (r : Ref sig .tc) (h : r ∉ hostOps0_W) :
    StableHlo.after hostOps0 W (Proc.devRef .tc r) = W (Proc.devRef .tc r) :=
  StableHlo.after_of_writes_sub hostOps0 W hostOps0_writes h

theorem keep1 (r : Ref sig .tc) (h : r ∉ hostOps1_W) :
    StableHlo.after hostOps1 W (Proc.devRef .tc r) = W (Proc.devRef .tc r) :=
  StableHlo.after_of_writes_sub hostOps1 W hostOps1_writes h

theorem keep2 (r : Ref sig .tc) (h : r ∉ hostOps2_W) :
    StableHlo.after hostOps2 W (Proc.devRef .tc r) = W (Proc.devRef .tc r) :=
  StableHlo.after_of_writes_sub hostOps2 W hostOps2_writes h

theorem keep3 (r : Ref sig .tc) (h : r ∉ hostOps3_W) :
    StableHlo.after hostOps3 W (Proc.devRef .tc r) = W (Proc.devRef .tc r) :=
  StableHlo.after_of_writes_sub hostOps3 W hostOps3_writes h

theorem keep4 (r : Ref sig .tc) (h : r ∉ hostOps4_W) :
    StableHlo.after hostOps4 W (Proc.devRef .tc r) = W (Proc.devRef .tc r) :=
  StableHlo.after_of_writes_sub hostOps4 W hostOps4_writes h

theorem keep5 (r : Ref sig .tc) (h : r ∉ hostOps5_W) :
    StableHlo.after hostOps5 W (Proc.devRef .tc r) = W (Proc.devRef .tc r) :=
  StableHlo.after_of_writes_sub hostOps5 W hostOps5_writes h

theorem keep6 (r : Ref sig .tc) (h : r ∉ hostOps6_W) :
    StableHlo.after hostOps6 W (Proc.devRef .tc r) = W (Proc.devRef .tc r) :=
  StableHlo.after_of_writes_sub hostOps6 W hostOps6_writes h

theorem keep0_arg0 : StableHlo.after hostOps0 W (Proc.devRef .tc main_arg0) = W (Proc.devRef .tc main_arg0) := keep0 W main_arg0 (by decide)
theorem keep0_arg1 : StableHlo.after hostOps0 W (Proc.devRef .tc main_arg1) = W (Proc.devRef .tc main_arg1) := keep0 W main_arg1 (by decide)
theorem keep0_arg2 : StableHlo.after hostOps0 W (Proc.devRef .tc main_arg2) = W (Proc.devRef .tc main_arg2) := keep0 W main_arg2 (by decide)
theorem keep0_arg3 : StableHlo.after hostOps0 W (Proc.devRef .tc main_arg3) = W (Proc.devRef .tc main_arg3) := keep0 W main_arg3 (by decide)
theorem keep0_arg4 : StableHlo.after hostOps0 W (Proc.devRef .tc main_arg4) = W (Proc.devRef .tc main_arg4) := keep0 W main_arg4 (by decide)
theorem keep0_arg5 : StableHlo.after hostOps0 W (Proc.devRef .tc main_arg5) = W (Proc.devRef .tc main_arg5) := keep0 W main_arg5 (by decide)
theorem keep0_arg6 : StableHlo.after hostOps0 W (Proc.devRef .tc main_arg6) = W (Proc.devRef .tc main_arg6) := keep0 W main_arg6 (by decide)
theorem keep0_arg7 : StableHlo.after hostOps0 W (Proc.devRef .tc main_arg7) = W (Proc.devRef .tc main_arg7) := keep0 W main_arg7 (by decide)
theorem keep0_arg8 : StableHlo.after hostOps0 W (Proc.devRef .tc main_arg8) = W (Proc.devRef .tc main_arg8) := keep0 W main_arg8 (by decide)
theorem keep0_arg9 : StableHlo.after hostOps0 W (Proc.devRef .tc main_arg9) = W (Proc.devRef .tc main_arg9) := keep0 W main_arg9 (by decide)
theorem keep0_arg10 : StableHlo.after hostOps0 W (Proc.devRef .tc main_arg10) = W (Proc.devRef .tc main_arg10) := keep0 W main_arg10 (by decide)
theorem keep0_arg11 : StableHlo.after hostOps0 W (Proc.devRef .tc main_arg11) = W (Proc.devRef .tc main_arg11) := keep0 W main_arg11 (by decide)

theorem keep1_v1 : StableHlo.after hostOps1 W (Proc.devRef .tc main_v1) = W (Proc.devRef .tc main_v1) := keep1 W main_v1 (by decide)
theorem keep1_v3 : StableHlo.after hostOps1 W (Proc.devRef .tc main_v3) = W (Proc.devRef .tc main_v3) := keep1 W main_v3 (by decide)
theorem keep1_v4 : StableHlo.after hostOps1 W (Proc.devRef .tc main_v4) = W (Proc.devRef .tc main_v4) := keep1 W main_v4 (by decide)
theorem keep1_v5 : StableHlo.after hostOps1 W (Proc.devRef .tc main_v5) = W (Proc.devRef .tc main_v5) := keep1 W main_v5 (by decide)
theorem keep1_arg0 : StableHlo.after hostOps1 W (Proc.devRef .tc main_arg0) = W (Proc.devRef .tc main_arg0) := keep1 W main_arg0 (by decide)
theorem keep1_arg1 : StableHlo.after hostOps1 W (Proc.devRef .tc main_arg1) = W (Proc.devRef .tc main_arg1) := keep1 W main_arg1 (by decide)
theorem keep1_arg2 : StableHlo.after hostOps1 W (Proc.devRef .tc main_arg2) = W (Proc.devRef .tc main_arg2) := keep1 W main_arg2 (by decide)
theorem keep1_arg3 : StableHlo.after hostOps1 W (Proc.devRef .tc main_arg3) = W (Proc.devRef .tc main_arg3) := keep1 W main_arg3 (by decide)
theorem keep1_arg4 : StableHlo.after hostOps1 W (Proc.devRef .tc main_arg4) = W (Proc.devRef .tc main_arg4) := keep1 W main_arg4 (by decide)
theorem keep1_arg5 : StableHlo.after hostOps1 W (Proc.devRef .tc main_arg5) = W (Proc.devRef .tc main_arg5) := keep1 W main_arg5 (by decide)
theorem keep1_arg6 : StableHlo.after hostOps1 W (Proc.devRef .tc main_arg6) = W (Proc.devRef .tc main_arg6) := keep1 W main_arg6 (by decide)
theorem keep1_arg7 : StableHlo.after hostOps1 W (Proc.devRef .tc main_arg7) = W (Proc.devRef .tc main_arg7) := keep1 W main_arg7 (by decide)
theorem keep1_arg8 : StableHlo.after hostOps1 W (Proc.devRef .tc main_arg8) = W (Proc.devRef .tc main_arg8) := keep1 W main_arg8 (by decide)
theorem keep1_arg9 : StableHlo.after hostOps1 W (Proc.devRef .tc main_arg9) = W (Proc.devRef .tc main_arg9) := keep1 W main_arg9 (by decide)
theorem keep1_arg10 : StableHlo.after hostOps1 W (Proc.devRef .tc main_arg10) = W (Proc.devRef .tc main_arg10) := keep1 W main_arg10 (by decide)
theorem keep1_arg11 : StableHlo.after hostOps1 W (Proc.devRef .tc main_arg11) = W (Proc.devRef .tc main_arg11) := keep1 W main_arg11 (by decide)

theorem keep2_v1 : StableHlo.after hostOps2 W (Proc.devRef .tc main_v1) = W (Proc.devRef .tc main_v1) := keep2 W main_v1 (by decide)
theorem keep2_v3 : StableHlo.after hostOps2 W (Proc.devRef .tc main_v3) = W (Proc.devRef .tc main_v3) := keep2 W main_v3 (by decide)
theorem keep2_v5 : StableHlo.after hostOps2 W (Proc.devRef .tc main_v5) = W (Proc.devRef .tc main_v5) := keep2 W main_v5 (by decide)
theorem keep2_v26 : StableHlo.after hostOps2 W (Proc.devRef .tc main_v26) = W (Proc.devRef .tc main_v26) := keep2 W main_v26 (by decide)
theorem keep2_arg0 : StableHlo.after hostOps2 W (Proc.devRef .tc main_arg0) = W (Proc.devRef .tc main_arg0) := keep2 W main_arg0 (by decide)
theorem keep2_arg1 : StableHlo.after hostOps2 W (Proc.devRef .tc main_arg1) = W (Proc.devRef .tc main_arg1) := keep2 W main_arg1 (by decide)
theorem keep2_arg2 : StableHlo.after hostOps2 W (Proc.devRef .tc main_arg2) = W (Proc.devRef .tc main_arg2) := keep2 W main_arg2 (by decide)
theorem keep2_arg3 : StableHlo.after hostOps2 W (Proc.devRef .tc main_arg3) = W (Proc.devRef .tc main_arg3) := keep2 W main_arg3 (by decide)
theorem keep2_arg4 : StableHlo.after hostOps2 W (Proc.devRef .tc main_arg4) = W (Proc.devRef .tc main_arg4) := keep2 W main_arg4 (by decide)
theorem keep2_arg5 : StableHlo.after hostOps2 W (Proc.devRef .tc main_arg5) = W (Proc.devRef .tc main_arg5) := keep2 W main_arg5 (by decide)
theorem keep2_arg6 : StableHlo.after hostOps2 W (Proc.devRef .tc main_arg6) = W (Proc.devRef .tc main_arg6) := keep2 W main_arg6 (by decide)
theorem keep2_arg7 : StableHlo.after hostOps2 W (Proc.devRef .tc main_arg7) = W (Proc.devRef .tc main_arg7) := keep2 W main_arg7 (by decide)
theorem keep2_arg8 : StableHlo.after hostOps2 W (Proc.devRef .tc main_arg8) = W (Proc.devRef .tc main_arg8) := keep2 W main_arg8 (by decide)
theorem keep2_arg9 : StableHlo.after hostOps2 W (Proc.devRef .tc main_arg9) = W (Proc.devRef .tc main_arg9) := keep2 W main_arg9 (by decide)
theorem keep2_arg10 : StableHlo.after hostOps2 W (Proc.devRef .tc main_arg10) = W (Proc.devRef .tc main_arg10) := keep2 W main_arg10 (by decide)
theorem keep2_arg11 : StableHlo.after hostOps2 W (Proc.devRef .tc main_arg11) = W (Proc.devRef .tc main_arg11) := keep2 W main_arg11 (by decide)

theorem keep3_v1 : StableHlo.after hostOps3 W (Proc.devRef .tc main_v1) = W (Proc.devRef .tc main_v1) := keep3 W main_v1 (by decide)
theorem keep3_v3 : StableHlo.after hostOps3 W (Proc.devRef .tc main_v3) = W (Proc.devRef .tc main_v3) := keep3 W main_v3 (by decide)
theorem keep3_v5 : StableHlo.after hostOps3 W (Proc.devRef .tc main_v5) = W (Proc.devRef .tc main_v5) := keep3 W main_v5 (by decide)
theorem keep3_v47 : StableHlo.after hostOps3 W (Proc.devRef .tc main_v47) = W (Proc.devRef .tc main_v47) := keep3 W main_v47 (by decide)
theorem keep3_arg0 : StableHlo.after hostOps3 W (Proc.devRef .tc main_arg0) = W (Proc.devRef .tc main_arg0) := keep3 W main_arg0 (by decide)
theorem keep3_arg1 : StableHlo.after hostOps3 W (Proc.devRef .tc main_arg1) = W (Proc.devRef .tc main_arg1) := keep3 W main_arg1 (by decide)
theorem keep3_arg2 : StableHlo.after hostOps3 W (Proc.devRef .tc main_arg2) = W (Proc.devRef .tc main_arg2) := keep3 W main_arg2 (by decide)
theorem keep3_arg3 : StableHlo.after hostOps3 W (Proc.devRef .tc main_arg3) = W (Proc.devRef .tc main_arg3) := keep3 W main_arg3 (by decide)
theorem keep3_arg4 : StableHlo.after hostOps3 W (Proc.devRef .tc main_arg4) = W (Proc.devRef .tc main_arg4) := keep3 W main_arg4 (by decide)
theorem keep3_arg5 : StableHlo.after hostOps3 W (Proc.devRef .tc main_arg5) = W (Proc.devRef .tc main_arg5) := keep3 W main_arg5 (by decide)
theorem keep3_arg6 : StableHlo.after hostOps3 W (Proc.devRef .tc main_arg6) = W (Proc.devRef .tc main_arg6) := keep3 W main_arg6 (by decide)
theorem keep3_arg7 : StableHlo.after hostOps3 W (Proc.devRef .tc main_arg7) = W (Proc.devRef .tc main_arg7) := keep3 W main_arg7 (by decide)
theorem keep3_arg8 : StableHlo.after hostOps3 W (Proc.devRef .tc main_arg8) = W (Proc.devRef .tc main_arg8) := keep3 W main_arg8 (by decide)
theorem keep3_arg9 : StableHlo.after hostOps3 W (Proc.devRef .tc main_arg9) = W (Proc.devRef .tc main_arg9) := keep3 W main_arg9 (by decide)
theorem keep3_arg10 : StableHlo.after hostOps3 W (Proc.devRef .tc main_arg10) = W (Proc.devRef .tc main_arg10) := keep3 W main_arg10 (by decide)
theorem keep3_arg11 : StableHlo.after hostOps3 W (Proc.devRef .tc main_arg11) = W (Proc.devRef .tc main_arg11) := keep3 W main_arg11 (by decide)

theorem keep4_v1 : StableHlo.after hostOps4 W (Proc.devRef .tc main_v1) = W (Proc.devRef .tc main_v1) := keep4 W main_v1 (by decide)
theorem keep4_v3 : StableHlo.after hostOps4 W (Proc.devRef .tc main_v3) = W (Proc.devRef .tc main_v3) := keep4 W main_v3 (by decide)
theorem keep4_v5 : StableHlo.after hostOps4 W (Proc.devRef .tc main_v5) = W (Proc.devRef .tc main_v5) := keep4 W main_v5 (by decide)
theorem keep4_v68 : StableHlo.after hostOps4 W (Proc.devRef .tc main_v68) = W (Proc.devRef .tc main_v68) := keep4 W main_v68 (by decide)
theorem keep4_arg0 : StableHlo.after hostOps4 W (Proc.devRef .tc main_arg0) = W (Proc.devRef .tc main_arg0) := keep4 W main_arg0 (by decide)
theorem keep4_arg1 : StableHlo.after hostOps4 W (Proc.devRef .tc main_arg1) = W (Proc.devRef .tc main_arg1) := keep4 W main_arg1 (by decide)
theorem keep4_arg2 : StableHlo.after hostOps4 W (Proc.devRef .tc main_arg2) = W (Proc.devRef .tc main_arg2) := keep4 W main_arg2 (by decide)
theorem keep4_arg3 : StableHlo.after hostOps4 W (Proc.devRef .tc main_arg3) = W (Proc.devRef .tc main_arg3) := keep4 W main_arg3 (by decide)
theorem keep4_arg4 : StableHlo.after hostOps4 W (Proc.devRef .tc main_arg4) = W (Proc.devRef .tc main_arg4) := keep4 W main_arg4 (by decide)
theorem keep4_arg5 : StableHlo.after hostOps4 W (Proc.devRef .tc main_arg5) = W (Proc.devRef .tc main_arg5) := keep4 W main_arg5 (by decide)
theorem keep4_arg6 : StableHlo.after hostOps4 W (Proc.devRef .tc main_arg6) = W (Proc.devRef .tc main_arg6) := keep4 W main_arg6 (by decide)
theorem keep4_arg7 : StableHlo.after hostOps4 W (Proc.devRef .tc main_arg7) = W (Proc.devRef .tc main_arg7) := keep4 W main_arg7 (by decide)
theorem keep4_arg8 : StableHlo.after hostOps4 W (Proc.devRef .tc main_arg8) = W (Proc.devRef .tc main_arg8) := keep4 W main_arg8 (by decide)
theorem keep4_arg9 : StableHlo.after hostOps4 W (Proc.devRef .tc main_arg9) = W (Proc.devRef .tc main_arg9) := keep4 W main_arg9 (by decide)
theorem keep4_arg10 : StableHlo.after hostOps4 W (Proc.devRef .tc main_arg10) = W (Proc.devRef .tc main_arg10) := keep4 W main_arg10 (by decide)
theorem keep4_arg11 : StableHlo.after hostOps4 W (Proc.devRef .tc main_arg11) = W (Proc.devRef .tc main_arg11) := keep4 W main_arg11 (by decide)

theorem keep5_v1 : StableHlo.after hostOps5 W (Proc.devRef .tc main_v1) = W (Proc.devRef .tc main_v1) := keep5 W main_v1 (by decide)
theorem keep5_v3 : StableHlo.after hostOps5 W (Proc.devRef .tc main_v3) = W (Proc.devRef .tc main_v3) := keep5 W main_v3 (by decide)
theorem keep5_v5 : StableHlo.after hostOps5 W (Proc.devRef .tc main_v5) = W (Proc.devRef .tc main_v5) := keep5 W main_v5 (by decide)
theorem keep5_v89 : StableHlo.after hostOps5 W (Proc.devRef .tc main_v89) = W (Proc.devRef .tc main_v89) := keep5 W main_v89 (by decide)
theorem keep5_arg0 : StableHlo.after hostOps5 W (Proc.devRef .tc main_arg0) = W (Proc.devRef .tc main_arg0) := keep5 W main_arg0 (by decide)
theorem keep5_arg1 : StableHlo.after hostOps5 W (Proc.devRef .tc main_arg1) = W (Proc.devRef .tc main_arg1) := keep5 W main_arg1 (by decide)
theorem keep5_arg2 : StableHlo.after hostOps5 W (Proc.devRef .tc main_arg2) = W (Proc.devRef .tc main_arg2) := keep5 W main_arg2 (by decide)
theorem keep5_arg3 : StableHlo.after hostOps5 W (Proc.devRef .tc main_arg3) = W (Proc.devRef .tc main_arg3) := keep5 W main_arg3 (by decide)
theorem keep5_arg4 : StableHlo.after hostOps5 W (Proc.devRef .tc main_arg4) = W (Proc.devRef .tc main_arg4) := keep5 W main_arg4 (by decide)
theorem keep5_arg5 : StableHlo.after hostOps5 W (Proc.devRef .tc main_arg5) = W (Proc.devRef .tc main_arg5) := keep5 W main_arg5 (by decide)
theorem keep5_arg6 : StableHlo.after hostOps5 W (Proc.devRef .tc main_arg6) = W (Proc.devRef .tc main_arg6) := keep5 W main_arg6 (by decide)
theorem keep5_arg7 : StableHlo.after hostOps5 W (Proc.devRef .tc main_arg7) = W (Proc.devRef .tc main_arg7) := keep5 W main_arg7 (by decide)
theorem keep5_arg8 : StableHlo.after hostOps5 W (Proc.devRef .tc main_arg8) = W (Proc.devRef .tc main_arg8) := keep5 W main_arg8 (by decide)
theorem keep5_arg9 : StableHlo.after hostOps5 W (Proc.devRef .tc main_arg9) = W (Proc.devRef .tc main_arg9) := keep5 W main_arg9 (by decide)
theorem keep5_arg10 : StableHlo.after hostOps5 W (Proc.devRef .tc main_arg10) = W (Proc.devRef .tc main_arg10) := keep5 W main_arg10 (by decide)
theorem keep5_arg11 : StableHlo.after hostOps5 W (Proc.devRef .tc main_arg11) = W (Proc.devRef .tc main_arg11) := keep5 W main_arg11 (by decide)

theorem keep6_v94 : StableHlo.after hostOps6 W (Proc.devRef .tc main_v94) = W (Proc.devRef .tc main_v94) := keep6 W main_v94 (by decide)
theorem keep6_arg0 : StableHlo.after hostOps6 W (Proc.devRef .tc main_arg0) = W (Proc.devRef .tc main_arg0) := keep6 W main_arg0 (by decide)
theorem keep6_arg1 : StableHlo.after hostOps6 W (Proc.devRef .tc main_arg1) = W (Proc.devRef .tc main_arg1) := keep6 W main_arg1 (by decide)
theorem keep6_arg2 : StableHlo.after hostOps6 W (Proc.devRef .tc main_arg2) = W (Proc.devRef .tc main_arg2) := keep6 W main_arg2 (by decide)
theorem keep6_arg3 : StableHlo.after hostOps6 W (Proc.devRef .tc main_arg3) = W (Proc.devRef .tc main_arg3) := keep6 W main_arg3 (by decide)
theorem keep6_arg4 : StableHlo.after hostOps6 W (Proc.devRef .tc main_arg4) = W (Proc.devRef .tc main_arg4) := keep6 W main_arg4 (by decide)
theorem keep6_arg5 : StableHlo.after hostOps6 W (Proc.devRef .tc main_arg5) = W (Proc.devRef .tc main_arg5) := keep6 W main_arg5 (by decide)
theorem keep6_arg6 : StableHlo.after hostOps6 W (Proc.devRef .tc main_arg6) = W (Proc.devRef .tc main_arg6) := keep6 W main_arg6 (by decide)
theorem keep6_arg7 : StableHlo.after hostOps6 W (Proc.devRef .tc main_arg7) = W (Proc.devRef .tc main_arg7) := keep6 W main_arg7 (by decide)
theorem keep6_arg8 : StableHlo.after hostOps6 W (Proc.devRef .tc main_arg8) = W (Proc.devRef .tc main_arg8) := keep6 W main_arg8 (by decide)
theorem keep6_arg9 : StableHlo.after hostOps6 W (Proc.devRef .tc main_arg9) = W (Proc.devRef .tc main_arg9) := keep6 W main_arg9 (by decide)
theorem keep6_arg10 : StableHlo.after hostOps6 W (Proc.devRef .tc main_arg10) = W (Proc.devRef .tc main_arg10) := keep6 W main_arg10 (by decide)
theorem keep6_arg11 : StableHlo.after hostOps6 W (Proc.devRef .tc main_arg11) = W (Proc.devRef .tc main_arg11) := keep6 W main_arg11 (by decide)

end Cert.KernelIdeal.HostVal
-- ==== Proof.KernelIdeal.Host1.lean ====
/- The host stretches of @main read at the ideal instance, part two: the four stretches that precede the GIN
   layers' regions. Each applies the same lines to a different node-feature array: the neighbour aggregation
   (one opaque function of the features and the two endpoint vectors) and the slices of that layer's two weight
   matrices and two biases out of the stacked `[4, …]` arguments, read here at an index. `W`, the buffer
   contents the stretch starts from, is a variable throughout. -/
import proofs.«121001_j68573447848158_1_alg».proof.Proof.KernelIdeal.Host0

set_option maxRecDepth 4096

noncomputable section

namespace Cert.KernelIdeal.HostVal

open Idealize.ShloMosaic Idealize.ShloMosaic.TcCoe Idealize.ShloMosaic.ValueIdx
open Cert.KernelIdeal Cert.KernelIdeal.Gen

variable (W : Valuation τ sig (Elt Ideal))

/-! ## The stretch before layer 0's region: the aggregation of `main_v5`, layer 0's weights -/

theorem agg1 :
    (StableHlo.after hostOps1 W (Proc.devRef .tc main_v15) : FVec Ideal S100000x128 .f32)
      = aggK (W (Proc.devRef .tc main_v5)) (W (Proc.devRef .tc main_v1)) (W (Proc.devRef .tc main_v3)) := by
  after_results_simp; rfl

theorem w1_1_at (k j : Fin 128) :
    (StableHlo.after hostOps1 W (Proc.devRef .tc main_v17) : S128x128.Idx → Ideal .f32) (ix2 k j)
      = (W (Proc.devRef .tc main_arg6) : S4x128x128.Idx → Ideal .f32) (ix3 (0 : Fin 4) k j) := by
  have e : (StableHlo.after hostOps1 W (Proc.devRef .tc main_v17) : S128x128.Idx → Ideal .f32)
      = shapeCast S128x128 (extractStridedSlice S1x128x128 ![0, 0, 0]
          (W (Proc.devRef .tc main_arg6) : S4x128x128.Idx → Ideal .f32) slices_S4x128x128_S1x128x128_0_0_0)
          shapeCasts_S1x128x128_S128x128 := by
    after_results; rfl
  rw [e, shapeCast_1ab_ab_apply]
  exact slice_lead3_at 0 (0 : Fin 4) rfl _ _ k j

theorem b1_1_at (j : Fin 128) :
    (StableHlo.after hostOps1 W (Proc.devRef .tc main_v24) : S1x128.Idx → Ideal .f32) (ix2 (0 : Fin 1) j)
      = (W (Proc.devRef .tc main_arg7) : S4x128.Idx → Ideal .f32) (ix2 (0 : Fin 4) j) := by
  have e : (StableHlo.after hostOps1 W (Proc.devRef .tc main_v24) : S1x128.Idx → Ideal .f32)
      = shapeCast S1x128 (shapeCast S128 (extractStridedSlice S1x128 ![0, 0]
          (W (Proc.devRef .tc main_arg7) : S4x128.Idx → Ideal .f32) slices_S4x128_S1x128_0_0)
          shapeCasts_S1x128_S128) shapeCasts_S128_S1x128 := by
    after_results; rfl
  rw [e, shapeCast_a_1a_apply, shapeCast_1a_a_apply]
  exact slice_lead2_at 0 (0 : Fin 4) rfl _ _ j

theorem w2_1_at (k j : Fin 128) :
    (StableHlo.after hostOps1 W (Proc.devRef .tc main_v21) : S128x128.Idx → Ideal .f32) (ix2 k j)
      = (W (Proc.devRef .tc main_arg8) : S4x128x128.Idx → Ideal .f32) (ix3 (0 : Fin 4) k j) := by
  have e : (StableHlo.after hostOps1 W (Proc.devRef .tc main_v21) : S128x128.Idx → Ideal .f32)
      = shapeCast S128x128 (extractStridedSlice S1x128x128 ![0, 0, 0]
          (W (Proc.devRef .tc main_arg8) : S4x128x128.Idx → Ideal .f32) slices_S4x128x128_S1x128x128_0_0_0)
          shapeCasts_S1x128x128_S128x128 := by
    after_results; rfl
  rw [e, shapeCast_1ab_ab_apply]
  exact slice_lead3_at 0 (0 : Fin 4) rfl _ _ k j

theorem b2_1_at (j : Fin 128) :
    (StableHlo.after hostOps1 W (Proc.devRef .tc main_v25) : S1x128.Idx → Ideal .f32) (ix2 (0 : Fin 1) j)
      = (W (Proc.devRef .tc main_arg9) : S4x128.Idx → Ideal .f32) (ix2 (0 : Fin 4) j) := by
  have e : (StableHlo.after hostOps1 W (Proc.devRef .tc main_v25) : S1x128.Idx → Ideal .f32)
      = shapeCast S1x128 (shapeCast S128 (extractStridedSlice S1x128 ![0, 0]
          (W (Proc.devRef .tc main_arg9) : S4x128.Idx → Ideal .f32) slices_S4x128_S1x128_0_0)
          shapeCasts_S1x128_S128) shapeCasts_S128_S1x128 := by
    after_results; rfl
  rw [e, shapeCast_a_1a_apply, shapeCast_1a_a_apply]
  exact slice_lead2_at 0 (0 : Fin 4) rfl _ _ j

/-! ## The stretch before layer 1's region: the aggregation of `main_v26`, layer 1's weights -/

theorem agg2 :
    (StableHlo.after hostOps2 W (Proc.devRef .tc main_v36) : FVec Ideal S100000x128 .f32)
      = aggK (W (Proc.devRef .tc main_v26)) (W (Proc.devRef .tc main_v1)) (W (Proc.devRef .tc main_v3)) := by
  after_results_simp; rfl

theorem w1_2_at (k j : Fin 128) :
    (StableHlo.after hostOps2 W (Proc.devRef .tc main_v38) : S128x128.Idx → Ideal .f32) (ix2 k j)
      = (W (Proc.devRef .tc main_arg6) : S4x128x128.Idx → Ideal .f32) (ix3 (1 : Fin 4) k j) := by
  have e : (StableHlo.after hostOps2 W (Proc.devRef .tc main_v38) : S128x128.Idx → Ideal .f32)
      = shapeCast S128x128 (extractStridedSlice S1x128x128 ![1, 0, 0]
          (W (Proc.devRef .tc main_arg6) : S4x128x128.Idx → Ideal .f32) slices_S4x128x128_S1x128x128_1_0_0)
          shapeCasts_S1x128x128_S128x128 := by
    after_results; rfl
  rw [e, shapeCast_1ab_ab_apply]
  exact slice_lead3_at 1 (1 : Fin 4) rfl _ _ k j

theorem b1_2_at (j : Fin 128) :
    (StableHlo.after hostOps2 W (Proc.devRef .tc main_v45) : S1x128.Idx → Ideal .f32) (ix2 (0 : Fin 1) j)
      = (W (Proc.devRef .tc main_arg7) : S4x128.Idx → Ideal .f32) (ix2 (1 : Fin 4) j) := by
  have e : (StableHlo.after hostOps2 W (Proc.devRef .tc main_v45) : S1x128.Idx → Ideal .f32)
      = shapeCast S1x128 (shapeCast S128 (extractStridedSlice S1x128 ![1, 0]
          (W (Proc.devRef .tc main_arg7) : S4x128.Idx → Ideal .f32) slices_S4x128_S1x128_1_0)
          shapeCasts_S1x128_S128) shapeCasts_S128_S1x128 := by
    after_results; rfl
  rw [e, shapeCast_a_1a_apply, shapeCast_1a_a_apply]
  exact slice_lead2_at 1 (1 : Fin 4) rfl _ _ j

theorem w2_2_at (k j : Fin 128) :
    (StableHlo.after hostOps2 W (Proc.devRef .tc main_v42) : S128x128.Idx → Ideal .f32) (ix2 k j)
      = (W (Proc.devRef .tc main_arg8) : S4x128x128.Idx → Ideal .f32) (ix3 (1 : Fin 4) k j) := by
  have e : (StableHlo.after hostOps2 W (Proc.devRef .tc main_v42) : S128x128.Idx → Ideal .f32)
      = shapeCast S128x128 (extractStridedSlice S1x128x128 ![1, 0, 0]
          (W (Proc.devRef .tc main_arg8) : S4x128x128.Idx → Ideal .f32) slices_S4x128x128_S1x128x128_1_0_0)
          shapeCasts_S1x128x128_S128x128 := by
    after_results; rfl
  rw [e, shapeCast_1ab_ab_apply]
  exact slice_lead3_at 1 (1 : Fin 4) rfl _ _ k j

theorem b2_2_at (j : Fin 128) :
    (StableHlo.after hostOps2 W (Proc.devRef .tc main_v46) : S1x128.Idx → Ideal .f32) (ix2 (0 : Fin 1) j)
      = (W (Proc.devRef .tc main_arg9) : S4x128.Idx → Ideal .f32) (ix2 (1 : Fin 4) j) := by
  have e : (StableHlo.after hostOps2 W (Proc.devRef .tc main_v46) : S1x128.Idx → Ideal .f32)
      = shapeCast S1x128 (shapeCast S128 (extractStridedSlice S1x128 ![1, 0]
          (W (Proc.devRef .tc main_arg9) : S4x128.Idx → Ideal .f32) slices_S4x128_S1x128_1_0)
          shapeCasts_S1x128_S128) shapeCasts_S128_S1x128 := by
    after_results; rfl
  rw [e, shapeCast_a_1a_apply, shapeCast_1a_a_apply]
  exact slice_lead2_at 1 (1 : Fin 4) rfl _ _ j

/-! ## The stretch before layer 2's region: the aggregation of `main_v47`, layer 2's weights -/

theorem agg3 :
    (StableHlo.after hostOps3 W (Proc.devRef .tc main_v57) : FVec Ideal S100000x128 .f32)
      = aggK (W (Proc.devRef .tc main_v47)) (W (Proc.devRef .tc main_v1)) (W (Proc.devRef .tc main_v3)) := by
  after_results_simp; rfl

theorem w1_3_at (k j : Fin 128) :
    (StableHlo.after hostOps3 W (Proc.devRef .tc main_v59) : S128x128.Idx → Ideal .f32) (ix2 k j)
      = (W (Proc.devRef .tc main_arg6) : S4x128x128.Idx → Ideal .f32) (ix3 (2 : Fin 4) k j) := by
  have e : (StableHlo.after hostOps3 W (Proc.devRef .tc main_v59) : S128x128.Idx → Ideal .f32)
      = shapeCast S128x128 (extractStridedSlice S1x128x128 ![2, 0, 0]
          (W (Proc.devRef .tc main_arg6) : S4x128x128.Idx → Ideal .f32) slices_S4x128x128_S1x128x128_2_0_0)
          shapeCasts_S1x128x128_S128x128 := by
    after_results; rfl
  rw [e, shapeCast_1ab_ab_apply]
  exact slice_lead3_at 2 (2 : Fin 4) rfl _ _ k j

theorem b1_3_at (j : Fin 128) :
    (StableHlo.after hostOps3 W (Proc.devRef .tc main_v66) : S1x128.Idx → Ideal .f32) (ix2 (0 : Fin 1) j)
      = (W (Proc.devRef .tc main_arg7) : S4x128.Idx → Ideal .f32) (ix2 (2 : Fin 4) j) := by
  have e : (StableHlo.after hostOps3 W (Proc.devRef .tc main_v66) : S1x128.Idx → Ideal .f32)
      = shapeCast S1x128 (shapeCast S128 (extractStridedSlice S1x128 ![2, 0]
          (W (Proc.devRef .tc main_arg7) : S4x128.Idx → Ideal .f32) slices_S4x128_S1x128_2_0)
          shapeCasts_S1x128_S128) shapeCasts_S128_S1x128 := by
    after_results; rfl
  rw [e, shapeCast_a_1a_apply, shapeCast_1a_a_apply]
  exact slice_lead2_at 2 (2 : Fin 4) rfl _ _ j

theorem w2_3_at (k j : Fin 128) :
    (StableHlo.after hostOps3 W (Proc.devRef .tc main_v63) : S128x128.Idx → Ideal .f32) (ix2 k j)
      = (W (Proc.devRef .tc main_arg8) : S4x128x128.Idx → Ideal .f32) (ix3 (2 : Fin 4) k j) := by
  have e : (StableHlo.after hostOps3 W (Proc.devRef .tc main_v63) : S128x128.Idx → Ideal .f32)
      = shapeCast S128x128 (extractStridedSlice S1x128x128 ![2, 0, 0]
          (W (Proc.devRef .tc main_arg8) : S4x128x128.Idx → Ideal .f32) slices_S4x128x128_S1x128x128_2_0_0)
          shapeCasts_S1x128x128_S128x128 := by
    after_results; rfl
  rw [e, shapeCast_1ab_ab_apply]
  exact slice_lead3_at 2 (2 : Fin 4) rfl _ _ k j

theorem b2_3_at (j : Fin 128) :
    (StableHlo.after hostOps3 W (Proc.devRef .tc main_v67) : S1x128.Idx → Ideal .f32) (ix2 (0 : Fin 1) j)
      = (W (Proc.devRef .tc main_arg9) : S4x128.Idx → Ideal .f32) (ix2 (2 : Fin 4) j) := by
  have e : (StableHlo.after hostOps3 W (Proc.devRef .tc main_v67) : S1x128.Idx → Ideal .f32)
      = shapeCast S1x128 (shapeCast S128 (extractStridedSlice S1x128 ![2, 0]
          (W (Proc.devRef .tc main_arg9) : S4x128.Idx → Ideal .f32) slices_S4x128_S1x128_2_0)
          shapeCasts_S1x128_S128) shapeCasts_S128_S1x128 := by
    after_results; rfl
  rw [e, shapeCast_a_1a_apply, shapeCast_1a_a_apply]
  exact slice_lead2_at 2 (2 : Fin 4) rfl _ _ j

/-! ## The stretch before layer 3's region: the aggregation of `main_v68`, layer 3's weights -/

theorem agg4 :
    (StableHlo.after hostOps4 W (Proc.devRef .tc main_v78) : FVec Ideal S100000x128 .f32)
      = aggK (W (Proc.devRef .tc main_v68)) (W (Proc.devRef .tc main_v1)) (W (Proc.devRef .tc main_v3)) := by
  after_results_simp; rfl

theorem w1_4_at (k j : Fin 128) :
    (StableHlo.after hostOps4 W (Proc.devRef .tc main_v80) : S128x128.Idx → Ideal .f32) (ix2 k j)
      = (W (Proc.devRef .tc main_arg6) : S4x128x128.Idx → Ideal .f32) (ix3 (3 : Fin 4) k j) := by
  have e : (StableHlo.after hostOps4 W (Proc.devRef .tc main_v80) : S128x128.Idx → Ideal .f32)
      = shapeCast S128x128 (extractStridedSlice S1x128x128 ![3, 0, 0]
          (W (Proc.devRef .tc main_arg6) : S4x128x128.Idx → Ideal .f32) slices_S4x128x128_S1x128x128_3_0_0)
          shapeCasts_S1x128x128_S128x128 := by
    after_results; rfl
  rw [e, shapeCast_1ab_ab_apply]
  exact slice_lead3_at 3 (3 : Fin 4) rfl _ _ k j

theorem b1_4_at (j : Fin 128) :
    (StableHlo.after hostOps4 W (Proc.devRef .tc main_v87) : S1x128.Idx → Ideal .f32) (ix2 (0 : Fin 1) j)
      = (W (Proc.devRef .tc main_arg7) : S4x128.Idx → Ideal .f32) (ix2 (3 : Fin 4) j) := by
  have e : (StableHlo.after hostOps4 W (Proc.devRef .tc main_v87) : S1x128.Idx → Ideal .f32)
      = shapeCast S1x128 (shapeCast S128 (extractStridedSlice S1x128 ![3, 0]
          (W (Proc.devRef .tc main_arg7) : S4x128.Idx → Ideal .f32) slices_S4x128_S1x128_3_0)
          shapeCasts_S1x128_S128) shapeCasts_S128_S1x128 := by
    after_results; rfl
  rw [e, shapeCast_a_1a_apply, shapeCast_1a_a_apply]
  exact slice_lead2_at 3 (3 : Fin 4) rfl _ _ j

theorem w2_4_at (k j : Fin 128) :
    (StableHlo.after hostOps4 W (Proc.devRef .tc main_v84) : S128x128.Idx → Ideal .f32) (ix2 k j)
      = (W (Proc.devRef .tc main_arg8) : S4x128x128.Idx → Ideal .f32) (ix3 (3 : Fin 4) k j) := by
  have e : (StableHlo.after hostOps4 W (Proc.devRef .tc main_v84) : S128x128.Idx → Ideal .f32)
      = shapeCast S128x128 (extractStridedSlice S1x128x128 ![3, 0, 0]
          (W (Proc.devRef .tc main_arg8) : S4x128x128.Idx → Ideal .f32) slices_S4x128x128_S1x128x128_3_0_0)
          shapeCasts_S1x128x128_S128x128 := by
    after_results; rfl
  rw [e, shapeCast_1ab_ab_apply]
  exact slice_lead3_at 3 (3 : Fin 4) rfl _ _ k j

theorem b2_4_at (j : Fin 128) :
    (StableHlo.after hostOps4 W (Proc.devRef .tc main_v88) : S1x128.Idx → Ideal .f32) (ix2 (0 : Fin 1) j)
      = (W (Proc.devRef .tc main_arg9) : S4x128.Idx → Ideal .f32) (ix2 (3 : Fin 4) j) := by
  have e : (StableHlo.after hostOps4 W (Proc.devRef .tc main_v88) : S1x128.Idx → Ideal .f32)
      = shapeCast S1x128 (shapeCast S128 (extractStridedSlice S1x128 ![3, 0]
          (W (Proc.devRef .tc main_arg9) : S4x128.Idx → Ideal .f32) slices_S4x128_S1x128_3_0)
          shapeCasts_S1x128_S128) shapeCasts_S128_S1x128 := by
    after_results; rfl
  rw [e, shapeCast_a_1a_apply, shapeCast_1a_a_apply]
  exact slice_lead2_at 3 (3 : Fin 4) rfl _ _ j

end Cert.KernelIdeal.HostVal
-- ==== Proof.KernelIdeal.Final.lean ====
import proofs.«121001_j68573447848158_1_alg».proof.Proof.KernelIdeal.Run
import proofs.«121001_j68573447848158_1_alg».proof.Proof.KernelIdeal.Val0
import proofs.«121001_j68573447848158_1_alg».proof.Proof.KernelIdeal.Val1
import proofs.«121001_j68573447848158_1_alg».proof.Proof.KernelIdeal.Val2
import proofs.«121001_j68573447848158_1_alg».proof.Proof.KernelIdeal.Val3
import proofs.«121001_j68573447848158_1_alg».proof.Proof.KernelIdeal.Val4
import proofs.«121001_j68573447848158_1_alg».proof.Proof.KernelIdeal.Val5
import proofs.«121001_j68573447848158_1_alg».proof.Proof.KernelIdeal.Host1
import proofs.«121001_j68573447848158_1_alg».proof.Proof.Spec

/-! # The value the program returns, composed

The buffer contents at the thirteen boundaries of the program (host stretch, region, host stretch, …) are a fold
from the launch memory. Each region's output array is the specification's dense map of what the region found in its
input arrays; each host stretch computes the edge endpoints, the neighbour aggregation, a layer's weights cut out of
the stacked weights, or the pooling, and leaves every other buffer alone. Reading the fold back boundary by boundary
gives the hidden states `H0 … H4` of the network, each as the specification's map of the previous one, and the
returned vector as the specification's network of the launch arrays. -/

set_option maxRecDepth 16384

noncomputable section

namespace Cert.KernelIdeal.Final

open Idealize.ShloMosaic Idealize.ShloMosaic.TcCoe Idealize.ShloMosaic.ValueIdx
open Cert.KernelIdeal Cert.KernelIdeal.Gen Cert.KernelIdeal.Hand

/-! ## The specification's entry maps respect equality of their arguments -/

theorem linReluAt_congr {N : Nat} {x x' : Fin N → Fin 128 → EReal} {w w' : Fin 128 → Fin 128 → EReal} {b b' : Fin 128 → EReal}
    (ex : x = x') (ew : w = w') (eb : b = b') (r : Fin N) (j : Fin 128) :
    Cert.Spec.linReluAt x w b r j = Cert.Spec.linReluAt x' w' b' r j := by rw [ex, ew, eb]

theorem ginAt_congr {N : Nat} {h h' h0 h0' agg agg' : Fin N → Fin 128 → EReal} {w1 w1' : Fin 128 → Fin 128 → EReal} {b1 b1' : Fin 128 → EReal}
    {w2 w2' : Fin 128 → Fin 128 → EReal} {b2 b2' : Fin 128 → EReal}
    (eh : h = h') (eh0 : h0 = h0') (eagg : agg = agg') (ew1 : w1 = w1') (eb1 : b1 = b1') (ew2 : w2 = w2') (eb2 : b2 = b2')
    (r : Fin N) (j : Fin 128) :
    Cert.Spec.ginAt h h0 agg w1 b1 w2 b2 r j = Cert.Spec.ginAt h' h0' agg' w1' b1' w2' b2' r j := by
  rw [eh, eh0, eagg, ew1, eb1, ew2, eb2]

theorem finAt_congr {G : Nat} {p p' : Fin G → Fin 128 → EReal} {wf wf' : Fin 128 → EReal} {bf bf' : EReal}
    (ep : p = p') (ew : wf = wf') (eb : bf = bf') {g g' : Fin G} (eg : g = g') :
    Cert.Spec.finAt p wf bf g = Cert.Spec.finAt p' wf' bf' g' := by rw [ep, ew, eb, eg]

variable (m : (ℓ : Loc nD τ sig) → Buf (Elt Ideal) ℓ) (c : Dev nD)

/-! ## The launch arrays, as the specification takes them -/

/-- The node features. -/
def xIn : FVec Ideal S100000x128 .f32 := W0 m c (Proc.devRef .tc main_arg0)
/-- The edges' endpoints. -/
def src : IVec S1600000 32 := HostVal.srcOf (W0 m c (Proc.devRef .tc main_arg1))
def dst : IVec S1600000 32 := HostVal.dstOf (W0 m c (Proc.devRef .tc main_arg1))
/-- The nodes' graph ids. -/
def batch : IVec S100000 32 := W0 m c (Proc.devRef .tc main_arg3)
/-- The input projection's weights and bias. -/
def w0 : Fin 128 → Fin 128 → EReal := fun k j => (W0 m c (Proc.devRef .tc main_arg4) : S128x128.Idx → Ideal .f32) (ix2 k j)
def b0 : Fin 128 → EReal := fun j => (W0 m c (Proc.devRef .tc main_arg5) : S128.Idx → Ideal .f32) (ix1 j)
/-- The four layers' weights and biases, stacked. -/
def w1 : Fin 4 → Fin 128 → Fin 128 → EReal := fun l k j => (W0 m c (Proc.devRef .tc main_arg6) : S4x128x128.Idx → Ideal .f32) (ix3 l k j)
def b1 : Fin 4 → Fin 128 → EReal := fun l j => (W0 m c (Proc.devRef .tc main_arg7) : S4x128.Idx → Ideal .f32) (ix2 l j)
def w2 : Fin 4 → Fin 128 → Fin 128 → EReal := fun l k j => (W0 m c (Proc.devRef .tc main_arg8) : S4x128x128.Idx → Ideal .f32) (ix3 l k j)
def b2 : Fin 4 → Fin 128 → EReal := fun l j => (W0 m c (Proc.devRef .tc main_arg9) : S4x128.Idx → Ideal .f32) (ix2 l j)
/-- The readout's weights and bias. -/
def wf : Fin 128 → EReal := fun k => (W0 m c (Proc.devRef .tc main_arg10) : S128x1.Idx → Ideal .f32) (ix2 k (0 : Fin 1))
def bf : EReal := (W0 m c (Proc.devRef .tc main_arg11) : S1.Idx → Ideal .f32) (ix1 (0 : Fin 1))

/-- The neighbour aggregation over the launch's edges, and the pooling over the launch's graph ids. -/
def aggF (h : FVec Ideal S100000x128 .f32) : FVec Ideal S100000x128 .f32 := HostVal.aggK h (src m c) (dst m c)
def poolF (h : FVec Ideal S100000x128 .f32) : FVec Ideal S1000x128 .f32 := HostVal.poolK h (batch m c)

/-! ## The hidden states, each the specification's map of the one before -/

def H0 : FVec Ideal S100000x128 .f32 := Cert.Spec.linRelu (N := 100000) (xIn m c) (w0 m c) (b0 m c)
def H1 : FVec Ideal S100000x128 .f32 := Cert.Spec.gin (N := 100000) (H0 m c) (H0 m c) (aggF m c (H0 m c)) (w1 m c 0) (b1 m c 0) (w2 m c 0) (b2 m c 0)
def H2 : FVec Ideal S100000x128 .f32 := Cert.Spec.gin (N := 100000) (H1 m c) (H0 m c) (aggF m c (H1 m c)) (w1 m c 1) (b1 m c 1) (w2 m c 1) (b2 m c 1)
def H3 : FVec Ideal S100000x128 .f32 := Cert.Spec.gin (N := 100000) (H2 m c) (H0 m c) (aggF m c (H2 m c)) (w1 m c 2) (b1 m c 2) (w2 m c 2) (b2 m c 2)
def H4 : FVec Ideal S100000x128 .f32 := Cert.Spec.gin (N := 100000) (H3 m c) (H0 m c) (aggF m c (H3 m c)) (w1 m c 3) (b1 m c 3) (w2 m c 3) (b2 m c 3)

/-! ## The launch arrays, carried to the boundaries that read them

A region changes its output array only, a host stretch the buffers its lines write: a launch array is at every
boundary what it was at launch. -/

theorem arg0_at_1 : W1 m c (Proc.devRef .tc main_arg0) = W0 m c (Proc.devRef .tc main_arg0) :=
  (HostVal.keep0 (W0 m c) main_arg0 (by decide))
theorem arg4_at_1 : W1 m c (Proc.devRef .tc main_arg4) = W0 m c (Proc.devRef .tc main_arg4) :=
  (HostVal.keep0 (W0 m c) main_arg4 (by decide))
theorem arg6_at_1 : W1 m c (Proc.devRef .tc main_arg6) = W0 m c (Proc.devRef .tc main_arg6) :=
  (HostVal.keep0 (W0 m c) main_arg6 (by decide))
theorem arg6_at_2 : W2 m c (Proc.devRef .tc main_arg6) = W0 m c (Proc.devRef .tc main_arg6) :=
  (W_keep_0 m c main_arg6 (by decide)).trans (arg6_at_1 m c)
theorem arg6_at_3 : W3 m c (Proc.devRef .tc main_arg6) = W0 m c (Proc.devRef .tc main_arg6) :=
  (HostVal.keep1 (W2 m c) main_arg6 (by decide)).trans (arg6_at_2 m c)
theorem arg6_at_4 : W4 m c (Proc.devRef .tc main_arg6) = W0 m c (Proc.devRef .tc main_arg6) :=
  (W_keep_1 m c main_arg6 (by decide)).trans (arg6_at_3 m c)
theorem arg6_at_5 : W5 m c (Proc.devRef .tc main_arg6) = W0 m c (Proc.devRef .tc main_arg6) :=
  (HostVal.keep2 (W4 m c) main_arg6 (by decide)).trans (arg6_at_4 m c)
theorem arg6_at_6 : W6 m c (Proc.devRef .tc main_arg6) = W0 m c (Proc.devRef .tc main_arg6) :=
  (W_keep_2 m c main_arg6 (by decide)).trans (arg6_at_5 m c)
theorem arg6_at_7 : W7 m c (Proc.devRef .tc main_arg6) = W0 m c (Proc.devRef .tc main_arg6) :=
  (HostVal.keep3 (W6 m c) main_arg6 (by decide)).trans (arg6_at_6 m c)
theorem arg6_at_8 : W8 m c (Proc.devRef .tc main_arg6) = W0 m c (Proc.devRef .tc main_arg6) :=
  (W_keep_3 m c main_arg6 (by decide)).trans (arg6_at_7 m c)
theorem arg7_at_1 : W1 m c (Proc.devRef .tc main_arg7) = W0 m c (Proc.devRef .tc main_arg7) :=
  (HostVal.keep0 (W0 m c) main_arg7 (by decide))
theorem arg7_at_2 : W2 m c (Proc.devRef .tc main_arg7) = W0 m c (Proc.devRef .tc main_arg7) :=
  (W_keep_0 m c main_arg7 (by decide)).trans (arg7_at_1 m c)
theorem arg7_at_3 : W3 m c (Proc.devRef .tc main_arg7) = W0 m c (Proc.devRef .tc main_arg7) :=
  (HostVal.keep1 (W2 m c) main_arg7 (by decide)).trans (arg7_at_2 m c)
theorem arg7_at_4 : W4 m c (Proc.devRef .tc main_arg7) = W0 m c (Proc.devRef .tc main_arg7) :=
  (W_keep_1 m c main_arg7 (by decide)).trans (arg7_at_3 m c)
theorem arg7_at_5 : W5 m c (Proc.devRef .tc main_arg7) = W0 m c (Proc.devRef .tc main_arg7) :=
  (HostVal.keep2 (W4 m c) main_arg7 (by decide)).trans (arg7_at_4 m c)
theorem arg7_at_6 : W6 m c (Proc.devRef .tc main_arg7) = W0 m c (Proc.devRef .tc main_arg7) :=
  (W_keep_2 m c main_arg7 (by decide)).trans (arg7_at_5 m c)
theorem arg7_at_7 : W7 m c (Proc.devRef .tc main_arg7) = W0 m c (Proc.devRef .tc main_arg7) :=
  (HostVal.keep3 (W6 m c) main_arg7 (by decide)).trans (arg7_at_6 m c)
theorem arg7_at_8 : W8 m c (Proc.devRef .tc main_arg7) = W0 m c (Proc.devRef .tc main_arg7) :=
  (W_keep_3 m c main_arg7 (by decide)).trans (arg7_at_7 m c)
theorem arg8_at_1 : W1 m c (Proc.devRef .tc main_arg8) = W0 m c (Proc.devRef .tc main_arg8) :=
  (HostVal.keep0 (W0 m c) main_arg8 (by decide))
theorem arg8_at_2 : W2 m c (Proc.devRef .tc main_arg8) = W0 m c (Proc.devRef .tc main_arg8) :=
  (W_keep_0 m c main_arg8 (by decide)).trans (arg8_at_1 m c)
theorem arg8_at_3 : W3 m c (Proc.devRef .tc main_arg8) = W0 m c (Proc.devRef .tc main_arg8) :=
  (HostVal.keep1 (W2 m c) main_arg8 (by decide)).trans (arg8_at_2 m c)
theorem arg8_at_4 : W4 m c (Proc.devRef .tc main_arg8) = W0 m c (Proc.devRef .tc main_arg8) :=
  (W_keep_1 m c main_arg8 (by decide)).trans (arg8_at_3 m c)
theorem arg8_at_5 : W5 m c (Proc.devRef .tc main_arg8) = W0 m c (Proc.devRef .tc main_arg8) :=
  (HostVal.keep2 (W4 m c) main_arg8 (by decide)).trans (arg8_at_4 m c)
theorem arg8_at_6 : W6 m c (Proc.devRef .tc main_arg8) = W0 m c (Proc.devRef .tc main_arg8) :=
  (W_keep_2 m c main_arg8 (by decide)).trans (arg8_at_5 m c)
theorem arg8_at_7 : W7 m c (Proc.devRef .tc main_arg8) = W0 m c (Proc.devRef .tc main_arg8) :=
  (HostVal.keep3 (W6 m c) main_arg8 (by decide)).trans (arg8_at_6 m c)
theorem arg8_at_8 : W8 m c (Proc.devRef .tc main_arg8) = W0 m c (Proc.devRef .tc main_arg8) :=
  (W_keep_3 m c main_arg8 (by decide)).trans (arg8_at_7 m c)
theorem arg9_at_1 : W1 m c (Proc.devRef .tc main_arg9) = W0 m c (Proc.devRef .tc main_arg9) :=
  (HostVal.keep0 (W0 m c) main_arg9 (by decide))
theorem arg9_at_2 : W2 m c (Proc.devRef .tc main_arg9) = W0 m c (Proc.devRef .tc main_arg9) :=
  (W_keep_0 m c main_arg9 (by decide)).trans (arg9_at_1 m c)
theorem arg9_at_3 : W3 m c (Proc.devRef .tc main_arg9) = W0 m c (Proc.devRef .tc main_arg9) :=
  (HostVal.keep1 (W2 m c) main_arg9 (by decide)).trans (arg9_at_2 m c)
theorem arg9_at_4 : W4 m c (Proc.devRef .tc main_arg9) = W0 m c (Proc.devRef .tc main_arg9) :=
  (W_keep_1 m c main_arg9 (by decide)).trans (arg9_at_3 m c)
theorem arg9_at_5 : W5 m c (Proc.devRef .tc main_arg9) = W0 m c (Proc.devRef .tc main_arg9) :=
  (HostVal.keep2 (W4 m c) main_arg9 (by decide)).trans (arg9_at_4 m c)
theorem arg9_at_6 : W6 m c (Proc.devRef .tc main_arg9) = W0 m c (Proc.devRef .tc main_arg9) :=
  (W_keep_2 m c main_arg9 (by decide)).trans (arg9_at_5 m c)
theorem arg9_at_7 : W7 m c (Proc.devRef .tc main_arg9) = W0 m c (Proc.devRef .tc main_arg9) :=
  (HostVal.keep3 (W6 m c) main_arg9 (by decide)).trans (arg9_at_6 m c)
theorem arg9_at_8 : W8 m c (Proc.devRef .tc main_arg9) = W0 m c (Proc.devRef .tc main_arg9) :=
  (W_keep_3 m c main_arg9 (by decide)).trans (arg9_at_7 m c)
theorem arg3_at_1 : W1 m c (Proc.devRef .tc main_arg3) = W0 m c (Proc.devRef .tc main_arg3) :=
  (HostVal.keep0 (W0 m c) main_arg3 (by decide))
theorem arg3_at_2 : W2 m c (Proc.devRef .tc main_arg3) = W0 m c (Proc.devRef .tc main_arg3) :=
  (W_keep_0 m c main_arg3 (by decide)).trans (arg3_at_1 m c)
theorem arg3_at_3 : W3 m c (Proc.devRef .tc main_arg3) = W0 m c (Proc.devRef .tc main_arg3) :=
  (HostVal.keep1 (W2 m c) main_arg3 (by decide)).trans (arg3_at_2 m c)
theorem arg3_at_4 : W4 m c (Proc.devRef .tc main_arg3) = W0 m c (Proc.devRef .tc main_arg3) :=
  (W_keep_1 m c main_arg3 (by decide)).trans (arg3_at_3 m c)
theorem arg3_at_5 : W5 m c (Proc.devRef .tc main_arg3) = W0 m c (Proc.devRef .tc main_arg3) :=
  (HostVal.keep2 (W4 m c) main_arg3 (by decide)).trans (arg3_at_4 m c)
theorem arg3_at_6 : W6 m c (Proc.devRef .tc main_arg3) = W0 m c (Proc.devRef .tc main_arg3) :=
  (W_keep_2 m c main_arg3 (by decide)).trans (arg3_at_5 m c)
theorem arg3_at_7 : W7 m c (Proc.devRef .tc main_arg3) = W0 m c (Proc.devRef .tc main_arg3) :=
  (HostVal.keep3 (W6 m c) main_arg3 (by decide)).trans (arg3_at_6 m c)
theorem arg3_at_8 : W8 m c (Proc.devRef .tc main_arg3) = W0 m c (Proc.devRef .tc main_arg3) :=
  (W_keep_3 m c main_arg3 (by decide)).trans (arg3_at_7 m c)
theorem arg3_at_9 : W9 m c (Proc.devRef .tc main_arg3) = W0 m c (Proc.devRef .tc main_arg3) :=
  (HostVal.keep4 (W8 m c) main_arg3 (by decide)).trans (arg3_at_8 m c)
theorem arg3_at_10 : W10 m c (Proc.devRef .tc main_arg3) = W0 m c (Proc.devRef .tc main_arg3) :=
  (W_keep_4 m c main_arg3 (by decide)).trans (arg3_at_9 m c)
theorem arg11_at_1 : W1 m c (Proc.devRef .tc main_arg11) = W0 m c (Proc.devRef .tc main_arg11) :=
  (HostVal.keep0 (W0 m c) main_arg11 (by decide))
theorem arg11_at_2 : W2 m c (Proc.devRef .tc main_arg11) = W0 m c (Proc.devRef .tc main_arg11) :=
  (W_keep_0 m c main_arg11 (by decide)).trans (arg11_at_1 m c)
theorem arg11_at_3 : W3 m c (Proc.devRef .tc main_arg11) = W0 m c (Proc.devRef .tc main_arg11) :=
  (HostVal.keep1 (W2 m c) main_arg11 (by decide)).trans (arg11_at_2 m c)
theorem arg11_at_4 : W4 m c (Proc.devRef .tc main_arg11) = W0 m c (Proc.devRef .tc main_arg11) :=
  (W_keep_1 m c main_arg11 (by decide)).trans (arg11_at_3 m c)
theorem arg11_at_5 : W5 m c (Proc.devRef .tc main_arg11) = W0 m c (Proc.devRef .tc main_arg11) :=
  (HostVal.keep2 (W4 m c) main_arg11 (by decide)).trans (arg11_at_4 m c)
theorem arg11_at_6 : W6 m c (Proc.devRef .tc main_arg11) = W0 m c (Proc.devRef .tc main_arg11) :=
  (W_keep_2 m c main_arg11 (by decide)).trans (arg11_at_5 m c)
theorem arg11_at_7 : W7 m c (Proc.devRef .tc main_arg11) = W0 m c (Proc.devRef .tc main_arg11) :=
  (HostVal.keep3 (W6 m c) main_arg11 (by decide)).trans (arg11_at_6 m c)
theorem arg11_at_8 : W8 m c (Proc.devRef .tc main_arg11) = W0 m c (Proc.devRef .tc main_arg11) :=
  (W_keep_3 m c main_arg11 (by decide)).trans (arg11_at_7 m c)
theorem arg11_at_9 : W9 m c (Proc.devRef .tc main_arg11) = W0 m c (Proc.devRef .tc main_arg11) :=
  (HostVal.keep4 (W8 m c) main_arg11 (by decide)).trans (arg11_at_8 m c)
theorem arg11_at_10 : W10 m c (Proc.devRef .tc main_arg11) = W0 m c (Proc.devRef .tc main_arg11) :=
  (W_keep_4 m c main_arg11 (by decide)).trans (arg11_at_9 m c)
theorem arg10_at_1 : W1 m c (Proc.devRef .tc main_arg10) = W0 m c (Proc.devRef .tc main_arg10) :=
  (HostVal.keep0 (W0 m c) main_arg10 (by decide))
theorem arg10_at_2 : W2 m c (Proc.devRef .tc main_arg10) = W0 m c (Proc.devRef .tc main_arg10) :=
  (W_keep_0 m c main_arg10 (by decide)).trans (arg10_at_1 m c)
theorem arg10_at_3 : W3 m c (Proc.devRef .tc main_arg10) = W0 m c (Proc.devRef .tc main_arg10) :=
  (HostVal.keep1 (W2 m c) main_arg10 (by decide)).trans (arg10_at_2 m c)
theorem arg10_at_4 : W4 m c (Proc.devRef .tc main_arg10) = W0 m c (Proc.devRef .tc main_arg10) :=
  (W_keep_1 m c main_arg10 (by decide)).trans (arg10_at_3 m c)
theorem arg10_at_5 : W5 m c (Proc.devRef .tc main_arg10) = W0 m c (Proc.devRef .tc main_arg10) :=
  (HostVal.keep2 (W4 m c) main_arg10 (by decide)).trans (arg10_at_4 m c)
theorem arg10_at_6 : W6 m c (Proc.devRef .tc main_arg10) = W0 m c (Proc.devRef .tc main_arg10) :=
  (W_keep_2 m c main_arg10 (by decide)).trans (arg10_at_5 m c)
theorem arg10_at_7 : W7 m c (Proc.devRef .tc main_arg10) = W0 m c (Proc.devRef .tc main_arg10) :=
  (HostVal.keep3 (W6 m c) main_arg10 (by decide)).trans (arg10_at_6 m c)
theorem arg10_at_8 : W8 m c (Proc.devRef .tc main_arg10) = W0 m c (Proc.devRef .tc main_arg10) :=
  (W_keep_3 m c main_arg10 (by decide)).trans (arg10_at_7 m c)
theorem arg10_at_9 : W9 m c (Proc.devRef .tc main_arg10) = W0 m c (Proc.devRef .tc main_arg10) :=
  (HostVal.keep4 (W8 m c) main_arg10 (by decide)).trans (arg10_at_8 m c)
theorem arg10_at_10 : W10 m c (Proc.devRef .tc main_arg10) = W0 m c (Proc.devRef .tc main_arg10) :=
  (W_keep_4 m c main_arg10 (by decide)).trans (arg10_at_9 m c)
theorem arg10_at_11 : W11 m c (Proc.devRef .tc main_arg10) = W0 m c (Proc.devRef .tc main_arg10) :=
  (HostVal.keep5 (W10 m c) main_arg10 (by decide)).trans (arg10_at_10 m c)

/-! ## The edge endpoints, computed by the first stretch and carried -/

theorem v1_at_1 : W1 m c (Proc.devRef .tc main_v1) = src m c := by unfold src; exact HostVal.src0 (W0 m c)
theorem v3_at_1 : W1 m c (Proc.devRef .tc main_v3) = dst m c := by unfold dst; exact HostVal.dst0 (W0 m c)
theorem v1_at_2 : W2 m c (Proc.devRef .tc main_v1) = src m c := (W_keep_0 m c main_v1 (by decide)).trans (v1_at_1 m c)
theorem v1_at_3 : W3 m c (Proc.devRef .tc main_v1) = src m c := (HostVal.keep1 (W2 m c) main_v1 (by decide)).trans (v1_at_2 m c)
theorem v1_at_4 : W4 m c (Proc.devRef .tc main_v1) = src m c := (W_keep_1 m c main_v1 (by decide)).trans (v1_at_3 m c)
theorem v1_at_5 : W5 m c (Proc.devRef .tc main_v1) = src m c := (HostVal.keep2 (W4 m c) main_v1 (by decide)).trans (v1_at_4 m c)
theorem v1_at_6 : W6 m c (Proc.devRef .tc main_v1) = src m c := (W_keep_2 m c main_v1 (by decide)).trans (v1_at_5 m c)
theorem v1_at_7 : W7 m c (Proc.devRef .tc main_v1) = src m c := (HostVal.keep3 (W6 m c) main_v1 (by decide)).trans (v1_at_6 m c)
theorem v1_at_8 : W8 m c (Proc.devRef .tc main_v1) = src m c := (W_keep_3 m c main_v1 (by decide)).trans (v1_at_7 m c)
theorem v3_at_2 : W2 m c (Proc.devRef .tc main_v3) = dst m c := (W_keep_0 m c main_v3 (by decide)).trans (v3_at_1 m c)
theorem v3_at_3 : W3 m c (Proc.devRef .tc main_v3) = dst m c := (HostVal.keep1 (W2 m c) main_v3 (by decide)).trans (v3_at_2 m c)
theorem v3_at_4 : W4 m c (Proc.devRef .tc main_v3) = dst m c := (W_keep_1 m c main_v3 (by decide)).trans (v3_at_3 m c)
theorem v3_at_5 : W5 m c (Proc.devRef .tc main_v3) = dst m c := (HostVal.keep2 (W4 m c) main_v3 (by decide)).trans (v3_at_4 m c)
theorem v3_at_6 : W6 m c (Proc.devRef .tc main_v3) = dst m c := (W_keep_2 m c main_v3 (by decide)).trans (v3_at_5 m c)
theorem v3_at_7 : W7 m c (Proc.devRef .tc main_v3) = dst m c := (HostVal.keep3 (W6 m c) main_v3 (by decide)).trans (v3_at_6 m c)
theorem v3_at_8 : W8 m c (Proc.devRef .tc main_v3) = dst m c := (W_keep_3 m c main_v3 (by decide)).trans (v3_at_7 m c)

/-! ## The boundaries, one by one -/

/-- After region 0 the projected features are the specification's `linRelu` of the launch's. -/
theorem h0_at : (W2 m c (Proc.devRef .tc main_v5) : FVec Ideal S100000x128 .f32) = H0 m c := by
  rw [W_out_0, Val.val0]
  funext i
  simp only [H0, Cert.Spec.linRelu]
  refine linReluAt_congr ?_ ?_ ?_ (i 0) (i 1)
  · funext r k; unfold xIn; rw [arg0_at_1]
  · funext k j; unfold w0; rw [arg4_at_1]
  · funext j; unfold b0; exact HostVal.v4_at (W0 m c) j

/-- The projected features, carried to the later regions' entries. -/
theorem v5_at_2 : W2 m c (Proc.devRef .tc main_v5) = H0 m c := h0_at m c
theorem v5_at_3 : W3 m c (Proc.devRef .tc main_v5) = H0 m c := (HostVal.keep1 (W2 m c) main_v5 (by decide)).trans (v5_at_2 m c)
theorem v5_at_4 : W4 m c (Proc.devRef .tc main_v5) = H0 m c := (W_keep_1 m c main_v5 (by decide)).trans (v5_at_3 m c)
theorem v5_at_5 : W5 m c (Proc.devRef .tc main_v5) = H0 m c := (HostVal.keep2 (W4 m c) main_v5 (by decide)).trans (v5_at_4 m c)
theorem v5_at_6 : W6 m c (Proc.devRef .tc main_v5) = H0 m c := (W_keep_2 m c main_v5 (by decide)).trans (v5_at_5 m c)
theorem v5_at_7 : W7 m c (Proc.devRef .tc main_v5) = H0 m c := (HostVal.keep3 (W6 m c) main_v5 (by decide)).trans (v5_at_6 m c)
theorem v5_at_8 : W8 m c (Proc.devRef .tc main_v5) = H0 m c := (W_keep_3 m c main_v5 (by decide)).trans (v5_at_7 m c)
theorem v5_at_9 : W9 m c (Proc.devRef .tc main_v5) = H0 m c := (HostVal.keep4 (W8 m c) main_v5 (by decide)).trans (v5_at_8 m c)

/-- After region 1 (layer 0) the state is the specification's `gin` of the state before it, the projected features
    and the aggregation of the state before it, under layer 0's weights. -/
theorem h1_at : (W4 m c (Proc.devRef .tc main_v26) : FVec Ideal S100000x128 .f32) = H1 m c := by
  rw [W_out_1, Val.val1]
  funext i
  simp only [H1, Cert.Spec.gin]
  refine ginAt_congr ?_ ?_ ?_ ?_ ?_ ?_ ?_ (i 0) (i 1)
  · funext r k; rw [v5_at_3]
  · funext r k; rw [v5_at_3]
  · funext r k
    rw [show W3 m c (Proc.devRef .tc main_v15) = aggF m c (H0 m c) from
      (HostVal.agg1 (W2 m c)).trans (by unfold aggF; rw [v5_at_2, v1_at_2, v3_at_2])]
  · funext k j; unfold w1; exact (HostVal.w1_1_at (W2 m c) k j).trans (by rw [arg6_at_2])
  · funext j; unfold b1; exact (HostVal.b1_1_at (W2 m c) j).trans (by rw [arg7_at_2])
  · funext k j; unfold w2; exact (HostVal.w2_1_at (W2 m c) k j).trans (by rw [arg8_at_2])
  · funext j; unfold b2; exact (HostVal.b2_1_at (W2 m c) j).trans (by rw [arg9_at_2])
/-- The same, across the next stretch. -/
theorem prev_at_5 : W5 m c (Proc.devRef .tc main_v26) = H1 m c := (HostVal.keep2 (W4 m c) main_v26 (by decide)).trans (h1_at m c)

/-- After region 2 (layer 1) the state is the specification's `gin` of the state before it, the projected features
    and the aggregation of the state before it, under layer 1's weights. -/
theorem h2_at : (W6 m c (Proc.devRef .tc main_v47) : FVec Ideal S100000x128 .f32) = H2 m c := by
  rw [W_out_2, Val.val2]
  funext i
  simp only [H2, Cert.Spec.gin]
  refine ginAt_congr ?_ ?_ ?_ ?_ ?_ ?_ ?_ (i 0) (i 1)
  · funext r k; rw [prev_at_5]
  · funext r k; rw [v5_at_5]
  · funext r k
    rw [show W5 m c (Proc.devRef .tc main_v36) = aggF m c (H1 m c) from
      (HostVal.agg2 (W4 m c)).trans (by unfold aggF; rw [h1_at, v1_at_4, v3_at_4])]
  · funext k j; unfold w1; exact (HostVal.w1_2_at (W4 m c) k j).trans (by rw [arg6_at_4])
  · funext j; unfold b1; exact (HostVal.b1_2_at (W4 m c) j).trans (by rw [arg7_at_4])
  · funext k j; unfold w2; exact (HostVal.w2_2_at (W4 m c) k j).trans (by rw [arg8_at_4])
  · funext j; unfold b2; exact (HostVal.b2_2_at (W4 m c) j).trans (by rw [arg9_at_4])
/-- The same, across the next stretch. -/
theorem prev_at_7 : W7 m c (Proc.devRef .tc main_v47) = H2 m c := (HostVal.keep3 (W6 m c) main_v47 (by decide)).trans (h2_at m c)

/-- After region 3 (layer 2) the state is the specification's `gin` of the state before it, the projected features
    and the aggregation of the state before it, under layer 2's weights. -/
theorem h3_at : (W8 m c (Proc.devRef .tc main_v68) : FVec Ideal S100000x128 .f32) = H3 m c := by
  rw [W_out_3, Val.val3]
  funext i
  simp only [H3, Cert.Spec.gin]
  refine ginAt_congr ?_ ?_ ?_ ?_ ?_ ?_ ?_ (i 0) (i 1)
  · funext r k; rw [prev_at_7]
  · funext r k; rw [v5_at_7]
  · funext r k
    rw [show W7 m c (Proc.devRef .tc main_v57) = aggF m c (H2 m c) from
      (HostVal.agg3 (W6 m c)).trans (by unfold aggF; rw [h2_at, v1_at_6, v3_at_6])]
  · funext k j; unfold w1; exact (HostVal.w1_3_at (W6 m c) k j).trans (by rw [arg6_at_6])
  · funext j; unfold b1; exact (HostVal.b1_3_at (W6 m c) j).trans (by rw [arg7_at_6])
  · funext k j; unfold w2; exact (HostVal.w2_3_at (W6 m c) k j).trans (by rw [arg8_at_6])
  · funext j; unfold b2; exact (HostVal.b2_3_at (W6 m c) j).trans (by rw [arg9_at_6])
/-- The same, across the next stretch. -/
theorem prev_at_9 : W9 m c (Proc.devRef .tc main_v68) = H3 m c := (HostVal.keep4 (W8 m c) main_v68 (by decide)).trans (h3_at m c)

/-- After region 4 (layer 3) the state is the specification's `gin` of the state before it, the projected features
    and the aggregation of the state before it, under layer 3's weights. -/
theorem h4_at : (W10 m c (Proc.devRef .tc main_v89) : FVec Ideal S100000x128 .f32) = H4 m c := by
  rw [W_out_4, Val.val4]
  funext i
  simp only [H4, Cert.Spec.gin]
  refine ginAt_congr ?_ ?_ ?_ ?_ ?_ ?_ ?_ (i 0) (i 1)
  · funext r k; rw [prev_at_9]
  · funext r k; rw [v5_at_9]
  · funext r k
    rw [show W9 m c (Proc.devRef .tc main_v78) = aggF m c (H3 m c) from
      (HostVal.agg4 (W8 m c)).trans (by unfold aggF; rw [h3_at, v1_at_8, v3_at_8])]
  · funext k j; unfold w1; exact (HostVal.w1_4_at (W8 m c) k j).trans (by rw [arg6_at_8])
  · funext j; unfold b1; exact (HostVal.b1_4_at (W8 m c) j).trans (by rw [arg7_at_8])
  · funext k j; unfold w2; exact (HostVal.w2_4_at (W8 m c) k j).trans (by rw [arg8_at_8])
  · funext j; unfold b2; exact (HostVal.b2_4_at (W8 m c) j).trans (by rw [arg9_at_8])
/-- The same, across the next stretch. -/
theorem prev_at_11 : W11 m c (Proc.devRef .tc main_v89) = H4 m c := (HostVal.keep5 (W10 m c) main_v89 (by decide)).trans (h4_at m c)

/-- The pooled features entering the last region. -/
theorem pooled_at : (W11 m c (Proc.devRef .tc main_v92) : FVec Ideal S1000x128 .f32) = poolF m c (H4 m c) :=
  (HostVal.pool5 (W10 m c)).trans (by unfold poolF batch; rw [h4_at, arg3_at_10])

/-- The program's returned vector is the specification's network of the launch arrays. -/
theorem kernel_value :
    (W13 m c (Proc.devRef .tc main_v95) : S1000.Idx → Ideal .f32)
      = Cert.Spec.net (N := 100000) (G := 1000)
          (fun h => HostVal.aggK h (HostVal.srcOf (W0 m c (Proc.devRef .tc main_arg1))) (HostVal.dstOf (W0 m c (Proc.devRef .tc main_arg1))))
          (fun h => HostVal.poolK h (W0 m c (Proc.devRef .tc main_arg3)))
          (W0 m c (Proc.devRef .tc main_arg0))
          (fun k j => (W0 m c (Proc.devRef .tc main_arg4) : S128x128.Idx → Ideal .f32) (ix2 k j))
          (fun j => (W0 m c (Proc.devRef .tc main_arg5) : S128.Idx → Ideal .f32) (ix1 j))
          (fun l k j => (W0 m c (Proc.devRef .tc main_arg6) : S4x128x128.Idx → Ideal .f32) (ix3 l k j))
          (fun l j => (W0 m c (Proc.devRef .tc main_arg7) : S4x128.Idx → Ideal .f32) (ix2 l j))
          (fun l k j => (W0 m c (Proc.devRef .tc main_arg8) : S4x128x128.Idx → Ideal .f32) (ix3 l k j))
          (fun l j => (W0 m c (Proc.devRef .tc main_arg9) : S4x128.Idx → Ideal .f32) (ix2 l j))
          (fun k => (W0 m c (Proc.devRef .tc main_arg10) : S128x1.Idx → Ideal .f32) (ix2 k (0 : Fin 1)))
          ((W0 m c (Proc.devRef .tc main_arg11) : S1.Idx → Ideal .f32) (ix1 (0 : Fin 1))) := by
  have hnet : Cert.Spec.net (N := 100000) (G := 1000)
          (fun h => HostVal.aggK h (HostVal.srcOf (W0 m c (Proc.devRef .tc main_arg1))) (HostVal.dstOf (W0 m c (Proc.devRef .tc main_arg1))))
          (fun h => HostVal.poolK h (W0 m c (Proc.devRef .tc main_arg3)))
          (W0 m c (Proc.devRef .tc main_arg0))
          (fun k j => (W0 m c (Proc.devRef .tc main_arg4) : S128x128.Idx → Ideal .f32) (ix2 k j))
          (fun j => (W0 m c (Proc.devRef .tc main_arg5) : S128.Idx → Ideal .f32) (ix1 j))
          (fun l k j => (W0 m c (Proc.devRef .tc main_arg6) : S4x128x128.Idx → Ideal .f32) (ix3 l k j))
          (fun l j => (W0 m c (Proc.devRef .tc main_arg7) : S4x128.Idx → Ideal .f32) (ix2 l j))
          (fun l k j => (W0 m c (Proc.devRef .tc main_arg8) : S4x128x128.Idx → Ideal .f32) (ix3 l k j))
          (fun l j => (W0 m c (Proc.devRef .tc main_arg9) : S4x128.Idx → Ideal .f32) (ix2 l j))
          (fun k => (W0 m c (Proc.devRef .tc main_arg10) : S128x1.Idx → Ideal .f32) (ix2 k (0 : Fin 1)))
          ((W0 m c (Proc.devRef .tc main_arg11) : S1.Idx → Ideal .f32) (ix1 (0 : Fin 1)))
        = Cert.Spec.fin (G := 1000) (poolF m c (H4 m c)) (wf m c) (bf m c) := rfl
  rw [hnet]
  funext i
  obtain ⟨g, rfl⟩ : ∃ g : Fin 1000, i = ix1 g := ⟨i 0, eq_ix1 i⟩
  refine (HostVal.v95_at (W12 m c) g).trans ?_
  rw [W_out_5, Val.val5]
  simp only [Cert.Spec.fin]
  refine finAt_congr ?_ ?_ ?_ rfl
  · funext g' k; rw [pooled_at]
  · funext k; unfold wf; rw [arg10_at_11]
  · unfold bf; exact (HostVal.v93_at (W10 m c)).trans (by rw [arg11_at_10])

end Cert.KernelIdeal.Final

end
-- ==== Proof.RefDense.lean ====
/-
  The dense maps of the reference network read entry by entry at the ideal instance, each over VARIABLE operands: the
  input projection, one GIN layer (its weights the slices of the stacked weight arrays at a layer number), and the
  readout, as the reference's own operations compose them, equal the specification's `linRelu`, `gin`, `fin`.
  A `dot_general` over one contracted axis is the sum over that axis of the products; a bias broadcast along the rows
  reads the bias at the column; a slice of a stacked array at layer `l` followed by the reshape dropping the unit axis
  reads the stacked array at `(l, ·)`; the positive part is the maximum with the zero constant.
-/
import proofs.«121001_j68573447848158_1_alg».proof.Proof.Gen.ReferenceIdeal
import proofs.«121001_j68573447848158_1_alg».proof.Proof.Spec
import Idealize.ShloMosaic.Lib.Pipeline.Value
import Idealize.ShloMosaic.Lib.ValueIdx
import Idealize.ShloMosaic.Lib.IdealHost
import Idealize.ShloMosaic.PureOps.Ideal.Laws

noncomputable section

namespace Cert.ReferenceIdeal.RefValue

open Cert.ReferenceIdeal Cert.ReferenceIdeal.Gen Idealize.ShloMosaic Idealize.ShloMosaic.ValueIdx

/-- The node-level products' dimension numbers: [100000,128] · [128,128]. -/
abbrev DN : DotDims S100000x128 S128x128 S100000x128 := dot_S100000x128_S128x128_S100000x128_1_0_0_1_n_n
/-- The readout's dimension numbers: [1000,128] · [128,1]. -/
abbrev DG : DotDims S1000x128 S128x1 S1000x1 := dot_S1000x128_S128x1_S1000x1_1_0_0_1_n_n

/-- The zero constant broadcast to the node features. -/
abbrev zN : FVec Ideal S100000x128 .f32 :=
  broadcastInDim S100000x128 ![] Facts₀.bcast_S_S100000x128 (constant (F := Ideal) S_ .f32 0x00000000#32)
/-- A bias broadcast along the rows of the node features. -/
abbrev biasN (b : FVec Ideal S128 .f32) : FVec Ideal S100000x128 .f32 :=
  broadcastInDim S100000x128 ![0, 1] Facts₀.bcast_S1x128_S100000x128_0_1 (broadcastInDim S1x128 ![1] Facts₀.bcast_S128_S1x128_1 b)
/-- The readout's bias broadcast along the graphs. -/
abbrev biasG (b : FVec Ideal S1 .f32) : FVec Ideal S1000x1 .f32 :=
  broadcastInDim S1000x1 ![0, 1] Facts₀.bcast_S1x1_S1000x1_0_1 (broadcastInDim S1x1 ![1] Facts₀.bcast_S1_S1x1_1 b)
/-- Layer `l`'s weight matrix out of the stacked weights. -/
abbrev wsl (l : Nat) (w : FVec Ideal S4x128x128 .f32) (hw : S4x128x128.Slices ![l, 0, 0] S1x128x128) : FVec Ideal S128x128 .f32 :=
  shapeCast S128x128 (extractStridedSlice S1x128x128 ![l, 0, 0] w hw) Facts₀.shapeCasts_S1x128x128_S128x128
/-- Layer `l`'s bias out of the stacked biases. -/
abbrev bsl (l : Nat) (b : FVec Ideal S4x128 .f32) (hb : S4x128.Slices ![l, 0] S1x128) : FVec Ideal S128 .f32 :=
  shapeCast S128 (extractStridedSlice S1x128 ![l, 0] b hb) Facts₀.shapeCasts_S1x128_S128

/-! ## The operand indices of the two products -/

theorem DN_lhs0 (i : S100000x128.Idx) (q : DN.contr.Idx) : (DN.lhsIdx i q 0).val = (i 0).val := by
  unfold DotDims.lhsIdx
  rw [dif_neg (show ¬(0 : Fin S100000x128.rank) ∈ DN.lhsBatch by decide),
    dif_pos (show (0 : Fin S100000x128.rank) ∈ DN.lhsNonContracting by decide)]
  rfl
theorem DN_lhs1 (i : S100000x128.Idx) (q : DN.contr.Idx) : (DN.lhsIdx i q 1).val = (q ⟨0, by decide⟩).val :=
  DN.lhsIdx_val_of_single rfl i q
theorem DN_rhs0 (i : S100000x128.Idx) (q : DN.contr.Idx) : (DN.rhsIdx i q 0).val = (q ⟨0, by decide⟩).val :=
  DN.rhsIdx_val_of_single rfl i q
theorem DN_rhs1 (i : S100000x128.Idx) (q : DN.contr.Idx) : (DN.rhsIdx i q 1).val = (i 1).val := by
  unfold DotDims.rhsIdx
  rw [dif_neg (show ¬(1 : Fin S128x128.rank) ∈ DN.rhsBatch by decide),
    dif_pos (show (1 : Fin S128x128.rank) ∈ DN.rhsNonContracting by decide)]
  rfl

theorem DG_lhs0 (i : S1000x1.Idx) (q : DG.contr.Idx) : (DG.lhsIdx i q 0).val = (i 0).val := by
  unfold DotDims.lhsIdx
  rw [dif_neg (show ¬(0 : Fin S1000x128.rank) ∈ DG.lhsBatch by decide),
    dif_pos (show (0 : Fin S1000x128.rank) ∈ DG.lhsNonContracting by decide)]
  rfl
theorem DG_lhs1 (i : S1000x1.Idx) (q : DG.contr.Idx) : (DG.lhsIdx i q 1).val = (q ⟨0, by decide⟩).val :=
  DG.lhsIdx_val_of_single rfl i q
theorem DG_rhs0 (i : S1000x1.Idx) (q : DG.contr.Idx) : (DG.rhsIdx i q 0).val = (q ⟨0, by decide⟩).val :=
  DG.rhsIdx_val_of_single rfl i q
theorem DG_rhs1 (i : S1000x1.Idx) (q : DG.contr.Idx) : (DG.rhsIdx i q 1).val = (i 1).val := by
  unfold DotDims.rhsIdx
  rw [dif_neg (show ¬(1 : Fin S128x1.rank) ∈ DG.rhsBatch by decide),
    dif_pos (show (1 : Fin S128x1.rank) ∈ DG.rhsNonContracting by decide)]
  rfl

/-! ## The two products at an index -/

/-- A node-level product at `(r, j)` is `∑ k, l (r, k) * w (k, j)`. -/
theorem dotN_apply (l : FVec Ideal S100000x128 .f32) (w : FVec Ideal S128x128 .f32) (i : S100000x128.Idx) :
    Host.dotGeneral DN none l w i = ∑ k : Fin 128, l (ix2 (i 0) k) * w (ix2 k (i 1)) := by
  simp only [Host.dotGeneral]
  rw [Ideal.dotGeneral_apply, ← Equiv.sum_comp (ValueIdx.contrEquiv1 DN 128 rfl rfl).symm]
  refine Finset.sum_congr rfl fun k _ => ?_
  have hk := ValueIdx.contrEquiv1_symm_val DN 128 rfl rfl k
  have el : DN.lhsIdx i ((ValueIdx.contrEquiv1 DN 128 rfl rfl).symm k) = ix2 (i 0) k := funext fun a => Fin.ext (by
    match a with
    | ⟨0, _⟩ => exact DN_lhs0 _ _
    | ⟨1, _⟩ => exact (DN_lhs1 _ _).trans hk)
  have er : DN.rhsIdx i ((ValueIdx.contrEquiv1 DN 128 rfl rfl).symm k) = ix2 k (i 1) := funext fun a => Fin.ext (by
    match a with
    | ⟨0, _⟩ => exact (DN_rhs0 _ _).trans hk
    | ⟨1, _⟩ => exact DN_rhs1 _ _)
  rw [el, er]
  rfl

/-- The readout's product at `(g, 0)` is `∑ k, p (g, k) * w (k, 0)`. -/
theorem dotG_apply (p : FVec Ideal S1000x128 .f32) (w : FVec Ideal S128x1 .f32) (i : S1000x1.Idx) :
    Host.dotGeneral DG none p w i = ∑ k : Fin 128, p (ix2 (i 0) k) * w (ix2 k (i 1)) := by
  simp only [Host.dotGeneral]
  rw [Ideal.dotGeneral_apply, ← Equiv.sum_comp (ValueIdx.contrEquiv1 DG 128 rfl rfl).symm]
  refine Finset.sum_congr rfl fun k _ => ?_
  have hk := ValueIdx.contrEquiv1_symm_val DG 128 rfl rfl k
  have el : DG.lhsIdx i ((ValueIdx.contrEquiv1 DG 128 rfl rfl).symm k) = ix2 (i 0) k := funext fun a => Fin.ext (by
    match a with
    | ⟨0, _⟩ => exact DG_lhs0 _ _
    | ⟨1, _⟩ => exact (DG_lhs1 _ _).trans hk)
  have er : DG.rhsIdx i ((ValueIdx.contrEquiv1 DG 128 rfl rfl).symm k) = ix2 k (i 1) := funext fun a => Fin.ext (by
    match a with
    | ⟨0, _⟩ => exact (DG_rhs0 _ _).trans hk
    | ⟨1, _⟩ => exact DG_rhs1 _ _)
  rw [el, er]
  rfl

/-! ## Biases, weight slices, the zero constant -/

/-- A bias vector broadcast to a row and then along the rows reads the bias at the column. -/
theorem biasN_apply (b : FVec Ideal S128 .f32) (i : S100000x128.Idx) : biasN b i = b (ix1 (i 1)) := by
  unfold biasN
  rw [broadcastInDim_apply _ Facts₀.bcast_S1x128_S100000x128_0_1 _ i (ix2 (0 : Fin 1) (i 1)) (fun a => match a with
      | ⟨0, _⟩ => by show 0 = if (1 : Nat) = 1 then 0 else (i 0).val; rw [if_pos rfl]
      | ⟨1, _⟩ => by show (i 1).val = if (128 : Nat) = 1 then 0 else (i 1).val; rw [if_neg (by decide)]),
    broadcastInDim_apply _ Facts₀.bcast_S128_S1x128_1 b (ix2 (0 : Fin 1) (i 1)) (ix1 (i 1)) (fun a => match a with
      | ⟨0, _⟩ => by show (i 1).val = if (128 : Nat) = 1 then 0 else (i 1).val; rw [if_neg (by decide)])]

/-- The readout's bias, a one-element vector broadcast to a column, reads its one element. -/
theorem biasG_apply (b : FVec Ideal S1 .f32) (i : S1000x1.Idx) : biasG b i = b (ix1 0) := by
  unfold biasG
  rw [broadcastInDim_apply _ Facts₀.bcast_S1x1_S1000x1_0_1 _ i (ix2 (0 : Fin 1) (0 : Fin 1)) (fun a => match a with
      | ⟨0, _⟩ => by show 0 = if (1 : Nat) = 1 then 0 else (i 0).val; rw [if_pos rfl]
      | ⟨1, _⟩ => by show 0 = if (1 : Nat) = 1 then 0 else (i 1).val; rw [if_pos rfl]),
    broadcastInDim_apply _ Facts₀.bcast_S1_S1x1_1 b (ix2 (0 : Fin 1) (0 : Fin 1)) (ix1 (0 : Fin 1)) (fun a => match a with
      | ⟨0, _⟩ => by show 0 = if (1 : Nat) = 1 then 0 else 0; rw [if_pos rfl])]

/-- The zero constant broadcast to the node features reads `0`. -/
theorem zN_apply (i : S100000x128.Idx) : zN i = 0 := by
  unfold zN
  rw [broadcastInDim_scalar_apply]
  exact Ideal.ofBits_zero_f32

/-- Layer `l`'s weight matrix, the slice of the stacked weights at `l` with the unit axis dropped, at `(k, j)`. -/
theorem wsl_apply (l : Nat) (hl : l < 4) (w : FVec Ideal S4x128x128 .f32) (hw : S4x128x128.Slices ![l, 0, 0] S1x128x128)
    (j : S128x128.Idx) : wsl l w hw j = w (ix3 (⟨l, hl⟩ : Fin 4) (j 0) (j 1)) := by
  unfold wsl
  exact (shapeCast_apply _ Facts₀.shapeCasts_S1x128x128_S128x128 j (ix3 (0 : Fin 1) (j 0) (j 1) : S1x128x128.Idx) (by
      rw [Shape.rowMajor_val_three, Shape.rowMajor_val_two]
      show (0 * 128 + (j 0).val) * 128 + (j 1).val = (j 0).val * 128 + (j 1).val
      omega)).trans
    (extractStridedSlice_apply ![l, 0, 0] w hw (ix3 (0 : Fin 1) (j 0) (j 1) : S1x128x128.Idx)
      (ix3 (⟨l, hl⟩ : Fin 4) (j 0) (j 1) : S4x128x128.Idx) (fun a => match a with
      | ⟨0, _⟩ => by show l = l + 0; omega
      | ⟨1, _⟩ => by show (j 0).val = 0 + (j 0).val; omega
      | ⟨2, _⟩ => by show (j 1).val = 0 + (j 1).val; omega))

/-- Layer `l`'s bias, the slice of the stacked biases at `l` with the unit axis dropped, at `j`. -/
theorem bsl_apply (l : Nat) (hl : l < 4) (b : FVec Ideal S4x128 .f32) (hb : S4x128.Slices ![l, 0] S1x128) (j : S128.Idx) :
    bsl l b hb j = b (ix2 (⟨l, hl⟩ : Fin 4) (j 0)) := by
  unfold bsl
  exact (shapeCast_apply _ Facts₀.shapeCasts_S1x128_S128 j (ix2 (0 : Fin 1) (j 0) : S1x128.Idx) (by
      rw [Shape.rowMajor_val_two, Shape.rowMajor_val_one]
      show 0 * 128 + (j 0).val = (j 0).val
      omega)).trans
    (extractStridedSlice_apply ![l, 0] b hb (ix2 (0 : Fin 1) (j 0) : S1x128.Idx) (ix2 (⟨l, hl⟩ : Fin 4) (j 0) : S4x128.Idx)
      (fun a => match a with
      | ⟨0, _⟩ => by show l = l + 0; omega
      | ⟨1, _⟩ => by show (j 0).val = 0 + (j 0).val; omega))

/-! ## The three maps as the reference composes them -/

/-- The input projection, as the reference's operations compose it. -/
abbrev linT (x : FVec Ideal S100000x128 .f32) (w : FVec Ideal S128x128 .f32) (b : FVec Ideal S128 .f32) :
    FVec Ideal S100000x128 .f32 :=
  maximumf (addf (Host.dotGeneral DN none x w) (biasN b)) zN

/-- One GIN layer, as the reference's operations compose it from the node features `h`, the aggregate `a`, the
    residual `h0` and the stacked weights. -/
abbrev ginT (l : Nat) (h h0 a : FVec Ideal S100000x128 .f32) (w1 : FVec Ideal S4x128x128 .f32) (b1 : FVec Ideal S4x128 .f32)
    (w2 : FVec Ideal S4x128x128 .f32) (b2 : FVec Ideal S4x128 .f32)
    (hw : S4x128x128.Slices ![l, 0, 0] S1x128x128) (hb : S4x128.Slices ![l, 0] S1x128) : FVec Ideal S100000x128 .f32 :=
  maximumf (addf (addf (Host.dotGeneral DN none
      (maximumf (addf (Host.dotGeneral DN none (addf h a) (wsl l w1 hw)) (biasN (bsl l b1 hb))) zN) (wsl l w2 hw))
    (biasN (bsl l b2 hb))) h0) zN

/-- The readout, as the reference's operations compose it. -/
abbrev finT (p : FVec Ideal S1000x128 .f32) (wf : FVec Ideal S128x1 .f32) (bf : FVec Ideal S1 .f32) : FVec Ideal S1000 .f32 :=
  shapeCast S1000 (addf (Host.dotGeneral DG none p wf) (biasG bf)) Facts₀.shapeCasts_S1000x1_S1000

theorem lin_eq (x : FVec Ideal S100000x128 .f32) (w : FVec Ideal S128x128 .f32) (b : FVec Ideal S128 .f32) :
    linT x w b = Cert.Spec.linRelu (N := 100000) x (fun k j => w (ix2 k j)) (fun j => b (ix1 j)) := by
  funext i
  unfold linT
  rw [maximumf_apply, addf_apply, dotN_apply, biasN_apply, zN_apply]
  rfl

theorem gin_eq (l : Nat) (hl : l < 4) (h h0 a : FVec Ideal S100000x128 .f32) (w1 : FVec Ideal S4x128x128 .f32) (b1 : FVec Ideal S4x128 .f32)
    (w2 : FVec Ideal S4x128x128 .f32) (b2 : FVec Ideal S4x128 .f32)
    (hw : S4x128x128.Slices ![l, 0, 0] S1x128x128) (hb : S4x128.Slices ![l, 0] S1x128) :
    ginT l h h0 a w1 b1 w2 b2 hw hb
      = Cert.Spec.gin (N := 100000) h h0 a (fun k j => w1 (ix3 (⟨l, hl⟩ : Fin 4) k j)) (fun j => b1 (ix2 (⟨l, hl⟩ : Fin 4) j))
          (fun k j => w2 (ix3 (⟨l, hl⟩ : Fin 4) k j)) (fun j => b2 (ix2 (⟨l, hl⟩ : Fin 4) j)) := by
  funext i
  obtain ⟨r, j, rfl⟩ : ∃ (r : Fin 100000) (j : Fin 128), i = ix2 r j := ⟨i 0, i 1, eq_ix2 i⟩
  unfold ginT
  rw [maximumf_apply, addf_apply, addf_apply, dotN_apply, biasN_apply, bsl_apply l hl, zN_apply]
  simp only [maximumf_apply, addf_apply, dotN_apply, biasN_apply, bsl_apply l hl, wsl_apply l hl, zN_apply]
  rfl

theorem fin_eq (p : FVec Ideal S1000x128 .f32) (wf : FVec Ideal S128x1 .f32) (bf : FVec Ideal S1 .f32) :
    finT p wf bf = Cert.Spec.fin (G := 1000) p (fun k => wf (ix2 k 0)) (bf (ix1 0)) := by
  funext i
  unfold finT
  rw [shapeCast_apply _ Facts₀.shapeCasts_S1000x1_S1000 i (ix2 (i 0) (0 : Fin 1)) (by
      rw [Shape.rowMajor_val_two, Shape.rowMajor_val_one]
      show (i 0).val * 1 + 0 = (i 0).val
      omega),
    addf_apply, dotG_apply, biasG_apply]
  rfl

end Cert.ReferenceIdeal.RefValue

end
-- ==== Proof.RefNet.lean ====
/-
  The reference network over VARIABLE argument arrays: the two edge rows, the neighbour aggregation and the graph pooling
  as the reference's own host operations compose them (kept folded: both programs apply the same operations, and the
  comparison only needs them to be one function of equal arguments), and the reference's value — the input projection,
  four GIN layers over that aggregation, the pooling and the readout — equal to the specification's `net`.
-/
import proofs.«121001_j68573447848158_1_alg».proof.Proof.RefDense

noncomputable section

namespace Cert.ReferenceIdeal.RefValue

open Cert.ReferenceIdeal Cert.ReferenceIdeal.Gen Idealize.ShloMosaic Idealize.ShloMosaic.ValueIdx

/-- The source row of the edge list: row 0 of `edge_index`, as a vector. -/
def srcR (e : IVec S2x1600000 32) : IVec S1600000 32 :=
  shapeCast S1600000 (extractStridedSlice S1x1600000 ![0, 0] e Facts₀.slices_S2x1600000_S1x1600000_0_0)
    Facts₀.shapeCasts_S1x1600000_S1600000

/-- The destination row of the edge list: row 1 of `edge_index`, as a vector. -/
def dstR (e : IVec S2x1600000 32) : IVec S1600000 32 :=
  shapeCast S1600000 (extractStridedSlice S1x1600000 ![1, 0] e Facts₀.slices_S2x1600000_S1x1600000_1_0)
    Facts₀.shapeCasts_S1x1600000_S1600000

/-- The neighbour aggregation `segment_sum (h[src], dst)`: the rows of `h` gathered at the source ids (a negative id
    wrapped by the node count first, as jnp indexing does), scatter-added into a zero array at the destination ids. -/
def aggR (h : FVec Ideal S100000x128 .f32) (src dst : IVec S1600000 32) : FVec Ideal S100000x128 .f32 :=
  Host.scatterAdd scatter_S100000x128_S1600000x1_S1600000x128_1_0_0_1
    (broadcastInDim S100000x128 ![] Facts₀.bcast_S_S100000x128 (constant (F := Ideal) S_ .f32 0x00000000#32))
    (broadcastInDim S1600000x1 ![0] Facts₀.bcast_S1600000_S1600000x1_0 dst)
    (Host.gather gather_S100000x128_S1600000x1_S1600000x128_1_0_n_n_0_1_1128 h
      (broadcastInDim S1600000x1 ![0] Facts₀.bcast_S1600000_S1600000x1_0
        (select (cmpi .slt src (broadcastInDim S1600000 ![] Facts₀.bcast_S_S1600000 (constantI S_ 32 0#32)))
          (addi src (broadcastInDim S1600000 ![] Facts₀.bcast_S_S1600000 (constantI S_ 32 100000#32))) src)))

/-- The graph pooling `segment_sum (h, batch)`: the rows of `h` scatter-added into a zero array at their graph ids. -/
def poolR (h : FVec Ideal S100000x128 .f32) (batch : IVec S100000 32) : FVec Ideal S1000x128 .f32 :=
  Host.scatterAdd scatter_S1000x128_S100000x1_S100000x128_1_0_0_1
    (broadcastInDim S1000x128 ![] Facts₀.bcast_S_S1000x128 (constant (F := Ideal) S_ .f32 0x00000000#32))
    (broadcastInDim S100000x1 ![0] Facts₀.bcast_S100000_S100000x1_0 batch) h

section Net
variable (x : FVec Ideal S100000x128 .f32) (e : IVec S2x1600000 32) (batch : IVec S100000 32)
  (W0 : FVec Ideal S128x128 .f32) (b0 : FVec Ideal S128 .f32)
  (W1 : FVec Ideal S4x128x128 .f32) (b1 : FVec Ideal S4x128 .f32)
  (W2 : FVec Ideal S4x128x128 .f32) (b2 : FVec Ideal S4x128 .f32)
  (Wf : FVec Ideal S128x1 .f32) (bf : FVec Ideal S1 .f32)

/-- The projected input `h0`. -/
def h0T : FVec Ideal S100000x128 .f32 := linT x W0 b0
/-- The node features after the first layer (whose input and residual are both `h0`). -/
def h1T : FVec Ideal S100000x128 .f32 :=
  ginT 0 (h0T x W0 b0) (h0T x W0 b0) (aggR (h0T x W0 b0) (srcR e) (dstR e)) W1 b1 W2 b2
    Facts₀.slices_S4x128x128_S1x128x128_0_0_0 Facts₀.slices_S4x128_S1x128_0_0
/-- … after the second … -/
def h2T : FVec Ideal S100000x128 .f32 :=
  ginT 1 (h1T x e W0 b0 W1 b1 W2 b2) (h0T x W0 b0) (aggR (h1T x e W0 b0 W1 b1 W2 b2) (srcR e) (dstR e)) W1 b1 W2 b2
    Facts₀.slices_S4x128x128_S1x128x128_1_0_0 Facts₀.slices_S4x128_S1x128_1_0
/-- … the third … -/
def h3T : FVec Ideal S100000x128 .f32 :=
  ginT 2 (h2T x e W0 b0 W1 b1 W2 b2) (h0T x W0 b0) (aggR (h2T x e W0 b0 W1 b1 W2 b2) (srcR e) (dstR e)) W1 b1 W2 b2
    Facts₀.slices_S4x128x128_S1x128x128_2_0_0 Facts₀.slices_S4x128_S1x128_2_0
/-- … and the fourth layer. -/
def h4T : FVec Ideal S100000x128 .f32 :=
  ginT 3 (h3T x e W0 b0 W1 b1 W2 b2) (h0T x W0 b0) (aggR (h3T x e W0 b0 W1 b1 W2 b2) (srcR e) (dstR e)) W1 b1 W2 b2
    Facts₀.slices_S4x128x128_S1x128x128_3_0_0 Facts₀.slices_S4x128_S1x128_3_0
/-- The reference's value: the readout of the pooled last layer. -/
def outT : FVec Ideal S1000 .f32 := finT (poolR (h4T x e W0 b0 W1 b1 W2 b2) batch) Wf bf

/-- The reference's value is the specification's network over the reference's aggregation and pooling. -/
theorem outT_eq :
    outT x e batch W0 b0 W1 b1 W2 b2 Wf bf
      = Cert.Spec.net (N := 100000) (G := 1000) (fun h => aggR h (srcR e) (dstR e)) (fun h => poolR h batch) x
          (fun k j => W0 (ix2 k j)) (fun j => b0 (ix1 j)) (fun l k j => W1 (ix3 l k j)) (fun l j => b1 (ix2 l j))
          (fun l k j => W2 (ix3 l k j)) (fun l j => b2 (ix2 l j)) (fun k => Wf (ix2 k 0)) (bf (ix1 0)) := by
  unfold outT h4T h3T h2T h1T h0T
  rw [lin_eq x W0 b0, gin_eq 0 (by decide), gin_eq 1 (by decide), gin_eq 2 (by decide), gin_eq 3 (by decide), fin_eq]
  rfl

end Net

end Cert.ReferenceIdeal.RefValue

end
-- ==== Proof.RefValue.lean ====
/-
  The reference network's run at the ideal instance. Its value, as the reference's operations compose it from the
  eleven argument arrays it reads (the edge attributes are not read), is the specification's network `Cert.Spec.net`
  over the reference's own neighbour aggregation and graph pooling (`ref_result`); and every weakly fair execution of
  the reference terminates with the result buffer at that network of the launch contents, the arguments unchanged
  (`ref_run`).
-/
import proofs.«121001_j68573447848158_1_alg».proof.Proof.Gen.ReferenceIdeal.Read
import proofs.«121001_j68573447848158_1_alg».proof.Proof.RefNet

noncomputable section

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx

/-- The reference's operations, stage by stage, compose the same term as `outT`. -/
theorem val_eq_outT (x : FVec Ideal S100000x128 .f32) (e : IVec S2x1600000 32) (batch : IVec S100000 32)
    (W0 : FVec Ideal S128x128 .f32) (b0 : FVec Ideal S128 .f32)
    (W1 : FVec Ideal S4x128x128 .f32) (b1 : FVec Ideal S4x128 .f32)
    (W2 : FVec Ideal S4x128x128 .f32) (b2 : FVec Ideal S4x128 .f32)
    (Wf : FVec Ideal S128x1 .f32) (bf : FVec Ideal S1 .f32) :
    Cert.ReferenceIdeal.Read.val_main_v136 (F := Ideal) x e batch W0 b0 W1 b1 W2 b2 Wf bf
      = outT x e batch W0 b0 W1 b1 W2 b2 Wf bf := rfl

/-- The reference's value is the specification's network of its arguments. -/
theorem ref_result (x : FVec Ideal S100000x128 .f32) (e : IVec S2x1600000 32) (batch : IVec S100000 32)
    (W0 : FVec Ideal S128x128 .f32) (b0 : FVec Ideal S128 .f32)
    (W1 : FVec Ideal S4x128x128 .f32) (b1 : FVec Ideal S4x128 .f32)
    (W2 : FVec Ideal S4x128x128 .f32) (b2 : FVec Ideal S4x128 .f32)
    (Wf : FVec Ideal S128x1 .f32) (bf : FVec Ideal S1 .f32) :
    Cert.ReferenceIdeal.Read.val_main_v136 (F := Ideal) x e batch W0 b0 W1 b1 W2 b2 Wf bf
      = Cert.Spec.net (N := 100000) (G := 1000) (fun h => aggR h (srcR e) (dstR e)) (fun h => poolR h batch) x
          (fun k j => W0 (ix2 k j)) (fun j => b0 (ix1 j)) (fun l k j => W1 (ix3 l k j)) (fun l j => b1 (ix2 l j))
          (fun l k j => W2 (ix3 l k j)) (fun l j => b2 (ix2 l j)) (fun k => Wf (ix2 k 0)) (bf (ix1 0)) :=
  (val_eq_outT x e batch W0 b0 W1 b1 W2 b2 Wf bf).trans (outT_eq x e batch W0 b0 W1 b1 W2 b2 Wf bf)

/-- From any memory with zero counters, every weakly fair execution of the reference terminates with the result at the
    specification's network of the launch contents of the arguments, and the arguments unchanged. -/
theorem ref_run (m : (ℓ : Loc nD τ sig) → Buf (Elt Ideal) ℓ) (ρ : Dev nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev nD,
      r.2.mem ((c.tc : Thread nD τ).loc main_v136)
        = Cert.Spec.net (N := 100000) (G := 1000) (fun h => aggR h (srcR (m ((c.tc : Thread nD τ).loc main_arg1) : IVec S2x1600000 32)) (dstR (m ((c.tc : Thread nD τ).loc main_arg1) : IVec S2x1600000 32))) (fun h => poolR h (m ((c.tc : Thread nD τ).loc main_arg3) : IVec S100000 32)) (m ((c.tc : Thread nD τ).loc main_arg0) : FVec Ideal S100000x128 .f32)
          (fun k j => (m ((c.tc : Thread nD τ).loc main_arg4) : FVec Ideal S128x128 .f32) (ix2 k j)) (fun j => (m ((c.tc : Thread nD τ).loc main_arg5) : FVec Ideal S128 .f32) (ix1 j)) (fun l k j => (m ((c.tc : Thread nD τ).loc main_arg6) : FVec Ideal S4x128x128 .f32) (ix3 l k j)) (fun l j => (m ((c.tc : Thread nD τ).loc main_arg7) : FVec Ideal S4x128 .f32) (ix2 l j))
          (fun l k j => (m ((c.tc : Thread nD τ).loc main_arg8) : FVec Ideal S4x128x128 .f32) (ix3 l k j)) (fun l j => (m ((c.tc : Thread nD τ).loc main_arg9) : FVec Ideal S4x128 .f32) (ix2 l j)) (fun k => (m ((c.tc : Thread nD τ).loc main_arg10) : FVec Ideal S128x1 .f32) (ix2 k 0)) ((m ((c.tc : Thread nD τ).loc main_arg11) : FVec Ideal S1 .f32) (ix1 0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run _ _ _).mono (fun r h c =>
      ⟨((h c).1.trans (Cert.ReferenceIdeal.Read.val_main_v136_eq m c)).trans (ref_result _ _ _ _ _ _ _ _ _ _ _), (h c).2⟩)
    (Cert.ReferenceIdeal.Value.run m ρ)

end Cert.ReferenceIdeal.RefValue

end
-- ==== Proof.Bridge.lean ====
/- The two programs' host aggregates are one function. The kernel program and the reference program each apply the
   same host operations to form the edge endpoints, the neighbour aggregation and the graph pooling; each program
   states them over its own copies of the shape names and dimension records. The shapes are the same literals and
   the records the same structures with the same fields, so the two terms are equal by unfolding the names; the
   arrays stay variables throughout. -/
import proofs.«121001_j68573447848158_1_alg».proof.Proof.KernelIdeal.Host0
import proofs.«121001_j68573447848158_1_alg».proof.Proof.RefNet

noncomputable section

namespace Cert.Bridge

open Idealize.ShloMosaic

/-- The source endpoints: row 0 of the edge list, as a vector, in both programs. -/
theorem src_eq (e : IVec Cert.KernelIdeal.S2x1600000 32) :
    Cert.KernelIdeal.HostVal.srcOf e = Cert.ReferenceIdeal.RefValue.srcR e := rfl

/-- The destination endpoints: row 1 of the edge list, as a vector, in both programs. -/
theorem dst_eq (e : IVec Cert.KernelIdeal.S2x1600000 32) :
    Cert.KernelIdeal.HostVal.dstOf e = Cert.ReferenceIdeal.RefValue.dstR e := rfl

/-- The neighbour aggregation (wrap of negative sources, gather of rows, scatter-add into zeros) is the same term. -/
theorem agg_eq (h : FVec Ideal Cert.KernelIdeal.S100000x128 .f32) (src dst : IVec Cert.KernelIdeal.S1600000 32) :
    Cert.KernelIdeal.HostVal.aggK h src dst = Cert.ReferenceIdeal.RefValue.aggR h src dst := rfl

/-- The graph pooling (scatter-add of the rows into zeros at their graph ids) is the same term. -/
theorem pool_eq (h : FVec Ideal Cert.KernelIdeal.S100000x128 .f32) (batch : IVec Cert.KernelIdeal.S100000 32) :
    Cert.KernelIdeal.HostVal.poolK h batch = Cert.ReferenceIdeal.RefValue.poolR h batch := rfl

end Cert.Bridge

end
-- ==== Proof.Claims.lean ====
/- The five claims of the certificate, assembled. Each program runs and leaves its argument arrays as launched (the
   frame claims); the idealization rewrote no operation (nothing to preserve); and at the ideal instance the kernel
   program and the reference end with the same result: each side's result is the specification's network
   `Cert.Spec.net` of its launch arrays — the input projection, four GIN layers, the pooling, the readout, over the
   neighbour aggregation and the graph pooling that both programs compute on the host by the same operations — and the
   launch arrays agree. -/
import proofs.«121001_j68573447848158_1_alg».proof.Defs
import proofs.«121001_j68573447848158_1_alg».proof.Proof.Gen.Kernel
import proofs.«121001_j68573447848158_1_alg».proof.Proof.Gen.KernelIdeal
import proofs.«121001_j68573447848158_1_alg».proof.Proof.Gen.ReferenceIdeal
import proofs.«121001_j68573447848158_1_alg».proof.Proof.Gen.Pre_finite_inputs
import proofs.«121001_j68573447848158_1_alg».proof.Proof.Kernel.Run
import proofs.«121001_j68573447848158_1_alg».proof.Proof.KernelIdeal.Run
import proofs.«121001_j68573447848158_1_alg».proof.Proof.KernelIdeal.Final
import proofs.«121001_j68573447848158_1_alg».proof.Proof.RefValue
import proofs.«121001_j68573447848158_1_alg».proof.Proof.Bridge

noncomputable section

namespace Cert.Proof.Claims

open Idealize.ShloMosaic Idealize.ShloMosaic.TcCoe Idealize.SL.Sem Idealize.ShloMosaic.ValueIdx

/-- The kernel program runs and leaves its arguments as launched. -/
theorem frame_k : Cert.frame_Kernel := fun m ρ _ => Cert.Kernel.Hand.frame m ρ

/-- The idealized kernel program runs and leaves its arguments as launched: its run to the named result, the result's
    equation dropped. -/
theorem frame_ki : Cert.frame_KernelIdeal := fun m ρ _ =>
  (θ_run (Cert.KernelIdeal.defs (F := Ideal)) _ _).mono (fun _ h c => (h c).2) (Cert.KernelIdeal.Hand.run_named m ρ)

/-- The reference runs and leaves its arguments as launched: its run to the network's value, the value's equation
    dropped. -/
theorem frame_ri : Cert.frame_ReferenceIdeal := fun m ρ _ =>
  (θ_run (Cert.ReferenceIdeal.defs (F := Ideal)) _ _).mono (fun _ h c => (h c).2) (Cert.ReferenceIdeal.RefValue.ref_run m ρ)

/-- The idealization rewrote no operation. -/
theorem preserves : Cert.preserves_Kernel_KernelIdeal := trivial

/-- At the ideal instance the kernel program's result is the specification's network of its launch arrays (the regions'
    and host stretches' values), the reference's is the same network of ITS launch arrays over its own copies of the host
    aggregation and pooling; the launch arrays agree and the host maps are one function, so the results are equal. -/
theorem algebraic : Cert.algebraic_KernelIdeal_ReferenceIdeal := by
  intro m ρ m' ρ' _ hagree
  refine ⟨_, Cert.KernelIdeal.Hand.run_named m ρ, ?_⟩
  refine (θ_run (Cert.ReferenceIdeal.defs (F := Ideal)) _ _).mono (fun _ h c => ⟨(h c).1.trans ?_, (h c).2⟩)
    (Cert.ReferenceIdeal.RefValue.ref_run m' ρ')
  obtain ⟨h0, h1, -, h3, h4, h5, h6, h7, h8, h9, h10, h11⟩ := hagree c
  rw [h0, h1, h3, h4, h5, h6, h7, h8, h9, h10, h11]
  simp only [← Cert.Bridge.agg_eq, ← Cert.Bridge.src_eq, ← Cert.Bridge.dst_eq, ← Cert.Bridge.pool_eq]
  exact (Cert.KernelIdeal.Final.kernel_value m c).symm

end Cert.Proof.Claims

end
-- ==== Proof.lean ====
/- The proof of `Cert.Claim` (proofs.«121001_j68573447848158_1_alg».proof.Defs) — frame_Kernel ∧ frame_KernelIdeal ∧ frame_ReferenceIdeal ∧
   preserves_Kernel_KernelIdeal ∧ algebraic_KernelIdeal_ReferenceIdeal — for a GIN network on a graph of 100000 nodes,
   1600000 edges and 1000 graphs, 128 features wide:
     h0 = relu (x · W0 + b0);
     four layers  h ← relu (relu ((h + agg h) · W1ₗ + b1ₗ) · W2ₗ + b2ₗ + h0),  where `agg h` adds into each node the rows of
       `h` at the sources of its incoming edges;
     the per-graph sum `pool h`, and the readout  pool h · Wf + bf.
   The kernel program computes the three dense maps in six TensorCore regions tiled over the rows (tiles of 4000 nodes; matmul
   operands cast to bf16, an f32 zero accumulator) and `agg`, `pool` on the host; the reference computes everything on the
   host. At the ideal instance floats are extended reals and every operation is exact: the bf16 casts are the identity, the
   zero accumulator adds nothing, and a row of a tile is the same 128-term sum as that row of the whole array, so each
   region's result is, entry by entry, the specification's dense map (`Cert.Spec`) of its inputs; the host gather and
   scatter-add are the same function of the same operands in both programs (`Cert.Bridge`). The two sides are joined by no
   law beyond the commutativity and associativity of those finite sums: both results are `Cert.Spec.net` of the launch
   arrays. The frame claims are the runs' argument equations; the ideal pass rewrote no operation. The witnesses of the
   programs' stated facts come first: the instances the Proof/Gen/ modules prove. -/
import proofs.«121001_j68573447848158_1_alg».proof.Defs
import proofs.«121001_j68573447848158_1_alg».proof.Proof.Gen.Kernel
import proofs.«121001_j68573447848158_1_alg».proof.Proof.Gen.Kernel.Skeleton
import proofs.«121001_j68573447848158_1_alg».proof.Proof.Gen.Kernel.Launch
import proofs.«121001_j68573447848158_1_alg».proof.Proof.Gen.Kernel.Regions
import proofs.«121001_j68573447848158_1_alg».proof.Proof.Gen.Kernel.Points
import proofs.«121001_j68573447848158_1_alg».proof.Proof.Gen.KernelIdeal
import proofs.«121001_j68573447848158_1_alg».proof.Proof.Gen.KernelIdeal.Skeleton
import proofs.«121001_j68573447848158_1_alg».proof.Proof.Gen.KernelIdeal.Launch
import proofs.«121001_j68573447848158_1_alg».proof.Proof.Gen.KernelIdeal.Regions
import proofs.«121001_j68573447848158_1_alg».proof.Proof.Gen.KernelIdeal.Points
import proofs.«121001_j68573447848158_1_alg».proof.Proof.Gen.ReferenceIdeal
import proofs.«121001_j68573447848158_1_alg».proof.Proof.Gen.Pre_finite_inputs
import proofs.«121001_j68573447848158_1_alg».proof.Proof.Claims
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
